-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v188)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v188) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v373) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S4x800000 : Shape := ⟨2, ![4, 800000]⟩
abbrev S128x32 : Shape := ⟨2, ![128, 32]⟩
abbrev S32 : Shape := ⟨1, ![32]⟩
abbrev S32x32 : Shape := ⟨2, ![32, 32]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S4x800000 : S_.BroadcastsInDim S4x800000 (![] : Fin 0 → Fin S4x800000.rank)
  reducesTo_S4x800000_S_d0_1 : S4x800000.ReducesTo [0, 1] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_arg15 : FVec F S128x128 .f32) (main_arg16 : FVec F S128 .f32) (main_v63 : IVec S_ 1) (main_v67 : IVec S_ 1) : IVec S_ 1 :=
  let main_v68 : IVec S_ 1 := andi main_v63 main_v67
  let main_v69 : FVec F S128x128 .f32 := Host.absf main_arg15
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  main_v78

def fn_part3 {F : FTy → Type} [FloatOps F] (main_arg12 : FVec F S32 .f32) (main_arg13 : FVec F S32 .f32) (main_arg14 : FVec F S32 .f32) (main_arg15 : FVec F S128x128 .f32) (main_arg16 : FVec F S128 .f32) (main_v48 : IVec S_ 1) (main_v49 : FVec F S32x32 .f32) (main_v50 : FVec F S32x32 .f32) : IVec S_ 1 :=
  let main_v51 : IVec S32x32 1 := cmpf .olt main_v49 main_v50
  let main_c_19 : IVec S_ 1 := constantI S_ 1 1#1
  let main_v52 : IVec S_ 1 := (fun x v => Host.reduce IntOp.andi x v reducesTo_S32x32_S_d0_1 h_S_) main_v51 main_c_19
  let main_v53 : IVec S_ 1 := andi main_v48 main_v52
  let main_v54 : FVec F S32 .f32 := Host.absf main_arg12
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  let main_v59 : FVec F S32 .f32 := Host.absf main_arg13
  let main_cst_22 : FVec F S_ .f32 := constant S_ .f32 0x7F800000#32
  let main_v60 : FVec F S32 .f32 := broadcastInDim S32 ![] bcast_S_S32 main_cst_22
  let main_v61 : IVec S32 1 := cmpf .olt main_v59 main_v60
  let main_c_23 : IVec S_ 1 := constantI S_ 1 1#1
  let main_v62 : IVec S_ 1 := (fun x v => Host.reduce IntOp.andi x v reducesTo_S32_S_d0 h_S_) main_v61 main_c_23
  let main_v63 : IVec S_ 1 := andi main_v58 main_v62
  let main_v64 : FVec F S32 .f32 := Host.absf main_arg14
  let main_cst_24 : FVec F S_ .f32 := constant S_ .f32 0x7F800000#32
  let main_v65 : FVec F S32 .f32 := broadcastInDim S32 ![] bcast_S_S32 main_cst_24
  let main_v66 : IVec S32 1 := cmpf .olt main_v64 main_v65
  let main_c_25 : IVec S_ 1 := constantI S_ 1 1#1
  let main_v67 : IVec S_ 1 := (fun x v => Host.reduce IntOp.andi x v reducesTo_S32_S_d0 h_S_) main_v66 main_c_25
  fn_part4 (F := F) main_arg15 main_arg16 main_v63 main_v67

def fn_part2 {F : FTy → Type} [FloatOps F] (main_arg8 : FVec F S32 .f32) (main_arg9 : FVec F S32x32 .f32) (main_arg10 : FVec F S32 .f32) (main_arg11 : FVec F S32x32 .f32) (main_arg12 : FVec F S32 .f32) (main_arg13 : FVec F S32 .f32) (main_arg14 : FVec F S32 .f32) (main_arg15 : FVec F S128x128 .f32) (main_arg16 : FVec F S128 .f32) (main_v33 : IVec S_ 1) : IVec S_ 1 :=
  let main_v34 : FVec F S32 .f32 := Host.absf main_arg8
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32x32 .f32 := Host.absf main_arg9
  let main_cst_14 : FVec F S_ .f32 := constant S_ .f32 0x7F800000#32
  let main_v40 : FVec F S32x32 .f32 := broadcastInDim S32x32 ![] bcast_S_S32x32 main_cst_14
  let main_v41 : IVec S32x32 1 := cmpf .olt main_v39 main_v40
  let main_c_15 : IVec S_ 1 := constantI S_ 1 1#1
  let main_v42 : IVec S_ 1 := (fun x v => Host.reduce IntOp.andi x v reducesTo_S32x32_S_d0_1 h_S_) main_v41 main_c_15
  let main_v43 : IVec S_ 1 := andi main_v38 main_v42
  let main_v44 : FVec F S32 .f32 := Host.absf main_arg10
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S32x32 .f32 := Host.absf main_arg11
  let main_cst_18 : FVec F S_ .f32 := constant S_ .f32 0x7F800000#32
  let main_v50 : FVec F S32x32 .f32 := broadcastInDim S32x32 ![] bcast_S_S32x32 main_cst_18
  fn_part3 (F := F) main_arg12 main_arg13 main_arg14 main_arg15 main_arg16 main_v48 main_v49 main_v50

def fn_part1 {F : FTy → Type} [FloatOps F] (main_arg5 : FVec F S32x32 .f32) (main_arg6 : FVec F S32 .f32) (main_arg7 : FVec F S32 .f32) (main_arg8 : FVec F S32 .f32) (main_arg9 : FVec F S32x32 .f32) (main_arg10 : FVec F S32 .f32) (main_arg11 : FVec F S32x32 .f32) (main_arg12 : FVec F S32 .f32) (main_arg13 : FVec F S32 .f32) (main_arg14 : FVec F S32 .f32) (main_arg15 : FVec F S128x128 .f32) (main_arg16 : FVec F S128 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x32 .f32 := Host.absf main_arg5
  let main_cst_6 : FVec F S_ .f32 := constant S_ .f32 0x7F800000#32
  let main_v20 : FVec F S32x32 .f32 := broadcastInDim S32x32 ![] bcast_S_S32x32 main_cst_6
  let main_v21 : IVec S32x32 1 := cmpf .olt main_v19 main_v20
  let main_c_7 : IVec S_ 1 := constantI S_ 1 1#1
  let main_v22 : IVec S_ 1 := (fun x v => Host.reduce IntOp.andi x v reducesTo_S32x32_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg8 main_arg9 main_arg10 main_arg11 main_arg12 main_arg13 main_arg14 main_arg15 main_arg16 main_v33

def fn {F : FTy → Type} [FloatOps F] (main_arg0 : FVec F S50000x128 .f32) (main_arg1 : IVec S2x800000 32) (main_arg2 : FVec F S4x800000 .f32) (main_arg3 : FVec F S128x32 .f32) (main_arg4 : FVec F S32 .f32) (main_arg5 : FVec F S32x32 .f32) (main_arg6 : FVec F S32 .f32) (main_arg7 : FVec F S32 .f32) (main_arg8 : FVec F S32 .f32) (main_arg9 : FVec F S32x32 .f32) (main_arg10 : FVec F S32 .f32) (main_arg11 : FVec F S32x32 .f32) (main_arg12 : FVec F S32 .f32) (main_arg13 : FVec F S32 .f32) (main_arg14 : FVec F S32 .f32) (main_arg15 : FVec F S128x128 .f32) (main_arg16 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S4x800000 .f32 := Host.absf main_arg2
  let main_cst_0 : FVec F S_ .f32 := constant S_ .f32 0x7F800000#32
  let main_v5 : FVec F S4x800000 .f32 := broadcastInDim S4x800000 ![] bcast_S_S4x800000 main_cst_0
  let main_v6 : IVec S4x800000 1 := cmpf .olt main_v4 main_v5
  let main_c_1 : IVec S_ 1 := constantI S_ 1 1#1
  let main_v7 : IVec S_ 1 := (fun x v => Host.reduce IntOp.andi x v reducesTo_S4x800000_S_d0_1 h_S_) main_v6 main_c_1
  let main_v8 : IVec S_ 1 := andi main_v3 main_v7
  let main_v9 : FVec F S128x32 .f32 := Host.absf main_arg3
  let main_cst_2 : FVec F S_ .f32 := constant S_ .f32 0x7F800000#32
  let main_v10 : FVec F S128x32 .f32 := broadcastInDim S128x32 ![] bcast_S_S128x32 main_cst_2
  let main_v11 : IVec S128x32 1 := cmpf .olt main_v9 main_v10
  let main_c_3 : IVec S_ 1 := constantI S_ 1 1#1
  let main_v12 : IVec S_ 1 := (fun x v => Host.reduce IntOp.andi x v reducesTo_S128x32_S_d0_1 h_S_) main_v11 main_c_3
  let main_v13 : IVec S_ 1 := andi main_v8 main_v12
  let main_v14 : FVec F S32 .f32 := Host.absf main_arg4
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg5 main_arg6 main_arg7 main_arg8 main_arg9 main_arg10 main_arg11 main_arg12 main_arg13 main_arg14 main_arg15 main_arg16 main_v13 main_v16
-- ==== Kernel.lean ====
abbrev S50000x128 : Shape := ⟨2, ![50000, 128]⟩
abbrev S2x800000 : Shape := ⟨2, ![2, 800000]⟩
abbrev S4x800000 : Shape := ⟨2, ![4, 800000]⟩
abbrev S128x32 : Shape := ⟨2, ![128, 32]⟩
abbrev S32 : Shape := ⟨1, ![32]⟩
abbrev S32x32 : Shape := ⟨2, ![32, 32]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S50176x128 : Shape := ⟨2, ![50176, 128]⟩
abbrev S1x128 : Shape := ⟨2, ![1, 128]⟩
abbrev S7168x128 : Shape := ⟨2, ![7168, 128]⟩
abbrev S800000x1 : Shape := ⟨2, ![800000, 1]⟩
abbrev S800000x128 : Shape := ⟨2, ![800000, 128]⟩
abbrev S1x50000x128 : Shape := ⟨3, ![1, 50000, 128]⟩
abbrev S4x50000x128 : Shape := ⟨3, ![4, 50000, 128]⟩
abbrev S4x50176x128 : Shape := ⟨3, ![4, 50176, 128]⟩
abbrev S1x50176x128 : Shape := ⟨3, ![1, 50176, 128]⟩
abbrev S1x32 : Shape := ⟨2, ![1, 32]⟩
abbrev S4x50176x32 : Shape := ⟨3, ![4, 50176, 32]⟩
abbrev S1x7168x128 : Shape := ⟨3, ![1, 7168, 128]⟩
abbrev S1x7168x32 : Shape := ⟨3, ![1, 7168, 32]⟩
abbrev S7168x32 : Shape := ⟨2, ![7168, 32]⟩
abbrev S4x50000x32 : Shape := ⟨3, ![4, 50000, 32]⟩
abbrev S4x32 : Shape := ⟨2, ![4, 32]⟩
abbrev S4x1x32 : Shape := ⟨3, ![4, 1, 32]⟩
abbrev S1x1x32 : Shape := ⟨3, ![1, 1, 32]⟩
abbrev S1x50000x32 : Shape := ⟨3, ![1, 50000, 32]⟩
abbrev S50000x32 : Shape := ⟨2, ![50000, 32]⟩
abbrev S800000x32 : Shape := ⟨2, ![800000, 32]⟩
abbrev S50000x4x32 : Shape := ⟨3, ![50000, 4, 32]⟩
abbrev S3x50000x128 : Shape := ⟨3, ![3, 50000, 128]⟩

abbrev nBuf : Space → Nat
  | .hbm => 286
  | .vmem => 46
  | .smem => 0
  | _ => 0

abbrev hbmTy0_0 (i : Nat) : BufTy := match i % 128 with
  | 0 => ⟨S50000x128, .f32⟩
  | 1 => ⟨S2x800000, .i32⟩
  | 2 => ⟨S4x800000, .f32⟩
  | 3 => ⟨S128x32, .f32⟩
  | 4 => ⟨S32, .f32⟩
  | 5 => ⟨S32x32, .f32⟩
  | 6 => ⟨S32, .f32⟩
  | 7 => ⟨S32, .f32⟩
  | 8 => ⟨S32, .f32⟩
  | 9 => ⟨S32x32, .f32⟩
  | 10 => ⟨S32, .f32⟩
  | 11 => ⟨S32x32, .f32⟩
  | 12 => ⟨S32, .f32⟩
  | 13 => ⟨S32, .f32⟩
  | 14 => ⟨S32, .f32⟩
  | 15 => ⟨S128x128, .f32⟩
  | 16 => ⟨S128, .f32⟩
  | 17 => ⟨S1x800000, .i32⟩
  | 18 => ⟨S800000, .i32⟩
  | 19 => ⟨S1x800000, .i32⟩
  | 20 => ⟨S800000, .i32⟩
  | 21 => ⟨S_, .i32⟩
  | 22 => ⟨S_, .f32⟩
  | 23 => ⟨S50176x128, .f32⟩
  | 24 => ⟨S1x128, .f32⟩
  | 25 => ⟨S50176x128, .f32⟩
  | 26 => ⟨S50000x128, .f32⟩
  | 27 => ⟨S1x800000, .f32⟩
  | 28 => ⟨S800000, .f32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S800000x128, .f32⟩
  | 38 => ⟨S800000x1, .f32⟩
  | 39 => ⟨S800000x128, .f32⟩
  | 40 => ⟨S800000x128, .f32⟩
  | 41 => ⟨S_, .f32⟩
  | 42 => ⟨S50000x128, .f32⟩
  | 43 => ⟨S800000x1, .i32⟩
  | 44 => ⟨S50000x128, .f32⟩
  | 45 => ⟨S1x800000, .f32⟩
  | 46 => ⟨S800000, .f32⟩
  | 47 => ⟨S_, .i32⟩
  | 48 => ⟨S800000, .i32⟩
  | 49 => ⟨S800000, .i1⟩
  | 50 => ⟨S_, .i32⟩
  | 51 => ⟨S800000, .i32⟩
  | 52 => ⟨S800000, .i32⟩
  | 53 => ⟨S800000, .i32⟩
  | 54 => ⟨S800000x1, .i32⟩
  | 55 => ⟨S800000x128, .f32⟩
  | 56 => ⟨S800000x1, .f32⟩
  | 57 => ⟨S800000x128, .f32⟩
  | 58 => ⟨S800000x128, .f32⟩
  | 59 => ⟨S_, .f32⟩
  | 60 => ⟨S50000x128, .f32⟩
  | 61 => ⟨S800000x1, .i32⟩
  | 62 => ⟨S50000x128, .f32⟩
  | 63 => ⟨S1x800000, .f32⟩
  | 64 => ⟨S800000, .f32⟩
  | 65 => ⟨S_, .i32⟩
  | 66 => ⟨S800000, .i32⟩
  | 67 => ⟨S800000, .i1⟩
  | 68 => ⟨S_, .i32⟩
  | 69 => ⟨S800000, .i32⟩
  | 70 => ⟨S800000, .i32⟩
  | 71 => ⟨S800000, .i32⟩
  | 72 => ⟨S800000x1, .i32⟩
  | 73 => ⟨S800000x128, .f32⟩
  | 74 => ⟨S800000x1, .f32⟩
  | 75 => ⟨S800000x128, .f32⟩
  | 76 => ⟨S800000x128, .f32⟩
  | 77 => ⟨S_, .f32⟩
  | 78 => ⟨S50000x128, .f32⟩
  | 79 => ⟨S800000x1, .i32⟩
  | 80 => ⟨S50000x128, .f32⟩
  | 81 => ⟨S1x800000, .f32⟩
  | 82 => ⟨S800000, .f32⟩
  | 83 => ⟨S_, .i32⟩
  | 84 => ⟨S800000, .i32⟩
  | 85 => ⟨S800000, .i1⟩
  | 86 => ⟨S_, .i32⟩
  | 87 => ⟨S800000, .i32⟩
  | 88 => ⟨S800000, .i32⟩
  | 89 => ⟨S800000, .i32⟩
  | 90 => ⟨S800000x1, .i32⟩
  | 91 => ⟨S800000x128, .f32⟩
  | 92 => ⟨S800000x1, .f32⟩
  | 93 => ⟨S800000x128, .f32⟩
  | 94 => ⟨S800000x128, .f32⟩
  | 95 => ⟨S_, .f32⟩
  | 96 => ⟨S50000x128, .f32⟩
  | 97 => ⟨S800000x1, .i32⟩
  | 98 => ⟨S50000x128, .f32⟩
  | 99 => ⟨S1x50000x128, .f32⟩
  | 100 => ⟨S1x50000x128, .f32⟩
  | 101 => ⟨S1x50000x128, .f32⟩
  | 102 => ⟨S1x50000x128, .f32⟩
  | 103 => ⟨S4x50000x128, .f32⟩
  | 104 => ⟨S_, .i32⟩
  | 105 => ⟨S_, .f32⟩
  | 106 => ⟨S4x50176x128, .f32⟩
  | 107 => ⟨S1x50176x128, .f32⟩
  | 108 => ⟨S4x50176x128, .f32⟩
  | 109 => ⟨S1x32, .f32⟩
  | 110 => ⟨S1x32, .f32⟩
  | 111 => ⟨S4x50176x32, .f32⟩
  | 112 => ⟨S4x50000x32, .f32⟩
  | 113 => ⟨S_, .f32⟩
  | 114 => ⟨S4x32, .f32⟩
  | 115 => ⟨S_, .f32⟩
  | 116 => ⟨S4x32, .f32⟩
  | 117 => ⟨S4x32, .f32⟩
  | 118 => ⟨S4x50000x32, .f32⟩
  | 119 => ⟨S_, .i32⟩
  | 120 => ⟨S_, .f32⟩
  | 121 => ⟨S4x32, .f32⟩
  | 122 => ⟨S4x1x32, .f32⟩
  | 123 => ⟨S_, .f32⟩
  | 124 => ⟨S4x1x32, .f32⟩
  | 125 => ⟨S4x1x32, .f32⟩
  | 126 => ⟨S4x50000x32, .f32⟩
  | 127 => ⟨S4x50000x32, .f32⟩
  | _ => ⟨S50000x128, .f32⟩

abbrev hbmTy0_1 (i : Nat) : BufTy := match i % 128 with
  | 0 => ⟨S4x50000x32, .f32⟩
  | 1 => ⟨S_, .f32⟩
  | 2 => ⟨S_, .f32⟩
  | 3 => ⟨S_, .f32⟩
  | 4 => ⟨S_, .f32⟩
  | 5 => ⟨S4x32, .f32⟩
  | 6 => ⟨S4x32, .f32⟩
  | 7 => ⟨S4x32, .f32⟩
  | 8 => ⟨S_, .f32⟩
  | 9 => ⟨S_, .i1⟩
  | 10 => ⟨S_, .f32⟩
  | 11 => ⟨S_, .f32⟩
  | 12 => ⟨S4x32, .f32⟩
  | 13 => ⟨S4x32, .f32⟩
  | 14 => ⟨S4x1x32, .f32⟩
  | 15 => ⟨S4x1x32, .f32⟩
  | 16 => ⟨S1x32, .f32⟩
  | 17 => ⟨S1x32, .f32⟩
  | 18 => ⟨S4x50176x32, .f32⟩
  | 19 => ⟨S4x50000x32, .f32⟩
  | 20 => ⟨S1x50000x32, .f32⟩
  | 21 => ⟨S50000x32, .f32⟩
  | 22 => ⟨S1x800000, .f32⟩
  | 23 => ⟨S800000, .f32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S800000x32, .f32⟩
  | 33 => ⟨S800000x1, .f32⟩
  | 34 => ⟨S800000x32, .f32⟩
  | 35 => ⟨S800000x32, .f32⟩
  | 36 => ⟨S_, .f32⟩
  | 37 => ⟨S50000x32, .f32⟩
  | 38 => ⟨S800000x1, .i32⟩
  | 39 => ⟨S50000x32, .f32⟩
  | 40 => ⟨S1x50000x32, .f32⟩
  | 41 => ⟨S50000x32, .f32⟩
  | 42 => ⟨S1x800000, .f32⟩
  | 43 => ⟨S800000, .f32⟩
  | 44 => ⟨S_, .i32⟩
  | 45 => ⟨S800000, .i32⟩
  | 46 => ⟨S800000, .i1⟩
  | 47 => ⟨S_, .i32⟩
  | 48 => ⟨S800000, .i32⟩
  | 49 => ⟨S800000, .i32⟩
  | 50 => ⟨S800000, .i32⟩
  | 51 => ⟨S800000x1, .i32⟩
  | 52 => ⟨S800000x32, .f32⟩
  | 53 => ⟨S800000x1, .f32⟩
  | 54 => ⟨S800000x32, .f32⟩
  | 55 => ⟨S800000x32, .f32⟩
  | 56 => ⟨S_, .f32⟩
  | 57 => ⟨S50000x32, .f32⟩
  | 58 => ⟨S800000x1, .i32⟩
  | 59 => ⟨S50000x32, .f32⟩
  | 60 => ⟨S1x50000x32, .f32⟩
  | 61 => ⟨S50000x32, .f32⟩
  | 62 => ⟨S1x800000, .f32⟩
  | 63 => ⟨S800000, .f32⟩
  | 64 => ⟨S_, .i32⟩
  | 65 => ⟨S800000, .i32⟩
  | 66 => ⟨S800000, .i1⟩
  | 67 => ⟨S_, .i32⟩
  | 68 => ⟨S800000, .i32⟩
  | 69 => ⟨S800000, .i32⟩
  | 70 => ⟨S800000, .i32⟩
  | 71 => ⟨S800000x1, .i32⟩
  | 72 => ⟨S800000x32, .f32⟩
  | 73 => ⟨S800000x1, .f32⟩
  | 74 => ⟨S800000x32, .f32⟩
  | 75 => ⟨S800000x32, .f32⟩
  | 76 => ⟨S_, .f32⟩
  | 77 => ⟨S50000x32, .f32⟩
  | 78 => ⟨S800000x1, .i32⟩
  | 79 => ⟨S50000x32, .f32⟩
  | 80 => ⟨S1x50000x32, .f32⟩
  | 81 => ⟨S50000x32, .f32⟩
  | 82 => ⟨S1x800000, .f32⟩
  | 83 => ⟨S800000, .f32⟩
  | 84 => ⟨S_, .i32⟩
  | 85 => ⟨S800000, .i32⟩
  | 86 => ⟨S800000, .i1⟩
  | 87 => ⟨S_, .i32⟩
  | 88 => ⟨S800000, .i32⟩
  | 89 => ⟨S800000, .i32⟩
  | 90 => ⟨S800000, .i32⟩
  | 91 => ⟨S800000x1, .i32⟩
  | 92 => ⟨S800000x32, .f32⟩
  | 93 => ⟨S800000x1, .f32⟩
  | 94 => ⟨S800000x32, .f32⟩
  | 95 => ⟨S800000x32, .f32⟩
  | 96 => ⟨S_, .f32⟩
  | 97 => ⟨S50000x32, .f32⟩
  | 98 => ⟨S800000x1, .i32⟩
  | 99 => ⟨S50000x32, .f32⟩
  | 100 => ⟨S1x50000x32, .f32⟩
  | 101 => ⟨S1x50000x32, .f32⟩
  | 102 => ⟨S1x50000x32, .f32⟩
  | 103 => ⟨S1x50000x32, .f32⟩
  | 104 => ⟨S4x50000x32, .f32⟩
  | 105 => ⟨S_, .i32⟩
  | 106 => ⟨S_, .f32⟩
  | 107 => ⟨S4x50176x32, .f32⟩
  | 108 => ⟨S_, .i32⟩
  | 109 => ⟨S_, .f32⟩
  | 110 => ⟨S4x50176x32, .f32⟩
  | 111 => ⟨S1x32, .f32⟩
  | 112 => ⟨S1x32, .f32⟩
  | 113 => ⟨S4x50176x32, .f32⟩
  | 114 => ⟨S4x50000x32, .f32⟩
  | 115 => ⟨S_, .f32⟩
  | 116 => ⟨S4x32, .f32⟩
  | 117 => ⟨S_, .f32⟩
  | 118 => ⟨S4x32, .f32⟩
  | 119 => ⟨S4x32, .f32⟩
  | 120 => ⟨S4x50000x32, .f32⟩
  | 121 => ⟨S_, .i32⟩
  | 122 => ⟨S_, .f32⟩
  | 123 => ⟨S4x32, .f32⟩
  | 124 => ⟨S4x1x32, .f32⟩
  | 125 => ⟨S_, .f32⟩
  | 126 => ⟨S4x1x32, .f32⟩
  | 127 => ⟨S4x1x32, .f32⟩
  | _ => ⟨S50000x128, .f32⟩

abbrev hbmTy0_2 (i : Nat) : BufTy := match i % 128 with
  | 0 => ⟨S4x50000x32, .f32⟩
  | 1 => ⟨S4x50000x32, .f32⟩
  | 2 => ⟨S4x50000x32, .f32⟩
  | 3 => ⟨S_, .f32⟩
  | 4 => ⟨S_, .f32⟩
  | 5 => ⟨S_, .f32⟩
  | 6 => ⟨S_, .f32⟩
  | 7 => ⟨S4x32, .f32⟩
  | 8 => ⟨S4x32, .f32⟩
  | 9 => ⟨S4x32, .f32⟩
  | 10 => ⟨S_, .f32⟩
  | 11 => ⟨S_, .i1⟩
  | 12 => ⟨S_, .f32⟩
  | 13 => ⟨S_, .f32⟩
  | 14 => ⟨S4x32, .f32⟩
  | 15 => ⟨S4x32, .f32⟩
  | 16 => ⟨S4x1x32, .f32⟩
  | 17 => ⟨S4x1x32, .f32⟩
  | 18 => ⟨S1x32, .f32⟩
  | 19 => ⟨S1x32, .f32⟩
  | 20 => ⟨S4x50176x32, .f32⟩
  | 21 => ⟨S4x50000x32, .f32⟩
  | 22 => ⟨S50000x4x32, .f32⟩
  | 23 => ⟨S50000x128, .f32⟩
  | 24 => ⟨S50000x4x32, .f32⟩
  | 25 => ⟨S50000x128, .f32⟩
  | 26 => ⟨S1x50000x128, .f32⟩
  | 27 => ⟨S1x50000x128, .f32⟩
  | 28 => ⟨S1x50000x128, .f32⟩
  | 29 => ⟨S3x50000x128, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | .local _ .vmem, ⟨0, _⟩ => ⟨S7168x128, .f32⟩
  | .local _ .vmem, ⟨1, _⟩ => ⟨S7168x128, .f32⟩
  | .local _ .vmem, ⟨2, _⟩ => ⟨S128x128, .f32⟩
  | .local _ .vmem, ⟨3, _⟩ => ⟨S1x128, .f32⟩
  | .local _ .vmem, ⟨4, _⟩ => ⟨S7168x128, .f32⟩
  | .local _ .vmem, ⟨5, _⟩ => ⟨S7168x128, .f32⟩
  | .local _ .vmem, ⟨6, _⟩ => ⟨S1x7168x128, .f32⟩
  | .local _ .vmem, ⟨7, _⟩ => ⟨S1x7168x128, .f32⟩
  | .local _ .vmem, ⟨8, _⟩ => ⟨S1x7168x128, .f32⟩
  | .local _ .vmem, ⟨9, _⟩ => ⟨S1x7168x128, .f32⟩
  | .local _ .vmem, ⟨10, _⟩ => ⟨S128x32, .f32⟩
  | .local _ .vmem, ⟨11, _⟩ => ⟨S1x32, .f32⟩
  | .local _ .vmem, ⟨12, _⟩ => ⟨S32x32, .f32⟩
  | .local _ .vmem, ⟨13, _⟩ => ⟨S1x32, .f32⟩
  | .local _ .vmem, ⟨14, _⟩ => ⟨S1x7168x32, .f32⟩
  | .local _ .vmem, ⟨15, _⟩ => ⟨S1x7168x32, .f32⟩
  | .local _ .vmem, ⟨16, _⟩ => ⟨S1x7168x32, .f32⟩
  | .local _ .vmem, ⟨17, _⟩ => ⟨S1x7168x32, .f32⟩
  | .local _ .vmem, ⟨18, _⟩ => ⟨S1x1x32, .f32⟩
  | .local _ .vmem, ⟨19, _⟩ => ⟨S1x1x32, .f32⟩
  | .local _ .vmem, ⟨20, _⟩ => ⟨S1x1x32, .f32⟩
  | .local _ .vmem, ⟨21, _⟩ => ⟨S1x1x32, .f32⟩
  | .local _ .vmem, ⟨22, _⟩ => ⟨S1x32, .f32⟩
  | .local _ .vmem, ⟨23, _⟩ => ⟨S1x32, .f32⟩
  | .local _ .vmem, ⟨24, _⟩ => ⟨S1x7168x32, .f32⟩
  | .local _ .vmem, ⟨25, _⟩ => ⟨S1x7168x32, .f32⟩
  | .local _ .vmem, ⟨26, _⟩ => ⟨S1x7168x32, .f32⟩
  | .local _ .vmem, ⟨27, _⟩ => ⟨S1x7168x32, .f32⟩
  | .local _ .vmem, ⟨28, _⟩ => ⟨S1x7168x32, .f32⟩
  | .local _ .vmem, ⟨29, _⟩ => ⟨S1x7168x32, .f32⟩
  | .local _ .vmem, ⟨30, _⟩ => ⟨S32x32, .f32⟩
  | .local _ .vmem, ⟨31, _⟩ => ⟨S1x32, .f32⟩
  | .local _ .vmem, ⟨32, _⟩ => ⟨S32x32, .f32⟩
  | .local _ .vmem, ⟨33, _⟩ => ⟨S1x32, .f32⟩
  | .local _ .vmem, ⟨34, _⟩ => ⟨S1x7168x32, .f32⟩
  | .local _ .vmem, ⟨35, _⟩ => ⟨S1x7168x32, .f32⟩
  | .local _ .vmem, ⟨36, _⟩ => ⟨S1x7168x32, .f32⟩
  | .local _ .vmem, ⟨37, _⟩ => ⟨S1x7168x32, .f32⟩
  | .local _ .vmem, ⟨38, _⟩ => ⟨S1x1x32, .f32⟩
  | .local _ .vmem, ⟨39, _⟩ => ⟨S1x1x32, .f32⟩
  | .local _ .vmem, ⟨40, _⟩ => ⟨S1x1x32, .f32⟩
  | .local _ .vmem, ⟨41, _⟩ => ⟨S1x1x32, .f32⟩
  | .local _ .vmem, ⟨42, _⟩ => ⟨S1x32, .f32⟩
  | .local _ .vmem, ⟨43, _⟩ => ⟨S1x32, .f32⟩
  | .local _ .vmem, ⟨44, _⟩ => ⟨S1x7168x32, .f32⟩
  | .local _ .vmem, ⟨45, _⟩ => ⟨S1x7168x32, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_call0_v0 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_c_0 : Ref sig .tc := ⟨.hbm, 29, rfl⟩
abbrev main_v10 : Ref sig .tc := ⟨.hbm, 30, rfl⟩
abbrev main_v11 : Ref sig .tc := ⟨.hbm, 31, rfl⟩
abbrev main_c_1 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_c_2 : Ref sig .tc := ⟨.hbm, 47, rfl⟩
abbrev main_v25 : Ref sig .tc := ⟨.hbm, 48, rfl⟩
abbrev main_v26 : Ref sig .tc := ⟨.hbm, 49, rfl⟩
abbrev main_c_3 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_4 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_c_5 : Ref sig .tc := ⟨.hbm, 65, rfl⟩
abbrev main_v40 : Ref sig .tc := ⟨.hbm, 66, rfl⟩
abbrev main_v41 : Ref sig .tc := ⟨.hbm, 67, rfl⟩
abbrev main_c_6 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_7 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_c_8 : Ref sig .tc := ⟨.hbm, 83, rfl⟩
abbrev main_v55 : Ref sig .tc := ⟨.hbm, 84, rfl⟩
abbrev main_v56 : Ref sig .tc := ⟨.hbm, 85, rfl⟩
abbrev main_c_9 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_10 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_c_11 : Ref sig .tc := ⟨.hbm, 104, rfl⟩
abbrev main_call1_v0 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_cst_12 : Ref sig .tc := ⟨.hbm, 113, rfl⟩
abbrev main_v80 : Ref sig .tc := ⟨.hbm, 114, rfl⟩
abbrev main_cst_13 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_c_14 : Ref sig .tc := ⟨.hbm, 119, rfl⟩
abbrev main_call2_cst : Ref sig .tc := ⟨.hbm, 120, rfl⟩
abbrev main_call2_v0 : Ref sig .tc := ⟨.hbm, 121, rfl⟩
abbrev main_call2_v1 : Ref sig .tc := ⟨.hbm, 122, rfl⟩
abbrev main_call2_cst_0 : Ref sig .tc := ⟨.hbm, 123, rfl⟩
abbrev main_call2_v2 : Ref sig .tc := ⟨.hbm, 124, rfl⟩
abbrev main_call2_v3 : Ref sig .tc := ⟨.hbm, 125, rfl⟩
abbrev main_call2_v4 : Ref sig .tc := ⟨.hbm, 126, rfl⟩
abbrev main_call2_v5 : Ref sig .tc := ⟨.hbm, 127, rfl⟩
abbrev main_call2_v6 : Ref sig .tc := ⟨.hbm, 128, rfl⟩
abbrev main_call2_v7 : Ref sig .tc := ⟨.hbm, 129, rfl⟩
abbrev main_call2_cst_1 : Ref sig .tc := ⟨.hbm, 130, rfl⟩
abbrev main_call2_v8 : Ref sig .tc := ⟨.hbm, 131, rfl⟩
abbrev main_call2_cst_2 : Ref sig .tc := ⟨.hbm, 132, rfl⟩
abbrev main_call2_v9 : Ref sig .tc := ⟨.hbm, 133, rfl⟩
abbrev main_call2_v10 : Ref sig .tc := ⟨.hbm, 134, rfl⟩
abbrev main_call2_v11 : Ref sig .tc := ⟨.hbm, 135, rfl⟩
abbrev main_call2_cst_3 : Ref sig .tc := ⟨.hbm, 136, rfl⟩
abbrev main_call2_v12 : Ref sig .tc := ⟨.hbm, 137, rfl⟩
abbrev main_call2_cst_4 : Ref sig .tc := ⟨.hbm, 138, rfl⟩
abbrev main_call2_call0_v0 : Ref sig .tc := ⟨.hbm, 139, rfl⟩
abbrev main_call2_call0_v1 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_c_15 : Ref sig .tc := ⟨.hbm, 152, rfl⟩
abbrev main_v95 : Ref sig .tc := ⟨.hbm, 153, rfl⟩
abbrev main_v96 : Ref sig .tc := ⟨.hbm, 154, rfl⟩
abbrev main_c_16 : Ref sig .tc := ⟨.hbm, 155, rfl⟩
abbrev main_v97 : Ref sig .tc := ⟨.hbm, 156, rfl⟩
abbrev main_v98 : Ref sig .tc := ⟨.hbm, 157, rfl⟩
abbrev main_v99 : Ref sig .tc := ⟨.hbm, 158, rfl⟩
abbrev main_v100 : Ref sig .tc := ⟨.hbm, 159, rfl⟩
abbrev main_v101 : Ref sig .tc := ⟨.hbm, 160, rfl⟩
abbrev main_v102 : Ref sig .tc := ⟨.hbm, 161, rfl⟩
abbrev main_v103 : Ref sig .tc := ⟨.hbm, 162, rfl⟩
abbrev main_v104 : Ref sig .tc := ⟨.hbm, 163, rfl⟩
abbrev main_cst_17 : Ref sig .tc := ⟨.hbm, 164, rfl⟩
abbrev main_v105 : Ref sig .tc := ⟨.hbm, 165, rfl⟩
abbrev main_v106 : Ref sig .tc := ⟨.hbm, 166, rfl⟩
abbrev main_v107 : Ref sig .tc := ⟨.hbm, 167, rfl⟩
abbrev main_v108 : Ref sig .tc := ⟨.hbm, 168, rfl⟩
abbrev main_v109 : Ref sig .tc := ⟨.hbm, 169, rfl⟩
abbrev main_v110 : Ref sig .tc := ⟨.hbm, 170, rfl⟩
abbrev main_v111 : Ref sig .tc := ⟨.hbm, 171, rfl⟩
abbrev main_c_18 : Ref sig .tc := ⟨.hbm, 172, rfl⟩
abbrev main_v112 : Ref sig .tc := ⟨.hbm, 173, rfl⟩
abbrev main_v113 : Ref sig .tc := ⟨.hbm, 174, rfl⟩
abbrev main_c_19 : Ref sig .tc := ⟨.hbm, 175, rfl⟩
abbrev main_v114 : Ref sig .tc := ⟨.hbm, 176, rfl⟩
abbrev main_v115 : Ref sig .tc := ⟨.hbm, 177, rfl⟩
abbrev main_v116 : Ref sig .tc := ⟨.hbm, 178, rfl⟩
abbrev main_v117 : Ref sig .tc := ⟨.hbm, 179, rfl⟩
abbrev main_v118 : Ref sig .tc := ⟨.hbm, 180, rfl⟩
abbrev main_v119 : Ref sig .tc := ⟨.hbm, 181, rfl⟩
abbrev main_v120 : Ref sig .tc := ⟨.hbm, 182, rfl⟩
abbrev main_v121 : Ref sig .tc := ⟨.hbm, 183, rfl⟩
abbrev main_cst_20 : Ref sig .tc := ⟨.hbm, 184, rfl⟩
abbrev main_v122 : Ref sig .tc := ⟨.hbm, 185, rfl⟩
abbrev main_v123 : Ref sig .tc := ⟨.hbm, 186, rfl⟩
abbrev main_v124 : Ref sig .tc := ⟨.hbm, 187, rfl⟩
abbrev main_v125 : Ref sig .tc := ⟨.hbm, 188, rfl⟩
abbrev main_v126 : Ref sig .tc := ⟨.hbm, 189, rfl⟩
abbrev main_v127 : Ref sig .tc := ⟨.hbm, 190, rfl⟩
abbrev main_v128 : Ref sig .tc := ⟨.hbm, 191, rfl⟩
abbrev main_c_21 : Ref sig .tc := ⟨.hbm, 192, rfl⟩
abbrev main_v129 : Ref sig .tc := ⟨.hbm, 193, rfl⟩
abbrev main_v130 : Ref sig .tc := ⟨.hbm, 194, rfl⟩
abbrev main_c_22 : Ref sig .tc := ⟨.hbm, 195, rfl⟩
abbrev main_v131 : Ref sig .tc := ⟨.hbm, 196, rfl⟩
abbrev main_v132 : Ref sig .tc := ⟨.hbm, 197, rfl⟩
abbrev main_v133 : Ref sig .tc := ⟨.hbm, 198, rfl⟩
abbrev main_v134 : Ref sig .tc := ⟨.hbm, 199, rfl⟩
abbrev main_v135 : Ref sig .tc := ⟨.hbm, 200, rfl⟩
abbrev main_v136 : Ref sig .tc := ⟨.hbm, 201, rfl⟩
abbrev main_v137 : Ref sig .tc := ⟨.hbm, 202, rfl⟩
abbrev main_v138 : Ref sig .tc := ⟨.hbm, 203, rfl⟩
abbrev main_cst_23 : Ref sig .tc := ⟨.hbm, 204, rfl⟩
abbrev main_v139 : Ref sig .tc := ⟨.hbm, 205, rfl⟩
abbrev main_v140 : Ref sig .tc := ⟨.hbm, 206, rfl⟩
abbrev main_v141 : Ref sig .tc := ⟨.hbm, 207, rfl⟩
abbrev main_v142 : Ref sig .tc := ⟨.hbm, 208, rfl⟩
abbrev main_v143 : Ref sig .tc := ⟨.hbm, 209, rfl⟩
abbrev main_v144 : Ref sig .tc := ⟨.hbm, 210, rfl⟩
abbrev main_v145 : Ref sig .tc := ⟨.hbm, 211, rfl⟩
abbrev main_c_24 : Ref sig .tc := ⟨.hbm, 212, rfl⟩
abbrev main_v146 : Ref sig .tc := ⟨.hbm, 213, rfl⟩
abbrev main_v147 : Ref sig .tc := ⟨.hbm, 214, rfl⟩
abbrev main_c_25 : Ref sig .tc := ⟨.hbm, 215, rfl⟩
abbrev main_v148 : Ref sig .tc := ⟨.hbm, 216, rfl⟩
abbrev main_v149 : Ref sig .tc := ⟨.hbm, 217, rfl⟩
abbrev main_v150 : Ref sig .tc := ⟨.hbm, 218, rfl⟩
abbrev main_v151 : Ref sig .tc := ⟨.hbm, 219, rfl⟩
abbrev main_v152 : Ref sig .tc := ⟨.hbm, 220, rfl⟩
abbrev main_v153 : Ref sig .tc := ⟨.hbm, 221, rfl⟩
abbrev main_v154 : Ref sig .tc := ⟨.hbm, 222, rfl⟩
abbrev main_v155 : Ref sig .tc := ⟨.hbm, 223, rfl⟩
abbrev main_cst_26 : Ref sig .tc := ⟨.hbm, 224, rfl⟩
abbrev main_v156 : Ref sig .tc := ⟨.hbm, 225, rfl⟩
abbrev main_v157 : Ref sig .tc := ⟨.hbm, 226, rfl⟩
abbrev main_v158 : Ref sig .tc := ⟨.hbm, 227, rfl⟩
abbrev main_v159 : Ref sig .tc := ⟨.hbm, 228, rfl⟩
abbrev main_v160 : Ref sig .tc := ⟨.hbm, 229, rfl⟩
abbrev main_v161 : Ref sig .tc := ⟨.hbm, 230, rfl⟩
abbrev main_v162 : Ref sig .tc := ⟨.hbm, 231, rfl⟩
abbrev main_v163 : Ref sig .tc := ⟨.hbm, 232, rfl⟩
abbrev main_c_27 : Ref sig .tc := ⟨.hbm, 233, rfl⟩
abbrev main_call3_v0 : Ref sig .tc := ⟨.hbm, 234, rfl⟩
abbrev main_v164 : Ref sig .tc := ⟨.hbm, 235, rfl⟩
abbrev main_c_28 : Ref sig .tc := ⟨.hbm, 236, rfl⟩
abbrev main_call4_v0 : Ref sig .tc := ⟨.hbm, 237, rfl⟩
abbrev main_v165 : Ref sig .tc := ⟨.hbm, 238, rfl⟩
abbrev main_v166 : Ref sig .tc := ⟨.hbm, 239, rfl⟩
abbrev main_v167 : Ref sig .tc := ⟨.hbm, 240, rfl⟩
abbrev main_v168 : Ref sig .tc := ⟨.hbm, 241, rfl⟩
abbrev main_v169 : Ref sig .tc := ⟨.hbm, 242, rfl⟩
abbrev main_cst_29 : Ref sig .tc := ⟨.hbm, 243, rfl⟩
abbrev main_v170 : Ref sig .tc := ⟨.hbm, 244, rfl⟩
abbrev main_cst_30 : Ref sig .tc := ⟨.hbm, 245, rfl⟩
abbrev main_v171 : Ref sig .tc := ⟨.hbm, 246, rfl⟩
abbrev main_v172 : Ref sig .tc := ⟨.hbm, 247, rfl⟩
abbrev main_v173 : Ref sig .tc := ⟨.hbm, 248, rfl⟩
abbrev main_c_31 : Ref sig .tc := ⟨.hbm, 249, rfl⟩
abbrev main_call5_cst : Ref sig .tc := ⟨.hbm, 250, rfl⟩
abbrev main_call5_v0 : Ref sig .tc := ⟨.hbm, 251, rfl⟩
abbrev main_call5_v1 : Ref sig .tc := ⟨.hbm, 252, rfl⟩
abbrev main_call5_cst_0 : Ref sig .tc := ⟨.hbm, 253, rfl⟩
abbrev main_call5_v2 : Ref sig .tc := ⟨.hbm, 254, rfl⟩
abbrev main_call5_v3 : Ref sig .tc := ⟨.hbm, 255, rfl⟩
abbrev main_call5_v4 : Ref sig .tc := ⟨.hbm, 256, rfl⟩
abbrev main_call5_v5 : Ref sig .tc := ⟨.hbm, 257, rfl⟩
abbrev main_call5_v6 : Ref sig .tc := ⟨.hbm, 258, rfl⟩
abbrev main_call5_v7 : Ref sig .tc := ⟨.hbm, 259, rfl⟩
abbrev main_call5_cst_1 : Ref sig .tc := ⟨.hbm, 260, rfl⟩
abbrev main_call5_v8 : Ref sig .tc := ⟨.hbm, 261, rfl⟩
abbrev main_call5_cst_2 : Ref sig .tc := ⟨.hbm, 262, rfl⟩
abbrev main_call5_v9 : Ref sig .tc := ⟨.hbm, 263, rfl⟩
abbrev main_call5_v10 : Ref sig .tc := ⟨.hbm, 264, rfl⟩
abbrev main_call5_v11 : Ref sig .tc := ⟨.hbm, 265, rfl⟩
abbrev main_call5_cst_3 : Ref sig .tc := ⟨.hbm, 266, rfl⟩
abbrev main_call5_v12 : Ref sig .tc := ⟨.hbm, 267, rfl⟩
abbrev main_call5_cst_4 : Ref sig .tc := ⟨.hbm, 268, rfl⟩
abbrev main_call5_call0_v0 : Ref sig .tc := ⟨.hbm, 269, rfl⟩
abbrev main_call5_call0_v1 : Ref sig .tc := ⟨.hbm, 270, rfl⟩
abbrev main_v174 : Ref sig .tc := ⟨.hbm, 271, rfl⟩
abbrev main_v175 : Ref sig .tc := ⟨.hbm, 272, rfl⟩
abbrev main_v176 : Ref sig .tc := ⟨.hbm, 273, rfl⟩
abbrev main_v177 : Ref sig .tc := ⟨.hbm, 274, rfl⟩
abbrev main_v178 : Ref sig .tc := ⟨.hbm, 275, rfl⟩
abbrev main_v179 : Ref sig .tc := ⟨.hbm, 276, rfl⟩
abbrev main_v180 : Ref sig .tc := ⟨.hbm, 277, rfl⟩
abbrev main_v181 : Ref sig .tc := ⟨.hbm, 278, rfl⟩
abbrev main_v182 : Ref sig .tc := ⟨.hbm, 279, rfl⟩
abbrev main_v183 : Ref sig .tc := ⟨.hbm, 280, rfl⟩
abbrev main_v184 : Ref sig .tc := ⟨.hbm, 281, rfl⟩
abbrev main_v185 : Ref sig .tc := ⟨.hbm, 282, rfl⟩
abbrev main_v186 : Ref sig .tc := ⟨.hbm, 283, rfl⟩
abbrev main_v187 : Ref sig .tc := ⟨.hbm, 284, rfl⟩
abbrev main_v188 : Ref sig .tc := ⟨.hbm, 285, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg6_0 : Ref sig .tc := ⟨.vmem, 34, rfl⟩
abbrev cc3_stg6_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg2_1 : Ref sig .tc := ⟨.vmem, 41, rfl⟩
abbrev cc4_stg3_0 : Ref sig .tc := ⟨.vmem, 42, rfl⟩
abbrev cc4_stg4_0 : Ref sig .tc := ⟨.vmem, 43, rfl⟩
abbrev cc4_stg5_0 : Ref sig .tc := ⟨.vmem, 44, rfl⟩
abbrev cc4_stg5_1 : Ref sig .tc := ⟨.vmem, 45, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem4_0 : DmaSem sig := 23
abbrev cc2_sem5_0 : DmaSem sig := 24
abbrev cc2_sem5_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem3_0 : DmaSem sig := 31
abbrev cc3_sem4_0 : DmaSem sig := 32
abbrev cc3_sem5_0 : DmaSem sig := 33
abbrev cc3_sem6_0 : DmaSem sig := 34
abbrev cc3_sem6_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem2_1 : DmaSem sig := 41
abbrev cc4_sem3_0 : DmaSem sig := 42
abbrev cc4_sem4_0 : DmaSem sig := 43
abbrev cc4_sem5_0 : DmaSem sig := 44
abbrev cc4_sem5_1 : DmaSem sig := 45

abbrev nD : Nat := 1
abbrev τ : Topo := Topo.v7x

variable {F : FTy → Type} [FloatOps F]

abbrev grid0 : Pipeline.Grid := ⟨1, ![7], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S7168x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S7168x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![4, 7], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x7168x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x7168x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S128x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S32x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1x7168x32 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev grid2 : Pipeline.Grid := ⟨2, ![4, 7], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x7168x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x1x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x1x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 1 → Memref sig .tc .vmem S1x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S1x7168x32 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev grid3 : Pipeline.Grid := ⟨2, ![4, 7], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S1x7168x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x7168x32 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 1 → Memref sig .tc .vmem S32x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 1 → Memref sig .tc .vmem S1x32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 1 → Memref sig .tc .vmem S32x32 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 1 → Memref sig .tc .vmem S1x32 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false, false]

abbrev stage3_6 : Fin 2 → Memref sig .tc .vmem S1x7168x32 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, true]

abbrev grid4 : Pipeline.Grid := ⟨2, ![4, 7], ![false, false]⟩

def cc4_transform_0 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc4_transform_1 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc4_transform_2 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage4_0 : Fin 2 → Memref sig .tc .vmem S1x7168x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S1x1x32 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S1x1x32 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev stage4_3 : Fin 1 → Memref sig .tc .vmem S1x32 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false, false]

abbrev stage4_4 : Fin 1 → Memref sig .tc .vmem S1x32 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false, false]

abbrev stage4_5 : Fin 2 → Memref sig .tc .vmem S1x7168x32 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true, true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  pads_S50000x128_S50176x128_01760_000 : S50000x128.Pads (![0, 0] : Fin 2 → Nat) ![176, 0] ![0, 0] S50176x128
  h_S_ : 0 < S_.numel
  shapeCasts_S128_S1x128 : S128.ShapeCasts S1x128
  inb_S7168x128_S7168x128_0_0 : ∀ a, (![0, 0] : Fin 2 → Nat) a + S7168x128.size a ≤ S7168x128.size a
  h_S7168x128 : 0 < S7168x128.numel
  shapeCasts_S7168x128_S7168x128 : S7168x128.ShapeCasts S7168x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S7168x128 : S1x128.Broadcasts S7168x128
  slices_S50176x128_S50000x128_0_0 : S50176x128.Slices ![0, 0] S50000x128
  slices_S4x800000_S1x800000_0_0 : S4x800000.Slices ![0, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  slices_S4x800000_S1x800000_1_0 : S4x800000.Slices ![1, 0] S1x800000
  slices_S4x800000_S1x800000_2_0 : S4x800000.Slices ![2, 0] S1x800000
  slices_S4x800000_S1x800000_3_0 : S4x800000.Slices ![3, 0] S1x800000
  bcast_S50000x128_S1x50000x128_1_2 : S50000x128.BroadcastsInDim S1x50000x128 (![1, 2] : Fin 2 → Fin S1x50000x128.rank)
  concatenates_S1x50000x128_S1x50000x128_S1x50000x128_S1x50000x128_S4x50000x128_d0 : Shape.Concatenates [S1x50000x128, S1x50000x128, S1x50000x128, S1x50000x128] S4x50000x128 0
  pads_S4x50000x128_S4x50176x128_000_01760_000 : S4x50000x128.Pads (![0, 0, 0] : Fin 3 → Nat) ![0, 176, 0] ![0, 0, 0] S4x50176x128
  bcast_S50176x128_S1x50176x128_1_2 : S50176x128.BroadcastsInDim S1x50176x128 (![1, 2] : Fin 2 → Fin S1x50176x128.rank)
  bcast_S1x50176x128_S4x50176x128_0_1_2 : S1x50176x128.BroadcastsInDim S4x50176x128 (![0, 1, 2] : Fin 3 → Fin S4x50176x128.rank)
  shapeCasts_S32_S1x32 : S32.ShapeCasts S1x32
  inb_S1x7168x128_S1x7168x128_0_0_0 : ∀ a, (![0, 0, 0] : Fin 3 → Nat) a + S1x7168x128.size a ≤ S1x7168x128.size a
  h_S1x7168x128 : 0 < S1x7168x128.numel
  shapeCasts_S1x7168x128_S7168x128 : S1x7168x128.ShapeCasts S7168x128
  inb_S128x32_S128x32_0_0 : ∀ a, (![0, 0] : Fin 2 → Nat) a + S128x32.size a ≤ S128x32.size a
  h_S128x32 : 0 < S128x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S7168x32 : S1x32.Broadcasts S7168x32
  inb_S32x32_S32x32_0_0 : ∀ a, (![0, 0] : Fin 2 → Nat) a + S32x32.size a ≤ S32x32.size a
  h_S32x32 : 0 < S32x32.numel
  inb_S1x7168x32_S1x7168x32_0_0_0 : ∀ a, (![0, 0, 0] : Fin 3 → Nat) a + S1x7168x32.size a ≤ S1x7168x32.size a
  h_S1x7168x32 : 0 < S1x7168x32.numel
  shapeCasts_S1x7168x32_S7168x32 : S1x7168x32.ShapeCasts S7168x32
  shapeCasts_S7168x32_S1x7168x32 : S7168x32.ShapeCasts S1x7168x32
  slices_S4x50176x32_S4x50000x32_0_0_0 : S4x50176x32.Slices ![0, 0, 0] S4x50000x32
  reducesTo_S4x50000x32_S4x32_d1 : S4x50000x32.ReducesTo [1] S4x32
  bcast_S_S4x32 : S_.BroadcastsInDim S4x32 (![] : Fin 0 → Fin S4x32.rank)
  bcast_S4x32_S4x1x32_0_2 : S4x32.BroadcastsInDim S4x1x32 (![0, 2] : Fin 2 → Fin S4x1x32.rank)
  bcast_S_S4x1x32 : S_.BroadcastsInDim S4x1x32 (![] : Fin 0 → Fin S4x1x32.rank)
  bcast_S4x1x32_S4x50000x32_0_1_2 : S4x1x32.BroadcastsInDim S4x50000x32 (![0, 1, 2] : Fin 3 → Fin S4x50000x32.rank)
  shapeCasts_S4x32_S4x1x32 : S4x32.ShapeCasts S4x1x32
  inb_S1x1x32_S1x1x32_0_0_0 : ∀ a, (![0, 0, 0] : Fin 3 → Nat) a + S1x1x32.size a ≤ S1x1x32.size a
  h_S1x1x32 : 0 < S1x1x32.numel
  shapeCasts_S1x1x32_S1x32 : S1x1x32.ShapeCasts S1x32
  slices_S4x50000x32_S1x50000x32_0_0_0 : S4x50000x32.Slices ![0, 0, 0] S1x50000x32
  shapeCasts_S1x50000x32_S50000x32 : S1x50000x32.ShapeCasts S50000x32
  bcast_S800000x1_S800000x32_0_1 : S800000x1.BroadcastsInDim S800000x32 (![0, 1] : Fin 2 → Fin S800000x32.rank)
  bcast_S_S50000x32 : S_.BroadcastsInDim S50000x32 (![] : Fin 0 → Fin S50000x32.rank)
  slices_S4x50000x32_S1x50000x32_1_0_0 : S4x50000x32.Slices ![1, 0, 0] S1x50000x32
  slices_S4x50000x32_S1x50000x32_2_0_0 : S4x50000x32.Slices ![2, 0, 0] S1x50000x32
  slices_S4x50000x32_S1x50000x32_3_0_0 : S4x50000x32.Slices ![3, 0, 0] S1x50000x32
  bcast_S50000x32_S1x50000x32_1_2 : S50000x32.BroadcastsInDim S1x50000x32 (![1, 2] : Fin 2 → Fin S1x50000x32.rank)
  concatenates_S1x50000x32_S1x50000x32_S1x50000x32_S1x50000x32_S4x50000x32_d0 : Shape.Concatenates [S1x50000x32, S1x50000x32, S1x50000x32, S1x50000x32] S4x50000x32 0
  pads_S4x50000x32_S4x50176x32_000_01760_000 : S4x50000x32.Pads (![0, 0, 0] : Fin 3 → Nat) ![0, 176, 0] ![0, 0, 0] S4x50176x32
  transposes_S4x50000x32_S50000x4x32_1_0_2 : S4x50000x32.Transposes [1, 0, 2] S50000x4x32
  shapeCasts_S50000x4x32_S50000x128 : S50000x4x32.ShapeCasts S50000x128
  concatenates_S1x50000x128_S1x50000x128_S1x50000x128_S3x50000x128_d0 : Shape.Concatenates [S1x50000x128, S1x50000x128, S1x50000x128] S3x50000x128 0
  dot_S7168x128_S128x128_S7168x128_1_0_0_1_n_n_wf : DotDims.WF S7168x128 S128x128 S7168x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S7168x128_S128x32_S7168x32_1_0_0_1_n_n_wf : DotDims.WF S7168x128 S128x32 S7168x32 [1] [0] [0] [1] [] []
  dot_S7168x32_S32x32_S7168x32_1_0_0_1_n_n_wf : DotDims.WF S7168x32 S32x32 S7168x32 [1] [0] [0] [1] [] []
  gather_S50000x32_S800000x1_S800000x32_1_0_n_n_0_1_132_wf : GatherDims.WF S50000x32 S800000x1 S800000x32 [1] [0] [] [0] [] 1 ![1, 32]
  scatter_S50000x32_S800000x1_S800000x32_1_0_0_1_wf : ScatterDims.WF S50000x32 S800000x1 S800000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S7168x128.size a ≤ S50176x128.size a
  hwx0_0 : ∀ i : grid0.Coords, EltTy.bits .f32 = 32 ∨ (Rect.block (s := S50176x128) S7168x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S7168x128.size a ≤ S50176x128.size a
  hwx0_3 : ∀ i : grid0.Coords, EltTy.bits .f32 = 32 ∨ (Rect.block (s := S50176x128) S7168x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x7168x128.size a ≤ S4x50176x128.size a
  hwx1_0 : ∀ i : grid1.Coords, EltTy.bits .f32 = 32 ∨ (Rect.block (s := S4x50176x128) S1x7168x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x7168x128.size a ≤ S4x50176x128.size a
  hwx1_1 : ∀ i : grid1.Coords, EltTy.bits .f32 = 32 ∨ (Rect.block (s := S4x50176x128) S1x7168x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x32.size a ≤ S128x32.size a
  hwx1_2 : ∀ i : grid1.Coords, EltTy.bits .f32 = 32 ∨ (Rect.block (s := S128x32) S128x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x32.size a ≤ S32x32.size a
  hwx1_4 : ∀ i : grid1.Coords, EltTy.bits .f32 = 32 ∨ (Rect.block (s := S32x32) S32x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x32.size a ≤ S1x32.size a
  hwx1_5 : ∀ i : grid1.Coords, EltTy.bits .f32 = 32 ∨ (Rect.block (s := S1x32) S1x32.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x7168x32.size a ≤ S4x50176x32.size a
  hwx1_6 : ∀ i : grid1.Coords, EltTy.bits .f32 = 32 ∨ (Rect.block (s := S4x50176x32) S1x7168x32.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x7168x32.size a ≤ S4x50176x32.size a
  hwx2_0 : ∀ i : grid2.Coords, EltTy.bits .f32 = 32 ∨ (Rect.block (s := S4x50176x32) S1x7168x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x1x32.size a ≤ S4x1x32.size a
  hwx2_1 : ∀ i : grid2.Coords, EltTy.bits .f32 = 32 ∨ (Rect.block (s := S4x1x32) S1x1x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1x32.size a ≤ S4x1x32.size a
  hwx2_2 : ∀ i : grid2.Coords, EltTy.bits .f32 = 32 ∨ (Rect.block (s := S4x1x32) S1x1x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x32.size a ≤ S1x32.size a
  hwx2_3 : ∀ i : grid2.Coords, EltTy.bits .f32 = 32 ∨ (Rect.block (s := S1x32) S1x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x32.size a ≤ S1x32.size a
  hwx2_4 : ∀ i : grid2.Coords, EltTy.bits .f32 = 32 ∨ (Rect.block (s := S1x32) S1x32.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x7168x32.size a ≤ S4x50176x32.size a
  hwx2_5 : ∀ i : grid2.Coords, EltTy.bits .f32 = 32 ∨ (Rect.block (s := S4x50176x32) S1x7168x32.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x7168x32.size a ≤ S4x50176x32.size a
  hwx3_0 : ∀ i : grid3.Coords, EltTy.bits .f32 = 32 ∨ (Rect.block (s := S4x50176x32) S1x7168x32.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x7168x32.size a ≤ S4x50176x32.size a
  hwx3_1 : ∀ i : grid3.Coords, EltTy.bits .f32 = 32 ∨ (Rect.block (s := S4x50176x32) S1x7168x32.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S32x32.size a ≤ S32x32.size a
  hwx3_2 : ∀ i : grid3.Coords, EltTy.bits .f32 = 32 ∨ (Rect.block (s := S32x32) S32x32.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x32.size a ≤ S1x32.size a
  hwx3_3 : ∀ i : grid3.Coords, EltTy.bits .f32 = 32 ∨ (Rect.block (s := S1x32) S1x32.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S32x32.size a ≤ S32x32.size a
  hwx3_4 : ∀ i : grid3.Coords, EltTy.bits .f32 = 32 ∨ (Rect.block (s := S32x32) S32x32.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x32.size a ≤ S1x32.size a
  hwx3_5 : ∀ i : grid3.Coords, EltTy.bits .f32 = 32 ∨ (Rect.block (s := S1x32) S1x32.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S1x7168x32.size a ≤ S4x50176x32.size a
  hwx3_6 : ∀ i : grid3.Coords, EltTy.bits .f32 = 32 ∨ (Rect.block (s := S4x50176x32) S1x7168x32.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1x7168x32.size a ≤ S4x50176x32.size a
  hwx4_0 : ∀ i : grid4.Coords, EltTy.bits .f32 = 32 ∨ (Rect.block (s := S4x50176x32) S1x7168x32.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1x1x32.size a ≤ S4x1x32.size a
  hwx4_1 : ∀ i : grid4.Coords, EltTy.bits .f32 = 32 ∨ (Rect.block (s := S4x1x32) S1x1x32.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1x1x32.size a ≤ S4x1x32.size a
  hwx4_2 : ∀ i : grid4.Coords, EltTy.bits .f32 = 32 ∨ (Rect.block (s := S4x1x32) S1x1x32.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x32.size a ≤ S1x32.size a
  hwx4_3 : ∀ i : grid4.Coords, EltTy.bits .f32 = 32 ∨ (Rect.block (s := S1x32) S1x32.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x32.size a ≤ S1x32.size a
  hwx4_4 : ∀ i : grid4.Coords, EltTy.bits .f32 = 32 ∨ (Rect.block (s := S1x32) S1x32.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S1x7168x32.size a ≤ S4x50176x32.size a
  hwx4_5 : ∀ i : grid4.Coords, EltTy.bits .f32 = 32 ∨ (Rect.block (s := S4x50176x32) S1x7168x32.size (cc4_transform_5 i) (hinb4_5 i)).WholeWords (EltTy.packing .f32)

variable [Facts₀]

def dot_S7168x128_S128x128_S7168x128_1_0_0_1_n_n : DotDims S7168x128 S128x128 S7168x128 where
  lhsContracting := [1]
  rhsContracting := [0]
  lhsNonContracting := [0]
  rhsNonContracting := [1]
  lhsBatch := []
  rhsBatch := []
  wf := dot_S7168x128_S128x128_S7168x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S7168x128_S128x32_S7168x32_1_0_0_1_n_n : DotDims S7168x128 S128x32 S7168x32 where
  lhsContracting := [1]
  rhsContracting := [0]
  lhsNonContracting := [0]
  rhsNonContracting := [1]
  lhsBatch := []
  rhsBatch := []
  wf := dot_S7168x128_S128x32_S7168x32_1_0_0_1_n_n_wf
def dot_S7168x32_S32x32_S7168x32_1_0_0_1_n_n : DotDims S7168x32 S32x32 S7168x32 where
  lhsContracting := [1]
  rhsContracting := [0]
  lhsNonContracting := [0]
  rhsNonContracting := [1]
  lhsBatch := []
  rhsBatch := []
  wf := dot_S7168x32_S32x32_S7168x32_1_0_0_1_n_n_wf
def gather_S50000x32_S800000x1_S800000x32_1_0_n_n_0_1_132 : GatherDims S50000x32 S800000x1 S800000x32 where
  offsetDims := [1]
  collapsedSliceDims := [0]
  operandBatchingDims := []
  startIndicesBatchingDims := []
  startIndexMap := [0]
  indexVectorDim := 1
  sliceSizes := ![1, 32]
  wf := gather_S50000x32_S800000x1_S800000x32_1_0_n_n_0_1_132_wf
def scatter_S50000x32_S800000x1_S800000x32_1_0_0_1 : ScatterDims S50000x32 S800000x1 S800000x32 where
  updateWindowDims := [1]
  insertedWindowDims := [0]
  scatterDimsToOperandDims := [0]
  indexVectorDim := 1
  wf := scatter_S50000x32_S800000x1_S800000x32_1_0_0_1_wf

abbrev win0_0 : Pipeline.Window sig grid0 :=
  Pipeline.Window.ofSpec (Memref.whole main_v4) S7168x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg15) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S7168x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v75) S1x7168x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v73) S1x7168x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S128x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v76) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S32x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v77) S1x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v78) S1x7168x32.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v78) S1x7168x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v85) S1x1x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v86) S1x1x32.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v87) S1x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v88) S1x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v89) S1x7168x32.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v165) S1x7168x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v164) S1x7168x32.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg9) S32x32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v166) S1x32.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg11) S32x32.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v167) S1x32.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v168) S1x7168x32.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v168) S1x7168x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v175) S1x1x32.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v176) S1x1x32.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v177) S1x32.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v178) S1x32.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v179) S1x7168x32.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S4x800000 : Shape := ⟨2, ![4, 800000]⟩
abbrev S128x32 : Shape := ⟨2, ![128, 32]⟩
abbrev S32 : Shape := ⟨1, ![32]⟩
abbrev S32x32 : Shape := ⟨2, ![32, 32]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x32 : Shape := ⟨2, ![50000, 32]⟩
abbrev S1x32 : Shape := ⟨2, ![1, 32]⟩
abbrev S800000x32 : Shape := ⟨2, ![800000, 32]⟩
abbrev S1x128 : Shape := ⟨2, ![1, 128]⟩
abbrev S1x50000x128 : Shape := ⟨3, ![1, 50000, 128]⟩
abbrev S3x50000x128 : Shape := ⟨3, ![3, 50000, 128]⟩

abbrev nBuf : Space → Nat
  | .hbm => 647
  | .vmem => 0
  | .smem => 0
  | _ => 0

abbrev hbmTy0_0 (i : Nat) : BufTy := match i % 128 with
  | 0 => ⟨S50000x128, .f32⟩
  | 1 => ⟨S2x800000, .i32⟩
  | 2 => ⟨S4x800000, .f32⟩
  | 3 => ⟨S128x32, .f32⟩
  | 4 => ⟨S32, .f32⟩
  | 5 => ⟨S32x32, .f32⟩
  | 6 => ⟨S32, .f32⟩
  | 7 => ⟨S32, .f32⟩
  | 8 => ⟨S32, .f32⟩
  | 9 => ⟨S32x32, .f32⟩
  | 10 => ⟨S32, .f32⟩
  | 11 => ⟨S32x32, .f32⟩
  | 12 => ⟨S32, .f32⟩
  | 13 => ⟨S32, .f32⟩
  | 14 => ⟨S32, .f32⟩
  | 15 => ⟨S128x128, .f32⟩
  | 16 => ⟨S128, .f32⟩
  | 17 => ⟨S1x800000, .i32⟩
  | 18 => ⟨S800000, .i32⟩
  | 19 => ⟨S1x800000, .i32⟩
  | 20 => ⟨S800000, .i32⟩
  | 21 => ⟨S1x800000, .f32⟩
  | 22 => ⟨S800000, .f32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S800000x128, .f32⟩
  | 32 => ⟨S800000x1, .f32⟩
  | 33 => ⟨S800000x128, .f32⟩
  | 34 => ⟨S800000x128, .f32⟩
  | 35 => ⟨S_, .f32⟩
  | 36 => ⟨S50000x128, .f32⟩
  | 37 => ⟨S800000x1, .i32⟩
  | 38 => ⟨S50000x128, .f32⟩
  | 39 => ⟨S50000x128, .f32⟩
  | 40 => ⟨S50000x32, .f32⟩
  | 41 => ⟨S1x32, .f32⟩
  | 42 => ⟨S50000x32, .f32⟩
  | 43 => ⟨S50000x32, .f32⟩
  | 44 => ⟨S_, .f32⟩
  | 45 => ⟨S50000x32, .f32⟩
  | 46 => ⟨S50000x32, .f32⟩
  | 47 => ⟨S50000x32, .f32⟩
  | 48 => ⟨S1x32, .f32⟩
  | 49 => ⟨S50000x32, .f32⟩
  | 50 => ⟨S50000x32, .f32⟩
  | 51 => ⟨S_, .f32⟩
  | 52 => ⟨S32, .f32⟩
  | 53 => ⟨S_, .f32⟩
  | 54 => ⟨S32, .f32⟩
  | 55 => ⟨S32, .f32⟩
  | 56 => ⟨S_, .i32⟩
  | 57 => ⟨S_, .f32⟩
  | 58 => ⟨S32, .f32⟩
  | 59 => ⟨S1x32, .f32⟩
  | 60 => ⟨S_, .f32⟩
  | 61 => ⟨S1x32, .f32⟩
  | 62 => ⟨S1x32, .f32⟩
  | 63 => ⟨S50000x32, .f32⟩
  | 64 => ⟨S50000x32, .f32⟩
  | 65 => ⟨S50000x32, .f32⟩
  | 66 => ⟨S_, .f32⟩
  | 67 => ⟨S_, .f32⟩
  | 68 => ⟨S_, .f32⟩
  | 69 => ⟨S_, .f32⟩
  | 70 => ⟨S32, .f32⟩
  | 71 => ⟨S32, .f32⟩
  | 72 => ⟨S32, .f32⟩
  | 73 => ⟨S_, .f32⟩
  | 74 => ⟨S_, .i1⟩
  | 75 => ⟨S_, .f32⟩
  | 76 => ⟨S_, .f32⟩
  | 77 => ⟨S32, .f32⟩
  | 78 => ⟨S32, .f32⟩
  | 79 => ⟨S1x32, .f32⟩
  | 80 => ⟨S50000x32, .f32⟩
  | 81 => ⟨S50000x32, .f32⟩
  | 82 => ⟨S_, .f32⟩
  | 83 => ⟨S32, .f32⟩
  | 84 => ⟨S32, .f32⟩
  | 85 => ⟨S32, .f32⟩
  | 86 => ⟨S1x32, .f32⟩
  | 87 => ⟨S50000x32, .f32⟩
  | 88 => ⟨S50000x32, .f32⟩
  | 89 => ⟨S1x32, .f32⟩
  | 90 => ⟨S50000x32, .f32⟩
  | 91 => ⟨S50000x32, .f32⟩
  | 92 => ⟨S1x32, .f32⟩
  | 93 => ⟨S50000x32, .f32⟩
  | 94 => ⟨S50000x32, .f32⟩
  | 95 => ⟨S_, .f32⟩
  | 96 => ⟨S50000x32, .f32⟩
  | 97 => ⟨S50000x32, .f32⟩
  | 98 => ⟨S1x800000, .f32⟩
  | 99 => ⟨S800000, .f32⟩
  | 100 => ⟨S_, .i32⟩
  | 101 => ⟨S800000, .i32⟩
  | 102 => ⟨S800000, .i1⟩
  | 103 => ⟨S_, .i32⟩
  | 104 => ⟨S800000, .i32⟩
  | 105 => ⟨S800000, .i32⟩
  | 106 => ⟨S800000, .i32⟩
  | 107 => ⟨S800000x1, .i32⟩
  | 108 => ⟨S800000x32, .f32⟩
  | 109 => ⟨S800000x1, .f32⟩
  | 110 => ⟨S800000x32, .f32⟩
  | 111 => ⟨S800000x32, .f32⟩
  | 112 => ⟨S_, .f32⟩
  | 113 => ⟨S50000x32, .f32⟩
  | 114 => ⟨S800000x1, .i32⟩
  | 115 => ⟨S50000x32, .f32⟩
  | 116 => ⟨S50000x32, .f32⟩
  | 117 => ⟨S50000x32, .f32⟩
  | 118 => ⟨S1x32, .f32⟩
  | 119 => ⟨S50000x32, .f32⟩
  | 120 => ⟨S50000x32, .f32⟩
  | 121 => ⟨S_, .f32⟩
  | 122 => ⟨S50000x32, .f32⟩
  | 123 => ⟨S50000x32, .f32⟩
  | 124 => ⟨S50000x32, .f32⟩
  | 125 => ⟨S1x32, .f32⟩
  | 126 => ⟨S50000x32, .f32⟩
  | 127 => ⟨S50000x32, .f32⟩
  | _ => ⟨S50000x128, .f32⟩

abbrev hbmTy0_1 (i : Nat) : BufTy := match i % 128 with
  | 0 => ⟨S_, .f32⟩
  | 1 => ⟨S32, .f32⟩
  | 2 => ⟨S_, .f32⟩
  | 3 => ⟨S32, .f32⟩
  | 4 => ⟨S32, .f32⟩
  | 5 => ⟨S_, .i32⟩
  | 6 => ⟨S_, .f32⟩
  | 7 => ⟨S32, .f32⟩
  | 8 => ⟨S1x32, .f32⟩
  | 9 => ⟨S_, .f32⟩
  | 10 => ⟨S1x32, .f32⟩
  | 11 => ⟨S1x32, .f32⟩
  | 12 => ⟨S50000x32, .f32⟩
  | 13 => ⟨S50000x32, .f32⟩
  | 14 => ⟨S50000x32, .f32⟩
  | 15 => ⟨S_, .f32⟩
  | 16 => ⟨S_, .f32⟩
  | 17 => ⟨S_, .f32⟩
  | 18 => ⟨S_, .f32⟩
  | 19 => ⟨S32, .f32⟩
  | 20 => ⟨S32, .f32⟩
  | 21 => ⟨S32, .f32⟩
  | 22 => ⟨S_, .f32⟩
  | 23 => ⟨S_, .i1⟩
  | 24 => ⟨S_, .f32⟩
  | 25 => ⟨S_, .f32⟩
  | 26 => ⟨S32, .f32⟩
  | 27 => ⟨S32, .f32⟩
  | 28 => ⟨S1x32, .f32⟩
  | 29 => ⟨S50000x32, .f32⟩
  | 30 => ⟨S50000x32, .f32⟩
  | 31 => ⟨S_, .f32⟩
  | 32 => ⟨S32, .f32⟩
  | 33 => ⟨S32, .f32⟩
  | 34 => ⟨S32, .f32⟩
  | 35 => ⟨S1x32, .f32⟩
  | 36 => ⟨S50000x32, .f32⟩
  | 37 => ⟨S50000x32, .f32⟩
  | 38 => ⟨S1x32, .f32⟩
  | 39 => ⟨S50000x32, .f32⟩
  | 40 => ⟨S50000x32, .f32⟩
  | 41 => ⟨S1x32, .f32⟩
  | 42 => ⟨S50000x32, .f32⟩
  | 43 => ⟨S50000x32, .f32⟩
  | 44 => ⟨S_, .f32⟩
  | 45 => ⟨S50000x32, .f32⟩
  | 46 => ⟨S50000x32, .f32⟩
  | 47 => ⟨S1x800000, .f32⟩
  | 48 => ⟨S800000, .f32⟩
  | 49 => ⟨S_, .i32⟩
  | 50 => ⟨S800000, .i32⟩
  | 51 => ⟨S800000, .i1⟩
  | 52 => ⟨S_, .i32⟩
  | 53 => ⟨S800000, .i32⟩
  | 54 => ⟨S800000, .i32⟩
  | 55 => ⟨S800000, .i32⟩
  | 56 => ⟨S800000x1, .i32⟩
  | 57 => ⟨S800000x128, .f32⟩
  | 58 => ⟨S800000x1, .f32⟩
  | 59 => ⟨S800000x128, .f32⟩
  | 60 => ⟨S800000x128, .f32⟩
  | 61 => ⟨S_, .f32⟩
  | 62 => ⟨S50000x128, .f32⟩
  | 63 => ⟨S800000x1, .i32⟩
  | 64 => ⟨S50000x128, .f32⟩
  | 65 => ⟨S50000x128, .f32⟩
  | 66 => ⟨S50000x32, .f32⟩
  | 67 => ⟨S1x32, .f32⟩
  | 68 => ⟨S50000x32, .f32⟩
  | 69 => ⟨S50000x32, .f32⟩
  | 70 => ⟨S_, .f32⟩
  | 71 => ⟨S50000x32, .f32⟩
  | 72 => ⟨S50000x32, .f32⟩
  | 73 => ⟨S50000x32, .f32⟩
  | 74 => ⟨S1x32, .f32⟩
  | 75 => ⟨S50000x32, .f32⟩
  | 76 => ⟨S50000x32, .f32⟩
  | 77 => ⟨S_, .f32⟩
  | 78 => ⟨S32, .f32⟩
  | 79 => ⟨S_, .f32⟩
  | 80 => ⟨S32, .f32⟩
  | 81 => ⟨S32, .f32⟩
  | 82 => ⟨S_, .i32⟩
  | 83 => ⟨S_, .f32⟩
  | 84 => ⟨S32, .f32⟩
  | 85 => ⟨S1x32, .f32⟩
  | 86 => ⟨S_, .f32⟩
  | 87 => ⟨S1x32, .f32⟩
  | 88 => ⟨S1x32, .f32⟩
  | 89 => ⟨S50000x32, .f32⟩
  | 90 => ⟨S50000x32, .f32⟩
  | 91 => ⟨S50000x32, .f32⟩
  | 92 => ⟨S_, .f32⟩
  | 93 => ⟨S_, .f32⟩
  | 94 => ⟨S_, .f32⟩
  | 95 => ⟨S_, .f32⟩
  | 96 => ⟨S32, .f32⟩
  | 97 => ⟨S32, .f32⟩
  | 98 => ⟨S32, .f32⟩
  | 99 => ⟨S_, .f32⟩
  | 100 => ⟨S_, .i1⟩
  | 101 => ⟨S_, .f32⟩
  | 102 => ⟨S_, .f32⟩
  | 103 => ⟨S32, .f32⟩
  | 104 => ⟨S32, .f32⟩
  | 105 => ⟨S1x32, .f32⟩
  | 106 => ⟨S50000x32, .f32⟩
  | 107 => ⟨S50000x32, .f32⟩
  | 108 => ⟨S_, .f32⟩
  | 109 => ⟨S32, .f32⟩
  | 110 => ⟨S32, .f32⟩
  | 111 => ⟨S32, .f32⟩
  | 112 => ⟨S1x32, .f32⟩
  | 113 => ⟨S50000x32, .f32⟩
  | 114 => ⟨S50000x32, .f32⟩
  | 115 => ⟨S1x32, .f32⟩
  | 116 => ⟨S50000x32, .f32⟩
  | 117 => ⟨S50000x32, .f32⟩
  | 118 => ⟨S1x32, .f32⟩
  | 119 => ⟨S50000x32, .f32⟩
  | 120 => ⟨S50000x32, .f32⟩
  | 121 => ⟨S_, .f32⟩
  | 122 => ⟨S50000x32, .f32⟩
  | 123 => ⟨S50000x32, .f32⟩
  | 124 => ⟨S1x800000, .f32⟩
  | 125 => ⟨S800000, .f32⟩
  | 126 => ⟨S_, .i32⟩
  | 127 => ⟨S800000, .i32⟩
  | _ => ⟨S50000x128, .f32⟩

abbrev hbmTy0_2 (i : Nat) : BufTy := match i % 128 with
  | 0 => ⟨S800000, .i1⟩
  | 1 => ⟨S_, .i32⟩
  | 2 => ⟨S800000, .i32⟩
  | 3 => ⟨S800000, .i32⟩
  | 4 => ⟨S800000, .i32⟩
  | 5 => ⟨S800000x1, .i32⟩
  | 6 => ⟨S800000x32, .f32⟩
  | 7 => ⟨S800000x1, .f32⟩
  | 8 => ⟨S800000x32, .f32⟩
  | 9 => ⟨S800000x32, .f32⟩
  | 10 => ⟨S_, .f32⟩
  | 11 => ⟨S50000x32, .f32⟩
  | 12 => ⟨S800000x1, .i32⟩
  | 13 => ⟨S50000x32, .f32⟩
  | 14 => ⟨S50000x32, .f32⟩
  | 15 => ⟨S50000x32, .f32⟩
  | 16 => ⟨S1x32, .f32⟩
  | 17 => ⟨S50000x32, .f32⟩
  | 18 => ⟨S50000x32, .f32⟩
  | 19 => ⟨S_, .f32⟩
  | 20 => ⟨S50000x32, .f32⟩
  | 21 => ⟨S50000x32, .f32⟩
  | 22 => ⟨S50000x32, .f32⟩
  | 23 => ⟨S1x32, .f32⟩
  | 24 => ⟨S50000x32, .f32⟩
  | 25 => ⟨S50000x32, .f32⟩
  | 26 => ⟨S_, .f32⟩
  | 27 => ⟨S32, .f32⟩
  | 28 => ⟨S_, .f32⟩
  | 29 => ⟨S32, .f32⟩
  | 30 => ⟨S32, .f32⟩
  | 31 => ⟨S_, .i32⟩
  | 32 => ⟨S_, .f32⟩
  | 33 => ⟨S32, .f32⟩
  | 34 => ⟨S1x32, .f32⟩
  | 35 => ⟨S_, .f32⟩
  | 36 => ⟨S1x32, .f32⟩
  | 37 => ⟨S1x32, .f32⟩
  | 38 => ⟨S50000x32, .f32⟩
  | 39 => ⟨S50000x32, .f32⟩
  | 40 => ⟨S50000x32, .f32⟩
  | 41 => ⟨S_, .f32⟩
  | 42 => ⟨S_, .f32⟩
  | 43 => ⟨S_, .f32⟩
  | 44 => ⟨S_, .f32⟩
  | 45 => ⟨S32, .f32⟩
  | 46 => ⟨S32, .f32⟩
  | 47 => ⟨S32, .f32⟩
  | 48 => ⟨S_, .f32⟩
  | 49 => ⟨S_, .i1⟩
  | 50 => ⟨S_, .f32⟩
  | 51 => ⟨S_, .f32⟩
  | 52 => ⟨S32, .f32⟩
  | 53 => ⟨S32, .f32⟩
  | 54 => ⟨S1x32, .f32⟩
  | 55 => ⟨S50000x32, .f32⟩
  | 56 => ⟨S50000x32, .f32⟩
  | 57 => ⟨S_, .f32⟩
  | 58 => ⟨S32, .f32⟩
  | 59 => ⟨S32, .f32⟩
  | 60 => ⟨S32, .f32⟩
  | 61 => ⟨S1x32, .f32⟩
  | 62 => ⟨S50000x32, .f32⟩
  | 63 => ⟨S50000x32, .f32⟩
  | 64 => ⟨S1x32, .f32⟩
  | 65 => ⟨S50000x32, .f32⟩
  | 66 => ⟨S50000x32, .f32⟩
  | 67 => ⟨S1x32, .f32⟩
  | 68 => ⟨S50000x32, .f32⟩
  | 69 => ⟨S50000x32, .f32⟩
  | 70 => ⟨S_, .f32⟩
  | 71 => ⟨S50000x32, .f32⟩
  | 72 => ⟨S50000x32, .f32⟩
  | 73 => ⟨S1x800000, .f32⟩
  | 74 => ⟨S800000, .f32⟩
  | 75 => ⟨S_, .i32⟩
  | 76 => ⟨S800000, .i32⟩
  | 77 => ⟨S800000, .i1⟩
  | 78 => ⟨S_, .i32⟩
  | 79 => ⟨S800000, .i32⟩
  | 80 => ⟨S800000, .i32⟩
  | 81 => ⟨S800000, .i32⟩
  | 82 => ⟨S800000x1, .i32⟩
  | 83 => ⟨S800000x128, .f32⟩
  | 84 => ⟨S800000x1, .f32⟩
  | 85 => ⟨S800000x128, .f32⟩
  | 86 => ⟨S800000x128, .f32⟩
  | 87 => ⟨S_, .f32⟩
  | 88 => ⟨S50000x128, .f32⟩
  | 89 => ⟨S800000x1, .i32⟩
  | 90 => ⟨S50000x128, .f32⟩
  | 91 => ⟨S50000x128, .f32⟩
  | 92 => ⟨S50000x32, .f32⟩
  | 93 => ⟨S1x32, .f32⟩
  | 94 => ⟨S50000x32, .f32⟩
  | 95 => ⟨S50000x32, .f32⟩
  | 96 => ⟨S_, .f32⟩
  | 97 => ⟨S50000x32, .f32⟩
  | 98 => ⟨S50000x32, .f32⟩
  | 99 => ⟨S50000x32, .f32⟩
  | 100 => ⟨S1x32, .f32⟩
  | 101 => ⟨S50000x32, .f32⟩
  | 102 => ⟨S50000x32, .f32⟩
  | 103 => ⟨S_, .f32⟩
  | 104 => ⟨S32, .f32⟩
  | 105 => ⟨S_, .f32⟩
  | 106 => ⟨S32, .f32⟩
  | 107 => ⟨S32, .f32⟩
  | 108 => ⟨S_, .i32⟩
  | 109 => ⟨S_, .f32⟩
  | 110 => ⟨S32, .f32⟩
  | 111 => ⟨S1x32, .f32⟩
  | 112 => ⟨S_, .f32⟩
  | 113 => ⟨S1x32, .f32⟩
  | 114 => ⟨S1x32, .f32⟩
  | 115 => ⟨S50000x32, .f32⟩
  | 116 => ⟨S50000x32, .f32⟩
  | 117 => ⟨S50000x32, .f32⟩
  | 118 => ⟨S_, .f32⟩
  | 119 => ⟨S_, .f32⟩
  | 120 => ⟨S_, .f32⟩
  | 121 => ⟨S_, .f32⟩
  | 122 => ⟨S32, .f32⟩
  | 123 => ⟨S32, .f32⟩
  | 124 => ⟨S32, .f32⟩
  | 125 => ⟨S_, .f32⟩
  | 126 => ⟨S_, .i1⟩
  | 127 => ⟨S_, .f32⟩
  | _ => ⟨S50000x128, .f32⟩

abbrev hbmTy0_3 (i : Nat) : BufTy := match i % 128 with
  | 0 => ⟨S_, .f32⟩
  | 1 => ⟨S32, .f32⟩
  | 2 => ⟨S32, .f32⟩
  | 3 => ⟨S1x32, .f32⟩
  | 4 => ⟨S50000x32, .f32⟩
  | 5 => ⟨S50000x32, .f32⟩
  | 6 => ⟨S_, .f32⟩
  | 7 => ⟨S32, .f32⟩
  | 8 => ⟨S32, .f32⟩
  | 9 => ⟨S32, .f32⟩
  | 10 => ⟨S1x32, .f32⟩
  | 11 => ⟨S50000x32, .f32⟩
  | 12 => ⟨S50000x32, .f32⟩
  | 13 => ⟨S1x32, .f32⟩
  | 14 => ⟨S50000x32, .f32⟩
  | 15 => ⟨S50000x32, .f32⟩
  | 16 => ⟨S1x32, .f32⟩
  | 17 => ⟨S50000x32, .f32⟩
  | 18 => ⟨S50000x32, .f32⟩
  | 19 => ⟨S_, .f32⟩
  | 20 => ⟨S50000x32, .f32⟩
  | 21 => ⟨S50000x32, .f32⟩
  | 22 => ⟨S1x800000, .f32⟩
  | 23 => ⟨S800000, .f32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S800000x32, .f32⟩
  | 33 => ⟨S800000x1, .f32⟩
  | 34 => ⟨S800000x32, .f32⟩
  | 35 => ⟨S800000x32, .f32⟩
  | 36 => ⟨S_, .f32⟩
  | 37 => ⟨S50000x32, .f32⟩
  | 38 => ⟨S800000x1, .i32⟩
  | 39 => ⟨S50000x32, .f32⟩
  | 40 => ⟨S50000x32, .f32⟩
  | 41 => ⟨S50000x32, .f32⟩
  | 42 => ⟨S1x32, .f32⟩
  | 43 => ⟨S50000x32, .f32⟩
  | 44 => ⟨S50000x32, .f32⟩
  | 45 => ⟨S_, .f32⟩
  | 46 => ⟨S50000x32, .f32⟩
  | 47 => ⟨S50000x32, .f32⟩
  | 48 => ⟨S50000x32, .f32⟩
  | 49 => ⟨S1x32, .f32⟩
  | 50 => ⟨S50000x32, .f32⟩
  | 51 => ⟨S50000x32, .f32⟩
  | 52 => ⟨S_, .f32⟩
  | 53 => ⟨S32, .f32⟩
  | 54 => ⟨S_, .f32⟩
  | 55 => ⟨S32, .f32⟩
  | 56 => ⟨S32, .f32⟩
  | 57 => ⟨S_, .i32⟩
  | 58 => ⟨S_, .f32⟩
  | 59 => ⟨S32, .f32⟩
  | 60 => ⟨S1x32, .f32⟩
  | 61 => ⟨S_, .f32⟩
  | 62 => ⟨S1x32, .f32⟩
  | 63 => ⟨S1x32, .f32⟩
  | 64 => ⟨S50000x32, .f32⟩
  | 65 => ⟨S50000x32, .f32⟩
  | 66 => ⟨S50000x32, .f32⟩
  | 67 => ⟨S_, .f32⟩
  | 68 => ⟨S_, .f32⟩
  | 69 => ⟨S_, .f32⟩
  | 70 => ⟨S_, .f32⟩
  | 71 => ⟨S32, .f32⟩
  | 72 => ⟨S32, .f32⟩
  | 73 => ⟨S32, .f32⟩
  | 74 => ⟨S_, .f32⟩
  | 75 => ⟨S_, .i1⟩
  | 76 => ⟨S_, .f32⟩
  | 77 => ⟨S_, .f32⟩
  | 78 => ⟨S32, .f32⟩
  | 79 => ⟨S32, .f32⟩
  | 80 => ⟨S1x32, .f32⟩
  | 81 => ⟨S50000x32, .f32⟩
  | 82 => ⟨S50000x32, .f32⟩
  | 83 => ⟨S_, .f32⟩
  | 84 => ⟨S32, .f32⟩
  | 85 => ⟨S32, .f32⟩
  | 86 => ⟨S32, .f32⟩
  | 87 => ⟨S1x32, .f32⟩
  | 88 => ⟨S50000x32, .f32⟩
  | 89 => ⟨S50000x32, .f32⟩
  | 90 => ⟨S1x32, .f32⟩
  | 91 => ⟨S50000x32, .f32⟩
  | 92 => ⟨S50000x32, .f32⟩
  | 93 => ⟨S1x32, .f32⟩
  | 94 => ⟨S50000x32, .f32⟩
  | 95 => ⟨S50000x32, .f32⟩
  | 96 => ⟨S_, .f32⟩
  | 97 => ⟨S50000x32, .f32⟩
  | 98 => ⟨S50000x32, .f32⟩
  | 99 => ⟨S1x800000, .f32⟩
  | 100 => ⟨S800000, .f32⟩
  | 101 => ⟨S_, .i32⟩
  | 102 => ⟨S800000, .i32⟩
  | 103 => ⟨S800000, .i1⟩
  | 104 => ⟨S_, .i32⟩
  | 105 => ⟨S800000, .i32⟩
  | 106 => ⟨S800000, .i32⟩
  | 107 => ⟨S800000, .i32⟩
  | 108 => ⟨S800000x1, .i32⟩
  | 109 => ⟨S800000x128, .f32⟩
  | 110 => ⟨S800000x1, .f32⟩
  | 111 => ⟨S800000x128, .f32⟩
  | 112 => ⟨S800000x128, .f32⟩
  | 113 => ⟨S_, .f32⟩
  | 114 => ⟨S50000x128, .f32⟩
  | 115 => ⟨S800000x1, .i32⟩
  | 116 => ⟨S50000x128, .f32⟩
  | 117 => ⟨S50000x128, .f32⟩
  | 118 => ⟨S50000x32, .f32⟩
  | 119 => ⟨S1x32, .f32⟩
  | 120 => ⟨S50000x32, .f32⟩
  | 121 => ⟨S50000x32, .f32⟩
  | 122 => ⟨S_, .f32⟩
  | 123 => ⟨S50000x32, .f32⟩
  | 124 => ⟨S50000x32, .f32⟩
  | 125 => ⟨S50000x32, .f32⟩
  | 126 => ⟨S1x32, .f32⟩
  | 127 => ⟨S50000x32, .f32⟩
  | _ => ⟨S50000x128, .f32⟩

abbrev hbmTy0_4 (i : Nat) : BufTy := match i % 128 with
  | 0 => ⟨S50000x32, .f32⟩
  | 1 => ⟨S_, .f32⟩
  | 2 => ⟨S32, .f32⟩
  | 3 => ⟨S_, .f32⟩
  | 4 => ⟨S32, .f32⟩
  | 5 => ⟨S32, .f32⟩
  | 6 => ⟨S_, .i32⟩
  | 7 => ⟨S_, .f32⟩
  | 8 => ⟨S32, .f32⟩
  | 9 => ⟨S1x32, .f32⟩
  | 10 => ⟨S_, .f32⟩
  | 11 => ⟨S1x32, .f32⟩
  | 12 => ⟨S1x32, .f32⟩
  | 13 => ⟨S50000x32, .f32⟩
  | 14 => ⟨S50000x32, .f32⟩
  | 15 => ⟨S50000x32, .f32⟩
  | 16 => ⟨S_, .f32⟩
  | 17 => ⟨S_, .f32⟩
  | 18 => ⟨S_, .f32⟩
  | 19 => ⟨S_, .f32⟩
  | 20 => ⟨S32, .f32⟩
  | 21 => ⟨S32, .f32⟩
  | 22 => ⟨S32, .f32⟩
  | 23 => ⟨S_, .f32⟩
  | 24 => ⟨S_, .i1⟩
  | 25 => ⟨S_, .f32⟩
  | 26 => ⟨S_, .f32⟩
  | 27 => ⟨S32, .f32⟩
  | 28 => ⟨S32, .f32⟩
  | 29 => ⟨S1x32, .f32⟩
  | 30 => ⟨S50000x32, .f32⟩
  | 31 => ⟨S50000x32, .f32⟩
  | 32 => ⟨S_, .f32⟩
  | 33 => ⟨S32, .f32⟩
  | 34 => ⟨S32, .f32⟩
  | 35 => ⟨S32, .f32⟩
  | 36 => ⟨S1x32, .f32⟩
  | 37 => ⟨S50000x32, .f32⟩
  | 38 => ⟨S50000x32, .f32⟩
  | 39 => ⟨S1x32, .f32⟩
  | 40 => ⟨S50000x32, .f32⟩
  | 41 => ⟨S50000x32, .f32⟩
  | 42 => ⟨S1x32, .f32⟩
  | 43 => ⟨S50000x32, .f32⟩
  | 44 => ⟨S50000x32, .f32⟩
  | 45 => ⟨S_, .f32⟩
  | 46 => ⟨S50000x32, .f32⟩
  | 47 => ⟨S50000x32, .f32⟩
  | 48 => ⟨S1x800000, .f32⟩
  | 49 => ⟨S800000, .f32⟩
  | 50 => ⟨S_, .i32⟩
  | 51 => ⟨S800000, .i32⟩
  | 52 => ⟨S800000, .i1⟩
  | 53 => ⟨S_, .i32⟩
  | 54 => ⟨S800000, .i32⟩
  | 55 => ⟨S800000, .i32⟩
  | 56 => ⟨S800000, .i32⟩
  | 57 => ⟨S800000x1, .i32⟩
  | 58 => ⟨S800000x32, .f32⟩
  | 59 => ⟨S800000x1, .f32⟩
  | 60 => ⟨S800000x32, .f32⟩
  | 61 => ⟨S800000x32, .f32⟩
  | 62 => ⟨S_, .f32⟩
  | 63 => ⟨S50000x32, .f32⟩
  | 64 => ⟨S800000x1, .i32⟩
  | 65 => ⟨S50000x32, .f32⟩
  | 66 => ⟨S50000x32, .f32⟩
  | 67 => ⟨S50000x32, .f32⟩
  | 68 => ⟨S1x32, .f32⟩
  | 69 => ⟨S50000x32, .f32⟩
  | 70 => ⟨S50000x32, .f32⟩
  | 71 => ⟨S_, .f32⟩
  | 72 => ⟨S50000x32, .f32⟩
  | 73 => ⟨S50000x32, .f32⟩
  | 74 => ⟨S50000x32, .f32⟩
  | 75 => ⟨S1x32, .f32⟩
  | 76 => ⟨S50000x32, .f32⟩
  | 77 => ⟨S50000x32, .f32⟩
  | 78 => ⟨S_, .f32⟩
  | 79 => ⟨S32, .f32⟩
  | 80 => ⟨S_, .f32⟩
  | 81 => ⟨S32, .f32⟩
  | 82 => ⟨S32, .f32⟩
  | 83 => ⟨S_, .i32⟩
  | 84 => ⟨S_, .f32⟩
  | 85 => ⟨S32, .f32⟩
  | 86 => ⟨S1x32, .f32⟩
  | 87 => ⟨S_, .f32⟩
  | 88 => ⟨S1x32, .f32⟩
  | 89 => ⟨S1x32, .f32⟩
  | 90 => ⟨S50000x32, .f32⟩
  | 91 => ⟨S50000x32, .f32⟩
  | 92 => ⟨S50000x32, .f32⟩
  | 93 => ⟨S_, .f32⟩
  | 94 => ⟨S_, .f32⟩
  | 95 => ⟨S_, .f32⟩
  | 96 => ⟨S_, .f32⟩
  | 97 => ⟨S32, .f32⟩
  | 98 => ⟨S32, .f32⟩
  | 99 => ⟨S32, .f32⟩
  | 100 => ⟨S_, .f32⟩
  | 101 => ⟨S_, .i1⟩
  | 102 => ⟨S_, .f32⟩
  | 103 => ⟨S_, .f32⟩
  | 104 => ⟨S32, .f32⟩
  | 105 => ⟨S32, .f32⟩
  | 106 => ⟨S1x32, .f32⟩
  | 107 => ⟨S50000x32, .f32⟩
  | 108 => ⟨S50000x32, .f32⟩
  | 109 => ⟨S_, .f32⟩
  | 110 => ⟨S32, .f32⟩
  | 111 => ⟨S32, .f32⟩
  | 112 => ⟨S32, .f32⟩
  | 113 => ⟨S1x32, .f32⟩
  | 114 => ⟨S50000x32, .f32⟩
  | 115 => ⟨S50000x32, .f32⟩
  | 116 => ⟨S1x32, .f32⟩
  | 117 => ⟨S50000x32, .f32⟩
  | 118 => ⟨S50000x32, .f32⟩
  | 119 => ⟨S1x32, .f32⟩
  | 120 => ⟨S50000x32, .f32⟩
  | 121 => ⟨S50000x32, .f32⟩
  | 122 => ⟨S_, .f32⟩
  | 123 => ⟨S50000x32, .f32⟩
  | 124 => ⟨S50000x32, .f32⟩
  | 125 => ⟨S50000x128, .f32⟩
  | 126 => ⟨S50000x128, .f32⟩
  | 127 => ⟨S50000x128, .f32⟩
  | _ => ⟨S50000x128, .f32⟩

abbrev hbmTy0_5 (i : Nat) : BufTy := match i % 128 with
  | 0 => ⟨S1x128, .f32⟩
  | 1 => ⟨S50000x128, .f32⟩
  | 2 => ⟨S50000x128, .f32⟩
  | 3 => ⟨S1x50000x128, .f32⟩
  | 4 => ⟨S1x50000x128, .f32⟩
  | 5 => ⟨S1x50000x128, .f32⟩
  | 6 => ⟨S3x50000x128, .f32⟩
  | _ => ⟨S50000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_c : Ref sig .tc := ⟨.hbm, 23, rfl⟩
abbrev main_v6 : Ref sig .tc := ⟨.hbm, 24, rfl⟩
abbrev main_v7 : Ref sig .tc := ⟨.hbm, 25, rfl⟩
abbrev main_c_0 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_call0_cst : Ref sig .tc := ⟨.hbm, 44, rfl⟩
abbrev main_call0_v0 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_1 : Ref sig .tc := ⟨.hbm, 51, rfl⟩
abbrev main_v29 : Ref sig .tc := ⟨.hbm, 52, rfl⟩
abbrev main_cst_2 : Ref sig .tc := ⟨.hbm, 53, rfl⟩
abbrev main_v30 : Ref sig .tc := ⟨.hbm, 54, rfl⟩
abbrev main_v31 : Ref sig .tc := ⟨.hbm, 55, rfl⟩
abbrev main_c_3 : Ref sig .tc := ⟨.hbm, 56, rfl⟩
abbrev main_call1_cst : Ref sig .tc := ⟨.hbm, 57, rfl⟩
abbrev main_call1_v0 : Ref sig .tc := ⟨.hbm, 58, rfl⟩
abbrev main_call1_v1 : Ref sig .tc := ⟨.hbm, 59, rfl⟩
abbrev main_call1_cst_0 : Ref sig .tc := ⟨.hbm, 60, rfl⟩
abbrev main_call1_v2 : Ref sig .tc := ⟨.hbm, 61, rfl⟩
abbrev main_call1_v3 : Ref sig .tc := ⟨.hbm, 62, rfl⟩
abbrev main_call1_v4 : Ref sig .tc := ⟨.hbm, 63, rfl⟩
abbrev main_call1_v5 : Ref sig .tc := ⟨.hbm, 64, rfl⟩
abbrev main_call1_v6 : Ref sig .tc := ⟨.hbm, 65, rfl⟩
abbrev main_call1_v7 : Ref sig .tc := ⟨.hbm, 66, rfl⟩
abbrev main_call1_cst_1 : Ref sig .tc := ⟨.hbm, 67, rfl⟩
abbrev main_call1_v8 : Ref sig .tc := ⟨.hbm, 68, rfl⟩
abbrev main_call1_cst_2 : Ref sig .tc := ⟨.hbm, 69, rfl⟩
abbrev main_call1_v9 : Ref sig .tc := ⟨.hbm, 70, rfl⟩
abbrev main_call1_v10 : Ref sig .tc := ⟨.hbm, 71, rfl⟩
abbrev main_call1_v11 : Ref sig .tc := ⟨.hbm, 72, rfl⟩
abbrev main_call1_cst_3 : Ref sig .tc := ⟨.hbm, 73, rfl⟩
abbrev main_call1_v12 : Ref sig .tc := ⟨.hbm, 74, rfl⟩
abbrev main_call1_cst_4 : Ref sig .tc := ⟨.hbm, 75, rfl⟩
abbrev main_call1_call0_v0 : Ref sig .tc := ⟨.hbm, 76, rfl⟩
abbrev main_call1_call0_v1 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_cst_4 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_call2_cst : Ref sig .tc := ⟨.hbm, 95, rfl⟩
abbrev main_call2_v0 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_c_5 : Ref sig .tc := ⟨.hbm, 100, rfl⟩
abbrev main_v51 : Ref sig .tc := ⟨.hbm, 101, rfl⟩
abbrev main_v52 : Ref sig .tc := ⟨.hbm, 102, rfl⟩
abbrev main_c_6 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_cst_7 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_call3_cst : Ref sig .tc := ⟨.hbm, 121, rfl⟩
abbrev main_call3_v0 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_cst_8 : Ref sig .tc := ⟨.hbm, 128, rfl⟩
abbrev main_v74 : Ref sig .tc := ⟨.hbm, 129, rfl⟩
abbrev main_cst_9 : Ref sig .tc := ⟨.hbm, 130, rfl⟩
abbrev main_v75 : Ref sig .tc := ⟨.hbm, 131, rfl⟩
abbrev main_v76 : Ref sig .tc := ⟨.hbm, 132, rfl⟩
abbrev main_c_10 : Ref sig .tc := ⟨.hbm, 133, rfl⟩
abbrev main_call4_cst : Ref sig .tc := ⟨.hbm, 134, rfl⟩
abbrev main_call4_v0 : Ref sig .tc := ⟨.hbm, 135, rfl⟩
abbrev main_call4_v1 : Ref sig .tc := ⟨.hbm, 136, rfl⟩
abbrev main_call4_cst_0 : Ref sig .tc := ⟨.hbm, 137, rfl⟩
abbrev main_call4_v2 : Ref sig .tc := ⟨.hbm, 138, rfl⟩
abbrev main_call4_v3 : Ref sig .tc := ⟨.hbm, 139, rfl⟩
abbrev main_call4_v4 : Ref sig .tc := ⟨.hbm, 140, rfl⟩
abbrev main_call4_v5 : Ref sig .tc := ⟨.hbm, 141, rfl⟩
abbrev main_call4_v6 : Ref sig .tc := ⟨.hbm, 142, rfl⟩
abbrev main_call4_v7 : Ref sig .tc := ⟨.hbm, 143, rfl⟩
abbrev main_call4_cst_1 : Ref sig .tc := ⟨.hbm, 144, rfl⟩
abbrev main_call4_v8 : Ref sig .tc := ⟨.hbm, 145, rfl⟩
abbrev main_call4_cst_2 : Ref sig .tc := ⟨.hbm, 146, rfl⟩
abbrev main_call4_v9 : Ref sig .tc := ⟨.hbm, 147, rfl⟩
abbrev main_call4_v10 : Ref sig .tc := ⟨.hbm, 148, rfl⟩
abbrev main_call4_v11 : Ref sig .tc := ⟨.hbm, 149, rfl⟩
abbrev main_call4_cst_3 : Ref sig .tc := ⟨.hbm, 150, rfl⟩
abbrev main_call4_v12 : Ref sig .tc := ⟨.hbm, 151, rfl⟩
abbrev main_call4_cst_4 : Ref sig .tc := ⟨.hbm, 152, rfl⟩
abbrev main_call4_call0_v0 : Ref sig .tc := ⟨.hbm, 153, rfl⟩
abbrev main_call4_call0_v1 : Ref sig .tc := ⟨.hbm, 154, rfl⟩
abbrev main_v77 : Ref sig .tc := ⟨.hbm, 155, rfl⟩
abbrev main_v78 : Ref sig .tc := ⟨.hbm, 156, rfl⟩
abbrev main_v79 : Ref sig .tc := ⟨.hbm, 157, rfl⟩
abbrev main_v80 : Ref sig .tc := ⟨.hbm, 158, rfl⟩
abbrev main_cst_11 : Ref sig .tc := ⟨.hbm, 159, rfl⟩
abbrev main_v81 : Ref sig .tc := ⟨.hbm, 160, rfl⟩
abbrev main_v82 : Ref sig .tc := ⟨.hbm, 161, rfl⟩
abbrev main_v83 : Ref sig .tc := ⟨.hbm, 162, rfl⟩
abbrev main_v84 : Ref sig .tc := ⟨.hbm, 163, rfl⟩
abbrev main_v85 : Ref sig .tc := ⟨.hbm, 164, rfl⟩
abbrev main_v86 : Ref sig .tc := ⟨.hbm, 165, rfl⟩
abbrev main_v87 : Ref sig .tc := ⟨.hbm, 166, rfl⟩
abbrev main_v88 : Ref sig .tc := ⟨.hbm, 167, rfl⟩
abbrev main_v89 : Ref sig .tc := ⟨.hbm, 168, rfl⟩
abbrev main_v90 : Ref sig .tc := ⟨.hbm, 169, rfl⟩
abbrev main_v91 : Ref sig .tc := ⟨.hbm, 170, rfl⟩
abbrev main_v92 : Ref sig .tc := ⟨.hbm, 171, rfl⟩
abbrev main_call5_cst : Ref sig .tc := ⟨.hbm, 172, rfl⟩
abbrev main_call5_v0 : Ref sig .tc := ⟨.hbm, 173, rfl⟩
abbrev main_v93 : Ref sig .tc := ⟨.hbm, 174, rfl⟩
abbrev main_v94 : Ref sig .tc := ⟨.hbm, 175, rfl⟩
abbrev main_v95 : Ref sig .tc := ⟨.hbm, 176, rfl⟩
abbrev main_c_12 : Ref sig .tc := ⟨.hbm, 177, rfl⟩
abbrev main_v96 : Ref sig .tc := ⟨.hbm, 178, rfl⟩
abbrev main_v97 : Ref sig .tc := ⟨.hbm, 179, rfl⟩
abbrev main_c_13 : Ref sig .tc := ⟨.hbm, 180, rfl⟩
abbrev main_v98 : Ref sig .tc := ⟨.hbm, 181, rfl⟩
abbrev main_v99 : Ref sig .tc := ⟨.hbm, 182, rfl⟩
abbrev main_v100 : Ref sig .tc := ⟨.hbm, 183, rfl⟩
abbrev main_v101 : Ref sig .tc := ⟨.hbm, 184, rfl⟩
abbrev main_v102 : Ref sig .tc := ⟨.hbm, 185, rfl⟩
abbrev main_v103 : Ref sig .tc := ⟨.hbm, 186, rfl⟩
abbrev main_v104 : Ref sig .tc := ⟨.hbm, 187, rfl⟩
abbrev main_v105 : Ref sig .tc := ⟨.hbm, 188, rfl⟩
abbrev main_cst_14 : Ref sig .tc := ⟨.hbm, 189, rfl⟩
abbrev main_v106 : Ref sig .tc := ⟨.hbm, 190, rfl⟩
abbrev main_v107 : Ref sig .tc := ⟨.hbm, 191, rfl⟩
abbrev main_v108 : Ref sig .tc := ⟨.hbm, 192, rfl⟩
abbrev main_v109 : Ref sig .tc := ⟨.hbm, 193, rfl⟩
abbrev main_v110 : Ref sig .tc := ⟨.hbm, 194, rfl⟩
abbrev main_v111 : Ref sig .tc := ⟨.hbm, 195, rfl⟩
abbrev main_v112 : Ref sig .tc := ⟨.hbm, 196, rfl⟩
abbrev main_v113 : Ref sig .tc := ⟨.hbm, 197, rfl⟩
abbrev main_call6_cst : Ref sig .tc := ⟨.hbm, 198, rfl⟩
abbrev main_call6_v0 : Ref sig .tc := ⟨.hbm, 199, rfl⟩
abbrev main_v114 : Ref sig .tc := ⟨.hbm, 200, rfl⟩
abbrev main_v115 : Ref sig .tc := ⟨.hbm, 201, rfl⟩
abbrev main_v116 : Ref sig .tc := ⟨.hbm, 202, rfl⟩
abbrev main_v117 : Ref sig .tc := ⟨.hbm, 203, rfl⟩
abbrev main_v118 : Ref sig .tc := ⟨.hbm, 204, rfl⟩
abbrev main_cst_15 : Ref sig .tc := ⟨.hbm, 205, rfl⟩
abbrev main_v119 : Ref sig .tc := ⟨.hbm, 206, rfl⟩
abbrev main_cst_16 : Ref sig .tc := ⟨.hbm, 207, rfl⟩
abbrev main_v120 : Ref sig .tc := ⟨.hbm, 208, rfl⟩
abbrev main_v121 : Ref sig .tc := ⟨.hbm, 209, rfl⟩
abbrev main_c_17 : Ref sig .tc := ⟨.hbm, 210, rfl⟩
abbrev main_call7_cst : Ref sig .tc := ⟨.hbm, 211, rfl⟩
abbrev main_call7_v0 : Ref sig .tc := ⟨.hbm, 212, rfl⟩
abbrev main_call7_v1 : Ref sig .tc := ⟨.hbm, 213, rfl⟩
abbrev main_call7_cst_0 : Ref sig .tc := ⟨.hbm, 214, rfl⟩
abbrev main_call7_v2 : Ref sig .tc := ⟨.hbm, 215, rfl⟩
abbrev main_call7_v3 : Ref sig .tc := ⟨.hbm, 216, rfl⟩
abbrev main_call7_v4 : Ref sig .tc := ⟨.hbm, 217, rfl⟩
abbrev main_call7_v5 : Ref sig .tc := ⟨.hbm, 218, rfl⟩
abbrev main_call7_v6 : Ref sig .tc := ⟨.hbm, 219, rfl⟩
abbrev main_call7_v7 : Ref sig .tc := ⟨.hbm, 220, rfl⟩
abbrev main_call7_cst_1 : Ref sig .tc := ⟨.hbm, 221, rfl⟩
abbrev main_call7_v8 : Ref sig .tc := ⟨.hbm, 222, rfl⟩
abbrev main_call7_cst_2 : Ref sig .tc := ⟨.hbm, 223, rfl⟩
abbrev main_call7_v9 : Ref sig .tc := ⟨.hbm, 224, rfl⟩
abbrev main_call7_v10 : Ref sig .tc := ⟨.hbm, 225, rfl⟩
abbrev main_call7_v11 : Ref sig .tc := ⟨.hbm, 226, rfl⟩
abbrev main_call7_cst_3 : Ref sig .tc := ⟨.hbm, 227, rfl⟩
abbrev main_call7_v12 : Ref sig .tc := ⟨.hbm, 228, rfl⟩
abbrev main_call7_cst_4 : Ref sig .tc := ⟨.hbm, 229, rfl⟩
abbrev main_call7_call0_v0 : Ref sig .tc := ⟨.hbm, 230, rfl⟩
abbrev main_call7_call0_v1 : Ref sig .tc := ⟨.hbm, 231, rfl⟩
abbrev main_v122 : Ref sig .tc := ⟨.hbm, 232, rfl⟩
abbrev main_v123 : Ref sig .tc := ⟨.hbm, 233, rfl⟩
abbrev main_v124 : Ref sig .tc := ⟨.hbm, 234, rfl⟩
abbrev main_v125 : Ref sig .tc := ⟨.hbm, 235, rfl⟩
abbrev main_cst_18 : Ref sig .tc := ⟨.hbm, 236, rfl⟩
abbrev main_v126 : Ref sig .tc := ⟨.hbm, 237, rfl⟩
abbrev main_v127 : Ref sig .tc := ⟨.hbm, 238, rfl⟩
abbrev main_v128 : Ref sig .tc := ⟨.hbm, 239, rfl⟩
abbrev main_v129 : Ref sig .tc := ⟨.hbm, 240, rfl⟩
abbrev main_v130 : Ref sig .tc := ⟨.hbm, 241, rfl⟩
abbrev main_v131 : Ref sig .tc := ⟨.hbm, 242, rfl⟩
abbrev main_v132 : Ref sig .tc := ⟨.hbm, 243, rfl⟩
abbrev main_v133 : Ref sig .tc := ⟨.hbm, 244, rfl⟩
abbrev main_v134 : Ref sig .tc := ⟨.hbm, 245, rfl⟩
abbrev main_v135 : Ref sig .tc := ⟨.hbm, 246, rfl⟩
abbrev main_v136 : Ref sig .tc := ⟨.hbm, 247, rfl⟩
abbrev main_v137 : Ref sig .tc := ⟨.hbm, 248, rfl⟩
abbrev main_call8_cst : Ref sig .tc := ⟨.hbm, 249, rfl⟩
abbrev main_call8_v0 : Ref sig .tc := ⟨.hbm, 250, rfl⟩
abbrev main_v138 : Ref sig .tc := ⟨.hbm, 251, rfl⟩
abbrev main_v139 : Ref sig .tc := ⟨.hbm, 252, rfl⟩
abbrev main_v140 : Ref sig .tc := ⟨.hbm, 253, rfl⟩
abbrev main_c_19 : Ref sig .tc := ⟨.hbm, 254, rfl⟩
abbrev main_v141 : Ref sig .tc := ⟨.hbm, 255, rfl⟩
abbrev main_v142 : Ref sig .tc := ⟨.hbm, 256, rfl⟩
abbrev main_c_20 : Ref sig .tc := ⟨.hbm, 257, rfl⟩
abbrev main_v143 : Ref sig .tc := ⟨.hbm, 258, rfl⟩
abbrev main_v144 : Ref sig .tc := ⟨.hbm, 259, rfl⟩
abbrev main_v145 : Ref sig .tc := ⟨.hbm, 260, rfl⟩
abbrev main_v146 : Ref sig .tc := ⟨.hbm, 261, rfl⟩
abbrev main_v147 : Ref sig .tc := ⟨.hbm, 262, rfl⟩
abbrev main_v148 : Ref sig .tc := ⟨.hbm, 263, rfl⟩
abbrev main_v149 : Ref sig .tc := ⟨.hbm, 264, rfl⟩
abbrev main_v150 : Ref sig .tc := ⟨.hbm, 265, rfl⟩
abbrev main_cst_21 : Ref sig .tc := ⟨.hbm, 266, rfl⟩
abbrev main_v151 : Ref sig .tc := ⟨.hbm, 267, rfl⟩
abbrev main_v152 : Ref sig .tc := ⟨.hbm, 268, rfl⟩
abbrev main_v153 : Ref sig .tc := ⟨.hbm, 269, rfl⟩
abbrev main_v154 : Ref sig .tc := ⟨.hbm, 270, rfl⟩
abbrev main_v155 : Ref sig .tc := ⟨.hbm, 271, rfl⟩
abbrev main_v156 : Ref sig .tc := ⟨.hbm, 272, rfl⟩
abbrev main_v157 : Ref sig .tc := ⟨.hbm, 273, rfl⟩
abbrev main_v158 : Ref sig .tc := ⟨.hbm, 274, rfl⟩
abbrev main_call9_cst : Ref sig .tc := ⟨.hbm, 275, rfl⟩
abbrev main_call9_v0 : Ref sig .tc := ⟨.hbm, 276, rfl⟩
abbrev main_v159 : Ref sig .tc := ⟨.hbm, 277, rfl⟩
abbrev main_v160 : Ref sig .tc := ⟨.hbm, 278, rfl⟩
abbrev main_v161 : Ref sig .tc := ⟨.hbm, 279, rfl⟩
abbrev main_v162 : Ref sig .tc := ⟨.hbm, 280, rfl⟩
abbrev main_v163 : Ref sig .tc := ⟨.hbm, 281, rfl⟩
abbrev main_cst_22 : Ref sig .tc := ⟨.hbm, 282, rfl⟩
abbrev main_v164 : Ref sig .tc := ⟨.hbm, 283, rfl⟩
abbrev main_cst_23 : Ref sig .tc := ⟨.hbm, 284, rfl⟩
abbrev main_v165 : Ref sig .tc := ⟨.hbm, 285, rfl⟩
abbrev main_v166 : Ref sig .tc := ⟨.hbm, 286, rfl⟩
abbrev main_c_24 : Ref sig .tc := ⟨.hbm, 287, rfl⟩
abbrev main_call10_cst : Ref sig .tc := ⟨.hbm, 288, rfl⟩
abbrev main_call10_v0 : Ref sig .tc := ⟨.hbm, 289, rfl⟩
abbrev main_call10_v1 : Ref sig .tc := ⟨.hbm, 290, rfl⟩
abbrev main_call10_cst_0 : Ref sig .tc := ⟨.hbm, 291, rfl⟩
abbrev main_call10_v2 : Ref sig .tc := ⟨.hbm, 292, rfl⟩
abbrev main_call10_v3 : Ref sig .tc := ⟨.hbm, 293, rfl⟩
abbrev main_call10_v4 : Ref sig .tc := ⟨.hbm, 294, rfl⟩
abbrev main_call10_v5 : Ref sig .tc := ⟨.hbm, 295, rfl⟩
abbrev main_call10_v6 : Ref sig .tc := ⟨.hbm, 296, rfl⟩
abbrev main_call10_v7 : Ref sig .tc := ⟨.hbm, 297, rfl⟩
abbrev main_call10_cst_1 : Ref sig .tc := ⟨.hbm, 298, rfl⟩
abbrev main_call10_v8 : Ref sig .tc := ⟨.hbm, 299, rfl⟩
abbrev main_call10_cst_2 : Ref sig .tc := ⟨.hbm, 300, rfl⟩
abbrev main_call10_v9 : Ref sig .tc := ⟨.hbm, 301, rfl⟩
abbrev main_call10_v10 : Ref sig .tc := ⟨.hbm, 302, rfl⟩
abbrev main_call10_v11 : Ref sig .tc := ⟨.hbm, 303, rfl⟩
abbrev main_call10_cst_3 : Ref sig .tc := ⟨.hbm, 304, rfl⟩
abbrev main_call10_v12 : Ref sig .tc := ⟨.hbm, 305, rfl⟩
abbrev main_call10_cst_4 : Ref sig .tc := ⟨.hbm, 306, rfl⟩
abbrev main_call10_call0_v0 : Ref sig .tc := ⟨.hbm, 307, rfl⟩
abbrev main_call10_call0_v1 : Ref sig .tc := ⟨.hbm, 308, rfl⟩
abbrev main_v167 : Ref sig .tc := ⟨.hbm, 309, rfl⟩
abbrev main_v168 : Ref sig .tc := ⟨.hbm, 310, rfl⟩
abbrev main_v169 : Ref sig .tc := ⟨.hbm, 311, rfl⟩
abbrev main_v170 : Ref sig .tc := ⟨.hbm, 312, rfl⟩
abbrev main_cst_25 : Ref sig .tc := ⟨.hbm, 313, rfl⟩
abbrev main_v171 : Ref sig .tc := ⟨.hbm, 314, rfl⟩
abbrev main_v172 : Ref sig .tc := ⟨.hbm, 315, rfl⟩
abbrev main_v173 : Ref sig .tc := ⟨.hbm, 316, rfl⟩
abbrev main_v174 : Ref sig .tc := ⟨.hbm, 317, rfl⟩
abbrev main_v175 : Ref sig .tc := ⟨.hbm, 318, rfl⟩
abbrev main_v176 : Ref sig .tc := ⟨.hbm, 319, rfl⟩
abbrev main_v177 : Ref sig .tc := ⟨.hbm, 320, rfl⟩
abbrev main_v178 : Ref sig .tc := ⟨.hbm, 321, rfl⟩
abbrev main_v179 : Ref sig .tc := ⟨.hbm, 322, rfl⟩
abbrev main_v180 : Ref sig .tc := ⟨.hbm, 323, rfl⟩
abbrev main_v181 : Ref sig .tc := ⟨.hbm, 324, rfl⟩
abbrev main_v182 : Ref sig .tc := ⟨.hbm, 325, rfl⟩
abbrev main_call11_cst : Ref sig .tc := ⟨.hbm, 326, rfl⟩
abbrev main_call11_v0 : Ref sig .tc := ⟨.hbm, 327, rfl⟩
abbrev main_v183 : Ref sig .tc := ⟨.hbm, 328, rfl⟩
abbrev main_v184 : Ref sig .tc := ⟨.hbm, 329, rfl⟩
abbrev main_v185 : Ref sig .tc := ⟨.hbm, 330, rfl⟩
abbrev main_c_26 : Ref sig .tc := ⟨.hbm, 331, rfl⟩
abbrev main_v186 : Ref sig .tc := ⟨.hbm, 332, rfl⟩
abbrev main_v187 : Ref sig .tc := ⟨.hbm, 333, rfl⟩
abbrev main_c_27 : Ref sig .tc := ⟨.hbm, 334, rfl⟩
abbrev main_v188 : Ref sig .tc := ⟨.hbm, 335, rfl⟩
abbrev main_v189 : Ref sig .tc := ⟨.hbm, 336, rfl⟩
abbrev main_v190 : Ref sig .tc := ⟨.hbm, 337, rfl⟩
abbrev main_v191 : Ref sig .tc := ⟨.hbm, 338, rfl⟩
abbrev main_v192 : Ref sig .tc := ⟨.hbm, 339, rfl⟩
abbrev main_v193 : Ref sig .tc := ⟨.hbm, 340, rfl⟩
abbrev main_v194 : Ref sig .tc := ⟨.hbm, 341, rfl⟩
abbrev main_v195 : Ref sig .tc := ⟨.hbm, 342, rfl⟩
abbrev main_cst_28 : Ref sig .tc := ⟨.hbm, 343, rfl⟩
abbrev main_v196 : Ref sig .tc := ⟨.hbm, 344, rfl⟩
abbrev main_v197 : Ref sig .tc := ⟨.hbm, 345, rfl⟩
abbrev main_v198 : Ref sig .tc := ⟨.hbm, 346, rfl⟩
abbrev main_v199 : Ref sig .tc := ⟨.hbm, 347, rfl⟩
abbrev main_v200 : Ref sig .tc := ⟨.hbm, 348, rfl⟩
abbrev main_v201 : Ref sig .tc := ⟨.hbm, 349, rfl⟩
abbrev main_v202 : Ref sig .tc := ⟨.hbm, 350, rfl⟩
abbrev main_v203 : Ref sig .tc := ⟨.hbm, 351, rfl⟩
abbrev main_call12_cst : Ref sig .tc := ⟨.hbm, 352, rfl⟩
abbrev main_call12_v0 : Ref sig .tc := ⟨.hbm, 353, rfl⟩
abbrev main_v204 : Ref sig .tc := ⟨.hbm, 354, rfl⟩
abbrev main_v205 : Ref sig .tc := ⟨.hbm, 355, rfl⟩
abbrev main_v206 : Ref sig .tc := ⟨.hbm, 356, rfl⟩
abbrev main_v207 : Ref sig .tc := ⟨.hbm, 357, rfl⟩
abbrev main_v208 : Ref sig .tc := ⟨.hbm, 358, rfl⟩
abbrev main_cst_29 : Ref sig .tc := ⟨.hbm, 359, rfl⟩
abbrev main_v209 : Ref sig .tc := ⟨.hbm, 360, rfl⟩
abbrev main_cst_30 : Ref sig .tc := ⟨.hbm, 361, rfl⟩
abbrev main_v210 : Ref sig .tc := ⟨.hbm, 362, rfl⟩
abbrev main_v211 : Ref sig .tc := ⟨.hbm, 363, rfl⟩
abbrev main_c_31 : Ref sig .tc := ⟨.hbm, 364, rfl⟩
abbrev main_call13_cst : Ref sig .tc := ⟨.hbm, 365, rfl⟩
abbrev main_call13_v0 : Ref sig .tc := ⟨.hbm, 366, rfl⟩
abbrev main_call13_v1 : Ref sig .tc := ⟨.hbm, 367, rfl⟩
abbrev main_call13_cst_0 : Ref sig .tc := ⟨.hbm, 368, rfl⟩
abbrev main_call13_v2 : Ref sig .tc := ⟨.hbm, 369, rfl⟩
abbrev main_call13_v3 : Ref sig .tc := ⟨.hbm, 370, rfl⟩
abbrev main_call13_v4 : Ref sig .tc := ⟨.hbm, 371, rfl⟩
abbrev main_call13_v5 : Ref sig .tc := ⟨.hbm, 372, rfl⟩
abbrev main_call13_v6 : Ref sig .tc := ⟨.hbm, 373, rfl⟩
abbrev main_call13_v7 : Ref sig .tc := ⟨.hbm, 374, rfl⟩
abbrev main_call13_cst_1 : Ref sig .tc := ⟨.hbm, 375, rfl⟩
abbrev main_call13_v8 : Ref sig .tc := ⟨.hbm, 376, rfl⟩
abbrev main_call13_cst_2 : Ref sig .tc := ⟨.hbm, 377, rfl⟩
abbrev main_call13_v9 : Ref sig .tc := ⟨.hbm, 378, rfl⟩
abbrev main_call13_v10 : Ref sig .tc := ⟨.hbm, 379, rfl⟩
abbrev main_call13_v11 : Ref sig .tc := ⟨.hbm, 380, rfl⟩
abbrev main_call13_cst_3 : Ref sig .tc := ⟨.hbm, 381, rfl⟩
abbrev main_call13_v12 : Ref sig .tc := ⟨.hbm, 382, rfl⟩
abbrev main_call13_cst_4 : Ref sig .tc := ⟨.hbm, 383, rfl⟩
abbrev main_call13_call0_v0 : Ref sig .tc := ⟨.hbm, 384, rfl⟩
abbrev main_call13_call0_v1 : Ref sig .tc := ⟨.hbm, 385, rfl⟩
abbrev main_v212 : Ref sig .tc := ⟨.hbm, 386, rfl⟩
abbrev main_v213 : Ref sig .tc := ⟨.hbm, 387, rfl⟩
abbrev main_v214 : Ref sig .tc := ⟨.hbm, 388, rfl⟩
abbrev main_v215 : Ref sig .tc := ⟨.hbm, 389, rfl⟩
abbrev main_cst_32 : Ref sig .tc := ⟨.hbm, 390, rfl⟩
abbrev main_v216 : Ref sig .tc := ⟨.hbm, 391, rfl⟩
abbrev main_v217 : Ref sig .tc := ⟨.hbm, 392, rfl⟩
abbrev main_v218 : Ref sig .tc := ⟨.hbm, 393, rfl⟩
abbrev main_v219 : Ref sig .tc := ⟨.hbm, 394, rfl⟩
abbrev main_v220 : Ref sig .tc := ⟨.hbm, 395, rfl⟩
abbrev main_v221 : Ref sig .tc := ⟨.hbm, 396, rfl⟩
abbrev main_v222 : Ref sig .tc := ⟨.hbm, 397, rfl⟩
abbrev main_v223 : Ref sig .tc := ⟨.hbm, 398, rfl⟩
abbrev main_v224 : Ref sig .tc := ⟨.hbm, 399, rfl⟩
abbrev main_v225 : Ref sig .tc := ⟨.hbm, 400, rfl⟩
abbrev main_v226 : Ref sig .tc := ⟨.hbm, 401, rfl⟩
abbrev main_v227 : Ref sig .tc := ⟨.hbm, 402, rfl⟩
abbrev main_call14_cst : Ref sig .tc := ⟨.hbm, 403, rfl⟩
abbrev main_call14_v0 : Ref sig .tc := ⟨.hbm, 404, rfl⟩
abbrev main_v228 : Ref sig .tc := ⟨.hbm, 405, rfl⟩
abbrev main_v229 : Ref sig .tc := ⟨.hbm, 406, rfl⟩
abbrev main_v230 : Ref sig .tc := ⟨.hbm, 407, rfl⟩
abbrev main_c_33 : Ref sig .tc := ⟨.hbm, 408, rfl⟩
abbrev main_v231 : Ref sig .tc := ⟨.hbm, 409, rfl⟩
abbrev main_v232 : Ref sig .tc := ⟨.hbm, 410, rfl⟩
abbrev main_c_34 : Ref sig .tc := ⟨.hbm, 411, rfl⟩
abbrev main_v233 : Ref sig .tc := ⟨.hbm, 412, rfl⟩
abbrev main_v234 : Ref sig .tc := ⟨.hbm, 413, rfl⟩
abbrev main_v235 : Ref sig .tc := ⟨.hbm, 414, rfl⟩
abbrev main_v236 : Ref sig .tc := ⟨.hbm, 415, rfl⟩
abbrev main_v237 : Ref sig .tc := ⟨.hbm, 416, rfl⟩
abbrev main_v238 : Ref sig .tc := ⟨.hbm, 417, rfl⟩
abbrev main_v239 : Ref sig .tc := ⟨.hbm, 418, rfl⟩
abbrev main_v240 : Ref sig .tc := ⟨.hbm, 419, rfl⟩
abbrev main_cst_35 : Ref sig .tc := ⟨.hbm, 420, rfl⟩
abbrev main_v241 : Ref sig .tc := ⟨.hbm, 421, rfl⟩
abbrev main_v242 : Ref sig .tc := ⟨.hbm, 422, rfl⟩
abbrev main_v243 : Ref sig .tc := ⟨.hbm, 423, rfl⟩
abbrev main_v244 : Ref sig .tc := ⟨.hbm, 424, rfl⟩
abbrev main_v245 : Ref sig .tc := ⟨.hbm, 425, rfl⟩
abbrev main_v246 : Ref sig .tc := ⟨.hbm, 426, rfl⟩
abbrev main_v247 : Ref sig .tc := ⟨.hbm, 427, rfl⟩
abbrev main_v248 : Ref sig .tc := ⟨.hbm, 428, rfl⟩
abbrev main_call15_cst : Ref sig .tc := ⟨.hbm, 429, rfl⟩
abbrev main_call15_v0 : Ref sig .tc := ⟨.hbm, 430, rfl⟩
abbrev main_v249 : Ref sig .tc := ⟨.hbm, 431, rfl⟩
abbrev main_v250 : Ref sig .tc := ⟨.hbm, 432, rfl⟩
abbrev main_v251 : Ref sig .tc := ⟨.hbm, 433, rfl⟩
abbrev main_v252 : Ref sig .tc := ⟨.hbm, 434, rfl⟩
abbrev main_v253 : Ref sig .tc := ⟨.hbm, 435, rfl⟩
abbrev main_cst_36 : Ref sig .tc := ⟨.hbm, 436, rfl⟩
abbrev main_v254 : Ref sig .tc := ⟨.hbm, 437, rfl⟩
abbrev main_cst_37 : Ref sig .tc := ⟨.hbm, 438, rfl⟩
abbrev main_v255 : Ref sig .tc := ⟨.hbm, 439, rfl⟩
abbrev main_v256 : Ref sig .tc := ⟨.hbm, 440, rfl⟩
abbrev main_c_38 : Ref sig .tc := ⟨.hbm, 441, rfl⟩
abbrev main_call16_cst : Ref sig .tc := ⟨.hbm, 442, rfl⟩
abbrev main_call16_v0 : Ref sig .tc := ⟨.hbm, 443, rfl⟩
abbrev main_call16_v1 : Ref sig .tc := ⟨.hbm, 444, rfl⟩
abbrev main_call16_cst_0 : Ref sig .tc := ⟨.hbm, 445, rfl⟩
abbrev main_call16_v2 : Ref sig .tc := ⟨.hbm, 446, rfl⟩
abbrev main_call16_v3 : Ref sig .tc := ⟨.hbm, 447, rfl⟩
abbrev main_call16_v4 : Ref sig .tc := ⟨.hbm, 448, rfl⟩
abbrev main_call16_v5 : Ref sig .tc := ⟨.hbm, 449, rfl⟩
abbrev main_call16_v6 : Ref sig .tc := ⟨.hbm, 450, rfl⟩
abbrev main_call16_v7 : Ref sig .tc := ⟨.hbm, 451, rfl⟩
abbrev main_call16_cst_1 : Ref sig .tc := ⟨.hbm, 452, rfl⟩
abbrev main_call16_v8 : Ref sig .tc := ⟨.hbm, 453, rfl⟩
abbrev main_call16_cst_2 : Ref sig .tc := ⟨.hbm, 454, rfl⟩
abbrev main_call16_v9 : Ref sig .tc := ⟨.hbm, 455, rfl⟩
abbrev main_call16_v10 : Ref sig .tc := ⟨.hbm, 456, rfl⟩
abbrev main_call16_v11 : Ref sig .tc := ⟨.hbm, 457, rfl⟩
abbrev main_call16_cst_3 : Ref sig .tc := ⟨.hbm, 458, rfl⟩
abbrev main_call16_v12 : Ref sig .tc := ⟨.hbm, 459, rfl⟩
abbrev main_call16_cst_4 : Ref sig .tc := ⟨.hbm, 460, rfl⟩
abbrev main_call16_call0_v0 : Ref sig .tc := ⟨.hbm, 461, rfl⟩
abbrev main_call16_call0_v1 : Ref sig .tc := ⟨.hbm, 462, rfl⟩
abbrev main_v257 : Ref sig .tc := ⟨.hbm, 463, rfl⟩
abbrev main_v258 : Ref sig .tc := ⟨.hbm, 464, rfl⟩
abbrev main_v259 : Ref sig .tc := ⟨.hbm, 465, rfl⟩
abbrev main_v260 : Ref sig .tc := ⟨.hbm, 466, rfl⟩
abbrev main_cst_39 : Ref sig .tc := ⟨.hbm, 467, rfl⟩
abbrev main_v261 : Ref sig .tc := ⟨.hbm, 468, rfl⟩
abbrev main_v262 : Ref sig .tc := ⟨.hbm, 469, rfl⟩
abbrev main_v263 : Ref sig .tc := ⟨.hbm, 470, rfl⟩
abbrev main_v264 : Ref sig .tc := ⟨.hbm, 471, rfl⟩
abbrev main_v265 : Ref sig .tc := ⟨.hbm, 472, rfl⟩
abbrev main_v266 : Ref sig .tc := ⟨.hbm, 473, rfl⟩
abbrev main_v267 : Ref sig .tc := ⟨.hbm, 474, rfl⟩
abbrev main_v268 : Ref sig .tc := ⟨.hbm, 475, rfl⟩
abbrev main_v269 : Ref sig .tc := ⟨.hbm, 476, rfl⟩
abbrev main_v270 : Ref sig .tc := ⟨.hbm, 477, rfl⟩
abbrev main_v271 : Ref sig .tc := ⟨.hbm, 478, rfl⟩
abbrev main_v272 : Ref sig .tc := ⟨.hbm, 479, rfl⟩
abbrev main_call17_cst : Ref sig .tc := ⟨.hbm, 480, rfl⟩
abbrev main_call17_v0 : Ref sig .tc := ⟨.hbm, 481, rfl⟩
abbrev main_v273 : Ref sig .tc := ⟨.hbm, 482, rfl⟩
abbrev main_v274 : Ref sig .tc := ⟨.hbm, 483, rfl⟩
abbrev main_v275 : Ref sig .tc := ⟨.hbm, 484, rfl⟩
abbrev main_c_40 : Ref sig .tc := ⟨.hbm, 485, rfl⟩
abbrev main_v276 : Ref sig .tc := ⟨.hbm, 486, rfl⟩
abbrev main_v277 : Ref sig .tc := ⟨.hbm, 487, rfl⟩
abbrev main_c_41 : Ref sig .tc := ⟨.hbm, 488, rfl⟩
abbrev main_v278 : Ref sig .tc := ⟨.hbm, 489, rfl⟩
abbrev main_v279 : Ref sig .tc := ⟨.hbm, 490, rfl⟩
abbrev main_v280 : Ref sig .tc := ⟨.hbm, 491, rfl⟩
abbrev main_v281 : Ref sig .tc := ⟨.hbm, 492, rfl⟩
abbrev main_v282 : Ref sig .tc := ⟨.hbm, 493, rfl⟩
abbrev main_v283 : Ref sig .tc := ⟨.hbm, 494, rfl⟩
abbrev main_v284 : Ref sig .tc := ⟨.hbm, 495, rfl⟩
abbrev main_v285 : Ref sig .tc := ⟨.hbm, 496, rfl⟩
abbrev main_cst_42 : Ref sig .tc := ⟨.hbm, 497, rfl⟩
abbrev main_v286 : Ref sig .tc := ⟨.hbm, 498, rfl⟩
abbrev main_v287 : Ref sig .tc := ⟨.hbm, 499, rfl⟩
abbrev main_v288 : Ref sig .tc := ⟨.hbm, 500, rfl⟩
abbrev main_v289 : Ref sig .tc := ⟨.hbm, 501, rfl⟩
abbrev main_v290 : Ref sig .tc := ⟨.hbm, 502, rfl⟩
abbrev main_v291 : Ref sig .tc := ⟨.hbm, 503, rfl⟩
abbrev main_v292 : Ref sig .tc := ⟨.hbm, 504, rfl⟩
abbrev main_v293 : Ref sig .tc := ⟨.hbm, 505, rfl⟩
abbrev main_call18_cst : Ref sig .tc := ⟨.hbm, 506, rfl⟩
abbrev main_call18_v0 : Ref sig .tc := ⟨.hbm, 507, rfl⟩
abbrev main_v294 : Ref sig .tc := ⟨.hbm, 508, rfl⟩
abbrev main_v295 : Ref sig .tc := ⟨.hbm, 509, rfl⟩
abbrev main_v296 : Ref sig .tc := ⟨.hbm, 510, rfl⟩
abbrev main_v297 : Ref sig .tc := ⟨.hbm, 511, rfl⟩
abbrev main_v298 : Ref sig .tc := ⟨.hbm, 512, rfl⟩
abbrev main_cst_43 : Ref sig .tc := ⟨.hbm, 513, rfl⟩
abbrev main_v299 : Ref sig .tc := ⟨.hbm, 514, rfl⟩
abbrev main_cst_44 : Ref sig .tc := ⟨.hbm, 515, rfl⟩
abbrev main_v300 : Ref sig .tc := ⟨.hbm, 516, rfl⟩
abbrev main_v301 : Ref sig .tc := ⟨.hbm, 517, rfl⟩
abbrev main_c_45 : Ref sig .tc := ⟨.hbm, 518, rfl⟩
abbrev main_call19_cst : Ref sig .tc := ⟨.hbm, 519, rfl⟩
abbrev main_call19_v0 : Ref sig .tc := ⟨.hbm, 520, rfl⟩
abbrev main_call19_v1 : Ref sig .tc := ⟨.hbm, 521, rfl⟩
abbrev main_call19_cst_0 : Ref sig .tc := ⟨.hbm, 522, rfl⟩
abbrev main_call19_v2 : Ref sig .tc := ⟨.hbm, 523, rfl⟩
abbrev main_call19_v3 : Ref sig .tc := ⟨.hbm, 524, rfl⟩
abbrev main_call19_v4 : Ref sig .tc := ⟨.hbm, 525, rfl⟩
abbrev main_call19_v5 : Ref sig .tc := ⟨.hbm, 526, rfl⟩
abbrev main_call19_v6 : Ref sig .tc := ⟨.hbm, 527, rfl⟩
abbrev main_call19_v7 : Ref sig .tc := ⟨.hbm, 528, rfl⟩
abbrev main_call19_cst_1 : Ref sig .tc := ⟨.hbm, 529, rfl⟩
abbrev main_call19_v8 : Ref sig .tc := ⟨.hbm, 530, rfl⟩
abbrev main_call19_cst_2 : Ref sig .tc := ⟨.hbm, 531, rfl⟩
abbrev main_call19_v9 : Ref sig .tc := ⟨.hbm, 532, rfl⟩
abbrev main_call19_v10 : Ref sig .tc := ⟨.hbm, 533, rfl⟩
abbrev main_call19_v11 : Ref sig .tc := ⟨.hbm, 534, rfl⟩
abbrev main_call19_cst_3 : Ref sig .tc := ⟨.hbm, 535, rfl⟩
abbrev main_call19_v12 : Ref sig .tc := ⟨.hbm, 536, rfl⟩
abbrev main_call19_cst_4 : Ref sig .tc := ⟨.hbm, 537, rfl⟩
abbrev main_call19_call0_v0 : Ref sig .tc := ⟨.hbm, 538, rfl⟩
abbrev main_call19_call0_v1 : Ref sig .tc := ⟨.hbm, 539, rfl⟩
abbrev main_v302 : Ref sig .tc := ⟨.hbm, 540, rfl⟩
abbrev main_v303 : Ref sig .tc := ⟨.hbm, 541, rfl⟩
abbrev main_v304 : Ref sig .tc := ⟨.hbm, 542, rfl⟩
abbrev main_v305 : Ref sig .tc := ⟨.hbm, 543, rfl⟩
abbrev main_cst_46 : Ref sig .tc := ⟨.hbm, 544, rfl⟩
abbrev main_v306 : Ref sig .tc := ⟨.hbm, 545, rfl⟩
abbrev main_v307 : Ref sig .tc := ⟨.hbm, 546, rfl⟩
abbrev main_v308 : Ref sig .tc := ⟨.hbm, 547, rfl⟩
abbrev main_v309 : Ref sig .tc := ⟨.hbm, 548, rfl⟩
abbrev main_v310 : Ref sig .tc := ⟨.hbm, 549, rfl⟩
abbrev main_v311 : Ref sig .tc := ⟨.hbm, 550, rfl⟩
abbrev main_v312 : Ref sig .tc := ⟨.hbm, 551, rfl⟩
abbrev main_v313 : Ref sig .tc := ⟨.hbm, 552, rfl⟩
abbrev main_v314 : Ref sig .tc := ⟨.hbm, 553, rfl⟩
abbrev main_v315 : Ref sig .tc := ⟨.hbm, 554, rfl⟩
abbrev main_v316 : Ref sig .tc := ⟨.hbm, 555, rfl⟩
abbrev main_v317 : Ref sig .tc := ⟨.hbm, 556, rfl⟩
abbrev main_call20_cst : Ref sig .tc := ⟨.hbm, 557, rfl⟩
abbrev main_call20_v0 : Ref sig .tc := ⟨.hbm, 558, rfl⟩
abbrev main_v318 : Ref sig .tc := ⟨.hbm, 559, rfl⟩
abbrev main_v319 : Ref sig .tc := ⟨.hbm, 560, rfl⟩
abbrev main_v320 : Ref sig .tc := ⟨.hbm, 561, rfl⟩
abbrev main_c_47 : Ref sig .tc := ⟨.hbm, 562, rfl⟩
abbrev main_v321 : Ref sig .tc := ⟨.hbm, 563, rfl⟩
abbrev main_v322 : Ref sig .tc := ⟨.hbm, 564, rfl⟩
abbrev main_c_48 : Ref sig .tc := ⟨.hbm, 565, rfl⟩
abbrev main_v323 : Ref sig .tc := ⟨.hbm, 566, rfl⟩
abbrev main_v324 : Ref sig .tc := ⟨.hbm, 567, rfl⟩
abbrev main_v325 : Ref sig .tc := ⟨.hbm, 568, rfl⟩
abbrev main_v326 : Ref sig .tc := ⟨.hbm, 569, rfl⟩
abbrev main_v327 : Ref sig .tc := ⟨.hbm, 570, rfl⟩
abbrev main_v328 : Ref sig .tc := ⟨.hbm, 571, rfl⟩
abbrev main_v329 : Ref sig .tc := ⟨.hbm, 572, rfl⟩
abbrev main_v330 : Ref sig .tc := ⟨.hbm, 573, rfl⟩
abbrev main_cst_49 : Ref sig .tc := ⟨.hbm, 574, rfl⟩
abbrev main_v331 : Ref sig .tc := ⟨.hbm, 575, rfl⟩
abbrev main_v332 : Ref sig .tc := ⟨.hbm, 576, rfl⟩
abbrev main_v333 : Ref sig .tc := ⟨.hbm, 577, rfl⟩
abbrev main_v334 : Ref sig .tc := ⟨.hbm, 578, rfl⟩
abbrev main_v335 : Ref sig .tc := ⟨.hbm, 579, rfl⟩
abbrev main_v336 : Ref sig .tc := ⟨.hbm, 580, rfl⟩
abbrev main_v337 : Ref sig .tc := ⟨.hbm, 581, rfl⟩
abbrev main_v338 : Ref sig .tc := ⟨.hbm, 582, rfl⟩
abbrev main_call21_cst : Ref sig .tc := ⟨.hbm, 583, rfl⟩
abbrev main_call21_v0 : Ref sig .tc := ⟨.hbm, 584, rfl⟩
abbrev main_v339 : Ref sig .tc := ⟨.hbm, 585, rfl⟩
abbrev main_v340 : Ref sig .tc := ⟨.hbm, 586, rfl⟩
abbrev main_v341 : Ref sig .tc := ⟨.hbm, 587, rfl⟩
abbrev main_v342 : Ref sig .tc := ⟨.hbm, 588, rfl⟩
abbrev main_v343 : Ref sig .tc := ⟨.hbm, 589, rfl⟩
abbrev main_cst_50 : Ref sig .tc := ⟨.hbm, 590, rfl⟩
abbrev main_v344 : Ref sig .tc := ⟨.hbm, 591, rfl⟩
abbrev main_cst_51 : Ref sig .tc := ⟨.hbm, 592, rfl⟩
abbrev main_v345 : Ref sig .tc := ⟨.hbm, 593, rfl⟩
abbrev main_v346 : Ref sig .tc := ⟨.hbm, 594, rfl⟩
abbrev main_c_52 : Ref sig .tc := ⟨.hbm, 595, rfl⟩
abbrev main_call22_cst : Ref sig .tc := ⟨.hbm, 596, rfl⟩
abbrev main_call22_v0 : Ref sig .tc := ⟨.hbm, 597, rfl⟩
abbrev main_call22_v1 : Ref sig .tc := ⟨.hbm, 598, rfl⟩
abbrev main_call22_cst_0 : Ref sig .tc := ⟨.hbm, 599, rfl⟩
abbrev main_call22_v2 : Ref sig .tc := ⟨.hbm, 600, rfl⟩
abbrev main_call22_v3 : Ref sig .tc := ⟨.hbm, 601, rfl⟩
abbrev main_call22_v4 : Ref sig .tc := ⟨.hbm, 602, rfl⟩
abbrev main_call22_v5 : Ref sig .tc := ⟨.hbm, 603, rfl⟩
abbrev main_call22_v6 : Ref sig .tc := ⟨.hbm, 604, rfl⟩
abbrev main_call22_v7 : Ref sig .tc := ⟨.hbm, 605, rfl⟩
abbrev main_call22_cst_1 : Ref sig .tc := ⟨.hbm, 606, rfl⟩
abbrev main_call22_v8 : Ref sig .tc := ⟨.hbm, 607, rfl⟩
abbrev main_call22_cst_2 : Ref sig .tc := ⟨.hbm, 608, rfl⟩
abbrev main_call22_v9 : Ref sig .tc := ⟨.hbm, 609, rfl⟩
abbrev main_call22_v10 : Ref sig .tc := ⟨.hbm, 610, rfl⟩
abbrev main_call22_v11 : Ref sig .tc := ⟨.hbm, 611, rfl⟩
abbrev main_call22_cst_3 : Ref sig .tc := ⟨.hbm, 612, rfl⟩
abbrev main_call22_v12 : Ref sig .tc := ⟨.hbm, 613, rfl⟩
abbrev main_call22_cst_4 : Ref sig .tc := ⟨.hbm, 614, rfl⟩
abbrev main_call22_call0_v0 : Ref sig .tc := ⟨.hbm, 615, rfl⟩
abbrev main_call22_call0_v1 : Ref sig .tc := ⟨.hbm, 616, rfl⟩
abbrev main_v347 : Ref sig .tc := ⟨.hbm, 617, rfl⟩
abbrev main_v348 : Ref sig .tc := ⟨.hbm, 618, rfl⟩
abbrev main_v349 : Ref sig .tc := ⟨.hbm, 619, rfl⟩
abbrev main_v350 : Ref sig .tc := ⟨.hbm, 620, rfl⟩
abbrev main_cst_53 : Ref sig .tc := ⟨.hbm, 621, rfl⟩
abbrev main_v351 : Ref sig .tc := ⟨.hbm, 622, rfl⟩
abbrev main_v352 : Ref sig .tc := ⟨.hbm, 623, rfl⟩
abbrev main_v353 : Ref sig .tc := ⟨.hbm, 624, rfl⟩
abbrev main_v354 : Ref sig .tc := ⟨.hbm, 625, rfl⟩
abbrev main_v355 : Ref sig .tc := ⟨.hbm, 626, rfl⟩
abbrev main_v356 : Ref sig .tc := ⟨.hbm, 627, rfl⟩
abbrev main_v357 : Ref sig .tc := ⟨.hbm, 628, rfl⟩
abbrev main_v358 : Ref sig .tc := ⟨.hbm, 629, rfl⟩
abbrev main_v359 : Ref sig .tc := ⟨.hbm, 630, rfl⟩
abbrev main_v360 : Ref sig .tc := ⟨.hbm, 631, rfl⟩
abbrev main_v361 : Ref sig .tc := ⟨.hbm, 632, rfl⟩
abbrev main_v362 : Ref sig .tc := ⟨.hbm, 633, rfl⟩
abbrev main_call23_cst : Ref sig .tc := ⟨.hbm, 634, rfl⟩
abbrev main_call23_v0 : Ref sig .tc := ⟨.hbm, 635, rfl⟩
abbrev main_v363 : Ref sig .tc := ⟨.hbm, 636, rfl⟩
abbrev main_v364 : Ref sig .tc := ⟨.hbm, 637, rfl⟩
abbrev main_v365 : Ref sig .tc := ⟨.hbm, 638, rfl⟩
abbrev main_v366 : Ref sig .tc := ⟨.hbm, 639, rfl⟩
abbrev main_v367 : Ref sig .tc := ⟨.hbm, 640, rfl⟩
abbrev main_v368 : Ref sig .tc := ⟨.hbm, 641, rfl⟩
abbrev main_v369 : Ref sig .tc := ⟨.hbm, 642, rfl⟩
abbrev main_v370 : Ref sig .tc := ⟨.hbm, 643, rfl⟩
abbrev main_v371 : Ref sig .tc := ⟨.hbm, 644, rfl⟩
abbrev main_v372 : Ref sig .tc := ⟨.hbm, 645, rfl⟩
abbrev main_v373 : Ref sig .tc := ⟨.hbm, 646, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  slices_S4x800000_S1x800000_0_0 : S4x800000.Slices ![0, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  bcast_S_S50000x32 : S_.BroadcastsInDim S50000x32 (![] : Fin 0 → Fin S50000x32.rank)
  reducesTo_S50000x32_S32_d0 : S50000x32.ReducesTo [0] S32
  h_S_ : 0 < S_.numel
  bcast_S_S32 : S_.BroadcastsInDim S32 (![] : Fin 0 → Fin S32.rank)
  bcast_S_S1x32 : S_.BroadcastsInDim S1x32 (![] : Fin 0 → Fin S1x32.rank)
  bcast_S800000x1_S800000x32_0_1 : S800000x1.BroadcastsInDim S800000x32 (![0, 1] : Fin 2 → Fin S800000x32.rank)
  slices_S4x800000_S1x800000_1_0 : S4x800000.Slices ![1, 0] S1x800000
  slices_S4x800000_S1x800000_2_0 : S4x800000.Slices ![2, 0] S1x800000
  slices_S4x800000_S1x800000_3_0 : S4x800000.Slices ![3, 0] S1x800000
  concatenates_S50000x32_S50000x32_S50000x32_S50000x32_S50000x128_d1 : Shape.Concatenates [S50000x32, S50000x32, S50000x32, S50000x32] S50000x128 1
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S50000x128_S1x50000x128_1_2 : S50000x128.BroadcastsInDim S1x50000x128 (![1, 2] : Fin 2 → Fin S1x50000x128.rank)
  concatenates_S1x50000x128_S1x50000x128_S1x50000x128_S3x50000x128_d0 : Shape.Concatenates [S1x50000x128, S1x50000x128, S1x50000x128] S3x50000x128 0
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x32_S50000x32_1_0_0_1_n_n_wf : DotDims.WF S50000x128 S128x32 S50000x32 [1] [0] [0] [1] [] []
  dot_S50000x32_S32x32_S50000x32_1_0_0_1_n_n_wf : DotDims.WF S50000x32 S32x32 S50000x32 [1] [0] [0] [1] [] []
  gather_S50000x32_S800000x1_S800000x32_1_0_n_n_0_1_132_wf : GatherDims.WF S50000x32 S800000x1 S800000x32 [1] [0] [] [0] [] 1 ![1, 32]
  scatter_S50000x32_S800000x1_S800000x32_1_0_0_1_wf : ScatterDims.WF S50000x32 S800000x1 S800000x32 [1] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x32_S50000x32_1_0_0_1_n_n : DotDims S50000x128 S128x32 S50000x32 where
  lhsContracting := [1]
  rhsContracting := [0]
  lhsNonContracting := [0]
  rhsNonContracting := [1]
  lhsBatch := []
  rhsBatch := []
  wf := dot_S50000x128_S128x32_S50000x32_1_0_0_1_n_n_wf
def dot_S50000x32_S32x32_S50000x32_1_0_0_1_n_n : DotDims S50000x32 S32x32 S50000x32 where
  lhsContracting := [1]
  rhsContracting := [0]
  lhsNonContracting := [0]
  rhsNonContracting := [1]
  lhsBatch := []
  rhsBatch := []
  wf := dot_S50000x32_S32x32_S50000x32_1_0_0_1_n_n_wf
def gather_S50000x32_S800000x1_S800000x32_1_0_n_n_0_1_132 : GatherDims S50000x32 S800000x1 S800000x32 where
  offsetDims := [1]
  collapsedSliceDims := [0]
  operandBatchingDims := []
  startIndicesBatchingDims := []
  startIndexMap := [0]
  indexVectorDim := 1
  sliceSizes := ![1, 32]
  wf := gather_S50000x32_S800000x1_S800000x32_1_0_n_n_0_1_132_wf
def scatter_S50000x32_S800000x1_S800000x32_1_0_0_1 : ScatterDims S50000x32 S800000x1 S800000x32 where
  updateWindowDims := [1]
  insertedWindowDims := [0]
  scatterDimsToOperandDims := [0]
  indexVectorDim := 1
  wf := scatter_S50000x32_S800000x1_S800000x32_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.K.R0.lean ====
/-
  The encoder call (the first pallas region), at any entry contents `V` of the TensorCore's buffers and at any float
  instance: a grid of 7 row tiles; at tile `t` the body reads the 7168 x 128 tile of the zero-padded input, the whole
  128 x 128 weight and the 1 x 128 bias, and overwrites the tile of the output with  tile · W + bias  (one store of the
  whole block). Stated here: each window's block at a point, what the output's staging buffer holds after the body,
  the body's triple, the pipeline's proof data and the body obligation at every point.
-/
import proofs.«176190_j13365938225806_1_alg».proof.Proof.Gen.Kernel.Launch
import proofs.«176190_j13365938225806_1_alg».proof.Proof.Gen.Kernel.Skeleton
import proofs.«176190_j13365938225806_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## The windows' blocks -/

/-- Window `w`'s block at tile `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every tile, fetched there or not. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store take a whole buffer -/

abbrev rX0 : Rect S7168x128 := Rect.unit (s := S7168x128) ![0, 0] S7168x128.size inb_S7168x128_S7168x128_0_0
abbrev rW0 : Rect S128x128 := Rect.unit (s := S128x128) ![0, 0] S128x128.size inb_S128x128_S128x128_0_0
abbrev rB0 : Rect S1x128 := Rect.unit (s := S1x128) ![0, 0] S1x128.size inb_S1x128_S1x128_0_0

/-- The output tile after the body, from the three input blocks: tile · W + bias, stored whole. -/
def out0_3 (x0 : Vec F S7168x128 .f32) (x1 : Vec F S128x128 .f32) (x2 : Vec F S1x128 .f32) : Vec F S7168x128 .f32 :=
  View.canon [⟨rX0, k0_pay1 (View.ld x0 rX0) (View.ld x1 rW0) (View.ld x2 rB0)⟩]

/-- The one store covers the output's staging buffer. -/
theorem cover0_3 (p0 : Vec F S7168x128 .f32) (y : S7168x128.Idx) :
    ∃ pc ∈ ([⟨rX0, p0⟩] : List (View.Piece (Elt F) S7168x128 .f32)), y ∈ pc.1.set :=
  View.cover_of_tiled [⟨rX0, p0⟩] S7168x128.size (by rfl) y

/-! ## The body's triple -/

set_option maxHeartbeats 1000000 in
/-- On whole staging memrefs, the inputs' holding `x0 x1 x2` and the output's anything, the body runs to the inputs'
    unchanged and the output's at `out0_3 x0 x1 x2`. -/
theorem sound_kernel0 (c : Dev nD) (E : Set ℕ) (i : grid0.Coords) (arg1 : Memref sig .tc .vmem S7168x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S7168x128 .f32) (harg4 : arg4.IsWhole)
    (x0 : Vec F S7168x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__encoder_kernel i arg1 harg1 arg2 harg2 arg3 harg3 arg4 harg4) K := by
  simp only [cc0__encoder_kernel_eq_skeleton]; unfold cc0__encoder_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The arrays as the region finds them; after the body at tile `t` each input's buffer at its block and the output's
    at `out0_3` of the input blocks; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic tile -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1.lean ====
/-
  The first MLP call (the second pallas region), at any entry contents `V` and any float instance: a grid of 4 x 7
  points (community, row tile); at a point the body reads the 7168 x 128 tile of the padded features and of the padded
  neighbourhood sums of its community, the two weights and the two biases whole, and overwrites the 7168 x 32 tile of the
  output with  max((h + aggr) · W1 + b1, 0) · W2 + b2  (one store of the whole block).
-/
import proofs.«176190_j13365938225806_1_alg».proof.Proof.Gen.Kernel.Launch
import proofs.«176190_j13365938225806_1_alg».proof.Proof.Gen.Kernel.Skeleton
import proofs.«176190_j13365938225806_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## The windows' blocks -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (Pipeline.UD sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (Pipeline.UD sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store take a whole buffer -/

abbrev r1A : Rect S1x7168x128 := Rect.unit (s := S1x7168x128) ![0, 0, 0] S1x7168x128.size inb_S1x7168x128_S1x7168x128_0_0_0
abbrev r1W1 : Rect S128x32 := Rect.unit (s := S128x32) ![0, 0] S128x32.size inb_S128x32_S128x32_0_0
abbrev r1b : Rect S1x32 := Rect.unit (s := S1x32) ![0, 0] S1x32.size inb_S1x32_S1x32_0_0
abbrev r1W2 : Rect S32x32 := Rect.unit (s := S32x32) ![0, 0] S32x32.size inb_S32x32_S32x32_0_0
abbrev r1O : Rect S1x7168x32 := Rect.unit (s := S1x7168x32) ![0, 0, 0] S1x7168x32.size inb_S1x7168x32_S1x7168x32_0_0_0

/-- The output tile after the body, from the six input blocks. -/
def out1_6 (x0 x1 : Vec F S1x7168x128 .f32) (x2 : Vec F S128x32 .f32) (x3 : Vec F S1x32 .f32) (x4 : Vec F S32x32 .f32) (x5 : Vec F S1x32 .f32) : Vec F S1x7168x32 .f32 :=
  View.canon [⟨r1O, k1_pay1 (View.ld x0 r1A) (View.ld x1 r1A) (View.ld x2 r1W1) (View.ld x3 r1b) (View.ld x4 r1W2) (View.ld x5 r1b)⟩]

theorem cover1_6 (p0 : Vec F S1x7168x32 .f32) (y : S1x7168x32.Idx) :
    ∃ pc ∈ ([⟨r1O, p0⟩] : List (View.Piece (Elt F) S1x7168x32 .f32)), y ∈ pc.1.set :=
  View.cover_of_tiled [⟨r1O, p0⟩] S1x7168x32.size (by rfl) y

/-! ## The body's triple -/

set_option maxHeartbeats 1000000 in
theorem sound_kernel1 (c : Dev nD) (E : Set ℕ) (i : grid1.Coords) (arg2 : Memref sig .tc .vmem S1x7168x128 .f32) (harg2 : arg2.IsWhole) (arg3 : Memref sig .tc .vmem S1x7168x128 .f32) (harg3 : arg3.IsWhole) (arg4 : Memref sig .tc .vmem S128x32 .f32) (harg4 : arg4.IsWhole) (arg5 : Memref sig .tc .vmem S1x32 .f32) (harg5 : arg5.IsWhole) (arg6 : Memref sig .tc .vmem S32x32 .f32) (harg6 : arg6.IsWhole) (arg7 : Memref sig .tc .vmem S1x32 .f32) (harg7 : arg7.IsWhole) (arg8 : Memref sig .tc .vmem S1x7168x32 .f32) (harg8 : arg8.IsWhole)
    (x0 x1 : Vec F S1x7168x128 .f32) (x2 : Vec F S128x32 .f32) (x3 : Vec F S1x32 .f32) (x4 : Vec F S32x32 .f32) (x5 : Vec F S1x32 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (out1_6 x0 x1 x2 x3 x4 x5)) -∗ K ⟨⟩))
      ⊢ wp frame (wpE (defs₀ (F := F)) Variants.none c none) E (cc1__mlp_kernel i arg2 harg2 arg3 harg3 arg4 harg4 arg5 harg5 arg6 harg6 arg7 harg7 arg8 harg8) K := by
  simp only [cc1__mlp_kernel_eq_skeleton]; unfold cc1__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! ## The pipeline's proof data -/

def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.R2.lean ====
/-
  The first batch-norm call (the third pallas region), at any entry contents `V` and any float instance: a grid of
  4 x 7 points (community, row tile); at a point the body reads the 7168 x 32 tile of the MLP output, its community's
  1 x 32 mean and variance rows, and the 1 x 32 scale and shift rows, and overwrites the tile of the output with
  max(((h2 − mean) · rsqrt(var + ε)) · γ + β, 0)  (one store of the whole block).
-/
import proofs.«176190_j13365938225806_1_alg».proof.Proof.Gen.Kernel.Launch
import proofs.«176190_j13365938225806_1_alg».proof.Proof.Gen.Kernel.Skeleton
import proofs.«176190_j13365938225806_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## The windows' blocks -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (Pipeline.UD sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (Pipeline.UD sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (Pipeline.UD sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and the one store take a whole buffer -/

abbrev r2X : Rect S1x7168x32 := Rect.unit (s := S1x7168x32) ![0, 0, 0] S1x7168x32.size inb_S1x7168x32_S1x7168x32_0_0_0
abbrev r2s : Rect S1x1x32 := Rect.unit (s := S1x1x32) ![0, 0, 0] S1x1x32.size inb_S1x1x32_S1x1x32_0_0_0
abbrev r2g : Rect S1x32 := Rect.unit (s := S1x32) ![0, 0] S1x32.size inb_S1x32_S1x32_0_0

/-- The output tile after the body, from the five input blocks. -/
def out2_5 (x0 : Vec F S1x7168x32 .f32) (x1 x2 : Vec F S1x1x32 .f32) (x3 x4 : Vec F S1x32 .f32) : Vec F S1x7168x32 .f32 :=
  View.canon [⟨r2X, k2_pay1 (View.ld x0 r2X) (View.ld x1 r2s) (View.ld x2 r2s) (View.ld x3 r2g) (View.ld x4 r2g)⟩]

theorem cover2_5 (p0 : Vec F S1x7168x32 .f32) (y : S1x7168x32.Idx) :
    ∃ pc ∈ ([⟨r2X, p0⟩] : List (View.Piece (Elt F) S1x7168x32 .f32)), y ∈ pc.1.set :=
  View.cover_of_tiled [⟨r2X, p0⟩] S1x7168x32.size (by rfl) y

/-! ## The body's triple -/

set_option maxHeartbeats 1000000 in
theorem sound_kernel2 (c : Dev nD) (E : Set ℕ) (i : grid2.Coords) (arg2 : Memref sig .tc .vmem S1x7168x32 .f32) (harg2 : arg2.IsWhole) (arg3 : Memref sig .tc .vmem S1x1x32 .f32) (harg3 : arg3.IsWhole) (arg4 : Memref sig .tc .vmem S1x1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S1x7168x32 .f32) (harg7 : arg7.IsWhole)
    (x0 : Vec F S1x7168x32 .f32) (x1 x2 : Vec F S1x1x32 .f32) (x3 x4 : Vec F S1x32 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (out2_5 x0 x1 x2 x3 x4)) -∗ K ⟨⟩))
      ⊢ wp frame (wpE (defs₀ (F := F)) Variants.none c none) E (cc2__bn_kernel i arg2 harg2 arg3 harg3 arg4 harg4 arg5 harg5 arg6 harg6 arg7 harg7) K := by
  simp only [cc2__bn_kernel_eq_skeleton]; unfold cc2__bn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.R3.lean ====
/-
  The second MLP call (the fourth pallas region), at any entry contents `V` and any float instance: a grid of 4 x 7
  points (community, row tile); at a point the body reads the 7168 x 32 tile of the padded layer-0 features and of the
  padded neighbourhood sums of its community, the two 32 x 32 weights and the two biases whole, and overwrites the
  7168 x 32 tile of the output with  max((h + aggr) · W1 + b1, 0) · W2 + b2  (one store of the whole block).
-/
import proofs.«176190_j13365938225806_1_alg».proof.Proof.Gen.Kernel.Launch
import proofs.«176190_j13365938225806_1_alg».proof.Proof.Gen.Kernel.Skeleton
import proofs.«176190_j13365938225806_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## The windows' blocks -/

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (Pipeline.UD sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (Pipeline.UD sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (Pipeline.UD sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (Pipeline.UD sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (Pipeline.UD sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of {c : Dev nD} (dat : Dat τ (Elt F) Unit ℕ (Pipeline.UD sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: every load and the one store take a whole buffer -/

abbrev r3A : Rect S1x7168x32 := Rect.unit (s := S1x7168x32) ![0, 0, 0] S1x7168x32.size inb_S1x7168x32_S1x7168x32_0_0_0
abbrev r3W1 : Rect S32x32 := Rect.unit (s := S32x32) ![0, 0] S32x32.size inb_S32x32_S32x32_0_0
abbrev r3b : Rect S1x32 := Rect.unit (s := S1x32) ![0, 0] S1x32.size inb_S1x32_S1x32_0_0
abbrev r3W2 : Rect S32x32 := Rect.unit (s := S32x32) ![0, 0] S32x32.size inb_S32x32_S32x32_0_0
abbrev r3O : Rect S1x7168x32 := Rect.unit (s := S1x7168x32) ![0, 0, 0] S1x7168x32.size inb_S1x7168x32_S1x7168x32_0_0_0

/-- The output tile after the body, from the six input blocks. -/
def out3_6 (x0 x1 : Vec F S1x7168x32 .f32) (x2 : Vec F S32x32 .f32) (x3 : Vec F S1x32 .f32) (x4 : Vec F S32x32 .f32) (x5 : Vec F S1x32 .f32) : Vec F S1x7168x32 .f32 :=
  View.canon [⟨r3O, k3_pay1 (View.ld x0 r3A) (View.ld x1 r3A) (View.ld x2 r3W1) (View.ld x3 r3b) (View.ld x4 r3W2) (View.ld x5 r3b)⟩]

theorem cover3_6 (p0 : Vec F S1x7168x32 .f32) (y : S1x7168x32.Idx) :
    ∃ pc ∈ ([⟨r3O, p0⟩] : List (View.Piece (Elt F) S1x7168x32 .f32)), y ∈ pc.1.set :=
  View.cover_of_tiled [⟨r3O, p0⟩] S1x7168x32.size (by rfl) y

/-! ## The body's triple -/

set_option maxHeartbeats 1000000 in
theorem sound_kernel3 (c : Dev nD) (E : Set ℕ) (i : grid3.Coords) (arg2 : Memref sig .tc .vmem S1x7168x32 .f32) (harg2 : arg2.IsWhole) (arg3 : Memref sig .tc .vmem S1x7168x32 .f32) (harg3 : arg3.IsWhole) (arg4 : Memref sig .tc .vmem S32x32 .f32) (harg4 : arg4.IsWhole) (arg5 : Memref sig .tc .vmem S1x32 .f32) (harg5 : arg5.IsWhole) (arg6 : Memref sig .tc .vmem S32x32 .f32) (harg6 : arg6.IsWhole) (arg7 : Memref sig .tc .vmem S1x32 .f32) (harg7 : arg7.IsWhole) (arg8 : Memref sig .tc .vmem S1x7168x32 .f32) (harg8 : arg8.IsWhole)
    (x0 x1 : Vec F S1x7168x32 .f32) (x2 : Vec F S32x32 .f32) (x3 : Vec F S1x32 .f32) (x4 : Vec F S32x32 .f32) (x5 : Vec F S1x32 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (out3_6 x0 x1 x2 x3 x4 x5)) -∗ K ⟨⟩))
      ⊢ wp frame (wpE (defs₀ (F := F)) Variants.none c none) E (cc3__mlp_kernel i arg2 harg2 arg3 harg3 arg4 harg4 arg5 harg5 arg6 harg6 arg7 harg7 arg8 harg8) K := by
  simp only [cc3__mlp_kernel_eq_skeleton]; unfold cc3__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover3_6 _)

/-! ## The pipeline's proof data -/

def dat3 (c : Dev nD) : Dat τ (Elt F) Unit ℕ (Pipeline.UD sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = out3_6 (iblk3 V c 0 t) (iblk3 V c 1 t) (iblk3 V c 2 t) (iblk3 V c 3 t) (iblk3 V c 4 t) (iblk3 V c 5 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ (grid3.coords t) _ _ _ _ _ _ _ _ _ _ _ _ _ _ (iblk3 V c 0 t) (iblk3 V c 1 t) (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.R4.lean ====
/-
  The second batch-norm call (the fifth pallas region), at any entry contents `V` and any float instance: a grid of
  4 x 7 points (community, row tile); at a point the body reads the 7168 x 32 tile of the second MLP's output, its community's
  1 x 32 mean and variance rows, and the 1 x 32 scale and shift rows, and overwrites the tile of the output with
  max(((h2 − mean) · rsqrt(var + ε)) · γ + β, 0)  (one store of the whole block).
-/
import proofs.«176190_j13365938225806_1_alg».proof.Proof.Gen.Kernel.Launch
import proofs.«176190_j13365938225806_1_alg».proof.Proof.Gen.Kernel.Skeleton
import proofs.«176190_j13365938225806_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## The windows' blocks -/

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (Pipeline.UD sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (Pipeline.UD sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (Pipeline.UD sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (Pipeline.UD sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
theorem before4_4_of {c : Dev nD} (dat : Dat τ (Elt F) Unit ℕ (Pipeline.UD sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: every load and the one store take a whole buffer -/

abbrev r4X : Rect S1x7168x32 := Rect.unit (s := S1x7168x32) ![0, 0, 0] S1x7168x32.size inb_S1x7168x32_S1x7168x32_0_0_0
abbrev r4s : Rect S1x1x32 := Rect.unit (s := S1x1x32) ![0, 0, 0] S1x1x32.size inb_S1x1x32_S1x1x32_0_0_0
abbrev r4g : Rect S1x32 := Rect.unit (s := S1x32) ![0, 0] S1x32.size inb_S1x32_S1x32_0_0

/-- The output tile after the body, from the five input blocks. -/
def out4_5 (x0 : Vec F S1x7168x32 .f32) (x1 x2 : Vec F S1x1x32 .f32) (x3 x4 : Vec F S1x32 .f32) : Vec F S1x7168x32 .f32 :=
  View.canon [⟨r4X, k4_pay1 (View.ld x0 r4X) (View.ld x1 r4s) (View.ld x2 r4s) (View.ld x3 r4g) (View.ld x4 r4g)⟩]

theorem cover4_5 (p0 : Vec F S1x7168x32 .f32) (y : S1x7168x32.Idx) :
    ∃ pc ∈ ([⟨r4X, p0⟩] : List (View.Piece (Elt F) S1x7168x32 .f32)), y ∈ pc.1.set :=
  View.cover_of_tiled [⟨r4X, p0⟩] S1x7168x32.size (by rfl) y

/-! ## The body's triple -/

set_option maxHeartbeats 1000000 in
theorem sound_kernel4 (c : Dev nD) (E : Set ℕ) (i : grid4.Coords) (arg2 : Memref sig .tc .vmem S1x7168x32 .f32) (harg2 : arg2.IsWhole) (arg3 : Memref sig .tc .vmem S1x1x32 .f32) (harg3 : arg3.IsWhole) (arg4 : Memref sig .tc .vmem S1x1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S1x7168x32 .f32) (harg7 : arg7.IsWhole)
    (x0 : Vec F S1x7168x32 .f32) (x1 x2 : Vec F S1x1x32 .f32) (x3 x4 : Vec F S1x32 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (out4_5 x0 x1 x2 x3 x4)) -∗ K ⟨⟩))
      ⊢ wp frame (wpE (defs₀ (F := F)) Variants.none c none) E (cc4__bn_kernel i arg2 harg2 arg3 harg3 arg4 harg4 arg5 harg5 arg6 harg6 arg7 harg7) K := by
  simp only [cc4__bn_kernel_eq_skeleton]; unfold cc4__bn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4_5 _)

/-! ## The pipeline's proof data -/

def dat4 (c : Dev nD) : Dat τ (Elt F) Unit ℕ (Pipeline.UD sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = out4_5 (iblk4 V c 0 t) (iblk4 V c 1 t) (iblk4 V c 2 t) (iblk4 V c 3 t) (iblk4 V c 4 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-! ## The body obligation, at a generic point -/

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ (grid4.coords t) _ _ _ _ _ _ _ _ _ _ _ _ (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.K.Writes.lean ====
/-
  No operation of a stretch of host operations writes outside the stretch's list of written buffers, and none
  allocates: so a buffer outside the list keeps its contents across the stretch. One pair of statements per stretch
  (18 stretches between and around the five pallas regions).
-/
import proofs.«176190_j13365938225806_1_alg».proof.Proof.K.WritesTab
import Idealize.ShloMosaic.Lib.StableHlo.Run

set_option maxRecDepth 16384

noncomputable section

namespace Cert.Kernel.Hand

open Idealize.ShloMosaic Idealize.ShloMosaic.TcCoe
open Idealize.SL Idealize.SL.Sem
open Cert.Kernel Cert.Kernel.Gen

variable {F : FTy → Type} [FloatOps F]

theorem hostOps0_writes : (hostOps0 : List (HloOp τ sig (Elt F))).Forall fun op => op.writes ⊆ (hostOps0_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps0_fresh : (hostOps0 : List (HloOp τ sig (Elt F))).Forall fun op => op.fresh = ∅ := by
  simp only [List.Forall]; repeat' constructor

theorem hostOps0_1_writes : (hostOps0_1 : List (HloOp τ sig (Elt F))).Forall fun op => op.writes ⊆ (hostOps0_1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps0_1_fresh : (hostOps0_1 : List (HloOp τ sig (Elt F))).Forall fun op => op.fresh = ∅ := by
  simp only [List.Forall]; repeat' constructor

theorem hostOps0_2_writes : (hostOps0_2 : List (HloOp τ sig (Elt F))).Forall fun op => op.writes ⊆ (hostOps0_2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps0_2_fresh : (hostOps0_2 : List (HloOp τ sig (Elt F))).Forall fun op => op.fresh = ∅ := by
  simp only [List.Forall]; repeat' constructor

theorem hostOps1_writes : (hostOps1 : List (HloOp τ sig (Elt F))).Forall fun op => op.writes ⊆ (hostOps1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps1_fresh : (hostOps1 : List (HloOp τ sig (Elt F))).Forall fun op => op.fresh = ∅ := by
  simp only [List.Forall]; repeat' constructor

theorem hostOps1_1_writes : (hostOps1_1 : List (HloOp τ sig (Elt F))).Forall fun op => op.writes ⊆ (hostOps1_1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps1_1_fresh : (hostOps1_1 : List (HloOp τ sig (Elt F))).Forall fun op => op.fresh = ∅ := by
  simp only [List.Forall]; repeat' constructor

theorem hostOps1_2_writes : (hostOps1_2 : List (HloOp τ sig (Elt F))).Forall fun op => op.writes ⊆ (hostOps1_2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps1_2_fresh : (hostOps1_2 : List (HloOp τ sig (Elt F))).Forall fun op => op.fresh = ∅ := by
  simp only [List.Forall]; repeat' constructor

theorem hostOps2_writes : (hostOps2 : List (HloOp τ sig (Elt F))).Forall fun op => op.writes ⊆ (hostOps2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps2_fresh : (hostOps2 : List (HloOp τ sig (Elt F))).Forall fun op => op.fresh = ∅ := by
  simp only [List.Forall]; repeat' constructor

theorem hostOps2_1_writes : (hostOps2_1 : List (HloOp τ sig (Elt F))).Forall fun op => op.writes ⊆ (hostOps2_1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps2_1_fresh : (hostOps2_1 : List (HloOp τ sig (Elt F))).Forall fun op => op.fresh = ∅ := by
  simp only [List.Forall]; repeat' constructor

theorem hostOps2_2_writes : (hostOps2_2 : List (HloOp τ sig (Elt F))).Forall fun op => op.writes ⊆ (hostOps2_2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps2_2_fresh : (hostOps2_2 : List (HloOp τ sig (Elt F))).Forall fun op => op.fresh = ∅ := by
  simp only [List.Forall]; repeat' constructor

theorem hostOps3_writes : (hostOps3 : List (HloOp τ sig (Elt F))).Forall fun op => op.writes ⊆ (hostOps3_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps3_fresh : (hostOps3 : List (HloOp τ sig (Elt F))).Forall fun op => op.fresh = ∅ := by
  simp only [List.Forall]; repeat' constructor

theorem hostOps3_1_writes : (hostOps3_1 : List (HloOp τ sig (Elt F))).Forall fun op => op.writes ⊆ (hostOps3_1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps3_1_fresh : (hostOps3_1 : List (HloOp τ sig (Elt F))).Forall fun op => op.fresh = ∅ := by
  simp only [List.Forall]; repeat' constructor

theorem hostOps3_2_writes : (hostOps3_2 : List (HloOp τ sig (Elt F))).Forall fun op => op.writes ⊆ (hostOps3_2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps3_2_fresh : (hostOps3_2 : List (HloOp τ sig (Elt F))).Forall fun op => op.fresh = ∅ := by
  simp only [List.Forall]; repeat' constructor

theorem hostOps3_3_writes : (hostOps3_3 : List (HloOp τ sig (Elt F))).Forall fun op => op.writes ⊆ (hostOps3_3_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps3_3_fresh : (hostOps3_3 : List (HloOp τ sig (Elt F))).Forall fun op => op.fresh = ∅ := by
  simp only [List.Forall]; repeat' constructor

theorem hostOps3_4_writes : (hostOps3_4 : List (HloOp τ sig (Elt F))).Forall fun op => op.writes ⊆ (hostOps3_4_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps3_4_fresh : (hostOps3_4 : List (HloOp τ sig (Elt F))).Forall fun op => op.fresh = ∅ := by
  simp only [List.Forall]; repeat' constructor

theorem hostOps4_writes : (hostOps4 : List (HloOp τ sig (Elt F))).Forall fun op => op.writes ⊆ (hostOps4_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps4_fresh : (hostOps4 : List (HloOp τ sig (Elt F))).Forall fun op => op.fresh = ∅ := by
  simp only [List.Forall]; repeat' constructor

theorem hostOps4_1_writes : (hostOps4_1 : List (HloOp τ sig (Elt F))).Forall fun op => op.writes ⊆ (hostOps4_1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps4_1_fresh : (hostOps4_1 : List (HloOp τ sig (Elt F))).Forall fun op => op.fresh = ∅ := by
  simp only [List.Forall]; repeat' constructor

theorem hostOps4_2_writes : (hostOps4_2 : List (HloOp τ sig (Elt F))).Forall fun op => op.writes ⊆ (hostOps4_2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps4_2_fresh : (hostOps4_2 : List (HloOp τ sig (Elt F))).Forall fun op => op.fresh = ∅ := by
  simp only [List.Forall]; repeat' constructor

theorem hostOps5_writes : (hostOps5 : List (HloOp τ sig (Elt F))).Forall fun op => op.writes ⊆ (hostOps5_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps5_fresh : (hostOps5 : List (HloOp τ sig (Elt F))).Forall fun op => op.fresh = ∅ := by
  simp only [List.Forall]; repeat' constructor

end Cert.Kernel.Hand

end
-- ==== Proof.K.Run.lean ====
/-
  The whole run of the kernel's @main, at any float instance: its 23 items in order — 18 stretches of host operations
  and the five pallas regions — as segments over one thread state ("every unscoped buffer of the TensorCore at the
  current contents, the generator register, nothing owed"). The contents at each boundary are a fold from the launch
  memory: a stretch applies its operations; a region leaves each of its windows' arrays at what its write-backs left
  and every other buffer as it found it. No stretch writes an argument and no region writes one back, so every
  argument array ends as launched; the result buffer ends at the fold's value there.
-/
import proofs.«176190_j13365938225806_1_alg».proof.Proof.K.R0
import proofs.«176190_j13365938225806_1_alg».proof.Proof.K.R1
import proofs.«176190_j13365938225806_1_alg».proof.Proof.K.R2
import proofs.«176190_j13365938225806_1_alg».proof.Proof.K.R3
import proofs.«176190_j13365938225806_1_alg».proof.Proof.K.R4
import proofs.«176190_j13365938225806_1_alg».proof.Proof.K.Writes
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
/-- The encoder region's entry. -/
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b
/-- The encoder region's exit: its arrays at what the pipeline leaves, every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps1 (W4 m ρ c)
abbrev W6 : Dev nD → Valuation τ sig (Elt F) := fun c => StableHlo.after hostOps1_1 (W5 m ρ c)
/-- The first MLP region's entry. -/
abbrev W7 : Dev nD → Valuation τ sig (Elt F) := fun c => StableHlo.after hostOps1_2 (W6 m ρ c)
abbrev V7 : (c : Dev nD) → (b : Ref sig .tc) → Buf (Elt F) ((c : Thread nD τ).loc b) := fun c b => W7 m ρ c b
def W8 (c : Dev nD) : Valuation τ sig (Elt F) :=
  Pipeline.withArrays spec1 c (W7 m ρ c) fun w => (dat1 (V7 m ρ) c).arrAt w cfg1.N
theorem W8_arr (c : Dev nD) (w : Fin cfg1.W) :
    W8 m ρ c (Proc.devRef .tc (Pipeline.arrRef spec1 w)) = (dat1 (V7 m ρ) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m ρ c (Proc.devRef .tc b) = W7 m ρ c (Proc.devRef .tc b) := by
  unfold W8; exact Pipeline.withArrays_of_ne spec1 c _ _ b hb
abbrev V8 : (c : Dev nD) → (b : Ref sig .tc) → Buf (Elt F) ((c : Thread nD τ).loc b) := fun c b => W8 m ρ c b
theorem hF1 (c : Dev nD) (w : Fin cfg1.W) : (dat1 (V7 m ρ) c).arrAt w cfg1.N = V8 m ρ c (Pipeline.arrRef spec1 w) :=
  (W8_arr m ρ c w).symm
theorem hrest1 (c : Dev nD) : ∀ b, b ∉ Finset.univ.image (Pipeline.arrRef spec1) → V8 m ρ c b = V7 m ρ c b :=
  fun b hb => W8_of_ne m ρ c b fun w e => hb (Finset.mem_image.mpr ⟨w, Finset.mem_univ _, e⟩)

abbrev W9 : Dev nD → Valuation τ sig (Elt F) := fun c => StableHlo.after hostOps2 (W8 m ρ c)
abbrev W10 : Dev nD → Valuation τ sig (Elt F) := fun c => StableHlo.after hostOps2_1 (W9 m ρ c)
/-- The first batch-norm region's entry. -/
abbrev W11 : Dev nD → Valuation τ sig (Elt F) := fun c => StableHlo.after hostOps2_2 (W10 m ρ c)
abbrev V11 : (c : Dev nD) → (b : Ref sig .tc) → Buf (Elt F) ((c : Thread nD τ).loc b) := fun c b => W11 m ρ c b
def W12 (c : Dev nD) : Valuation τ sig (Elt F) :=
  Pipeline.withArrays spec2 c (W11 m ρ c) fun w => (dat2 (V11 m ρ) c).arrAt w cfg2.N
theorem W12_arr (c : Dev nD) (w : Fin cfg2.W) :
    W12 m ρ c (Proc.devRef .tc (Pipeline.arrRef spec2 w)) = (dat2 (V11 m ρ) c).arrAt w cfg2.N := by
  unfold W12; exact Pipeline.withArrays_arr spec2 launch2.win.arr_inj c _ _ w
theorem W12_of_ne (c : Dev nD) (b : Ref sig .tc) (hb : ∀ w, Pipeline.arrRef spec2 w ≠ b) :
    W12 m ρ c (Proc.devRef .tc b) = W11 m ρ c (Proc.devRef .tc b) := by
  unfold W12; exact Pipeline.withArrays_of_ne spec2 c _ _ b hb
abbrev V12 : (c : Dev nD) → (b : Ref sig .tc) → Buf (Elt F) ((c : Thread nD τ).loc b) := fun c b => W12 m ρ c b
theorem hF2 (c : Dev nD) (w : Fin cfg2.W) : (dat2 (V11 m ρ) c).arrAt w cfg2.N = V12 m ρ c (Pipeline.arrRef spec2 w) :=
  (W12_arr m ρ c w).symm
theorem hrest2 (c : Dev nD) : ∀ b, b ∉ Finset.univ.image (Pipeline.arrRef spec2) → V12 m ρ c b = V11 m ρ c b :=
  fun b hb => W12_of_ne m ρ c b fun w e => hb (Finset.mem_image.mpr ⟨w, Finset.mem_univ _, e⟩)

abbrev W13 : Dev nD → Valuation τ sig (Elt F) := fun c => StableHlo.after hostOps3 (W12 m ρ c)
abbrev W14 : Dev nD → Valuation τ sig (Elt F) := fun c => StableHlo.after hostOps3_1 (W13 m ρ c)
abbrev W15 : Dev nD → Valuation τ sig (Elt F) := fun c => StableHlo.after hostOps3_2 (W14 m ρ c)
abbrev W16 : Dev nD → Valuation τ sig (Elt F) := fun c => StableHlo.after hostOps3_3 (W15 m ρ c)
/-- The second MLP region's entry. -/
abbrev W17 : Dev nD → Valuation τ sig (Elt F) := fun c => StableHlo.after hostOps3_4 (W16 m ρ c)
abbrev V17 : (c : Dev nD) → (b : Ref sig .tc) → Buf (Elt F) ((c : Thread nD τ).loc b) := fun c b => W17 m ρ c b
def W18 (c : Dev nD) : Valuation τ sig (Elt F) :=
  Pipeline.withArrays spec3 c (W17 m ρ c) fun w => (dat3 (V17 m ρ) c).arrAt w cfg3.N
theorem W18_arr (c : Dev nD) (w : Fin cfg3.W) :
    W18 m ρ c (Proc.devRef .tc (Pipeline.arrRef spec3 w)) = (dat3 (V17 m ρ) c).arrAt w cfg3.N := by
  unfold W18; exact Pipeline.withArrays_arr spec3 launch3.win.arr_inj c _ _ w
theorem W18_of_ne (c : Dev nD) (b : Ref sig .tc) (hb : ∀ w, Pipeline.arrRef spec3 w ≠ b) :
    W18 m ρ c (Proc.devRef .tc b) = W17 m ρ c (Proc.devRef .tc b) := by
  unfold W18; exact Pipeline.withArrays_of_ne spec3 c _ _ b hb
abbrev V18 : (c : Dev nD) → (b : Ref sig .tc) → Buf (Elt F) ((c : Thread nD τ).loc b) := fun c b => W18 m ρ c b
theorem hF3 (c : Dev nD) (w : Fin cfg3.W) : (dat3 (V17 m ρ) c).arrAt w cfg3.N = V18 m ρ c (Pipeline.arrRef spec3 w) :=
  (W18_arr m ρ c w).symm
theorem hrest3 (c : Dev nD) : ∀ b, b ∉ Finset.univ.image (Pipeline.arrRef spec3) → V18 m ρ c b = V17 m ρ c b :=
  fun b hb => W18_of_ne m ρ c b fun w e => hb (Finset.mem_image.mpr ⟨w, Finset.mem_univ _, e⟩)

abbrev W19 : Dev nD → Valuation τ sig (Elt F) := fun c => StableHlo.after hostOps4 (W18 m ρ c)
abbrev W20 : Dev nD → Valuation τ sig (Elt F) := fun c => StableHlo.after hostOps4_1 (W19 m ρ c)
/-- The second batch-norm region's entry. -/
abbrev W21 : Dev nD → Valuation τ sig (Elt F) := fun c => StableHlo.after hostOps4_2 (W20 m ρ c)
abbrev V21 : (c : Dev nD) → (b : Ref sig .tc) → Buf (Elt F) ((c : Thread nD τ).loc b) := fun c b => W21 m ρ c b
def W22 (c : Dev nD) : Valuation τ sig (Elt F) :=
  Pipeline.withArrays spec4 c (W21 m ρ c) fun w => (dat4 (V21 m ρ) c).arrAt w cfg4.N
theorem W22_arr (c : Dev nD) (w : Fin cfg4.W) :
    W22 m ρ c (Proc.devRef .tc (Pipeline.arrRef spec4 w)) = (dat4 (V21 m ρ) c).arrAt w cfg4.N := by
  unfold W22; exact Pipeline.withArrays_arr spec4 launch4.win.arr_inj c _ _ w
theorem W22_of_ne (c : Dev nD) (b : Ref sig .tc) (hb : ∀ w, Pipeline.arrRef spec4 w ≠ b) :
    W22 m ρ c (Proc.devRef .tc b) = W21 m ρ c (Proc.devRef .tc b) := by
  unfold W22; exact Pipeline.withArrays_of_ne spec4 c _ _ b hb
abbrev V22 : (c : Dev nD) → (b : Ref sig .tc) → Buf (Elt F) ((c : Thread nD τ).loc b) := fun c b => W22 m ρ c b
theorem hF4 (c : Dev nD) (w : Fin cfg4.W) : (dat4 (V21 m ρ) c).arrAt w cfg4.N = V22 m ρ c (Pipeline.arrRef spec4 w) :=
  (W22_arr m ρ c w).symm
theorem hrest4 (c : Dev nD) : ∀ b, b ∉ Finset.univ.image (Pipeline.arrRef spec4) → V22 m ρ c b = V21 m ρ c b :=
  fun b hb => W22_of_ne m ρ c b fun w e => hb (Finset.mem_image.mpr ⟨w, Finset.mem_univ _, e⟩)

/-- The contents when @main returns. -/
abbrev W23 : Dev nD → Valuation τ sig (Elt F) := fun c => StableHlo.after hostOps5 (W22 m ρ c)

/-! ## A buffer no stretch writes and no region changes ends as launched -/

theorem W23_keep (c : Dev nD) (r : Ref sig .tc)
    (g0 : W4 m ρ c (Proc.devRef .tc r) = W3 m ρ c (Proc.devRef .tc r))
    (g1 : W8 m ρ c (Proc.devRef .tc r) = W7 m ρ c (Proc.devRef .tc r))
    (g2 : W12 m ρ c (Proc.devRef .tc r) = W11 m ρ c (Proc.devRef .tc r))
    (g3 : W18 m ρ c (Proc.devRef .tc r) = W17 m ρ c (Proc.devRef .tc r))
    (g4 : W22 m ρ c (Proc.devRef .tc r) = W21 m ρ c (Proc.devRef .tc r))
    (h0 : r ∉ hostOps0_W := by decide) (h0_1 : r ∉ hostOps0_1_W := by decide) (h0_2 : r ∉ hostOps0_2_W := by decide)
    (h1 : r ∉ hostOps1_W := by decide) (h1_1 : r ∉ hostOps1_1_W := by decide) (h1_2 : r ∉ hostOps1_2_W := by decide)
    (h2 : r ∉ hostOps2_W := by decide) (h2_1 : r ∉ hostOps2_1_W := by decide) (h2_2 : r ∉ hostOps2_2_W := by decide)
    (h3 : r ∉ hostOps3_W := by decide) (h3_1 : r ∉ hostOps3_1_W := by decide) (h3_2 : r ∉ hostOps3_2_W := by decide)
    (h3_3 : r ∉ hostOps3_3_W := by decide) (h3_4 : r ∉ hostOps3_4_W := by decide)
    (h4 : r ∉ hostOps4_W := by decide) (h4_1 : r ∉ hostOps4_1_W := by decide) (h4_2 : r ∉ hostOps4_2_W := by decide)
    (h5 : r ∉ hostOps5_W := by decide) :
    W23 m ρ c (Proc.devRef .tc r) = m ((c : Thread nD τ).loc r) :=
  calc W23 m ρ c (Proc.devRef .tc r)
    _ = W22 m ρ c (Proc.devRef .tc r) := StableHlo.after_of_writes_sub hostOps5 _ hostOps5_writes h5
    _ = W21 m ρ c (Proc.devRef .tc r) := g4
    _ = W20 m ρ c (Proc.devRef .tc r) := StableHlo.after_of_writes_sub hostOps4_2 _ hostOps4_2_writes h4_2
    _ = W19 m ρ c (Proc.devRef .tc r) := StableHlo.after_of_writes_sub hostOps4_1 _ hostOps4_1_writes h4_1
    _ = W18 m ρ c (Proc.devRef .tc r) := StableHlo.after_of_writes_sub hostOps4 _ hostOps4_writes h4
    _ = W17 m ρ c (Proc.devRef .tc r) := g3
    _ = W16 m ρ c (Proc.devRef .tc r) := StableHlo.after_of_writes_sub hostOps3_4 _ hostOps3_4_writes h3_4
    _ = W15 m ρ c (Proc.devRef .tc r) := StableHlo.after_of_writes_sub hostOps3_3 _ hostOps3_3_writes h3_3
    _ = W14 m ρ c (Proc.devRef .tc r) := StableHlo.after_of_writes_sub hostOps3_2 _ hostOps3_2_writes h3_2
    _ = W13 m ρ c (Proc.devRef .tc r) := StableHlo.after_of_writes_sub hostOps3_1 _ hostOps3_1_writes h3_1
    _ = W12 m ρ c (Proc.devRef .tc r) := StableHlo.after_of_writes_sub hostOps3 _ hostOps3_writes h3
    _ = W11 m ρ c (Proc.devRef .tc r) := g2
    _ = W10 m ρ c (Proc.devRef .tc r) := StableHlo.after_of_writes_sub hostOps2_2 _ hostOps2_2_writes h2_2
    _ = W9 m ρ c (Proc.devRef .tc r) := StableHlo.after_of_writes_sub hostOps2_1 _ hostOps2_1_writes h2_1
    _ = W8 m ρ c (Proc.devRef .tc r) := StableHlo.after_of_writes_sub hostOps2 _ hostOps2_writes h2
    _ = W7 m ρ c (Proc.devRef .tc r) := g1
    _ = W6 m ρ c (Proc.devRef .tc r) := StableHlo.after_of_writes_sub hostOps1_2 _ hostOps1_2_writes h1_2
    _ = W5 m ρ c (Proc.devRef .tc r) := StableHlo.after_of_writes_sub hostOps1_1 _ hostOps1_1_writes h1_1
    _ = W4 m ρ c (Proc.devRef .tc r) := StableHlo.after_of_writes_sub hostOps1 _ hostOps1_writes h1
    _ = W3 m ρ c (Proc.devRef .tc r) := g0
    _ = W2 m ρ c (Proc.devRef .tc r) := StableHlo.after_of_writes_sub hostOps0_2 _ hostOps0_2_writes h0_2
    _ = W1 m ρ c (Proc.devRef .tc r) := StableHlo.after_of_writes_sub hostOps0_1 _ hostOps0_1_writes h0_1
    _ = W0 m ρ c (Proc.devRef .tc r) := StableHlo.after_of_writes_sub hostOps0 _ hostOps0_writes h0
    _ = m ((c : Thread nD τ).loc r) := rfl

/-! ### Each argument: a region either does not touch it or reads it through an input window (whose array the
    pipeline leaves as it found it) -/

theorem W23_main_arg0 (c : Dev nD) : W23 m ρ c (Proc.devRef .tc main_arg0) = m ((c : Thread nD τ).loc main_arg0) :=
  W23_keep m ρ c main_arg0 (W4_of_ne m ρ c main_arg0 (by decide))
    (W8_of_ne m ρ c main_arg0 (by decide))
    (W12_of_ne m ρ c main_arg0 (by decide))
    (W18_of_ne m ρ c main_arg0 (by decide))
    (W22_of_ne m ρ c main_arg0 (by decide))
theorem W23_main_arg1 (c : Dev nD) : W23 m ρ c (Proc.devRef .tc main_arg1) = m ((c : Thread nD τ).loc main_arg1) :=
  W23_keep m ρ c main_arg1 (W4_of_ne m ρ c main_arg1 (by decide))
    (W8_of_ne m ρ c main_arg1 (by decide))
    (W12_of_ne m ρ c main_arg1 (by decide))
    (W18_of_ne m ρ c main_arg1 (by decide))
    (W22_of_ne m ρ c main_arg1 (by decide))
theorem W23_main_arg2 (c : Dev nD) : W23 m ρ c (Proc.devRef .tc main_arg2) = m ((c : Thread nD τ).loc main_arg2) :=
  W23_keep m ρ c main_arg2 (W4_of_ne m ρ c main_arg2 (by decide))
    (W8_of_ne m ρ c main_arg2 (by decide))
    (W12_of_ne m ρ c main_arg2 (by decide))
    (W18_of_ne m ρ c main_arg2 (by decide))
    (W22_of_ne m ρ c main_arg2 (by decide))
theorem W23_main_arg3 (c : Dev nD) : W23 m ρ c (Proc.devRef .tc main_arg3) = m ((c : Thread nD τ).loc main_arg3) :=
  W23_keep m ρ c main_arg3 (W4_of_ne m ρ c main_arg3 (by decide))
    ((W8_arr m ρ c 2).trans (((dat1 (V7 m ρ) c).arrAt_in 2 rfl _).trans (A_eq1 (V7 m ρ) c 2)))
    (W12_of_ne m ρ c main_arg3 (by decide))
    (W18_of_ne m ρ c main_arg3 (by decide))
    (W22_of_ne m ρ c main_arg3 (by decide))
theorem W23_main_arg4 (c : Dev nD) : W23 m ρ c (Proc.devRef .tc main_arg4) = m ((c : Thread nD τ).loc main_arg4) :=
  W23_keep m ρ c main_arg4 (W4_of_ne m ρ c main_arg4 (by decide))
    (W8_of_ne m ρ c main_arg4 (by decide))
    (W12_of_ne m ρ c main_arg4 (by decide))
    (W18_of_ne m ρ c main_arg4 (by decide))
    (W22_of_ne m ρ c main_arg4 (by decide))
theorem W23_main_arg5 (c : Dev nD) : W23 m ρ c (Proc.devRef .tc main_arg5) = m ((c : Thread nD τ).loc main_arg5) :=
  W23_keep m ρ c main_arg5 (W4_of_ne m ρ c main_arg5 (by decide))
    ((W8_arr m ρ c 4).trans (((dat1 (V7 m ρ) c).arrAt_in 4 rfl _).trans (A_eq1 (V7 m ρ) c 4)))
    (W12_of_ne m ρ c main_arg5 (by decide))
    (W18_of_ne m ρ c main_arg5 (by decide))
    (W22_of_ne m ρ c main_arg5 (by decide))
theorem W23_main_arg6 (c : Dev nD) : W23 m ρ c (Proc.devRef .tc main_arg6) = m ((c : Thread nD τ).loc main_arg6) :=
  W23_keep m ρ c main_arg6 (W4_of_ne m ρ c main_arg6 (by decide))
    (W8_of_ne m ρ c main_arg6 (by decide))
    (W12_of_ne m ρ c main_arg6 (by decide))
    (W18_of_ne m ρ c main_arg6 (by decide))
    (W22_of_ne m ρ c main_arg6 (by decide))
theorem W23_main_arg7 (c : Dev nD) : W23 m ρ c (Proc.devRef .tc main_arg7) = m ((c : Thread nD τ).loc main_arg7) :=
  W23_keep m ρ c main_arg7 (W4_of_ne m ρ c main_arg7 (by decide))
    (W8_of_ne m ρ c main_arg7 (by decide))
    (W12_of_ne m ρ c main_arg7 (by decide))
    (W18_of_ne m ρ c main_arg7 (by decide))
    (W22_of_ne m ρ c main_arg7 (by decide))
theorem W23_main_arg8 (c : Dev nD) : W23 m ρ c (Proc.devRef .tc main_arg8) = m ((c : Thread nD τ).loc main_arg8) :=
  W23_keep m ρ c main_arg8 (W4_of_ne m ρ c main_arg8 (by decide))
    (W8_of_ne m ρ c main_arg8 (by decide))
    (W12_of_ne m ρ c main_arg8 (by decide))
    (W18_of_ne m ρ c main_arg8 (by decide))
    (W22_of_ne m ρ c main_arg8 (by decide))
theorem W23_main_arg9 (c : Dev nD) : W23 m ρ c (Proc.devRef .tc main_arg9) = m ((c : Thread nD τ).loc main_arg9) :=
  W23_keep m ρ c main_arg9 (W4_of_ne m ρ c main_arg9 (by decide))
    (W8_of_ne m ρ c main_arg9 (by decide))
    (W12_of_ne m ρ c main_arg9 (by decide))
    ((W18_arr m ρ c 2).trans (((dat3 (V17 m ρ) c).arrAt_in 2 rfl _).trans (A_eq3 (V17 m ρ) c 2)))
    (W22_of_ne m ρ c main_arg9 (by decide))
theorem W23_main_arg10 (c : Dev nD) : W23 m ρ c (Proc.devRef .tc main_arg10) = m ((c : Thread nD τ).loc main_arg10) :=
  W23_keep m ρ c main_arg10 (W4_of_ne m ρ c main_arg10 (by decide))
    (W8_of_ne m ρ c main_arg10 (by decide))
    (W12_of_ne m ρ c main_arg10 (by decide))
    (W18_of_ne m ρ c main_arg10 (by decide))
    (W22_of_ne m ρ c main_arg10 (by decide))
theorem W23_main_arg11 (c : Dev nD) : W23 m ρ c (Proc.devRef .tc main_arg11) = m ((c : Thread nD τ).loc main_arg11) :=
  W23_keep m ρ c main_arg11 (W4_of_ne m ρ c main_arg11 (by decide))
    (W8_of_ne m ρ c main_arg11 (by decide))
    (W12_of_ne m ρ c main_arg11 (by decide))
    ((W18_arr m ρ c 4).trans (((dat3 (V17 m ρ) c).arrAt_in 4 rfl _).trans (A_eq3 (V17 m ρ) c 4)))
    (W22_of_ne m ρ c main_arg11 (by decide))
theorem W23_main_arg12 (c : Dev nD) : W23 m ρ c (Proc.devRef .tc main_arg12) = m ((c : Thread nD τ).loc main_arg12) :=
  W23_keep m ρ c main_arg12 (W4_of_ne m ρ c main_arg12 (by decide))
    (W8_of_ne m ρ c main_arg12 (by decide))
    (W12_of_ne m ρ c main_arg12 (by decide))
    (W18_of_ne m ρ c main_arg12 (by decide))
    (W22_of_ne m ρ c main_arg12 (by decide))
theorem W23_main_arg13 (c : Dev nD) : W23 m ρ c (Proc.devRef .tc main_arg13) = m ((c : Thread nD τ).loc main_arg13) :=
  W23_keep m ρ c main_arg13 (W4_of_ne m ρ c main_arg13 (by decide))
    (W8_of_ne m ρ c main_arg13 (by decide))
    (W12_of_ne m ρ c main_arg13 (by decide))
    (W18_of_ne m ρ c main_arg13 (by decide))
    (W22_of_ne m ρ c main_arg13 (by decide))
theorem W23_main_arg14 (c : Dev nD) : W23 m ρ c (Proc.devRef .tc main_arg14) = m ((c : Thread nD τ).loc main_arg14) :=
  W23_keep m ρ c main_arg14 (W4_of_ne m ρ c main_arg14 (by decide))
    (W8_of_ne m ρ c main_arg14 (by decide))
    (W12_of_ne m ρ c main_arg14 (by decide))
    (W18_of_ne m ρ c main_arg14 (by decide))
    (W22_of_ne m ρ c main_arg14 (by decide))
theorem W23_main_arg15 (c : Dev nD) : W23 m ρ c (Proc.devRef .tc main_arg15) = m ((c : Thread nD τ).loc main_arg15) :=
  W23_keep m ρ c main_arg15 ((W4_arr m ρ c 1).trans (((dat0 (V3 m ρ) c).arrAt_in 1 rfl _).trans (A_eq0 (V3 m ρ) c 1)))
    (W8_of_ne m ρ c main_arg15 (by decide))
    (W12_of_ne m ρ c main_arg15 (by decide))
    (W18_of_ne m ρ c main_arg15 (by decide))
    (W22_of_ne m ρ c main_arg15 (by decide))
theorem W23_main_arg16 (c : Dev nD) : W23 m ρ c (Proc.devRef .tc main_arg16) = m ((c : Thread nD τ).loc main_arg16) :=
  W23_keep m ρ c main_arg16 (W4_of_ne m ρ c main_arg16 (by decide))
    (W8_of_ne m ρ c main_arg16 (by decide))
    (W12_of_ne m ρ c main_arg16 (by decide))
    (W18_of_ne m ρ c main_arg16 (by decide))
    (W22_of_ne m ρ c main_arg16 (by decide))

/-! ## The proof data family and the thread state -/

abbrev adm : (p : Fin 5) → (pcfgs (F := F) p).Adm := fun p => (cfgs p).toPCfg_adm
/-- Every pipeline's proof data, each at its region's entry contents. -/
def pdats : (p : Fin 5) → (c : Dev nD) → Dat τ (Elt F) Unit ℕ (Pipeline.UD sig nD τ) ℕ (Pipeline.pin (pcfgs (F := F)) adm p) c
  | ⟨0, _⟩ => fun c => dat0 (V3 m ρ) c
  | ⟨1, _⟩ => fun c => dat1 (V7 m ρ) c
  | ⟨2, _⟩ => fun c => dat2 (V11 m ρ) c
  | ⟨3, _⟩ => fun c => dat3 (V17 m ρ) c
  | ⟨4, _⟩ => fun c => dat4 (V21 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W23 m ρ c) ∗ ∃ r, prngReg c r)

/-! ## The regions as segments -/

set_option backward.isDefEq.respectTransparency.types false in
/-- Region 0 over the thread state: entered from every unscoped buffer at `W3`, left at `W4`. Its windows' arrays
    are split out of the unscoped buffers at entry and put back at the exit contents; the generator register goes into
    the region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W7`, left at `W8`. Its windows' arrays
    are split out of the unscoped buffers at entry and put back at the exit contents; the generator register goes into
    the region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V7 m ρ) c).loose
  hwaits := Pipeline.hwaits_of_owed_zero _ _ _ _ L lv 1 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := Pipeline.UD sig nD τ) (Lvl := ℕ) spec1 c (V7 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m ρ) ((pdats m ρ 1 c).share_full fun _ => rfl)
      (V7 m ρ c) (V8 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W11`, left at `W12`. Its windows' arrays
    are split out of the unscoped buffers at entry and put back at the exit contents; the generator register goes into
    the region's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V11 m ρ) c).loose
  hwaits := Pipeline.hwaits_of_owed_zero _ _ _ _ L lv 2 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := Pipeline.UD sig nD τ) (Lvl := ℕ) spec2 c (V11 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := Pipeline.UD sig nD τ) (Lvl := ℕ)
      launch2.win launch2.arr_whole c (pdats m ρ) ((pdats m ρ 2 c).share_full fun _ => rfl)
      (V11 m ρ c) (V12 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W17`, left at `W18`. Its windows' arrays
    are split out of the unscoped buffers at entry and put back at the exit contents; the generator register goes into
    the region's invariant and comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V17 m ρ) c).loose
  hwaits := Pipeline.hwaits_of_owed_zero _ _ _ _ L lv 3 fun _ _ => rfl
  pre c := iprop(StableHlo.held (c : Thread nD τ) (Pipeline.ucRefs τ sig) (W17 m ρ c) ∗ R c)
  post c := iprop(StableHlo.held (c : Thread nD τ) (Pipeline.ucRefs τ sig) (W18 m ρ c) ∗ R c)
  X c := iprop(∃ r, prngReg c r)
  Y c := iprop(∃ r, prngReg c r)
  Z c := Pipeline.unscopedRest (Ix := Unit) (Name := ℕ) (U := Pipeline.UD sig nD τ) (Lvl := ℕ) spec3 c (V17 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V17 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := Pipeline.UD sig nD τ) (Lvl := ℕ)
      launch3.win launch3.arr_whole c (pdats m ρ) ((pdats m ρ 3 c).share_full fun _ => rfl)
      (V17 m ρ c) (V18 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W21`, left at `W22`. Its windows' arrays
    are split out of the unscoped buffers at entry and put back at the exit contents; the generator register goes into
    the region's invariant and comes back; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V21 m ρ) c).loose
  hwaits := Pipeline.hwaits_of_owed_zero _ _ _ _ L lv 4 fun _ _ => rfl
  pre c := iprop(StableHlo.held (c : Thread nD τ) (Pipeline.ucRefs τ sig) (W21 m ρ c) ∗ R c)
  post c := iprop(StableHlo.held (c : Thread nD τ) (Pipeline.ucRefs τ sig) (W22 m ρ c) ∗ R c)
  X c := iprop(∃ r, prngReg c r)
  Y c := iprop(∃ r, prngReg c r)
  Z c := Pipeline.unscopedRest (Ix := Unit) (Name := ℕ) (U := Pipeline.UD sig nD τ) (Lvl := ℕ) spec4 c (V21 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V21 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := Pipeline.UD sig nD τ) (Lvl := ℕ)
      launch4.win launch4.arr_whole c (pdats m ρ) ((pdats m ρ 4 c).share_full fun _ => rfl)
      (V21 m ρ c) (V22 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .host (hseg hostOps1_1 hostOps1_1_sub hostOps1_1_fresh (W5 m ρ)),
    .host (hseg hostOps1_2 hostOps1_2_sub hostOps1_2_fresh (W6 m ρ)),
    .region (reg1 m ρ),
    .host (hseg hostOps2 hostOps2_sub hostOps2_fresh (W8 m ρ)),
    .host (hseg hostOps2_1 hostOps2_1_sub hostOps2_1_fresh (W9 m ρ)),
    .host (hseg hostOps2_2 hostOps2_2_sub hostOps2_2_fresh (W10 m ρ)),
    .region (reg2 m ρ),
    .host (hseg hostOps3 hostOps3_sub hostOps3_fresh (W12 m ρ)),
    .host (hseg hostOps3_1 hostOps3_1_sub hostOps3_1_fresh (W13 m ρ)),
    .host (hseg hostOps3_2 hostOps3_2_sub hostOps3_2_fresh (W14 m ρ)),
    .host (hseg hostOps3_3 hostOps3_3_sub hostOps3_3_fresh (W15 m ρ)),
    .host (hseg hostOps3_4 hostOps3_4_sub hostOps3_4_fresh (W16 m ρ)),
    .region (reg3 m ρ),
    .host (hseg hostOps4 hostOps4_sub hostOps4_fresh (W18 m ρ)),
    .host (hseg hostOps4_1 hostOps4_1_sub hostOps4_1_fresh (W19 m ρ)),
    .host (hseg hostOps4_2 hostOps4_2_sub hostOps4_2_fresh (W20 m ρ)),
    .region (reg4 m ρ),
    .host (hseg hostOps5 hostOps5_sub hostOps5_fresh (W22 m ρ)) ]

theorem main_run (c : Dev nD) : main (F := F) c = Pipeline.Seg.run (segs m ρ) := (main_chain c).trans (by chain_rfl)

set_option backward.isDefEq.respectTransparency.types false in
/-- THE RUN, at any float instance: from any memory with zero counters every weakly fair execution of @main on the
    TensorCores terminates, nothing faulting; the result buffer ends at the fold's value `W23 … main_v188` and every
    argument array as launched. -/
theorem run : θ_run defs (onTc (τ := τ) (main (F := F))) ⟨m, fun _ => 0, ρ⟩ (fun r => ∀ c : Dev nD,
      r.2.mem ((c.tc : Thread nD τ).loc main_v188) = W23 m ρ c (Proc.devRef .tc main_v188)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj embL defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl,
      fun c => by
        show iprop(StableHlo.held (c : Thread nD τ) (Pipeline.ucRefs τ sig) (W23 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W23 m ρ c b)
    (hfin := fun c s' => by
      iintro ⟨⟨Hh, -⟩, HSI⟩
      unfold StableHlo.held
      imodintro
      iapply (pointsTo_read_all (Pipeline.ucRefs τ sig) (fun b => (((c : Thread nD τ)).1, b)) (W23 m ρ c) s')
      isplitl [Hh] <;> iassumption)
    (hQ := fun s h c =>
      ⟨h c _ (mem_uc main_v188 (by decide)),
       (h c _ (mem_uc main_arg0 (by decide))).trans (W23_main_arg0 m ρ c),
       (h c _ (mem_uc main_arg1 (by decide))).trans (W23_main_arg1 m ρ c),
       (h c _ (mem_uc main_arg2 (by decide))).trans (W23_main_arg2 m ρ c),
       (h c _ (mem_uc main_arg3 (by decide))).trans (W23_main_arg3 m ρ c),
       (h c _ (mem_uc main_arg4 (by decide))).trans (W23_main_arg4 m ρ c),
       (h c _ (mem_uc main_arg5 (by decide))).trans (W23_main_arg5 m ρ c),
       (h c _ (mem_uc main_arg6 (by decide))).trans (W23_main_arg6 m ρ c),
       (h c _ (mem_uc main_arg7 (by decide))).trans (W23_main_arg7 m ρ c),
       (h c _ (mem_uc main_arg8 (by decide))).trans (W23_main_arg8 m ρ c),
       (h c _ (mem_uc main_arg9 (by decide))).trans (W23_main_arg9 m ρ c),
       (h c _ (mem_uc main_arg10 (by decide))).trans (W23_main_arg10 m ρ c),
       (h c _ (mem_uc main_arg11 (by decide))).trans (W23_main_arg11 m ρ c),
       (h c _ (mem_uc main_arg12 (by decide))).trans (W23_main_arg12 m ρ c),
       (h c _ (mem_uc main_arg13 (by decide))).trans (W23_main_arg13 m ρ c),
       (h c _ (mem_uc main_arg14 (by decide))).trans (W23_main_arg14 m ρ c),
       (h c _ (mem_uc main_arg15 (by decide))).trans (W23_main_arg15 m ρ c),
       (h c _ (mem_uc main_arg16 (by decide))).trans (W23_main_arg16 m ρ c)⟩)

end Cert.Kernel.Hand

end
-- ==== Proof.KI.R0.lean ====
/-
  The encoder call (the first pallas region), at any entry contents `V` of the TensorCore's buffers and at any float
  instance: a grid of 7 row tiles; at tile `t` the body reads the 7168 x 128 tile of the zero-padded input, the whole
  128 x 128 weight and the 1 x 128 bias, and overwrites the tile of the output with  tile · W + bias  (one store of the
  whole block). Stated here: each window's block at a point, what the output's staging buffer holds after the body,
  the body's triple, the pipeline's proof data and the body obligation at every point.
-/
import proofs.«176190_j13365938225806_1_alg».proof.Proof.Gen.KernelIdeal.Launch
import proofs.«176190_j13365938225806_1_alg».proof.Proof.Gen.KernelIdeal.Skeleton
import proofs.«176190_j13365938225806_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## The windows' blocks -/

/-- Window `w`'s block at tile `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every tile, fetched there or not. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store take a whole buffer -/

abbrev rX0 : Rect S7168x128 := Rect.unit (s := S7168x128) ![0, 0] S7168x128.size inb_S7168x128_S7168x128_0_0
abbrev rW0 : Rect S128x128 := Rect.unit (s := S128x128) ![0, 0] S128x128.size inb_S128x128_S128x128_0_0
abbrev rB0 : Rect S1x128 := Rect.unit (s := S1x128) ![0, 0] S1x128.size inb_S1x128_S1x128_0_0

/-- The output tile after the body, from the three input blocks: tile · W + bias, stored whole. -/
def out0_3 (x0 : Vec F S7168x128 .f32) (x1 : Vec F S128x128 .f32) (x2 : Vec F S1x128 .f32) : Vec F S7168x128 .f32 :=
  View.canon [⟨rX0, k0_pay1 (View.ld x0 rX0) (View.ld x1 rW0) (View.ld x2 rB0)⟩]

/-- The one store covers the output's staging buffer. -/
theorem cover0_3 (p0 : Vec F S7168x128 .f32) (y : S7168x128.Idx) :
    ∃ pc ∈ ([⟨rX0, p0⟩] : List (View.Piece (Elt F) S7168x128 .f32)), y ∈ pc.1.set :=
  View.cover_of_tiled [⟨rX0, p0⟩] S7168x128.size (by rfl) y

/-! ## The body's triple -/

set_option maxHeartbeats 1000000 in
/-- On whole staging memrefs, the inputs' holding `x0 x1 x2` and the output's anything, the body runs to the inputs'
    unchanged and the output's at `out0_3 x0 x1 x2`. -/
theorem sound_kernel0 (c : Dev nD) (E : Set ℕ) (i : grid0.Coords) (arg1 : Memref sig .tc .vmem S7168x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S7168x128 .f32) (harg4 : arg4.IsWhole)
    (x0 : Vec F S7168x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__encoder_kernel i arg1 harg1 arg2 harg2 arg3 harg3 arg4 harg4) K := by
  simp only [cc0__encoder_kernel_eq_skeleton]; unfold cc0__encoder_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The arrays as the region finds them; after the body at tile `t` each input's buffer at its block and the output's
    at `out0_3` of the input blocks; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic tile -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1.lean ====
/-
  The first MLP call (the second pallas region), at any entry contents `V` and any float instance: a grid of 4 x 7
  points (community, row tile); at a point the body reads the 7168 x 128 tile of the padded features and of the padded
  neighbourhood sums of its community, the two weights and the two biases whole, and overwrites the 7168 x 32 tile of the
  output with  max((h + aggr) · W1 + b1, 0) · W2 + b2  (one store of the whole block).
-/
import proofs.«176190_j13365938225806_1_alg».proof.Proof.Gen.KernelIdeal.Launch
import proofs.«176190_j13365938225806_1_alg».proof.Proof.Gen.KernelIdeal.Skeleton
import proofs.«176190_j13365938225806_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## The windows' blocks -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (Pipeline.UD sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (Pipeline.UD sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store take a whole buffer -/

abbrev r1A : Rect S1x7168x128 := Rect.unit (s := S1x7168x128) ![0, 0, 0] S1x7168x128.size inb_S1x7168x128_S1x7168x128_0_0_0
abbrev r1W1 : Rect S128x32 := Rect.unit (s := S128x32) ![0, 0] S128x32.size inb_S128x32_S128x32_0_0
abbrev r1b : Rect S1x32 := Rect.unit (s := S1x32) ![0, 0] S1x32.size inb_S1x32_S1x32_0_0
abbrev r1W2 : Rect S32x32 := Rect.unit (s := S32x32) ![0, 0] S32x32.size inb_S32x32_S32x32_0_0
abbrev r1O : Rect S1x7168x32 := Rect.unit (s := S1x7168x32) ![0, 0, 0] S1x7168x32.size inb_S1x7168x32_S1x7168x32_0_0_0

/-- The output tile after the body, from the six input blocks. -/
def out1_6 (x0 x1 : Vec F S1x7168x128 .f32) (x2 : Vec F S128x32 .f32) (x3 : Vec F S1x32 .f32) (x4 : Vec F S32x32 .f32) (x5 : Vec F S1x32 .f32) : Vec F S1x7168x32 .f32 :=
  View.canon [⟨r1O, k1_pay1 (View.ld x0 r1A) (View.ld x1 r1A) (View.ld x2 r1W1) (View.ld x3 r1b) (View.ld x4 r1W2) (View.ld x5 r1b)⟩]

theorem cover1_6 (p0 : Vec F S1x7168x32 .f32) (y : S1x7168x32.Idx) :
    ∃ pc ∈ ([⟨r1O, p0⟩] : List (View.Piece (Elt F) S1x7168x32 .f32)), y ∈ pc.1.set :=
  View.cover_of_tiled [⟨r1O, p0⟩] S1x7168x32.size (by rfl) y

/-! ## The body's triple -/

set_option maxHeartbeats 1000000 in
theorem sound_kernel1 (c : Dev nD) (E : Set ℕ) (i : grid1.Coords) (arg2 : Memref sig .tc .vmem S1x7168x128 .f32) (harg2 : arg2.IsWhole) (arg3 : Memref sig .tc .vmem S1x7168x128 .f32) (harg3 : arg3.IsWhole) (arg4 : Memref sig .tc .vmem S128x32 .f32) (harg4 : arg4.IsWhole) (arg5 : Memref sig .tc .vmem S1x32 .f32) (harg5 : arg5.IsWhole) (arg6 : Memref sig .tc .vmem S32x32 .f32) (harg6 : arg6.IsWhole) (arg7 : Memref sig .tc .vmem S1x32 .f32) (harg7 : arg7.IsWhole) (arg8 : Memref sig .tc .vmem S1x7168x32 .f32) (harg8 : arg8.IsWhole)
    (x0 x1 : Vec F S1x7168x128 .f32) (x2 : Vec F S128x32 .f32) (x3 : Vec F S1x32 .f32) (x4 : Vec F S32x32 .f32) (x5 : Vec F S1x32 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (out1_6 x0 x1 x2 x3 x4 x5)) -∗ K ⟨⟩))
      ⊢ wp frame (wpE (defs₀ (F := F)) Variants.none c none) E (cc1__mlp_kernel i arg2 harg2 arg3 harg3 arg4 harg4 arg5 harg5 arg6 harg6 arg7 harg7 arg8 harg8) K := by
  simp only [cc1__mlp_kernel_eq_skeleton]; unfold cc1__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! ## The pipeline's proof data -/

def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.R2.lean ====
/-
  The first batch-norm call (the third pallas region), at any entry contents `V` and any float instance: a grid of
  4 x 7 points (community, row tile); at a point the body reads the 7168 x 32 tile of the MLP output, its community's
  1 x 32 mean and variance rows, and the 1 x 32 scale and shift rows, and overwrites the tile of the output with
  max(((h2 − mean) · rsqrt(var + ε)) · γ + β, 0)  (one store of the whole block).
-/
import proofs.«176190_j13365938225806_1_alg».proof.Proof.Gen.KernelIdeal.Launch
import proofs.«176190_j13365938225806_1_alg».proof.Proof.Gen.KernelIdeal.Skeleton
import proofs.«176190_j13365938225806_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## The windows' blocks -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (Pipeline.UD sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (Pipeline.UD sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (Pipeline.UD sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and the one store take a whole buffer -/

abbrev r2X : Rect S1x7168x32 := Rect.unit (s := S1x7168x32) ![0, 0, 0] S1x7168x32.size inb_S1x7168x32_S1x7168x32_0_0_0
abbrev r2s : Rect S1x1x32 := Rect.unit (s := S1x1x32) ![0, 0, 0] S1x1x32.size inb_S1x1x32_S1x1x32_0_0_0
abbrev r2g : Rect S1x32 := Rect.unit (s := S1x32) ![0, 0] S1x32.size inb_S1x32_S1x32_0_0

/-- The output tile after the body, from the five input blocks. -/
def out2_5 (x0 : Vec F S1x7168x32 .f32) (x1 x2 : Vec F S1x1x32 .f32) (x3 x4 : Vec F S1x32 .f32) : Vec F S1x7168x32 .f32 :=
  View.canon [⟨r2X, k2_pay1 (View.ld x0 r2X) (View.ld x1 r2s) (View.ld x2 r2s) (View.ld x3 r2g) (View.ld x4 r2g)⟩]

theorem cover2_5 (p0 : Vec F S1x7168x32 .f32) (y : S1x7168x32.Idx) :
    ∃ pc ∈ ([⟨r2X, p0⟩] : List (View.Piece (Elt F) S1x7168x32 .f32)), y ∈ pc.1.set :=
  View.cover_of_tiled [⟨r2X, p0⟩] S1x7168x32.size (by rfl) y

/-! ## The body's triple -/

set_option maxHeartbeats 1000000 in
theorem sound_kernel2 (c : Dev nD) (E : Set ℕ) (i : grid2.Coords) (arg2 : Memref sig .tc .vmem S1x7168x32 .f32) (harg2 : arg2.IsWhole) (arg3 : Memref sig .tc .vmem S1x1x32 .f32) (harg3 : arg3.IsWhole) (arg4 : Memref sig .tc .vmem S1x1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S1x7168x32 .f32) (harg7 : arg7.IsWhole)
    (x0 : Vec F S1x7168x32 .f32) (x1 x2 : Vec F S1x1x32 .f32) (x3 x4 : Vec F S1x32 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (out2_5 x0 x1 x2 x3 x4)) -∗ K ⟨⟩))
      ⊢ wp frame (wpE (defs₀ (F := F)) Variants.none c none) E (cc2__bn_kernel i arg2 harg2 arg3 harg3 arg4 harg4 arg5 harg5 arg6 harg6 arg7 harg7) K := by
  simp only [cc2__bn_kernel_eq_skeleton]; unfold cc2__bn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.R3.lean ====
/-
  The second MLP call (the fourth pallas region), at any entry contents `V` and any float instance: a grid of 4 x 7
  points (community, row tile); at a point the body reads the 7168 x 32 tile of the padded layer-0 features and of the
  padded neighbourhood sums of its community, the two 32 x 32 weights and the two biases whole, and overwrites the
  7168 x 32 tile of the output with  max((h + aggr) · W1 + b1, 0) · W2 + b2  (one store of the whole block).
-/
import proofs.«176190_j13365938225806_1_alg».proof.Proof.Gen.KernelIdeal.Launch
import proofs.«176190_j13365938225806_1_alg».proof.Proof.Gen.KernelIdeal.Skeleton
import proofs.«176190_j13365938225806_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## The windows' blocks -/

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (Pipeline.UD sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (Pipeline.UD sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (Pipeline.UD sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (Pipeline.UD sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (Pipeline.UD sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of {c : Dev nD} (dat : Dat τ (Elt F) Unit ℕ (Pipeline.UD sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: every load and the one store take a whole buffer -/

abbrev r3A : Rect S1x7168x32 := Rect.unit (s := S1x7168x32) ![0, 0, 0] S1x7168x32.size inb_S1x7168x32_S1x7168x32_0_0_0
abbrev r3W1 : Rect S32x32 := Rect.unit (s := S32x32) ![0, 0] S32x32.size inb_S32x32_S32x32_0_0
abbrev r3b : Rect S1x32 := Rect.unit (s := S1x32) ![0, 0] S1x32.size inb_S1x32_S1x32_0_0
abbrev r3W2 : Rect S32x32 := Rect.unit (s := S32x32) ![0, 0] S32x32.size inb_S32x32_S32x32_0_0
abbrev r3O : Rect S1x7168x32 := Rect.unit (s := S1x7168x32) ![0, 0, 0] S1x7168x32.size inb_S1x7168x32_S1x7168x32_0_0_0

/-- The output tile after the body, from the six input blocks. -/
def out3_6 (x0 x1 : Vec F S1x7168x32 .f32) (x2 : Vec F S32x32 .f32) (x3 : Vec F S1x32 .f32) (x4 : Vec F S32x32 .f32) (x5 : Vec F S1x32 .f32) : Vec F S1x7168x32 .f32 :=
  View.canon [⟨r3O, k3_pay1 (View.ld x0 r3A) (View.ld x1 r3A) (View.ld x2 r3W1) (View.ld x3 r3b) (View.ld x4 r3W2) (View.ld x5 r3b)⟩]

theorem cover3_6 (p0 : Vec F S1x7168x32 .f32) (y : S1x7168x32.Idx) :
    ∃ pc ∈ ([⟨r3O, p0⟩] : List (View.Piece (Elt F) S1x7168x32 .f32)), y ∈ pc.1.set :=
  View.cover_of_tiled [⟨r3O, p0⟩] S1x7168x32.size (by rfl) y

/-! ## The body's triple -/

set_option maxHeartbeats 1000000 in
theorem sound_kernel3 (c : Dev nD) (E : Set ℕ) (i : grid3.Coords) (arg2 : Memref sig .tc .vmem S1x7168x32 .f32) (harg2 : arg2.IsWhole) (arg3 : Memref sig .tc .vmem S1x7168x32 .f32) (harg3 : arg3.IsWhole) (arg4 : Memref sig .tc .vmem S32x32 .f32) (harg4 : arg4.IsWhole) (arg5 : Memref sig .tc .vmem S1x32 .f32) (harg5 : arg5.IsWhole) (arg6 : Memref sig .tc .vmem S32x32 .f32) (harg6 : arg6.IsWhole) (arg7 : Memref sig .tc .vmem S1x32 .f32) (harg7 : arg7.IsWhole) (arg8 : Memref sig .tc .vmem S1x7168x32 .f32) (harg8 : arg8.IsWhole)
    (x0 x1 : Vec F S1x7168x32 .f32) (x2 : Vec F S32x32 .f32) (x3 : Vec F S1x32 .f32) (x4 : Vec F S32x32 .f32) (x5 : Vec F S1x32 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (out3_6 x0 x1 x2 x3 x4 x5)) -∗ K ⟨⟩))
      ⊢ wp frame (wpE (defs₀ (F := F)) Variants.none c none) E (cc3__mlp_kernel i arg2 harg2 arg3 harg3 arg4 harg4 arg5 harg5 arg6 harg6 arg7 harg7 arg8 harg8) K := by
  simp only [cc3__mlp_kernel_eq_skeleton]; unfold cc3__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover3_6 _)

/-! ## The pipeline's proof data -/

def dat3 (c : Dev nD) : Dat τ (Elt F) Unit ℕ (Pipeline.UD sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = out3_6 (iblk3 V c 0 t) (iblk3 V c 1 t) (iblk3 V c 2 t) (iblk3 V c 3 t) (iblk3 V c 4 t) (iblk3 V c 5 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ (grid3.coords t) _ _ _ _ _ _ _ _ _ _ _ _ _ _ (iblk3 V c 0 t) (iblk3 V c 1 t) (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.R4.lean ====
/-
  The second batch-norm call (the fifth pallas region), at any entry contents `V` and any float instance: a grid of
  4 x 7 points (community, row tile); at a point the body reads the 7168 x 32 tile of the second MLP's output, its community's
  1 x 32 mean and variance rows, and the 1 x 32 scale and shift rows, and overwrites the tile of the output with
  max(((h2 − mean) · rsqrt(var + ε)) · γ + β, 0)  (one store of the whole block).
-/
import proofs.«176190_j13365938225806_1_alg».proof.Proof.Gen.KernelIdeal.Launch
import proofs.«176190_j13365938225806_1_alg».proof.Proof.Gen.KernelIdeal.Skeleton
import proofs.«176190_j13365938225806_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## The windows' blocks -/

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (Pipeline.UD sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (Pipeline.UD sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (Pipeline.UD sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (Pipeline.UD sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
theorem before4_4_of {c : Dev nD} (dat : Dat τ (Elt F) Unit ℕ (Pipeline.UD sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: every load and the one store take a whole buffer -/

abbrev r4X : Rect S1x7168x32 := Rect.unit (s := S1x7168x32) ![0, 0, 0] S1x7168x32.size inb_S1x7168x32_S1x7168x32_0_0_0
abbrev r4s : Rect S1x1x32 := Rect.unit (s := S1x1x32) ![0, 0, 0] S1x1x32.size inb_S1x1x32_S1x1x32_0_0_0
abbrev r4g : Rect S1x32 := Rect.unit (s := S1x32) ![0, 0] S1x32.size inb_S1x32_S1x32_0_0

/-- The output tile after the body, from the five input blocks. -/
def out4_5 (x0 : Vec F S1x7168x32 .f32) (x1 x2 : Vec F S1x1x32 .f32) (x3 x4 : Vec F S1x32 .f32) : Vec F S1x7168x32 .f32 :=
  View.canon [⟨r4X, k4_pay1 (View.ld x0 r4X) (View.ld x1 r4s) (View.ld x2 r4s) (View.ld x3 r4g) (View.ld x4 r4g)⟩]

theorem cover4_5 (p0 : Vec F S1x7168x32 .f32) (y : S1x7168x32.Idx) :
    ∃ pc ∈ ([⟨r4X, p0⟩] : List (View.Piece (Elt F) S1x7168x32 .f32)), y ∈ pc.1.set :=
  View.cover_of_tiled [⟨r4X, p0⟩] S1x7168x32.size (by rfl) y

/-! ## The body's triple -/

set_option maxHeartbeats 1000000 in
theorem sound_kernel4 (c : Dev nD) (E : Set ℕ) (i : grid4.Coords) (arg2 : Memref sig .tc .vmem S1x7168x32 .f32) (harg2 : arg2.IsWhole) (arg3 : Memref sig .tc .vmem S1x1x32 .f32) (harg3 : arg3.IsWhole) (arg4 : Memref sig .tc .vmem S1x1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S1x7168x32 .f32) (harg7 : arg7.IsWhole)
    (x0 : Vec F S1x7168x32 .f32) (x1 x2 : Vec F S1x1x32 .f32) (x3 x4 : Vec F S1x32 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (out4_5 x0 x1 x2 x3 x4)) -∗ K ⟨⟩))
      ⊢ wp frame (wpE (defs₀ (F := F)) Variants.none c none) E (cc4__bn_kernel i arg2 harg2 arg3 harg3 arg4 harg4 arg5 harg5 arg6 harg6 arg7 harg7) K := by
  simp only [cc4__bn_kernel_eq_skeleton]; unfold cc4__bn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4_5 _)

/-! ## The pipeline's proof data -/

def dat4 (c : Dev nD) : Dat τ (Elt F) Unit ℕ (Pipeline.UD sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = out4_5 (iblk4 V c 0 t) (iblk4 V c 1 t) (iblk4 V c 2 t) (iblk4 V c 3 t) (iblk4 V c 4 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-! ## The body obligation, at a generic point -/

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ (grid4.coords t) _ _ _ _ _ _ _ _ _ _ _ _ (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.Writes.lean ====
/-
  No operation of a stretch of host operations writes outside the stretch's list of written buffers, and none
  allocates: so a buffer outside the list keeps its contents across the stretch. One pair of statements per stretch
  (18 stretches between and around the five pallas regions).
-/
import proofs.«176190_j13365938225806_1_alg».proof.Proof.KI.WritesTab
import Idealize.ShloMosaic.Lib.StableHlo.Run

set_option maxRecDepth 16384

noncomputable section

namespace Cert.KernelIdeal.Hand

open Idealize.ShloMosaic Idealize.ShloMosaic.TcCoe
open Idealize.SL Idealize.SL.Sem
open Cert.KernelIdeal Cert.KernelIdeal.Gen

variable {F : FTy → Type} [FloatOps F]

theorem hostOps0_writes : (hostOps0 : List (HloOp τ sig (Elt F))).Forall fun op => op.writes ⊆ (hostOps0_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps0_fresh : (hostOps0 : List (HloOp τ sig (Elt F))).Forall fun op => op.fresh = ∅ := by
  simp only [List.Forall]; repeat' constructor

theorem hostOps0_1_writes : (hostOps0_1 : List (HloOp τ sig (Elt F))).Forall fun op => op.writes ⊆ (hostOps0_1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps0_1_fresh : (hostOps0_1 : List (HloOp τ sig (Elt F))).Forall fun op => op.fresh = ∅ := by
  simp only [List.Forall]; repeat' constructor

theorem hostOps0_2_writes : (hostOps0_2 : List (HloOp τ sig (Elt F))).Forall fun op => op.writes ⊆ (hostOps0_2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps0_2_fresh : (hostOps0_2 : List (HloOp τ sig (Elt F))).Forall fun op => op.fresh = ∅ := by
  simp only [List.Forall]; repeat' constructor

theorem hostOps1_writes : (hostOps1 : List (HloOp τ sig (Elt F))).Forall fun op => op.writes ⊆ (hostOps1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps1_fresh : (hostOps1 : List (HloOp τ sig (Elt F))).Forall fun op => op.fresh = ∅ := by
  simp only [List.Forall]; repeat' constructor

theorem hostOps1_1_writes : (hostOps1_1 : List (HloOp τ sig (Elt F))).Forall fun op => op.writes ⊆ (hostOps1_1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps1_1_fresh : (hostOps1_1 : List (HloOp τ sig (Elt F))).Forall fun op => op.fresh = ∅ := by
  simp only [List.Forall]; repeat' constructor

theorem hostOps1_2_writes : (hostOps1_2 : List (HloOp τ sig (Elt F))).Forall fun op => op.writes ⊆ (hostOps1_2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps1_2_fresh : (hostOps1_2 : List (HloOp τ sig (Elt F))).Forall fun op => op.fresh = ∅ := by
  simp only [List.Forall]; repeat' constructor

theorem hostOps2_writes : (hostOps2 : List (HloOp τ sig (Elt F))).Forall fun op => op.writes ⊆ (hostOps2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps2_fresh : (hostOps2 : List (HloOp τ sig (Elt F))).Forall fun op => op.fresh = ∅ := by
  simp only [List.Forall]; repeat' constructor

theorem hostOps2_1_writes : (hostOps2_1 : List (HloOp τ sig (Elt F))).Forall fun op => op.writes ⊆ (hostOps2_1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps2_1_fresh : (hostOps2_1 : List (HloOp τ sig (Elt F))).Forall fun op => op.fresh = ∅ := by
  simp only [List.Forall]; repeat' constructor

theorem hostOps2_2_writes : (hostOps2_2 : List (HloOp τ sig (Elt F))).Forall fun op => op.writes ⊆ (hostOps2_2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps2_2_fresh : (hostOps2_2 : List (HloOp τ sig (Elt F))).Forall fun op => op.fresh = ∅ := by
  simp only [List.Forall]; repeat' constructor

theorem hostOps3_writes : (hostOps3 : List (HloOp τ sig (Elt F))).Forall fun op => op.writes ⊆ (hostOps3_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps3_fresh : (hostOps3 : List (HloOp τ sig (Elt F))).Forall fun op => op.fresh = ∅ := by
  simp only [List.Forall]; repeat' constructor

theorem hostOps3_1_writes : (hostOps3_1 : List (HloOp τ sig (Elt F))).Forall fun op => op.writes ⊆ (hostOps3_1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps3_1_fresh : (hostOps3_1 : List (HloOp τ sig (Elt F))).Forall fun op => op.fresh = ∅ := by
  simp only [List.Forall]; repeat' constructor

theorem hostOps3_2_writes : (hostOps3_2 : List (HloOp τ sig (Elt F))).Forall fun op => op.writes ⊆ (hostOps3_2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps3_2_fresh : (hostOps3_2 : List (HloOp τ sig (Elt F))).Forall fun op => op.fresh = ∅ := by
  simp only [List.Forall]; repeat' constructor

theorem hostOps3_3_writes : (hostOps3_3 : List (HloOp τ sig (Elt F))).Forall fun op => op.writes ⊆ (hostOps3_3_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps3_3_fresh : (hostOps3_3 : List (HloOp τ sig (Elt F))).Forall fun op => op.fresh = ∅ := by
  simp only [List.Forall]; repeat' constructor

theorem hostOps3_4_writes : (hostOps3_4 : List (HloOp τ sig (Elt F))).Forall fun op => op.writes ⊆ (hostOps3_4_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps3_4_fresh : (hostOps3_4 : List (HloOp τ sig (Elt F))).Forall fun op => op.fresh = ∅ := by
  simp only [List.Forall]; repeat' constructor

theorem hostOps4_writes : (hostOps4 : List (HloOp τ sig (Elt F))).Forall fun op => op.writes ⊆ (hostOps4_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps4_fresh : (hostOps4 : List (HloOp τ sig (Elt F))).Forall fun op => op.fresh = ∅ := by
  simp only [List.Forall]; repeat' constructor

theorem hostOps4_1_writes : (hostOps4_1 : List (HloOp τ sig (Elt F))).Forall fun op => op.writes ⊆ (hostOps4_1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps4_1_fresh : (hostOps4_1 : List (HloOp τ sig (Elt F))).Forall fun op => op.fresh = ∅ := by
  simp only [List.Forall]; repeat' constructor

theorem hostOps4_2_writes : (hostOps4_2 : List (HloOp τ sig (Elt F))).Forall fun op => op.writes ⊆ (hostOps4_2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps4_2_fresh : (hostOps4_2 : List (HloOp τ sig (Elt F))).Forall fun op => op.fresh = ∅ := by
  simp only [List.Forall]; repeat' constructor

theorem hostOps5_writes : (hostOps5 : List (HloOp τ sig (Elt F))).Forall fun op => op.writes ⊆ (hostOps5_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps5_fresh : (hostOps5 : List (HloOp τ sig (Elt F))).Forall fun op => op.fresh = ∅ := by
  simp only [List.Forall]; repeat' constructor

end Cert.KernelIdeal.Hand

end
-- ==== Proof.KI.Run.lean ====
/-
  The whole run of the kernel's @main, at any float instance: its 23 items in order — 18 stretches of host operations
  and the five pallas regions — as segments over one thread state ("every unscoped buffer of the TensorCore at the
  current contents, the generator register, nothing owed"). The contents at each boundary are a fold from the launch
  memory: a stretch applies its operations; a region leaves each of its windows' arrays at what its write-backs left
  and every other buffer as it found it. No stretch writes an argument and no region writes one back, so every
  argument array ends as launched; the result buffer ends at the fold's value there.
-/
import proofs.«176190_j13365938225806_1_alg».proof.Proof.KI.R0
import proofs.«176190_j13365938225806_1_alg».proof.Proof.KI.R1
import proofs.«176190_j13365938225806_1_alg».proof.Proof.KI.R2
import proofs.«176190_j13365938225806_1_alg».proof.Proof.KI.R3
import proofs.«176190_j13365938225806_1_alg».proof.Proof.KI.R4
import proofs.«176190_j13365938225806_1_alg».proof.Proof.KI.Writes
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
/-- The encoder region's entry. -/
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b
/-- The encoder region's exit: its arrays at what the pipeline leaves, every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps1 (W4 m ρ c)
abbrev W6 : Dev nD → Valuation τ sig (Elt F) := fun c => StableHlo.after hostOps1_1 (W5 m ρ c)
/-- The first MLP region's entry. -/
abbrev W7 : Dev nD → Valuation τ sig (Elt F) := fun c => StableHlo.after hostOps1_2 (W6 m ρ c)
abbrev V7 : (c : Dev nD) → (b : Ref sig .tc) → Buf (Elt F) ((c : Thread nD τ).loc b) := fun c b => W7 m ρ c b
def W8 (c : Dev nD) : Valuation τ sig (Elt F) :=
  Pipeline.withArrays spec1 c (W7 m ρ c) fun w => (dat1 (V7 m ρ) c).arrAt w cfg1.N
theorem W8_arr (c : Dev nD) (w : Fin cfg1.W) :
    W8 m ρ c (Proc.devRef .tc (Pipeline.arrRef spec1 w)) = (dat1 (V7 m ρ) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m ρ c (Proc.devRef .tc b) = W7 m ρ c (Proc.devRef .tc b) := by
  unfold W8; exact Pipeline.withArrays_of_ne spec1 c _ _ b hb
abbrev V8 : (c : Dev nD) → (b : Ref sig .tc) → Buf (Elt F) ((c : Thread nD τ).loc b) := fun c b => W8 m ρ c b
theorem hF1 (c : Dev nD) (w : Fin cfg1.W) : (dat1 (V7 m ρ) c).arrAt w cfg1.N = V8 m ρ c (Pipeline.arrRef spec1 w) :=
  (W8_arr m ρ c w).symm
theorem hrest1 (c : Dev nD) : ∀ b, b ∉ Finset.univ.image (Pipeline.arrRef spec1) → V8 m ρ c b = V7 m ρ c b :=
  fun b hb => W8_of_ne m ρ c b fun w e => hb (Finset.mem_image.mpr ⟨w, Finset.mem_univ _, e⟩)

abbrev W9 : Dev nD → Valuation τ sig (Elt F) := fun c => StableHlo.after hostOps2 (W8 m ρ c)
abbrev W10 : Dev nD → Valuation τ sig (Elt F) := fun c => StableHlo.after hostOps2_1 (W9 m ρ c)
/-- The first batch-norm region's entry. -/
abbrev W11 : Dev nD → Valuation τ sig (Elt F) := fun c => StableHlo.after hostOps2_2 (W10 m ρ c)
abbrev V11 : (c : Dev nD) → (b : Ref sig .tc) → Buf (Elt F) ((c : Thread nD τ).loc b) := fun c b => W11 m ρ c b
def W12 (c : Dev nD) : Valuation τ sig (Elt F) :=
  Pipeline.withArrays spec2 c (W11 m ρ c) fun w => (dat2 (V11 m ρ) c).arrAt w cfg2.N
theorem W12_arr (c : Dev nD) (w : Fin cfg2.W) :
    W12 m ρ c (Proc.devRef .tc (Pipeline.arrRef spec2 w)) = (dat2 (V11 m ρ) c).arrAt w cfg2.N := by
  unfold W12; exact Pipeline.withArrays_arr spec2 launch2.win.arr_inj c _ _ w
theorem W12_of_ne (c : Dev nD) (b : Ref sig .tc) (hb : ∀ w, Pipeline.arrRef spec2 w ≠ b) :
    W12 m ρ c (Proc.devRef .tc b) = W11 m ρ c (Proc.devRef .tc b) := by
  unfold W12; exact Pipeline.withArrays_of_ne spec2 c _ _ b hb
abbrev V12 : (c : Dev nD) → (b : Ref sig .tc) → Buf (Elt F) ((c : Thread nD τ).loc b) := fun c b => W12 m ρ c b
theorem hF2 (c : Dev nD) (w : Fin cfg2.W) : (dat2 (V11 m ρ) c).arrAt w cfg2.N = V12 m ρ c (Pipeline.arrRef spec2 w) :=
  (W12_arr m ρ c w).symm
theorem hrest2 (c : Dev nD) : ∀ b, b ∉ Finset.univ.image (Pipeline.arrRef spec2) → V12 m ρ c b = V11 m ρ c b :=
  fun b hb => W12_of_ne m ρ c b fun w e => hb (Finset.mem_image.mpr ⟨w, Finset.mem_univ _, e⟩)

abbrev W13 : Dev nD → Valuation τ sig (Elt F) := fun c => StableHlo.after hostOps3 (W12 m ρ c)
abbrev W14 : Dev nD → Valuation τ sig (Elt F) := fun c => StableHlo.after hostOps3_1 (W13 m ρ c)
abbrev W15 : Dev nD → Valuation τ sig (Elt F) := fun c => StableHlo.after hostOps3_2 (W14 m ρ c)
abbrev W16 : Dev nD → Valuation τ sig (Elt F) := fun c => StableHlo.after hostOps3_3 (W15 m ρ c)
/-- The second MLP region's entry. -/
abbrev W17 : Dev nD → Valuation τ sig (Elt F) := fun c => StableHlo.after hostOps3_4 (W16 m ρ c)
abbrev V17 : (c : Dev nD) → (b : Ref sig .tc) → Buf (Elt F) ((c : Thread nD τ).loc b) := fun c b => W17 m ρ c b
def W18 (c : Dev nD) : Valuation τ sig (Elt F) :=
  Pipeline.withArrays spec3 c (W17 m ρ c) fun w => (dat3 (V17 m ρ) c).arrAt w cfg3.N
theorem W18_arr (c : Dev nD) (w : Fin cfg3.W) :
    W18 m ρ c (Proc.devRef .tc (Pipeline.arrRef spec3 w)) = (dat3 (V17 m ρ) c).arrAt w cfg3.N := by
  unfold W18; exact Pipeline.withArrays_arr spec3 launch3.win.arr_inj c _ _ w
theorem W18_of_ne (c : Dev nD) (b : Ref sig .tc) (hb : ∀ w, Pipeline.arrRef spec3 w ≠ b) :
    W18 m ρ c (Proc.devRef .tc b) = W17 m ρ c (Proc.devRef .tc b) := by
  unfold W18; exact Pipeline.withArrays_of_ne spec3 c _ _ b hb
abbrev V18 : (c : Dev nD) → (b : Ref sig .tc) → Buf (Elt F) ((c : Thread nD τ).loc b) := fun c b => W18 m ρ c b
theorem hF3 (c : Dev nD) (w : Fin cfg3.W) : (dat3 (V17 m ρ) c).arrAt w cfg3.N = V18 m ρ c (Pipeline.arrRef spec3 w) :=
  (W18_arr m ρ c w).symm
theorem hrest3 (c : Dev nD) : ∀ b, b ∉ Finset.univ.image (Pipeline.arrRef spec3) → V18 m ρ c b = V17 m ρ c b :=
  fun b hb => W18_of_ne m ρ c b fun w e => hb (Finset.mem_image.mpr ⟨w, Finset.mem_univ _, e⟩)

abbrev W19 : Dev nD → Valuation τ sig (Elt F) := fun c => StableHlo.after hostOps4 (W18 m ρ c)
abbrev W20 : Dev nD → Valuation τ sig (Elt F) := fun c => StableHlo.after hostOps4_1 (W19 m ρ c)
/-- The second batch-norm region's entry. -/
abbrev W21 : Dev nD → Valuation τ sig (Elt F) := fun c => StableHlo.after hostOps4_2 (W20 m ρ c)
abbrev V21 : (c : Dev nD) → (b : Ref sig .tc) → Buf (Elt F) ((c : Thread nD τ).loc b) := fun c b => W21 m ρ c b
def W22 (c : Dev nD) : Valuation τ sig (Elt F) :=
  Pipeline.withArrays spec4 c (W21 m ρ c) fun w => (dat4 (V21 m ρ) c).arrAt w cfg4.N
theorem W22_arr (c : Dev nD) (w : Fin cfg4.W) :
    W22 m ρ c (Proc.devRef .tc (Pipeline.arrRef spec4 w)) = (dat4 (V21 m ρ) c).arrAt w cfg4.N := by
  unfold W22; exact Pipeline.withArrays_arr spec4 launch4.win.arr_inj c _ _ w
theorem W22_of_ne (c : Dev nD) (b : Ref sig .tc) (hb : ∀ w, Pipeline.arrRef spec4 w ≠ b) :
    W22 m ρ c (Proc.devRef .tc b) = W21 m ρ c (Proc.devRef .tc b) := by
  unfold W22; exact Pipeline.withArrays_of_ne spec4 c _ _ b hb
abbrev V22 : (c : Dev nD) → (b : Ref sig .tc) → Buf (Elt F) ((c : Thread nD τ).loc b) := fun c b => W22 m ρ c b
theorem hF4 (c : Dev nD) (w : Fin cfg4.W) : (dat4 (V21 m ρ) c).arrAt w cfg4.N = V22 m ρ c (Pipeline.arrRef spec4 w) :=
  (W22_arr m ρ c w).symm
theorem hrest4 (c : Dev nD) : ∀ b, b ∉ Finset.univ.image (Pipeline.arrRef spec4) → V22 m ρ c b = V21 m ρ c b :=
  fun b hb => W22_of_ne m ρ c b fun w e => hb (Finset.mem_image.mpr ⟨w, Finset.mem_univ _, e⟩)

/-- The contents when @main returns. -/
abbrev W23 : Dev nD → Valuation τ sig (Elt F) := fun c => StableHlo.after hostOps5 (W22 m ρ c)

/-! ## A buffer no stretch writes and no region changes ends as launched -/

theorem W23_keep (c : Dev nD) (r : Ref sig .tc)
    (g0 : W4 m ρ c (Proc.devRef .tc r) = W3 m ρ c (Proc.devRef .tc r))
    (g1 : W8 m ρ c (Proc.devRef .tc r) = W7 m ρ c (Proc.devRef .tc r))
    (g2 : W12 m ρ c (Proc.devRef .tc r) = W11 m ρ c (Proc.devRef .tc r))
    (g3 : W18 m ρ c (Proc.devRef .tc r) = W17 m ρ c (Proc.devRef .tc r))
    (g4 : W22 m ρ c (Proc.devRef .tc r) = W21 m ρ c (Proc.devRef .tc r))
    (h0 : r ∉ hostOps0_W := by decide) (h0_1 : r ∉ hostOps0_1_W := by decide) (h0_2 : r ∉ hostOps0_2_W := by decide)
    (h1 : r ∉ hostOps1_W := by decide) (h1_1 : r ∉ hostOps1_1_W := by decide) (h1_2 : r ∉ hostOps1_2_W := by decide)
    (h2 : r ∉ hostOps2_W := by decide) (h2_1 : r ∉ hostOps2_1_W := by decide) (h2_2 : r ∉ hostOps2_2_W := by decide)
    (h3 : r ∉ hostOps3_W := by decide) (h3_1 : r ∉ hostOps3_1_W := by decide) (h3_2 : r ∉ hostOps3_2_W := by decide)
    (h3_3 : r ∉ hostOps3_3_W := by decide) (h3_4 : r ∉ hostOps3_4_W := by decide)
    (h4 : r ∉ hostOps4_W := by decide) (h4_1 : r ∉ hostOps4_1_W := by decide) (h4_2 : r ∉ hostOps4_2_W := by decide)
    (h5 : r ∉ hostOps5_W := by decide) :
    W23 m ρ c (Proc.devRef .tc r) = m ((c : Thread nD τ).loc r) :=
  calc W23 m ρ c (Proc.devRef .tc r)
    _ = W22 m ρ c (Proc.devRef .tc r) := StableHlo.after_of_writes_sub hostOps5 _ hostOps5_writes h5
    _ = W21 m ρ c (Proc.devRef .tc r) := g4
    _ = W20 m ρ c (Proc.devRef .tc r) := StableHlo.after_of_writes_sub hostOps4_2 _ hostOps4_2_writes h4_2
    _ = W19 m ρ c (Proc.devRef .tc r) := StableHlo.after_of_writes_sub hostOps4_1 _ hostOps4_1_writes h4_1
    _ = W18 m ρ c (Proc.devRef .tc r) := StableHlo.after_of_writes_sub hostOps4 _ hostOps4_writes h4
    _ = W17 m ρ c (Proc.devRef .tc r) := g3
    _ = W16 m ρ c (Proc.devRef .tc r) := StableHlo.after_of_writes_sub hostOps3_4 _ hostOps3_4_writes h3_4
    _ = W15 m ρ c (Proc.devRef .tc r) := StableHlo.after_of_writes_sub hostOps3_3 _ hostOps3_3_writes h3_3
    _ = W14 m ρ c (Proc.devRef .tc r) := StableHlo.after_of_writes_sub hostOps3_2 _ hostOps3_2_writes h3_2
    _ = W13 m ρ c (Proc.devRef .tc r) := StableHlo.after_of_writes_sub hostOps3_1 _ hostOps3_1_writes h3_1
    _ = W12 m ρ c (Proc.devRef .tc r) := StableHlo.after_of_writes_sub hostOps3 _ hostOps3_writes h3
    _ = W11 m ρ c (Proc.devRef .tc r) := g2
    _ = W10 m ρ c (Proc.devRef .tc r) := StableHlo.after_of_writes_sub hostOps2_2 _ hostOps2_2_writes h2_2
    _ = W9 m ρ c (Proc.devRef .tc r) := StableHlo.after_of_writes_sub hostOps2_1 _ hostOps2_1_writes h2_1
    _ = W8 m ρ c (Proc.devRef .tc r) := StableHlo.after_of_writes_sub hostOps2 _ hostOps2_writes h2
    _ = W7 m ρ c (Proc.devRef .tc r) := g1
    _ = W6 m ρ c (Proc.devRef .tc r) := StableHlo.after_of_writes_sub hostOps1_2 _ hostOps1_2_writes h1_2
    _ = W5 m ρ c (Proc.devRef .tc r) := StableHlo.after_of_writes_sub hostOps1_1 _ hostOps1_1_writes h1_1
    _ = W4 m ρ c (Proc.devRef .tc r) := StableHlo.after_of_writes_sub hostOps1 _ hostOps1_writes h1
    _ = W3 m ρ c (Proc.devRef .tc r) := g0
    _ = W2 m ρ c (Proc.devRef .tc r) := StableHlo.after_of_writes_sub hostOps0_2 _ hostOps0_2_writes h0_2
    _ = W1 m ρ c (Proc.devRef .tc r) := StableHlo.after_of_writes_sub hostOps0_1 _ hostOps0_1_writes h0_1
    _ = W0 m ρ c (Proc.devRef .tc r) := StableHlo.after_of_writes_sub hostOps0 _ hostOps0_writes h0
    _ = m ((c : Thread nD τ).loc r) := rfl

/-! ### Each argument: a region either does not touch it or reads it through an input window (whose array the
    pipeline leaves as it found it) -/

theorem W23_main_arg0 (c : Dev nD) : W23 m ρ c (Proc.devRef .tc main_arg0) = m ((c : Thread nD τ).loc main_arg0) :=
  W23_keep m ρ c main_arg0 (W4_of_ne m ρ c main_arg0 (by decide))
    (W8_of_ne m ρ c main_arg0 (by decide))
    (W12_of_ne m ρ c main_arg0 (by decide))
    (W18_of_ne m ρ c main_arg0 (by decide))
    (W22_of_ne m ρ c main_arg0 (by decide))
theorem W23_main_arg1 (c : Dev nD) : W23 m ρ c (Proc.devRef .tc main_arg1) = m ((c : Thread nD τ).loc main_arg1) :=
  W23_keep m ρ c main_arg1 (W4_of_ne m ρ c main_arg1 (by decide))
    (W8_of_ne m ρ c main_arg1 (by decide))
    (W12_of_ne m ρ c main_arg1 (by decide))
    (W18_of_ne m ρ c main_arg1 (by decide))
    (W22_of_ne m ρ c main_arg1 (by decide))
theorem W23_main_arg2 (c : Dev nD) : W23 m ρ c (Proc.devRef .tc main_arg2) = m ((c : Thread nD τ).loc main_arg2) :=
  W23_keep m ρ c main_arg2 (W4_of_ne m ρ c main_arg2 (by decide))
    (W8_of_ne m ρ c main_arg2 (by decide))
    (W12_of_ne m ρ c main_arg2 (by decide))
    (W18_of_ne m ρ c main_arg2 (by decide))
    (W22_of_ne m ρ c main_arg2 (by decide))
theorem W23_main_arg3 (c : Dev nD) : W23 m ρ c (Proc.devRef .tc main_arg3) = m ((c : Thread nD τ).loc main_arg3) :=
  W23_keep m ρ c main_arg3 (W4_of_ne m ρ c main_arg3 (by decide))
    ((W8_arr m ρ c 2).trans (((dat1 (V7 m ρ) c).arrAt_in 2 rfl _).trans (A_eq1 (V7 m ρ) c 2)))
    (W12_of_ne m ρ c main_arg3 (by decide))
    (W18_of_ne m ρ c main_arg3 (by decide))
    (W22_of_ne m ρ c main_arg3 (by decide))
theorem W23_main_arg4 (c : Dev nD) : W23 m ρ c (Proc.devRef .tc main_arg4) = m ((c : Thread nD τ).loc main_arg4) :=
  W23_keep m ρ c main_arg4 (W4_of_ne m ρ c main_arg4 (by decide))
    (W8_of_ne m ρ c main_arg4 (by decide))
    (W12_of_ne m ρ c main_arg4 (by decide))
    (W18_of_ne m ρ c main_arg4 (by decide))
    (W22_of_ne m ρ c main_arg4 (by decide))
theorem W23_main_arg5 (c : Dev nD) : W23 m ρ c (Proc.devRef .tc main_arg5) = m ((c : Thread nD τ).loc main_arg5) :=
  W23_keep m ρ c main_arg5 (W4_of_ne m ρ c main_arg5 (by decide))
    ((W8_arr m ρ c 4).trans (((dat1 (V7 m ρ) c).arrAt_in 4 rfl _).trans (A_eq1 (V7 m ρ) c 4)))
    (W12_of_ne m ρ c main_arg5 (by decide))
    (W18_of_ne m ρ c main_arg5 (by decide))
    (W22_of_ne m ρ c main_arg5 (by decide))
theorem W23_main_arg6 (c : Dev nD) : W23 m ρ c (Proc.devRef .tc main_arg6) = m ((c : Thread nD τ).loc main_arg6) :=
  W23_keep m ρ c main_arg6 (W4_of_ne m ρ c main_arg6 (by decide))
    (W8_of_ne m ρ c main_arg6 (by decide))
    (W12_of_ne m ρ c main_arg6 (by decide))
    (W18_of_ne m ρ c main_arg6 (by decide))
    (W22_of_ne m ρ c main_arg6 (by decide))
theorem W23_main_arg7 (c : Dev nD) : W23 m ρ c (Proc.devRef .tc main_arg7) = m ((c : Thread nD τ).loc main_arg7) :=
  W23_keep m ρ c main_arg7 (W4_of_ne m ρ c main_arg7 (by decide))
    (W8_of_ne m ρ c main_arg7 (by decide))
    (W12_of_ne m ρ c main_arg7 (by decide))
    (W18_of_ne m ρ c main_arg7 (by decide))
    (W22_of_ne m ρ c main_arg7 (by decide))
theorem W23_main_arg8 (c : Dev nD) : W23 m ρ c (Proc.devRef .tc main_arg8) = m ((c : Thread nD τ).loc main_arg8) :=
  W23_keep m ρ c main_arg8 (W4_of_ne m ρ c main_arg8 (by decide))
    (W8_of_ne m ρ c main_arg8 (by decide))
    (W12_of_ne m ρ c main_arg8 (by decide))
    (W18_of_ne m ρ c main_arg8 (by decide))
    (W22_of_ne m ρ c main_arg8 (by decide))
theorem W23_main_arg9 (c : Dev nD) : W23 m ρ c (Proc.devRef .tc main_arg9) = m ((c : Thread nD τ).loc main_arg9) :=
  W23_keep m ρ c main_arg9 (W4_of_ne m ρ c main_arg9 (by decide))
    (W8_of_ne m ρ c main_arg9 (by decide))
    (W12_of_ne m ρ c main_arg9 (by decide))
    ((W18_arr m ρ c 2).trans (((dat3 (V17 m ρ) c).arrAt_in 2 rfl _).trans (A_eq3 (V17 m ρ) c 2)))
    (W22_of_ne m ρ c main_arg9 (by decide))
theorem W23_main_arg10 (c : Dev nD) : W23 m ρ c (Proc.devRef .tc main_arg10) = m ((c : Thread nD τ).loc main_arg10) :=
  W23_keep m ρ c main_arg10 (W4_of_ne m ρ c main_arg10 (by decide))
    (W8_of_ne m ρ c main_arg10 (by decide))
    (W12_of_ne m ρ c main_arg10 (by decide))
    (W18_of_ne m ρ c main_arg10 (by decide))
    (W22_of_ne m ρ c main_arg10 (by decide))
theorem W23_main_arg11 (c : Dev nD) : W23 m ρ c (Proc.devRef .tc main_arg11) = m ((c : Thread nD τ).loc main_arg11) :=
  W23_keep m ρ c main_arg11 (W4_of_ne m ρ c main_arg11 (by decide))
    (W8_of_ne m ρ c main_arg11 (by decide))
    (W12_of_ne m ρ c main_arg11 (by decide))
    ((W18_arr m ρ c 4).trans (((dat3 (V17 m ρ) c).arrAt_in 4 rfl _).trans (A_eq3 (V17 m ρ) c 4)))
    (W22_of_ne m ρ c main_arg11 (by decide))
theorem W23_main_arg12 (c : Dev nD) : W23 m ρ c (Proc.devRef .tc main_arg12) = m ((c : Thread nD τ).loc main_arg12) :=
  W23_keep m ρ c main_arg12 (W4_of_ne m ρ c main_arg12 (by decide))
    (W8_of_ne m ρ c main_arg12 (by decide))
    (W12_of_ne m ρ c main_arg12 (by decide))
    (W18_of_ne m ρ c main_arg12 (by decide))
    (W22_of_ne m ρ c main_arg12 (by decide))
theorem W23_main_arg13 (c : Dev nD) : W23 m ρ c (Proc.devRef .tc main_arg13) = m ((c : Thread nD τ).loc main_arg13) :=
  W23_keep m ρ c main_arg13 (W4_of_ne m ρ c main_arg13 (by decide))
    (W8_of_ne m ρ c main_arg13 (by decide))
    (W12_of_ne m ρ c main_arg13 (by decide))
    (W18_of_ne m ρ c main_arg13 (by decide))
    (W22_of_ne m ρ c main_arg13 (by decide))
theorem W23_main_arg14 (c : Dev nD) : W23 m ρ c (Proc.devRef .tc main_arg14) = m ((c : Thread nD τ).loc main_arg14) :=
  W23_keep m ρ c main_arg14 (W4_of_ne m ρ c main_arg14 (by decide))
    (W8_of_ne m ρ c main_arg14 (by decide))
    (W12_of_ne m ρ c main_arg14 (by decide))
    (W18_of_ne m ρ c main_arg14 (by decide))
    (W22_of_ne m ρ c main_arg14 (by decide))
theorem W23_main_arg15 (c : Dev nD) : W23 m ρ c (Proc.devRef .tc main_arg15) = m ((c : Thread nD τ).loc main_arg15) :=
  W23_keep m ρ c main_arg15 ((W4_arr m ρ c 1).trans (((dat0 (V3 m ρ) c).arrAt_in 1 rfl _).trans (A_eq0 (V3 m ρ) c 1)))
    (W8_of_ne m ρ c main_arg15 (by decide))
    (W12_of_ne m ρ c main_arg15 (by decide))
    (W18_of_ne m ρ c main_arg15 (by decide))
    (W22_of_ne m ρ c main_arg15 (by decide))
theorem W23_main_arg16 (c : Dev nD) : W23 m ρ c (Proc.devRef .tc main_arg16) = m ((c : Thread nD τ).loc main_arg16) :=
  W23_keep m ρ c main_arg16 (W4_of_ne m ρ c main_arg16 (by decide))
    (W8_of_ne m ρ c main_arg16 (by decide))
    (W12_of_ne m ρ c main_arg16 (by decide))
    (W18_of_ne m ρ c main_arg16 (by decide))
    (W22_of_ne m ρ c main_arg16 (by decide))

/-! ## The proof data family and the thread state -/

abbrev adm : (p : Fin 5) → (pcfgs (F := F) p).Adm := fun p => (cfgs p).toPCfg_adm
/-- Every pipeline's proof data, each at its region's entry contents. -/
def pdats : (p : Fin 5) → (c : Dev nD) → Dat τ (Elt F) Unit ℕ (Pipeline.UD sig nD τ) ℕ (Pipeline.pin (pcfgs (F := F)) adm p) c
  | ⟨0, _⟩ => fun c => dat0 (V3 m ρ) c
  | ⟨1, _⟩ => fun c => dat1 (V7 m ρ) c
  | ⟨2, _⟩ => fun c => dat2 (V11 m ρ) c
  | ⟨3, _⟩ => fun c => dat3 (V17 m ρ) c
  | ⟨4, _⟩ => fun c => dat4 (V21 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W23 m ρ c) ∗ ∃ r, prngReg c r)

/-! ## The regions as segments -/

set_option backward.isDefEq.respectTransparency.types false in
/-- Region 0 over the thread state: entered from every unscoped buffer at `W3`, left at `W4`. Its windows' arrays
    are split out of the unscoped buffers at entry and put back at the exit contents; the generator register goes into
    the region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W7`, left at `W8`. Its windows' arrays
    are split out of the unscoped buffers at entry and put back at the exit contents; the generator register goes into
    the region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V7 m ρ) c).loose
  hwaits := Pipeline.hwaits_of_owed_zero _ _ _ _ L lv 1 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := Pipeline.UD sig nD τ) (Lvl := ℕ) spec1 c (V7 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m ρ) ((pdats m ρ 1 c).share_full fun _ => rfl)
      (V7 m ρ c) (V8 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W11`, left at `W12`. Its windows' arrays
    are split out of the unscoped buffers at entry and put back at the exit contents; the generator register goes into
    the region's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V11 m ρ) c).loose
  hwaits := Pipeline.hwaits_of_owed_zero _ _ _ _ L lv 2 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := Pipeline.UD sig nD τ) (Lvl := ℕ) spec2 c (V11 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := Pipeline.UD sig nD τ) (Lvl := ℕ)
      launch2.win launch2.arr_whole c (pdats m ρ) ((pdats m ρ 2 c).share_full fun _ => rfl)
      (V11 m ρ c) (V12 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W17`, left at `W18`. Its windows' arrays
    are split out of the unscoped buffers at entry and put back at the exit contents; the generator register goes into
    the region's invariant and comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V17 m ρ) c).loose
  hwaits := Pipeline.hwaits_of_owed_zero _ _ _ _ L lv 3 fun _ _ => rfl
  pre c := iprop(StableHlo.held (c : Thread nD τ) (Pipeline.ucRefs τ sig) (W17 m ρ c) ∗ R c)
  post c := iprop(StableHlo.held (c : Thread nD τ) (Pipeline.ucRefs τ sig) (W18 m ρ c) ∗ R c)
  X c := iprop(∃ r, prngReg c r)
  Y c := iprop(∃ r, prngReg c r)
  Z c := Pipeline.unscopedRest (Ix := Unit) (Name := ℕ) (U := Pipeline.UD sig nD τ) (Lvl := ℕ) spec3 c (V17 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V17 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := Pipeline.UD sig nD τ) (Lvl := ℕ)
      launch3.win launch3.arr_whole c (pdats m ρ) ((pdats m ρ 3 c).share_full fun _ => rfl)
      (V17 m ρ c) (V18 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W21`, left at `W22`. Its windows' arrays
    are split out of the unscoped buffers at entry and put back at the exit contents; the generator register goes into
    the region's invariant and comes back; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V21 m ρ) c).loose
  hwaits := Pipeline.hwaits_of_owed_zero _ _ _ _ L lv 4 fun _ _ => rfl
  pre c := iprop(StableHlo.held (c : Thread nD τ) (Pipeline.ucRefs τ sig) (W21 m ρ c) ∗ R c)
  post c := iprop(StableHlo.held (c : Thread nD τ) (Pipeline.ucRefs τ sig) (W22 m ρ c) ∗ R c)
  X c := iprop(∃ r, prngReg c r)
  Y c := iprop(∃ r, prngReg c r)
  Z c := Pipeline.unscopedRest (Ix := Unit) (Name := ℕ) (U := Pipeline.UD sig nD τ) (Lvl := ℕ) spec4 c (V21 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V21 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := Pipeline.UD sig nD τ) (Lvl := ℕ)
      launch4.win launch4.arr_whole c (pdats m ρ) ((pdats m ρ 4 c).share_full fun _ => rfl)
      (V21 m ρ c) (V22 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .host (hseg hostOps1_1 hostOps1_1_sub hostOps1_1_fresh (W5 m ρ)),
    .host (hseg hostOps1_2 hostOps1_2_sub hostOps1_2_fresh (W6 m ρ)),
    .region (reg1 m ρ),
    .host (hseg hostOps2 hostOps2_sub hostOps2_fresh (W8 m ρ)),
    .host (hseg hostOps2_1 hostOps2_1_sub hostOps2_1_fresh (W9 m ρ)),
    .host (hseg hostOps2_2 hostOps2_2_sub hostOps2_2_fresh (W10 m ρ)),
    .region (reg2 m ρ),
    .host (hseg hostOps3 hostOps3_sub hostOps3_fresh (W12 m ρ)),
    .host (hseg hostOps3_1 hostOps3_1_sub hostOps3_1_fresh (W13 m ρ)),
    .host (hseg hostOps3_2 hostOps3_2_sub hostOps3_2_fresh (W14 m ρ)),
    .host (hseg hostOps3_3 hostOps3_3_sub hostOps3_3_fresh (W15 m ρ)),
    .host (hseg hostOps3_4 hostOps3_4_sub hostOps3_4_fresh (W16 m ρ)),
    .region (reg3 m ρ),
    .host (hseg hostOps4 hostOps4_sub hostOps4_fresh (W18 m ρ)),
    .host (hseg hostOps4_1 hostOps4_1_sub hostOps4_1_fresh (W19 m ρ)),
    .host (hseg hostOps4_2 hostOps4_2_sub hostOps4_2_fresh (W20 m ρ)),
    .region (reg4 m ρ),
    .host (hseg hostOps5 hostOps5_sub hostOps5_fresh (W22 m ρ)) ]

theorem main_run (c : Dev nD) : main (F := F) c = Pipeline.Seg.run (segs m ρ) := (main_chain c).trans (by chain_rfl)

set_option backward.isDefEq.respectTransparency.types false in
/-- THE RUN, at any float instance: from any memory with zero counters every weakly fair execution of @main on the
    TensorCores terminates, nothing faulting; the result buffer ends at the fold's value `W23 … main_v188` and every
    argument array as launched. -/
theorem run : θ_run defs (onTc (τ := τ) (main (F := F))) ⟨m, fun _ => 0, ρ⟩ (fun r => ∀ c : Dev nD,
      r.2.mem ((c.tc : Thread nD τ).loc main_v188) = W23 m ρ c (Proc.devRef .tc main_v188)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj embL defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl,
      fun c => by
        show iprop(StableHlo.held (c : Thread nD τ) (Pipeline.ucRefs τ sig) (W23 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W23 m ρ c b)
    (hfin := fun c s' => by
      iintro ⟨⟨Hh, -⟩, HSI⟩
      unfold StableHlo.held
      imodintro
      iapply (pointsTo_read_all (Pipeline.ucRefs τ sig) (fun b => (((c : Thread nD τ)).1, b)) (W23 m ρ c) s')
      isplitl [Hh] <;> iassumption)
    (hQ := fun s h c =>
      ⟨h c _ (mem_uc main_v188 (by decide)),
       (h c _ (mem_uc main_arg0 (by decide))).trans (W23_main_arg0 m ρ c),
       (h c _ (mem_uc main_arg1 (by decide))).trans (W23_main_arg1 m ρ c),
       (h c _ (mem_uc main_arg2 (by decide))).trans (W23_main_arg2 m ρ c),
       (h c _ (mem_uc main_arg3 (by decide))).trans (W23_main_arg3 m ρ c),
       (h c _ (mem_uc main_arg4 (by decide))).trans (W23_main_arg4 m ρ c),
       (h c _ (mem_uc main_arg5 (by decide))).trans (W23_main_arg5 m ρ c),
       (h c _ (mem_uc main_arg6 (by decide))).trans (W23_main_arg6 m ρ c),
       (h c _ (mem_uc main_arg7 (by decide))).trans (W23_main_arg7 m ρ c),
       (h c _ (mem_uc main_arg8 (by decide))).trans (W23_main_arg8 m ρ c),
       (h c _ (mem_uc main_arg9 (by decide))).trans (W23_main_arg9 m ρ c),
       (h c _ (mem_uc main_arg10 (by decide))).trans (W23_main_arg10 m ρ c),
       (h c _ (mem_uc main_arg11 (by decide))).trans (W23_main_arg11 m ρ c),
       (h c _ (mem_uc main_arg12 (by decide))).trans (W23_main_arg12 m ρ c),
       (h c _ (mem_uc main_arg13 (by decide))).trans (W23_main_arg13 m ρ c),
       (h c _ (mem_uc main_arg14 (by decide))).trans (W23_main_arg14 m ρ c),
       (h c _ (mem_uc main_arg15 (by decide))).trans (W23_main_arg15 m ρ c),
       (h c _ (mem_uc main_arg16 (by decide))).trans (W23_main_arg16 m ρ c)⟩)

end Cert.KernelIdeal.Hand

end
-- ==== Proof.Ref.Run.lean ====
/-
  The reference program's run, at any float instance. Each printed window of @main is the straight line of its list of
  host operations (the outlined ReLU, variance and guard unfolded at their calls), so @main is the straight line of the
  eight lists in order; every operation names only TensorCore buffers, allocates nothing, and writes exactly its own
  result buffer. Hence every weakly fair execution terminates with each buffer at the fold of the operations over its
  launch contents, and a buffer no operation writes — each of the seventeen arguments — ends as launched.
-/
import proofs.«176190_j13365938225806_1_alg».proof.Proof.Ref.Ops
import Idealize.ShloMosaic.Lib.Pipeline.Frame

noncomputable section

namespace Cert.ReferenceIdeal.Hand

open Idealize.ShloMosaic Idealize.ShloMosaic.TcCoe Idealize.SL.Sem Idealize.ShloMosaic.StableHlo
open Cert.ReferenceIdeal Cert.ReferenceIdeal.Gen

variable {F : FTy → Type} [FloatOps F]

/-! ## Each window is the straight line of its list

Unfolding the three outlined functions at their calls and reassociating the sequencing turns a window into one chain
of operation steps, which is what the straight line of the list unfolds to. -/

set_option maxRecDepth 65536 in
theorem part0_eq (d : Dev nD) : main_part0 (F := F) d = seq ops0 := by
  simp only [main_part0, ops0, fn_relu.body, fn_var.body, fn_where.body, seq, bind_assoc, pure_bind]
  try rfl

set_option maxRecDepth 65536 in
theorem part1_eq (d : Dev nD) : main_part1 (F := F) d = seq ops1 := by
  simp only [main_part1, ops1, fn_relu.body, fn_var.body, fn_where.body, seq, bind_assoc, pure_bind]
  try rfl

set_option maxRecDepth 65536 in
theorem part2_eq (d : Dev nD) : main_part2 (F := F) d = seq ops2 := by
  simp only [main_part2, ops2, fn_relu.body, fn_var.body, fn_where.body, seq, bind_assoc, pure_bind]
  try rfl

set_option maxRecDepth 65536 in
theorem part3_eq (d : Dev nD) : main_part3 (F := F) d = seq ops3 := by
  simp only [main_part3, ops3, fn_relu.body, fn_var.body, fn_where.body, seq, bind_assoc, pure_bind]
  try rfl

set_option maxRecDepth 65536 in
theorem part4_eq (d : Dev nD) : main_part4 (F := F) d = seq ops4 := by
  simp only [main_part4, ops4, fn_relu.body, fn_var.body, fn_where.body, seq, bind_assoc, pure_bind]
  try rfl

set_option maxRecDepth 65536 in
theorem part5_eq (d : Dev nD) : main_part5 (F := F) d = seq ops5 := by
  simp only [main_part5, ops5, fn_relu.body, fn_var.body, fn_where.body, seq, bind_assoc, pure_bind]
  try rfl

set_option maxRecDepth 65536 in
theorem part6_eq (d : Dev nD) : main_part6 (F := F) d = seq ops6 := by
  simp only [main_part6, ops6, fn_relu.body, fn_var.body, fn_where.body, seq, bind_assoc, pure_bind]
  try rfl

theorem part7_eq (d : Dev nD) : main_part7 (F := F) d = seq ops7 := rfl

/-! ## Every operation names only TensorCore buffers -/

theorem ops0_sub : (ops0 : List (HloOp τ sig (Elt F))).Forall fun op => op.bufs ⊆ tcRefs τ sig := by
  simp only [ops0, List.Forall, nullary_bufs_sub, unary_bufs_sub, binary_bufs_sub, ternary_bufs_sub, reshape_bufs_sub,
    nary_bufs_sub, and_self]
theorem ops1_sub : (ops1 : List (HloOp τ sig (Elt F))).Forall fun op => op.bufs ⊆ tcRefs τ sig := by
  simp only [ops1, List.Forall, nullary_bufs_sub, unary_bufs_sub, binary_bufs_sub, ternary_bufs_sub, reshape_bufs_sub,
    nary_bufs_sub, and_self]
theorem ops2_sub : (ops2 : List (HloOp τ sig (Elt F))).Forall fun op => op.bufs ⊆ tcRefs τ sig := by
  simp only [ops2, List.Forall, nullary_bufs_sub, unary_bufs_sub, binary_bufs_sub, ternary_bufs_sub, reshape_bufs_sub,
    nary_bufs_sub, and_self]
theorem ops3_sub : (ops3 : List (HloOp τ sig (Elt F))).Forall fun op => op.bufs ⊆ tcRefs τ sig := by
  simp only [ops3, List.Forall, nullary_bufs_sub, unary_bufs_sub, binary_bufs_sub, ternary_bufs_sub, reshape_bufs_sub,
    nary_bufs_sub, and_self]
theorem ops4_sub : (ops4 : List (HloOp τ sig (Elt F))).Forall fun op => op.bufs ⊆ tcRefs τ sig := by
  simp only [ops4, List.Forall, nullary_bufs_sub, unary_bufs_sub, binary_bufs_sub, ternary_bufs_sub, reshape_bufs_sub,
    nary_bufs_sub, and_self]
theorem ops5_sub : (ops5 : List (HloOp τ sig (Elt F))).Forall fun op => op.bufs ⊆ tcRefs τ sig := by
  simp only [ops5, List.Forall, nullary_bufs_sub, unary_bufs_sub, binary_bufs_sub, ternary_bufs_sub, reshape_bufs_sub,
    nary_bufs_sub, and_self]
theorem ops6_sub : (ops6 : List (HloOp τ sig (Elt F))).Forall fun op => op.bufs ⊆ tcRefs τ sig := by
  simp only [ops6, List.Forall, nullary_bufs_sub, unary_bufs_sub, binary_bufs_sub, ternary_bufs_sub, reshape_bufs_sub,
    nary_bufs_sub, and_self]
theorem ops7_sub : (ops7 : List (HloOp τ sig (Elt F))).Forall fun op => op.bufs ⊆ tcRefs τ sig := by
  simp only [ops7, List.Forall, nullary_bufs_sub, unary_bufs_sub, binary_bufs_sub, ternary_bufs_sub, reshape_bufs_sub,
    nary_bufs_sub, and_self]

/-! ## No operation allocates -/

theorem ops0_fresh : (ops0 : List (HloOp τ sig (Elt F))).Forall fun op => op.fresh = ∅ := by
  simp only [ops0, List.Forall]; repeat' constructor
theorem ops1_fresh : (ops1 : List (HloOp τ sig (Elt F))).Forall fun op => op.fresh = ∅ := by
  simp only [ops1, List.Forall]; repeat' constructor
theorem ops2_fresh : (ops2 : List (HloOp τ sig (Elt F))).Forall fun op => op.fresh = ∅ := by
  simp only [ops2, List.Forall]; repeat' constructor
theorem ops3_fresh : (ops3 : List (HloOp τ sig (Elt F))).Forall fun op => op.fresh = ∅ := by
  simp only [ops3, List.Forall]; repeat' constructor
theorem ops4_fresh : (ops4 : List (HloOp τ sig (Elt F))).Forall fun op => op.fresh = ∅ := by
  simp only [ops4, List.Forall]; repeat' constructor
theorem ops5_fresh : (ops5 : List (HloOp τ sig (Elt F))).Forall fun op => op.fresh = ∅ := by
  simp only [ops5, List.Forall]; repeat' constructor
theorem ops6_fresh : (ops6 : List (HloOp τ sig (Elt F))).Forall fun op => op.fresh = ∅ := by
  simp only [ops6, List.Forall]; repeat' constructor
theorem ops7_fresh : (ops7 : List (HloOp τ sig (Elt F))).Forall fun op => op.fresh = ∅ := by
  simp only [ops7, List.Forall]; repeat' constructor

/-! ## Each operation writes its own result buffer, which is in its window's list -/

theorem ops0_writes : (ops0 : List (HloOp τ sig (Elt F))).Forall fun op =>
    op.writes ⊆ (ops0_W.map (Proc.devRef (τ := τ) .tc)).toFinset := by
  simp only [ops0, List.Forall]
  repeat' apply And.intro
  all_goals (simp only [nullary_writes, unary_writes, binary_writes, ternary_writes, reshape_writes, nary_writes,
    Finset.singleton_subset_iff, List.mem_toFinset]; exact List.mem_map_of_mem (by decide))
theorem ops1_writes : (ops1 : List (HloOp τ sig (Elt F))).Forall fun op =>
    op.writes ⊆ (ops1_W.map (Proc.devRef (τ := τ) .tc)).toFinset := by
  simp only [ops1, List.Forall]
  repeat' apply And.intro
  all_goals (simp only [nullary_writes, unary_writes, binary_writes, ternary_writes, reshape_writes, nary_writes,
    Finset.singleton_subset_iff, List.mem_toFinset]; exact List.mem_map_of_mem (by decide))
theorem ops2_writes : (ops2 : List (HloOp τ sig (Elt F))).Forall fun op =>
    op.writes ⊆ (ops2_W.map (Proc.devRef (τ := τ) .tc)).toFinset := by
  simp only [ops2, List.Forall]
  repeat' apply And.intro
  all_goals (simp only [nullary_writes, unary_writes, binary_writes, ternary_writes, reshape_writes, nary_writes,
    Finset.singleton_subset_iff, List.mem_toFinset]; exact List.mem_map_of_mem (by decide))
theorem ops3_writes : (ops3 : List (HloOp τ sig (Elt F))).Forall fun op =>
    op.writes ⊆ (ops3_W.map (Proc.devRef (τ := τ) .tc)).toFinset := by
  simp only [ops3, List.Forall]
  repeat' apply And.intro
  all_goals (simp only [nullary_writes, unary_writes, binary_writes, ternary_writes, reshape_writes, nary_writes,
    Finset.singleton_subset_iff, List.mem_toFinset]; exact List.mem_map_of_mem (by decide))
theorem ops4_writes : (ops4 : List (HloOp τ sig (Elt F))).Forall fun op =>
    op.writes ⊆ (ops4_W.map (Proc.devRef (τ := τ) .tc)).toFinset := by
  simp only [ops4, List.Forall]
  repeat' apply And.intro
  all_goals (simp only [nullary_writes, unary_writes, binary_writes, ternary_writes, reshape_writes, nary_writes,
    Finset.singleton_subset_iff, List.mem_toFinset]; exact List.mem_map_of_mem (by decide))
theorem ops5_writes : (ops5 : List (HloOp τ sig (Elt F))).Forall fun op =>
    op.writes ⊆ (ops5_W.map (Proc.devRef (τ := τ) .tc)).toFinset := by
  simp only [ops5, List.Forall]
  repeat' apply And.intro
  all_goals (simp only [nullary_writes, unary_writes, binary_writes, ternary_writes, reshape_writes, nary_writes,
    Finset.singleton_subset_iff, List.mem_toFinset]; exact List.mem_map_of_mem (by decide))
theorem ops6_writes : (ops6 : List (HloOp τ sig (Elt F))).Forall fun op =>
    op.writes ⊆ (ops6_W.map (Proc.devRef (τ := τ) .tc)).toFinset := by
  simp only [ops6, List.Forall]
  repeat' apply And.intro
  all_goals (simp only [nullary_writes, unary_writes, binary_writes, ternary_writes, reshape_writes, nary_writes,
    Finset.singleton_subset_iff, List.mem_toFinset]; exact List.mem_map_of_mem (by decide))
theorem ops7_writes : (ops7 : List (HloOp τ sig (Elt F))).Forall fun op =>
    op.writes ⊆ (ops7_W.map (Proc.devRef (τ := τ) .tc)).toFinset := by
  simp only [ops7, List.Forall]
  repeat' apply And.intro
  all_goals (simp only [nullary_writes, unary_writes, binary_writes, ternary_writes, reshape_writes, nary_writes,
    Finset.singleton_subset_iff, List.mem_toFinset]; exact List.mem_map_of_mem (by decide))

/-! ## @main is the straight line of the eight lists in order -/

/-- @main's 630 operations, in order: the eight windows' lists one after the other. -/
def ops : List (HloOp τ sig (Elt F)) :=
  ops0 ++ (ops1 ++ (ops2 ++ (ops3 ++ (ops4 ++ (ops5 ++ (ops6 ++ ops7))))))

theorem main_eq (d : Dev nD) : main (F := F) d = seq ops := by
  simp only [ops, seq_append, ← part0_eq d, ← part1_eq d, ← part2_eq d, ← part3_eq d, ← part4_eq d, ← part5_eq d,
    ← part6_eq d, ← part7_eq d]
  rfl

theorem ops_sub : (ops : List (HloOp τ sig (Elt F))).Forall fun op => op.bufs ⊆ tcRefs τ sig := by
  simp only [ops, List.forall_append]
  exact ⟨ops0_sub, ops1_sub, ops2_sub, ops3_sub, ops4_sub, ops5_sub, ops6_sub, ops7_sub⟩

theorem ops_fresh : (ops : List (HloOp τ sig (Elt F))).Forall fun op => op.fresh = ∅ := by
  simp only [ops, List.forall_append]
  exact ⟨ops0_fresh, ops1_fresh, ops2_fresh, ops3_fresh, ops4_fresh, ops5_fresh, ops6_fresh, ops7_fresh⟩

/-- A buffer none of the eight windows writes holds after the whole line what it held before it. -/
theorem ops_keep (V : Valuation τ sig (Elt F)) (r : Ref sig .tc)
    (h0 : r ∉ ops0_W := by decide) (h1 : r ∉ ops1_W := by decide) (h2 : r ∉ ops2_W := by decide)
    (h3 : r ∉ ops3_W := by decide) (h4 : r ∉ ops4_W := by decide) (h5 : r ∉ ops5_W := by decide)
    (h6 : r ∉ ops6_W := by decide) (h7 : r ∉ ops7_W := by decide) :
    after ops V (Proc.devRef .tc r) = V (Proc.devRef .tc r) := by
  simp only [ops, after_append]
  rw [after_of_writes_sub ops7 _ ops7_writes h7, after_of_writes_sub ops6 _ ops6_writes h6,
    after_of_writes_sub ops5 _ ops5_writes h5, after_of_writes_sub ops4 _ ops4_writes h4,
    after_of_writes_sub ops3 _ ops3_writes h3, after_of_writes_sub ops2 _ ops2_writes h2,
    after_of_writes_sub ops1 _ ops1_writes h1, after_of_writes_sub ops0 _ ops0_writes h0]

/-! ## The run -/

theorem scopedRefs_eq : (Finset.univ.filter fun b : Ref sig .tc => b.isScoped) = ∅ := by decide
theorem scopedSems_eq : (Finset.univ.filter fun sm : SemLoc sig => sm.isScoped .tc) = ∅ := by decide

/-- On every device, for any float values, from any memory with zero counters: every weakly fair execution of @main
    terminates with the result buffer at the fold of the 630 operations over the launch contents, and the seventeen
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v373)
          = StableHlo.after (ops (F := F)) (StableHlo.launchContents m c) (Proc.devRef .tc main_v373)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun _ h c => ⟨h c main_v373,
      (h c main_arg0).trans (ops_keep _ main_arg0), (h c main_arg1).trans (ops_keep _ main_arg1),
      (h c main_arg2).trans (ops_keep _ main_arg2), (h c main_arg3).trans (ops_keep _ main_arg3),
      (h c main_arg4).trans (ops_keep _ main_arg4), (h c main_arg5).trans (ops_keep _ main_arg5),
      (h c main_arg6).trans (ops_keep _ main_arg6), (h c main_arg7).trans (ops_keep _ main_arg7),
      (h c main_arg8).trans (ops_keep _ main_arg8), (h c main_arg9).trans (ops_keep _ main_arg9),
      (h c main_arg10).trans (ops_keep _ main_arg10), (h c main_arg11).trans (ops_keep _ main_arg11),
      (h c main_arg12).trans (ops_keep _ main_arg12), (h c main_arg13).trans (ops_keep _ main_arg13),
      (h c main_arg14).trans (ops_keep _ main_arg14), (h c main_arg15).trans (ops_keep _ main_arg15),
      (h c main_arg16).trans (ops_keep _ main_arg16)⟩)
    (run_seq scopedRefs_eq scopedSems_eq defs main (fun _ => ops) main_eq (fun _ => ops_sub) m ρ
      (fun _ => List.forall_iff_forall_mem.1 ops_fresh))

end Cert.ReferenceIdeal.Hand

end
-- ==== Proof.KI.Keep.lean ====
/-
  Buffers that a run of host stretches does not write keep their contents across it: the six runs of stretches
  between the launch, the five regions and the return.
-/
import proofs.«176190_j13365938225806_1_alg».proof.Proof.KI.Run

set_option maxRecDepth 16384

noncomputable section

namespace Cert.KernelIdeal.Hand

open Idealize.ShloMosaic Idealize.ShloMosaic.TcCoe
open Idealize.SL Idealize.SL.Sem
open Cert.KernelIdeal Cert.KernelIdeal.Gen

variable {F : FTy → Type} [FloatOps F]
variable (m : (ℓ : Loc nD τ sig) → Buf (Elt F) ℓ) (ρ : Dev nD → PrngReg)

theorem keepA (c : Dev nD) (r : Ref sig .tc) (h0 : r ∉ hostOps0_W := by decide) (h0_1 : r ∉ hostOps0_1_W := by decide)
    (h0_2 : r ∉ hostOps0_2_W := by decide) : W3 m ρ c (Proc.devRef .tc r) = m ((c : Thread nD τ).loc r) :=
  (StableHlo.after_of_writes_sub hostOps0_2 _ hostOps0_2_writes h0_2).trans <|
  (StableHlo.after_of_writes_sub hostOps0_1 _ hostOps0_1_writes h0_1).trans <|
  (StableHlo.after_of_writes_sub hostOps0 _ hostOps0_writes h0).trans rfl

theorem keepB (c : Dev nD) (r : Ref sig .tc) (h1 : r ∉ hostOps1_W := by decide) (h1_1 : r ∉ hostOps1_1_W := by decide)
    (h1_2 : r ∉ hostOps1_2_W := by decide) : W7 m ρ c (Proc.devRef .tc r) = W4 m ρ c (Proc.devRef .tc r) :=
  (StableHlo.after_of_writes_sub hostOps1_2 _ hostOps1_2_writes h1_2).trans <|
  (StableHlo.after_of_writes_sub hostOps1_1 _ hostOps1_1_writes h1_1).trans <|
  (StableHlo.after_of_writes_sub hostOps1 _ hostOps1_writes h1)

theorem keepC (c : Dev nD) (r : Ref sig .tc) (h2 : r ∉ hostOps2_W := by decide) (h2_1 : r ∉ hostOps2_1_W := by decide)
    (h2_2 : r ∉ hostOps2_2_W := by decide) : W11 m ρ c (Proc.devRef .tc r) = W8 m ρ c (Proc.devRef .tc r) :=
  (StableHlo.after_of_writes_sub hostOps2_2 _ hostOps2_2_writes h2_2).trans <|
  (StableHlo.after_of_writes_sub hostOps2_1 _ hostOps2_1_writes h2_1).trans <|
  (StableHlo.after_of_writes_sub hostOps2 _ hostOps2_writes h2)

theorem keepD (c : Dev nD) (r : Ref sig .tc) (h3 : r ∉ hostOps3_W := by decide) (h3_1 : r ∉ hostOps3_1_W := by decide)
    (h3_2 : r ∉ hostOps3_2_W := by decide) (h3_3 : r ∉ hostOps3_3_W := by decide) (h3_4 : r ∉ hostOps3_4_W := by decide) :
    W17 m ρ c (Proc.devRef .tc r) = W12 m ρ c (Proc.devRef .tc r) :=
  (StableHlo.after_of_writes_sub hostOps3_4 _ hostOps3_4_writes h3_4).trans <|
  (StableHlo.after_of_writes_sub hostOps3_3 _ hostOps3_3_writes h3_3).trans <|
  (StableHlo.after_of_writes_sub hostOps3_2 _ hostOps3_2_writes h3_2).trans <|
  (StableHlo.after_of_writes_sub hostOps3_1 _ hostOps3_1_writes h3_1).trans <|
  (StableHlo.after_of_writes_sub hostOps3 _ hostOps3_writes h3)

theorem keepE (c : Dev nD) (r : Ref sig .tc) (h4 : r ∉ hostOps4_W := by decide) (h4_1 : r ∉ hostOps4_1_W := by decide)
    (h4_2 : r ∉ hostOps4_2_W := by decide) : W21 m ρ c (Proc.devRef .tc r) = W18 m ρ c (Proc.devRef .tc r) :=
  (StableHlo.after_of_writes_sub hostOps4_2 _ hostOps4_2_writes h4_2).trans <|
  (StableHlo.after_of_writes_sub hostOps4_1 _ hostOps4_1_writes h4_1).trans <|
  (StableHlo.after_of_writes_sub hostOps4 _ hostOps4_writes h4)

/-- A buffer that none of the later stretches writes and none of the later regions changes: its contents at any
    later boundary, walked back region by region. -/
theorem keep4 (c : Dev nD) (r : Ref sig .tc) (g : ∀ w, Pipeline.arrRef spec0 w ≠ r := by decide) :
    W4 m ρ c (Proc.devRef .tc r) = W3 m ρ c (Proc.devRef .tc r) := W4_of_ne m ρ c r g
theorem keep8 (c : Dev nD) (r : Ref sig .tc) (g : ∀ w, Pipeline.arrRef spec1 w ≠ r := by decide) :
    W8 m ρ c (Proc.devRef .tc r) = W7 m ρ c (Proc.devRef .tc r) := W8_of_ne m ρ c r g
theorem keep12 (c : Dev nD) (r : Ref sig .tc) (g : ∀ w, Pipeline.arrRef spec2 w ≠ r := by decide) :
    W12 m ρ c (Proc.devRef .tc r) = W11 m ρ c (Proc.devRef .tc r) := W12_of_ne m ρ c r g
theorem keep18 (c : Dev nD) (r : Ref sig .tc) (g : ∀ w, Pipeline.arrRef spec3 w ≠ r := by decide) :
    W18 m ρ c (Proc.devRef .tc r) = W17 m ρ c (Proc.devRef .tc r) := W18_of_ne m ρ c r g
theorem keep22 (c : Dev nD) (r : Ref sig .tc) (g : ∀ w, Pipeline.arrRef spec4 w ≠ r := by decide) :
    W22 m ρ c (Proc.devRef .tc r) = W21 m ρ c (Proc.devRef .tc r) := W22_of_ne m ρ c r g

/-- An input window's array leaves its region as it entered. -/
theorem in4 (c : Dev nD) (w : Fin cfg0.W) (hw : (cfg0.win w).isOut = false := by rfl) :
    W4 m ρ c (Proc.devRef .tc (Pipeline.arrRef spec0 w)) = W3 m ρ c (Proc.devRef .tc (Pipeline.arrRef spec0 w)) :=
  (W4_arr m ρ c w).trans (((dat0 (V3 m ρ) c).arrAt_in w hw _).trans (A_eq0 (V3 m ρ) c w))
theorem in8 (c : Dev nD) (w : Fin cfg1.W) (hw : (cfg1.win w).isOut = false := by rfl) :
    W8 m ρ c (Proc.devRef .tc (Pipeline.arrRef spec1 w)) = W7 m ρ c (Proc.devRef .tc (Pipeline.arrRef spec1 w)) :=
  (W8_arr m ρ c w).trans (((dat1 (V7 m ρ) c).arrAt_in w hw _).trans (A_eq1 (V7 m ρ) c w))
theorem in12 (c : Dev nD) (w : Fin cfg2.W) (hw : (cfg2.win w).isOut = false := by rfl) :
    W12 m ρ c (Proc.devRef .tc (Pipeline.arrRef spec2 w)) = W11 m ρ c (Proc.devRef .tc (Pipeline.arrRef spec2 w)) :=
  (W12_arr m ρ c w).trans (((dat2 (V11 m ρ) c).arrAt_in w hw _).trans (A_eq2 (V11 m ρ) c w))
theorem in18 (c : Dev nD) (w : Fin cfg3.W) (hw : (cfg3.win w).isOut = false := by rfl) :
    W18 m ρ c (Proc.devRef .tc (Pipeline.arrRef spec3 w)) = W17 m ρ c (Proc.devRef .tc (Pipeline.arrRef spec3 w)) :=
  (W18_arr m ρ c w).trans (((dat3 (V17 m ρ) c).arrAt_in w hw _).trans (A_eq3 (V17 m ρ) c w))
theorem in22 (c : Dev nD) (w : Fin cfg4.W) (hw : (cfg4.win w).isOut = false := by rfl) :
    W22 m ρ c (Proc.devRef .tc (Pipeline.arrRef spec4 w)) = W21 m ρ c (Proc.devRef .tc (Pipeline.arrRef spec4 w)) :=
  (W22_arr m ρ c w).trans (((dat4 (V21 m ρ) c).arrAt_in w hw _).trans (A_eq4 (V21 m ρ) c w))

end Cert.KernelIdeal.Hand

end
-- ==== Proof.KI.Defs.lean ====
/-
  The kernel program's host-side values as a few named pure functions, at any float instance: the same weighted
  neighbourhood sum as the reference's (a gather of source rows scaled by edge weights, scatter-added at destination
  rows), and the layout steps around the pallas regions — zero padding of the node axis from 50000 to 50176 rows, the
  four communities stacked on a leading axis, slices back to 50000 rows, and the final interleaving of the communities'
  32 columns into 128.
-/
import proofs.«176190_j13365938225806_1_alg».proof.Proof.Gen.KernelIdeal.Launch
import Idealize.ShloMosaic.PureOps

noncomputable section

namespace Cert.KernelIdeal.Hand

open Idealize.ShloMosaic Idealize.SL.Sem
open Cert.KernelIdeal Cert.KernelIdeal.Gen

variable {F : FTy → Type} [FloatOps F]

/-- Float and 32-bit integer arrays of a shape. -/
abbrev FV (S : Shape) : Type := (⟨S, .f32⟩ : BufTy).Contents (Elt F)
abbrev IV (S : Shape) : Type := (⟨S, .i32⟩ : BufTy).Contents (Elt F)

/-- Row `r` of the 2 x 800000 edge list, as a flat array. -/
def edgeRow0 (ei : IV (F := F) S2x800000) : IV (F := F) S800000 :=
  shapeCast S800000 (extractStridedSlice S1x800000 ![0, 0] ei slices_S2x800000_S1x800000_0_0) shapeCasts_S1x800000_S800000
def edgeRow1 (ei : IV (F := F) S2x800000) : IV (F := F) S800000 :=
  shapeCast S800000 (extractStridedSlice S1x800000 ![1, 0] ei slices_S2x800000_S1x800000_1_0) shapeCasts_S1x800000_S800000

/-- The start indices of the gather: a negative source index wraps by the number of nodes. -/
def startIdx (src : IV (F := F) S800000) : IV (F := F) S800000x1 :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- The weighted neighbourhood sum of 128-wide features. -/
def agg128 (h : FV (F := F) S50000x128) (src dst : IV (F := F) S800000) (w : FV (F := F) S800000) : FV (F := F) S50000x128 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 dst)
    (mulf (Host.gather gather_S50000x128_S800000x1_S800000x128_1_0_n_n_0_1_1128 h (startIdx src))
      (broadcastInDim S800000x128 ![0, 1] bcast_S800000x1_S800000x128_0_1 (broadcastInDim S800000x1 ![0] bcast_S800000_S800000x1_0 w)))

/-- The weighted neighbourhood sum of 32-wide features. -/
def agg32 (h : FV (F := F) S50000x32) (src dst : IV (F := F) S800000) (w : FV (F := F) S800000) : FV (F := F) S50000x32 :=
  Host.scatterAdd scatter_S50000x32_S800000x1_S800000x32_1_0_0_1
    (broadcastInDim S50000x32 ![] bcast_S_S50000x32 (constant S_ .f32 0x00000000#32))
    (broadcastInDim S800000x1 ![0] bcast_S800000_S800000x1_0 dst)
    (mulf (Host.gather gather_S50000x32_S800000x1_S800000x32_1_0_n_n_0_1_132 h (startIdx src))
      (broadcastInDim S800000x32 ![0, 1] bcast_S800000x1_S800000x32_0_1 (broadcastInDim S800000x1 ![0] bcast_S800000_S800000x1_0 w)))

/-- Community `k`'s row of the 4 x 800000 edge weights, as a flat array. -/
def ewRow0 (ew : FV (F := F) S4x800000) : FV (F := F) S800000 := shapeCast S800000 (extractStridedSlice S1x800000 ![0, 0] ew slices_S4x800000_S1x800000_0_0) shapeCasts_S1x800000_S800000
def ewRow1 (ew : FV (F := F) S4x800000) : FV (F := F) S800000 := shapeCast S800000 (extractStridedSlice S1x800000 ![1, 0] ew slices_S4x800000_S1x800000_1_0) shapeCasts_S1x800000_S800000
def ewRow2 (ew : FV (F := F) S4x800000) : FV (F := F) S800000 := shapeCast S800000 (extractStridedSlice S1x800000 ![2, 0] ew slices_S4x800000_S1x800000_2_0) shapeCasts_S1x800000_S800000
def ewRow3 (ew : FV (F := F) S4x800000) : FV (F := F) S800000 := shapeCast S800000 (extractStridedSlice S1x800000 ![3, 0] ew slices_S4x800000_S1x800000_3_0) shapeCasts_S1x800000_S800000

/-- The value the padding rows are filled with: the integer 0 converted to a float. -/
def padV : FV (F := F) S_ := sitofp .f32 (constantI S_ 32 0#32)

/-- The features padded with 176 rows. -/
def xpad (x : FV (F := F) S50000x128) : FV (F := F) S50176x128 :=
  pad S50176x128 ![0, 0] ![176, 0] ![0, 0] x padV pads_S50000x128_S50176x128_01760_000 h_S_
/-- A bias vector as one row. -/
def row128 (b : FV (F := F) S128) : FV (F := F) S1x128 := shapeCast S1x128 b shapeCasts_S128_S1x128
def row32 (b : FV (F := F) S32) : FV (F := F) S1x32 := shapeCast S1x32 b shapeCasts_S32_S1x32
/-- The first 50000 rows of a padded array. -/
def top128 (Y : FV (F := F) S50176x128) : FV (F := F) S50000x128 := extractStridedSlice S50000x128 ![0, 0] Y slices_S50176x128_S50000x128_0_0
def top32 (Y : FV (F := F) S4x50176x32) : FV (F := F) S4x50000x32 := extractStridedSlice S4x50000x32 ![0, 0, 0] Y slices_S4x50176x32_S4x50000x32_0_0_0
/-- The padded features repeated for the four communities. -/
def batch128 (xp : FV (F := F) S50176x128) : FV (F := F) S4x50176x128 :=
  broadcastInDim S4x50176x128 ![0, 1, 2] bcast_S1x50176x128_S4x50176x128_0_1_2 (broadcastInDim S1x50176x128 ![1, 2] bcast_S50176x128_S1x50176x128_1_2 xp)
/-- Four per-community arrays stacked on a leading axis. -/
def stack128 (a0 a1 a2 a3 : FV (F := F) S50000x128) : FV (F := F) S4x50000x128 :=
  concatenate S4x50000x128 0 [⟨S1x50000x128, broadcastInDim S1x50000x128 ![1, 2] bcast_S50000x128_S1x50000x128_1_2 a0⟩,
    ⟨S1x50000x128, broadcastInDim S1x50000x128 ![1, 2] bcast_S50000x128_S1x50000x128_1_2 a1⟩,
    ⟨S1x50000x128, broadcastInDim S1x50000x128 ![1, 2] bcast_S50000x128_S1x50000x128_1_2 a2⟩,
    ⟨S1x50000x128, broadcastInDim S1x50000x128 ![1, 2] bcast_S50000x128_S1x50000x128_1_2 a3⟩]
    concatenates_S1x50000x128_S1x50000x128_S1x50000x128_S1x50000x128_S4x50000x128_d0
def stack32 (a0 a1 a2 a3 : FV (F := F) S50000x32) : FV (F := F) S4x50000x32 :=
  concatenate S4x50000x32 0 [⟨S1x50000x32, broadcastInDim S1x50000x32 ![1, 2] bcast_S50000x32_S1x50000x32_1_2 a0⟩,
    ⟨S1x50000x32, broadcastInDim S1x50000x32 ![1, 2] bcast_S50000x32_S1x50000x32_1_2 a1⟩,
    ⟨S1x50000x32, broadcastInDim S1x50000x32 ![1, 2] bcast_S50000x32_S1x50000x32_1_2 a2⟩,
    ⟨S1x50000x32, broadcastInDim S1x50000x32 ![1, 2] bcast_S50000x32_S1x50000x32_1_2 a3⟩]
    concatenates_S1x50000x32_S1x50000x32_S1x50000x32_S1x50000x32_S4x50000x32_d0
/-- A stacked array padded with 176 rows per community. -/
def pad4x128 (A : FV (F := F) S4x50000x128) : FV (F := F) S4x50176x128 :=
  pad S4x50176x128 ![0, 0, 0] ![0, 176, 0] ![0, 0, 0] A padV pads_S4x50000x128_S4x50176x128_000_01760_000 h_S_
def pad4x32 (A : FV (F := F) S4x50000x32) : FV (F := F) S4x50176x32 :=
  pad S4x50176x32 ![0, 0, 0] ![0, 176, 0] ![0, 0, 0] A padV pads_S4x50000x32_S4x50176x32_000_01760_000 h_S_
/-- One community's 50000 x 32 features out of the stacked array. -/
def com0 (H : FV (F := F) S4x50000x32) : FV (F := F) S50000x32 := shapeCast S50000x32 (extractStridedSlice S1x50000x32 ![0, 0, 0] H slices_S4x50000x32_S1x50000x32_0_0_0) shapeCasts_S1x50000x32_S50000x32
def com1 (H : FV (F := F) S4x50000x32) : FV (F := F) S50000x32 := shapeCast S50000x32 (extractStridedSlice S1x50000x32 ![1, 0, 0] H slices_S4x50000x32_S1x50000x32_1_0_0) shapeCasts_S1x50000x32_S50000x32
def com2 (H : FV (F := F) S4x50000x32) : FV (F := F) S50000x32 := shapeCast S50000x32 (extractStridedSlice S1x50000x32 ![2, 0, 0] H slices_S4x50000x32_S1x50000x32_2_0_0) shapeCasts_S1x50000x32_S50000x32
def com3 (H : FV (F := F) S4x50000x32) : FV (F := F) S50000x32 := shapeCast S50000x32 (extractStridedSlice S1x50000x32 ![3, 0, 0] H slices_S4x50000x32_S1x50000x32_3_0_0) shapeCasts_S1x50000x32_S50000x32
/-- The four communities' 32 columns side by side: entry (n, 32 k + c) is entry (k, n, c). -/
def lay128 (H : FV (F := F) S4x50000x32) : FV (F := F) S50000x128 :=
  shapeCast S50000x128 (transpose S50000x4x32 [1, 0, 2] H transposes_S4x50000x32_S50000x4x32_1_0_2) shapeCasts_S50000x4x32_S50000x128
/-- Three 50000 x 128 arrays stacked on a new leading axis. -/
def stack3 (a0 a1 a2 : FV (F := F) S50000x128) : FV (F := F) S3x50000x128 :=
  concatenate S3x50000x128 0 [⟨S1x50000x128, broadcastInDim S1x50000x128 ![1, 2] bcast_S50000x128_S1x50000x128_1_2 a0⟩,
    ⟨S1x50000x128, broadcastInDim S1x50000x128 ![1, 2] bcast_S50000x128_S1x50000x128_1_2 a1⟩,
    ⟨S1x50000x128, broadcastInDim S1x50000x128 ![1, 2] bcast_S50000x128_S1x50000x128_1_2 a2⟩] concatenates_S1x50000x128_S1x50000x128_S1x50000x128_S3x50000x128_d0

end Cert.KernelIdeal.Hand

end
-- ==== Proof.KI.Stages.lean ====
/-
  What the kernel's host stretches compute, as the named functions of KI/Defs.lean, from an arbitrary valuation of the
  TensorCore's buffers at the stretch's entry: before the encoder region (the padded features, the bias row, the two
  rows of the edge list), before the first MLP region (the first 50000 rows of the encoder's output, the stacked and
  padded neighbourhood sums, the batched padded features, the bias rows), before the second MLP region (the layer-0
  features cut back to 50000 rows, padded again, and their stacked padded neighbourhood sums), and at the end (the
  stack of the three results).
-/
import proofs.«176190_j13365938225806_1_alg».proof.Proof.KI.Defs
import Idealize.ShloMosaic.Lib.StableHlo.Run

set_option maxRecDepth 16384

noncomputable section

namespace Cert.KernelIdeal.Hand

open Idealize.ShloMosaic Idealize.ShloMosaic.TcCoe Idealize.ShloMosaic.StableHlo
open Idealize.SL Idealize.SL.Sem
open Cert.KernelIdeal Cert.KernelIdeal.Gen

variable {F : FTy → Type} [FloatOps F]
variable (U : Valuation τ sig (Elt F))

/-! ## Before the encoder region -/

/-- The contents after the three stretches that precede the encoder region. -/
abbrev afterA : Valuation τ sig (Elt F) := after hostOps0_2 (after hostOps0_1 (after hostOps0 U))

theorem A_v4 : afterA U (Proc.devRef .tc main_v4) = xpad (U (Proc.devRef .tc main_arg0)) := by
  after_results; rfl
theorem A_v5 : afterA U (Proc.devRef .tc main_v5) = row128 (U (Proc.devRef .tc main_arg16)) := by
  after_results; rfl
theorem A_v1 : afterA U (Proc.devRef .tc main_v1) = edgeRow0 (U (Proc.devRef .tc main_arg1)) := by
  after_results; rfl
theorem A_v3 : afterA U (Proc.devRef .tc main_v3) = edgeRow1 (U (Proc.devRef .tc main_arg1)) := by
  after_results; rfl

/-! ## Before the first MLP region -/

abbrev afterB : Valuation τ sig (Elt F) := after hostOps1_2 (after hostOps1_1 (after hostOps1 U))

set_option maxHeartbeats 8000000 in
theorem B_v7 : afterB U (Proc.devRef .tc main_v7) = top128 (U (Proc.devRef .tc main_v6)) := by
  after_results; rfl
set_option maxHeartbeats 8000000 in
theorem B_v75 : afterB U (Proc.devRef .tc main_v75) = batch128 (U (Proc.devRef .tc main_v4)) := by
  after_results; rfl
set_option maxHeartbeats 8000000 in
theorem B_v76 : afterB U (Proc.devRef .tc main_v76) = row32 (U (Proc.devRef .tc main_arg4)) := by
  after_results; rfl
set_option maxHeartbeats 8000000 in
theorem B_v77 : afterB U (Proc.devRef .tc main_v77) = row32 (U (Proc.devRef .tc main_arg6)) := by
  after_results; rfl
set_option maxHeartbeats 8000000 in
theorem B_v73 : afterB U (Proc.devRef .tc main_v73) = pad4x128 (stack128
      (agg128 (U (Proc.devRef .tc main_arg0)) (U (Proc.devRef .tc main_v1)) (U (Proc.devRef .tc main_v3)) (ewRow0 (U (Proc.devRef .tc main_arg2))))
      (agg128 (U (Proc.devRef .tc main_arg0)) (U (Proc.devRef .tc main_v1)) (U (Proc.devRef .tc main_v3)) (ewRow1 (U (Proc.devRef .tc main_arg2))))
      (agg128 (U (Proc.devRef .tc main_arg0)) (U (Proc.devRef .tc main_v1)) (U (Proc.devRef .tc main_v3)) (ewRow2 (U (Proc.devRef .tc main_arg2))))
      (agg128 (U (Proc.devRef .tc main_arg0)) (U (Proc.devRef .tc main_v1)) (U (Proc.devRef .tc main_v3)) (ewRow3 (U (Proc.devRef .tc main_arg2))))) := by
  after_results
  unfold pad4x128 stack128 agg128 startIdx ewRow0 ewRow1 ewRow2 ewRow3 padV
  rfl

/-! ## Before the second MLP region -/

abbrev afterD : Valuation τ sig (Elt F) := after hostOps3_4 (after hostOps3_3 (after hostOps3_2 (after hostOps3_1 (after hostOps3 U))))

set_option maxHeartbeats 8000000 in
theorem D_v90 : afterD U (Proc.devRef .tc main_v90) = top32 (U (Proc.devRef .tc main_v89)) := by
  after_results; rfl
set_option maxHeartbeats 8000000 in
theorem D_v165 : afterD U (Proc.devRef .tc main_v165) = pad4x32 (top32 (U (Proc.devRef .tc main_v89))) := by
  after_results; rfl
set_option maxHeartbeats 8000000 in
theorem D_v166 : afterD U (Proc.devRef .tc main_v166) = row32 (U (Proc.devRef .tc main_arg10)) := by
  after_results; rfl
set_option maxHeartbeats 8000000 in
theorem D_v167 : afterD U (Proc.devRef .tc main_v167) = row32 (U (Proc.devRef .tc main_arg12)) := by
  after_results; rfl
set_option maxHeartbeats 8000000 in
theorem D_v164 : afterD U (Proc.devRef .tc main_v164) = pad4x32 (stack32
      (agg32 (com0 (top32 (U (Proc.devRef .tc main_v89)))) (U (Proc.devRef .tc main_v1)) (U (Proc.devRef .tc main_v3)) (ewRow0 (U (Proc.devRef .tc main_arg2))))
      (agg32 (com1 (top32 (U (Proc.devRef .tc main_v89)))) (U (Proc.devRef .tc main_v1)) (U (Proc.devRef .tc main_v3)) (ewRow1 (U (Proc.devRef .tc main_arg2))))
      (agg32 (com2 (top32 (U (Proc.devRef .tc main_v89)))) (U (Proc.devRef .tc main_v1)) (U (Proc.devRef .tc main_v3)) (ewRow2 (U (Proc.devRef .tc main_arg2))))
      (agg32 (com3 (top32 (U (Proc.devRef .tc main_v89)))) (U (Proc.devRef .tc main_v1)) (U (Proc.devRef .tc main_v3)) (ewRow3 (U (Proc.devRef .tc main_arg2))))) := by
  after_results
  unfold pad4x32 stack32 agg32 startIdx ewRow0 ewRow1 ewRow2 ewRow3 com0 com1 com2 com3 top32 padV
  rfl

/-! ## At the end -/

theorem F_v188 : after hostOps5 U (Proc.devRef .tc main_v188) = stack3 (U (Proc.devRef .tc main_v7))
      (lay128 (U (Proc.devRef .tc main_v90))) (lay128 (top32 (U (Proc.devRef .tc main_v179)))) := by
  after_results; rfl

end Cert.KernelIdeal.Hand

end
-- ==== Proof.KI.Args.lean ====
/-
  The argument arrays and the two rows of the edge list, as the later boundaries of the run find them: no stretch
  writes them and no region changes them, so each is what the launch memory (or the first stretch) gave.
-/
import proofs.«176190_j13365938225806_1_alg».proof.Proof.KI.Keep
import proofs.«176190_j13365938225806_1_alg».proof.Proof.KI.Stages

set_option maxRecDepth 16384

noncomputable section

namespace Cert.KernelIdeal.Hand

open Idealize.ShloMosaic Idealize.ShloMosaic.TcCoe
open Idealize.SL Idealize.SL.Sem
open Cert.KernelIdeal Cert.KernelIdeal.Gen

variable {F : FTy → Type} [FloatOps F]
variable (m : (ℓ : Loc nD τ sig) → Buf (Elt F) ℓ) (ρ : Dev nD → PrngReg) (c : Dev nD)

/-- An argument array read from the launch memory. -/
abbrev arg (r : Ref sig .tc) : Buf (Elt F) ((c : Thread nD τ).loc r) := m ((c : Thread nD τ).loc r)

/-! ### At the encoder region's exit -/
theorem W4_arg0 : W4 m ρ c (Proc.devRef .tc main_arg0) = arg m c main_arg0 := (keep4 m ρ c main_arg0).trans (keepA m ρ c main_arg0)
theorem W4_arg2 : W4 m ρ c (Proc.devRef .tc main_arg2) = arg m c main_arg2 := (keep4 m ρ c main_arg2).trans (keepA m ρ c main_arg2)
theorem W4_arg4 : W4 m ρ c (Proc.devRef .tc main_arg4) = arg m c main_arg4 := (keep4 m ρ c main_arg4).trans (keepA m ρ c main_arg4)
theorem W4_arg6 : W4 m ρ c (Proc.devRef .tc main_arg6) = arg m c main_arg6 := (keep4 m ρ c main_arg6).trans (keepA m ρ c main_arg6)
theorem W4_v1 : W4 m ρ c (Proc.devRef .tc main_v1) = edgeRow0 (arg m c main_arg1) := (keep4 m ρ c main_v1).trans (A_v1 (W0 m ρ c))
theorem W4_v3 : W4 m ρ c (Proc.devRef .tc main_v3) = edgeRow1 (arg m c main_arg1) := (keep4 m ρ c main_v3).trans (A_v3 (W0 m ρ c))
theorem W4_v4 : W4 m ρ c (Proc.devRef .tc main_v4) = xpad (arg m c main_arg0) := (in4 m ρ c 0).trans (A_v4 (W0 m ρ c))

/-! ### At the first MLP region's entry and exit -/
theorem W7_arg3 : W7 m ρ c (Proc.devRef .tc main_arg3) = arg m c main_arg3 :=
  (keepB m ρ c main_arg3).trans <| (keep4 m ρ c main_arg3).trans (keepA m ρ c main_arg3)
theorem W7_arg5 : W7 m ρ c (Proc.devRef .tc main_arg5) = arg m c main_arg5 :=
  (keepB m ρ c main_arg5).trans <| (keep4 m ρ c main_arg5).trans (keepA m ρ c main_arg5)
theorem W8_arg7 : W8 m ρ c (Proc.devRef .tc main_arg7) = arg m c main_arg7 :=
  (keep8 m ρ c main_arg7).trans <| (keepB m ρ c main_arg7).trans <| (keep4 m ρ c main_arg7).trans (keepA m ρ c main_arg7)
theorem W8_arg8 : W8 m ρ c (Proc.devRef .tc main_arg8) = arg m c main_arg8 :=
  (keep8 m ρ c main_arg8).trans <| (keepB m ρ c main_arg8).trans <| (keep4 m ρ c main_arg8).trans (keepA m ρ c main_arg8)

/-! ### At the first batch-norm region's exit -/
theorem W12_of_W4 (r : Ref sig .tc) (g2 : ∀ w, Pipeline.arrRef spec2 w ≠ r := by decide) (g1 : ∀ w, Pipeline.arrRef spec1 w ≠ r := by decide)
    (h2 : r ∉ hostOps2_W := by decide) (h2_1 : r ∉ hostOps2_1_W := by decide) (h2_2 : r ∉ hostOps2_2_W := by decide)
    (h1 : r ∉ hostOps1_W := by decide) (h1_1 : r ∉ hostOps1_1_W := by decide) (h1_2 : r ∉ hostOps1_2_W := by decide) :
    W12 m ρ c (Proc.devRef .tc r) = W4 m ρ c (Proc.devRef .tc r) :=
  (keep12 m ρ c r g2).trans <| (keepC m ρ c r h2 h2_1 h2_2).trans <| (keep8 m ρ c r g1).trans (keepB m ρ c r h1 h1_1 h1_2)
theorem W12_v1 : W12 m ρ c (Proc.devRef .tc main_v1) = edgeRow0 (arg m c main_arg1) := (W12_of_W4 m ρ c main_v1).trans (W4_v1 m ρ c)
theorem W12_v3 : W12 m ρ c (Proc.devRef .tc main_v3) = edgeRow1 (arg m c main_arg1) := (W12_of_W4 m ρ c main_v3).trans (W4_v3 m ρ c)
theorem W12_arg2 : W12 m ρ c (Proc.devRef .tc main_arg2) = arg m c main_arg2 := (W12_of_W4 m ρ c main_arg2).trans (W4_arg2 m ρ c)
theorem W12_arg10 : W12 m ρ c (Proc.devRef .tc main_arg10) = arg m c main_arg10 :=
  (W12_of_W4 m ρ c main_arg10).trans <| (keep4 m ρ c main_arg10).trans (keepA m ρ c main_arg10)
theorem W12_arg12 : W12 m ρ c (Proc.devRef .tc main_arg12) = arg m c main_arg12 :=
  (W12_of_W4 m ρ c main_arg12).trans <| (keep4 m ρ c main_arg12).trans (keepA m ρ c main_arg12)
theorem W12_arg9 : W12 m ρ c (Proc.devRef .tc main_arg9) = arg m c main_arg9 :=
  (W12_of_W4 m ρ c main_arg9).trans <| (keep4 m ρ c main_arg9).trans (keepA m ρ c main_arg9)
theorem W12_arg11 : W12 m ρ c (Proc.devRef .tc main_arg11) = arg m c main_arg11 :=
  (W12_of_W4 m ρ c main_arg11).trans <| (keep4 m ρ c main_arg11).trans (keepA m ρ c main_arg11)
theorem W12_arg13 : W12 m ρ c (Proc.devRef .tc main_arg13) = arg m c main_arg13 :=
  (W12_of_W4 m ρ c main_arg13).trans <| (keep4 m ρ c main_arg13).trans (keepA m ρ c main_arg13)
theorem W12_arg14 : W12 m ρ c (Proc.devRef .tc main_arg14) = arg m c main_arg14 :=
  (W12_of_W4 m ρ c main_arg14).trans <| (keep4 m ρ c main_arg14).trans (keepA m ρ c main_arg14)

/-! ### At the second MLP region's entry and exit -/
theorem W17_arg9 : W17 m ρ c (Proc.devRef .tc main_arg9) = arg m c main_arg9 := (keepD m ρ c main_arg9).trans (W12_arg9 m ρ c)
theorem W17_arg11 : W17 m ρ c (Proc.devRef .tc main_arg11) = arg m c main_arg11 := (keepD m ρ c main_arg11).trans (W12_arg11 m ρ c)
theorem W18_arg13 : W18 m ρ c (Proc.devRef .tc main_arg13) = arg m c main_arg13 :=
  (keep18 m ρ c main_arg13).trans <| (keepD m ρ c main_arg13).trans (W12_arg13 m ρ c)
theorem W18_arg14 : W18 m ρ c (Proc.devRef .tc main_arg14) = arg m c main_arg14 :=
  (keep18 m ρ c main_arg14).trans <| (keepD m ρ c main_arg14).trans (W12_arg14 m ρ c)

/-- The layer-0 features cut back to 50000 rows stay in place to the end. -/
theorem W22_v90 : W22 m ρ c (Proc.devRef .tc main_v90) = top32 (W12 m ρ c (Proc.devRef .tc main_v89)) :=
  (keep22 m ρ c main_v90).trans <| (keepE m ρ c main_v90).trans <| (keep18 m ρ c main_v90).trans (D_v90 (W12 m ρ c))

end Cert.KernelIdeal.Hand

end
-- ==== Proof.KI.Layout.lean ====
/-
  The kernel's layout functions read at an index: a padded array at a row below 50000 is the array there; a slice of
  the first 50000 rows reads the same row; the batched features do not depend on the community; entry (k, n, ·) of a
  stack of four arrays is entry (n, ·) of the k-th; community k's features are the k-th slab; in the interleaved
  result entry (n, 32 k + c) is entry (k, n, c); entry (s, n, j) of the stack of three is entry (n, j) of the s-th.
-/
import proofs.«176190_j13365938225806_1_alg».proof.Proof.KI.Defs
import Idealize.ShloMosaic.Lib.ValueIdx
import Idealize.ShloMosaic.Lib.Pipeline.Value
import Idealize.ShloMosaic.Lib.ValueLayout
import Idealize.ShloMosaic.Lib.KernelVsHost

set_option maxRecDepth 16384

noncomputable section

namespace Cert.KernelIdeal.Hand

open Idealize.ShloMosaic Idealize.ShloMosaic.ValueIdx
open Cert.KernelIdeal Cert.KernelIdeal.Gen

variable {F : FTy → Type} [FloatOps F]

/-- Row `n` of the 50000 as a row of the padded 50176. -/
abbrev up (n : Fin 50000) : Fin 50176 := ⟨n.val, by omega⟩

theorem xpad_apply (x : FV (F := F) S50000x128) (n : Fin 50000) (q : Fin 128) : xpad x (ix2 (up n) q) = x (ix2 n q) :=
  pad_apply_of_inside _ _ _ x _ _ _ (ix2 (up n) q) (ix2 n q) (fun a => by
    match a with
    | ⟨0, _⟩ => show n.val = 0 + n.val * (0 + 1); omega
    | ⟨1, _⟩ => show q.val = 0 + q.val * (0 + 1); omega)

theorem pad4x128_apply (A : FV (F := F) S4x50000x128) (k : Fin 4) (n : Fin 50000) (q : Fin 128) :
    pad4x128 A (ix3 k (up n) q) = A (ix3 k n q) :=
  pad_apply_of_inside _ _ _ A _ _ _ (ix3 k (up n) q) (ix3 k n q) (fun a => by
    match a with
    | ⟨0, _⟩ => show k.val = 0 + k.val * (0 + 1); omega
    | ⟨1, _⟩ => show n.val = 0 + n.val * (0 + 1); omega
    | ⟨2, _⟩ => show q.val = 0 + q.val * (0 + 1); omega)

theorem pad4x32_apply (A : FV (F := F) S4x50000x32) (k : Fin 4) (n : Fin 50000) (q : Fin 32) :
    pad4x32 A (ix3 k (up n) q) = A (ix3 k n q) :=
  pad_apply_of_inside _ _ _ A _ _ _ (ix3 k (up n) q) (ix3 k n q) (fun a => by
    match a with
    | ⟨0, _⟩ => show k.val = 0 + k.val * (0 + 1); omega
    | ⟨1, _⟩ => show n.val = 0 + n.val * (0 + 1); omega
    | ⟨2, _⟩ => show q.val = 0 + q.val * (0 + 1); omega)

theorem top128_apply (Y : FV (F := F) S50176x128) (n : Fin 50000) (j : Fin 128) : top128 Y (ix2 n j) = Y (ix2 (up n) j) :=
  extractStridedSlice_apply _ Y _ (ix2 n j) (ix2 (up n) j) (fun a => by
    match a with
    | ⟨0, _⟩ => show n.val = 0 + n.val; omega
    | ⟨1, _⟩ => show j.val = 0 + j.val; omega)

theorem top32_apply (Y : FV (F := F) S4x50176x32) (k : Fin 4) (n : Fin 50000) (c : Fin 32) :
    top32 Y (ix3 k n c) = Y (ix3 k (up n) c) :=
  extractStridedSlice_apply _ Y _ (ix3 k n c) (ix3 k (up n) c) (fun a => by
    match a with
    | ⟨0, _⟩ => show k.val = 0 + k.val; omega
    | ⟨1, _⟩ => show n.val = 0 + n.val; omega
    | ⟨2, _⟩ => show c.val = 0 + c.val; omega)

theorem batch128_apply (xp : FV (F := F) S50176x128) (k : Fin 4) (n : Fin 50176) (q : Fin 128) :
    batch128 xp (ix3 k n q) = xp (ix2 n q) := by
  unfold batch128
  rw [broadcastInDim_apply _ _ _ (ix3 k n q) (ix3 (0 : Fin 1) n q) (fun a => by
    match a with
    | ⟨0, _⟩ => rfl
    | ⟨1, _⟩ => rfl
    | ⟨2, _⟩ => rfl)]
  exact broadcastInDim_apply _ _ xp (ix3 (0 : Fin 1) n q) (ix2 n q) (fun a => by
    match a with
    | ⟨0, _⟩ => rfl
    | ⟨1, _⟩ => rfl)

theorem row128_apply (b : FV (F := F) S128) (j : Fin 128) : row128 b (ix2 (0 : Fin 1) j) = b (ix1 j) :=
  shapeCast_apply b _ (ix2 (0 : Fin 1) j) (ix1 j) (by
    rw [Shape.rowMajor_val_one, Shape.rowMajor_val_two]; show j.val = 0 * 128 + j.val; omega)

theorem row32_apply (b : FV (F := F) S32) (j : Fin 32) : row32 b (ix2 (0 : Fin 1) j) = b (ix1 j) :=
  shapeCast_apply b _ (ix2 (0 : Fin 1) j) (ix1 j) (by
    rw [Shape.rowMajor_val_one, Shape.rowMajor_val_two]; show j.val = 0 * 32 + j.val; omega)

theorem stack128_apply0 (a0 a1 a2 a3 : FV (F := F) S50000x128) (n : Fin 50000) (q : Fin 128) :
    stack128 a0 a1 a2 a3 (ix3 (0 : Fin 4) n q) = a0 (ix2 n q) := by
  unfold stack128
  rw [concatenate_apply_piece (0 : Fin 3) _ _ (ix3 (0 : Fin 4) n q) 0 (by simp) S1x50000x128 _ rfl rfl 0 rfl (ix3 (0 : Fin 1) n q)
    (fun b hb => by match b with | ⟨0, _⟩ => exact absurd rfl hb | ⟨1, _⟩ => rfl | ⟨2, _⟩ => rfl) rfl]
  exact broadcastInDim_apply _ _ a0 (ix3 (0 : Fin 1) n q) (ix2 n q) (fun d => by match d with | ⟨0, _⟩ => rfl | ⟨1, _⟩ => rfl)

theorem stack128_apply1 (a0 a1 a2 a3 : FV (F := F) S50000x128) (n : Fin 50000) (q : Fin 128) :
    stack128 a0 a1 a2 a3 (ix3 (1 : Fin 4) n q) = a1 (ix2 n q) := by
  unfold stack128
  rw [concatenate_apply_piece (0 : Fin 3) _ _ (ix3 (1 : Fin 4) n q) 1 (by simp) S1x50000x128 _ rfl rfl 1 rfl (ix3 (0 : Fin 1) n q)
    (fun b hb => by match b with | ⟨0, _⟩ => exact absurd rfl hb | ⟨1, _⟩ => rfl | ⟨2, _⟩ => rfl) rfl]
  exact broadcastInDim_apply _ _ a1 (ix3 (0 : Fin 1) n q) (ix2 n q) (fun d => by match d with | ⟨0, _⟩ => rfl | ⟨1, _⟩ => rfl)

theorem stack128_apply2 (a0 a1 a2 a3 : FV (F := F) S50000x128) (n : Fin 50000) (q : Fin 128) :
    stack128 a0 a1 a2 a3 (ix3 (2 : Fin 4) n q) = a2 (ix2 n q) := by
  unfold stack128
  rw [concatenate_apply_piece (0 : Fin 3) _ _ (ix3 (2 : Fin 4) n q) 2 (by simp) S1x50000x128 _ rfl rfl 2 rfl (ix3 (0 : Fin 1) n q)
    (fun b hb => by match b with | ⟨0, _⟩ => exact absurd rfl hb | ⟨1, _⟩ => rfl | ⟨2, _⟩ => rfl) rfl]
  exact broadcastInDim_apply _ _ a2 (ix3 (0 : Fin 1) n q) (ix2 n q) (fun d => by match d with | ⟨0, _⟩ => rfl | ⟨1, _⟩ => rfl)

theorem stack128_apply3 (a0 a1 a2 a3 : FV (F := F) S50000x128) (n : Fin 50000) (q : Fin 128) :
    stack128 a0 a1 a2 a3 (ix3 (3 : Fin 4) n q) = a3 (ix2 n q) := by
  unfold stack128
  rw [concatenate_apply_piece (0 : Fin 3) _ _ (ix3 (3 : Fin 4) n q) 3 (by simp) S1x50000x128 _ rfl rfl 3 rfl (ix3 (0 : Fin 1) n q)
    (fun b hb => by match b with | ⟨0, _⟩ => exact absurd rfl hb | ⟨1, _⟩ => rfl | ⟨2, _⟩ => rfl) rfl]
  exact broadcastInDim_apply _ _ a3 (ix3 (0 : Fin 1) n q) (ix2 n q) (fun d => by match d with | ⟨0, _⟩ => rfl | ⟨1, _⟩ => rfl)

theorem stack32_apply0 (a0 a1 a2 a3 : FV (F := F) S50000x32) (n : Fin 50000) (q : Fin 32) :
    stack32 a0 a1 a2 a3 (ix3 (0 : Fin 4) n q) = a0 (ix2 n q) := by
  unfold stack32
  rw [concatenate_apply_piece (0 : Fin 3) _ _ (ix3 (0 : Fin 4) n q) 0 (by simp) S1x50000x32 _ rfl rfl 0 rfl (ix3 (0 : Fin 1) n q)
    (fun b hb => by match b with | ⟨0, _⟩ => exact absurd rfl hb | ⟨1, _⟩ => rfl | ⟨2, _⟩ => rfl) rfl]
  exact broadcastInDim_apply _ _ a0 (ix3 (0 : Fin 1) n q) (ix2 n q) (fun d => by match d with | ⟨0, _⟩ => rfl | ⟨1, _⟩ => rfl)

theorem stack32_apply1 (a0 a1 a2 a3 : FV (F := F) S50000x32) (n : Fin 50000) (q : Fin 32) :
    stack32 a0 a1 a2 a3 (ix3 (1 : Fin 4) n q) = a1 (ix2 n q) := by
  unfold stack32
  rw [concatenate_apply_piece (0 : Fin 3) _ _ (ix3 (1 : Fin 4) n q) 1 (by simp) S1x50000x32 _ rfl rfl 1 rfl (ix3 (0 : Fin 1) n q)
    (fun b hb => by match b with | ⟨0, _⟩ => exact absurd rfl hb | ⟨1, _⟩ => rfl | ⟨2, _⟩ => rfl) rfl]
  exact broadcastInDim_apply _ _ a1 (ix3 (0 : Fin 1) n q) (ix2 n q) (fun d => by match d with | ⟨0, _⟩ => rfl | ⟨1, _⟩ => rfl)

theorem stack32_apply2 (a0 a1 a2 a3 : FV (F := F) S50000x32) (n : Fin 50000) (q : Fin 32) :
    stack32 a0 a1 a2 a3 (ix3 (2 : Fin 4) n q) = a2 (ix2 n q) := by
  unfold stack32
  rw [concatenate_apply_piece (0 : Fin 3) _ _ (ix3 (2 : Fin 4) n q) 2 (by simp) S1x50000x32 _ rfl rfl 2 rfl (ix3 (0 : Fin 1) n q)
    (fun b hb => by match b with | ⟨0, _⟩ => exact absurd rfl hb | ⟨1, _⟩ => rfl | ⟨2, _⟩ => rfl) rfl]
  exact broadcastInDim_apply _ _ a2 (ix3 (0 : Fin 1) n q) (ix2 n q) (fun d => by match d with | ⟨0, _⟩ => rfl | ⟨1, _⟩ => rfl)

theorem stack32_apply3 (a0 a1 a2 a3 : FV (F := F) S50000x32) (n : Fin 50000) (q : Fin 32) :
    stack32 a0 a1 a2 a3 (ix3 (3 : Fin 4) n q) = a3 (ix2 n q) := by
  unfold stack32
  rw [concatenate_apply_piece (0 : Fin 3) _ _ (ix3 (3 : Fin 4) n q) 3 (by simp) S1x50000x32 _ rfl rfl 3 rfl (ix3 (0 : Fin 1) n q)
    (fun b hb => by match b with | ⟨0, _⟩ => exact absurd rfl hb | ⟨1, _⟩ => rfl | ⟨2, _⟩ => rfl) rfl]
  exact broadcastInDim_apply _ _ a3 (ix3 (0 : Fin 1) n q) (ix2 n q) (fun d => by match d with | ⟨0, _⟩ => rfl | ⟨1, _⟩ => rfl)

theorem com0_apply (H : FV (F := F) S4x50000x32) (n : Fin 50000) (c : Fin 32) : com0 H (ix2 n c) = H (ix3 (0 : Fin 4) n c) := by
  unfold com0
  rw [shapeCast_apply _ _ (ix2 n c) (ix3 (0 : Fin 1) n c) (by
    rw [Shape.rowMajor_val_three, Shape.rowMajor_val_two]; show (0 * 50000 + n.val) * 32 + c.val = n.val * 32 + c.val; omega)]
  exact extractStridedSlice_apply _ H _ (ix3 (0 : Fin 1) n c) (ix3 (0 : Fin 4) n c) (fun a => by
    match a with
    | ⟨0, _⟩ => rfl
    | ⟨1, _⟩ => show n.val = 0 + n.val; omega
    | ⟨2, _⟩ => show c.val = 0 + c.val; omega)

theorem com1_apply (H : FV (F := F) S4x50000x32) (n : Fin 50000) (c : Fin 32) : com1 H (ix2 n c) = H (ix3 (1 : Fin 4) n c) := by
  unfold com1
  rw [shapeCast_apply _ _ (ix2 n c) (ix3 (0 : Fin 1) n c) (by
    rw [Shape.rowMajor_val_three, Shape.rowMajor_val_two]; show (0 * 50000 + n.val) * 32 + c.val = n.val * 32 + c.val; omega)]
  exact extractStridedSlice_apply _ H _ (ix3 (0 : Fin 1) n c) (ix3 (1 : Fin 4) n c) (fun a => by
    match a with
    | ⟨0, _⟩ => rfl
    | ⟨1, _⟩ => show n.val = 0 + n.val; omega
    | ⟨2, _⟩ => show c.val = 0 + c.val; omega)

theorem com2_apply (H : FV (F := F) S4x50000x32) (n : Fin 50000) (c : Fin 32) : com2 H (ix2 n c) = H (ix3 (2 : Fin 4) n c) := by
  unfold com2
  rw [shapeCast_apply _ _ (ix2 n c) (ix3 (0 : Fin 1) n c) (by
    rw [Shape.rowMajor_val_three, Shape.rowMajor_val_two]; show (0 * 50000 + n.val) * 32 + c.val = n.val * 32 + c.val; omega)]
  exact extractStridedSlice_apply _ H _ (ix3 (0 : Fin 1) n c) (ix3 (2 : Fin 4) n c) (fun a => by
    match a with
    | ⟨0, _⟩ => rfl
    | ⟨1, _⟩ => show n.val = 0 + n.val; omega
    | ⟨2, _⟩ => show c.val = 0 + c.val; omega)

theorem com3_apply (H : FV (F := F) S4x50000x32) (n : Fin 50000) (c : Fin 32) : com3 H (ix2 n c) = H (ix3 (3 : Fin 4) n c) := by
  unfold com3
  rw [shapeCast_apply _ _ (ix2 n c) (ix3 (0 : Fin 1) n c) (by
    rw [Shape.rowMajor_val_three, Shape.rowMajor_val_two]; show (0 * 50000 + n.val) * 32 + c.val = n.val * 32 + c.val; omega)]
  exact extractStridedSlice_apply _ H _ (ix3 (0 : Fin 1) n c) (ix3 (3 : Fin 4) n c) (fun a => by
    match a with
    | ⟨0, _⟩ => rfl
    | ⟨1, _⟩ => show n.val = 0 + n.val; omega
    | ⟨2, _⟩ => show c.val = 0 + c.val; omega)

theorem lay128_apply (H : FV (F := F) S4x50000x32) (n : Fin 50000) (k : Fin 4) (c : Fin 32) :
    lay128 H (ix2 n (⟨32 * k.val + c.val, by omega⟩ : Fin 128)) = H (ix3 k n c) := by
  unfold lay128
  rw [shapeCast_apply _ _ (ix2 n (⟨32 * k.val + c.val, by omega⟩ : Fin 128)) (ix3 n k c) (by
    rw [Shape.rowMajor_val_three, Shape.rowMajor_val_two]
    show (n.val * 4 + k.val) * 32 + c.val = n.val * 128 + (32 * k.val + c.val); omega)]
  exact transpose_apply _ H _ (ix3 n k c) (ix3 k n c) (fun b => by
    match b with
    | ⟨0, _⟩ => rfl
    | ⟨1, _⟩ => rfl
    | ⟨2, _⟩ => rfl)

theorem stack3_apply0 (a0 a1 a2 : FV (F := F) S50000x128) (n : Fin 50000) (j : Fin 128) :
    stack3 a0 a1 a2 (ix3 (0 : Fin 3) n j) = a0 (ix2 n j) := by
  unfold stack3
  rw [concatenate_apply_piece (0 : Fin 3) _ _ (ix3 (0 : Fin 3) n j) 0 (by simp) S1x50000x128 _ rfl rfl 0 rfl (ix3 (0 : Fin 1) n j)
    (fun b hb => by match b with | ⟨0, _⟩ => exact absurd rfl hb | ⟨1, _⟩ => rfl | ⟨2, _⟩ => rfl) rfl]
  exact broadcastInDim_apply _ _ a0 (ix3 (0 : Fin 1) n j) (ix2 n j) (fun d => by match d with | ⟨0, _⟩ => rfl | ⟨1, _⟩ => rfl)

theorem stack3_apply1 (a0 a1 a2 : FV (F := F) S50000x128) (n : Fin 50000) (j : Fin 128) :
    stack3 a0 a1 a2 (ix3 (1 : Fin 3) n j) = a1 (ix2 n j) := by
  unfold stack3
  rw [concatenate_apply_piece (0 : Fin 3) _ _ (ix3 (1 : Fin 3) n j) 1 (by simp) S1x50000x128 _ rfl rfl 1 rfl (ix3 (0 : Fin 1) n j)
    (fun b hb => by match b with | ⟨0, _⟩ => exact absurd rfl hb | ⟨1, _⟩ => rfl | ⟨2, _⟩ => rfl) rfl]
  exact broadcastInDim_apply _ _ a1 (ix3 (0 : Fin 1) n j) (ix2 n j) (fun d => by match d with | ⟨0, _⟩ => rfl | ⟨1, _⟩ => rfl)

theorem stack3_apply2 (a0 a1 a2 : FV (F := F) S50000x128) (n : Fin 50000) (j : Fin 128) :
    stack3 a0 a1 a2 (ix3 (2 : Fin 3) n j) = a2 (ix2 n j) := by
  unfold stack3
  rw [concatenate_apply_piece (0 : Fin 3) _ _ (ix3 (2 : Fin 3) n j) 2 (by simp) S1x50000x128 _ rfl rfl 2 rfl (ix3 (0 : Fin 1) n j)
    (fun b hb => by match b with | ⟨0, _⟩ => exact absurd rfl hb | ⟨1, _⟩ => rfl | ⟨2, _⟩ => rfl) rfl]
  exact broadcastInDim_apply _ _ a2 (ix3 (0 : Fin 1) n j) (ix2 n j) (fun d => by match d with | ⟨0, _⟩ => rfl | ⟨1, _⟩ => rfl)

end Cert.KernelIdeal.Hand

end
-- ==== Proof.Br.Spec.lean ====
/-
  The two programs' common meaning, on the extended reals, index by index — nothing here mentions a program.
  Arrays are functions of their coordinates. `enc`: one entry of x · W + b. `mlp`: one entry of
  max(z · W1 + b1, 0) · W2 + b2. `mean` / `var`: a column's mean over the 50000 nodes and its variance as jnp.var takes
  it (mean of squared deviations over the node count less the correction, guarded by "that divisor is positive").
  `bn`: one entry of max(((f − mean f) · rsqrt(var f + ε)) · γ + β, 0). The float literals stay as their words.
-/
import Idealize.ShloMosaic.PureOps.Ideal
import Idealize.ShloMosaic.PureOps.Ideal.Laws

noncomputable section

open scoped BigOperators

namespace Cert.Spec

open Idealize.ShloMosaic

/-- The literals both programs share, read at the extended reals: 0, 50000, 1e-5 (as f32), and the guard's filler. -/
abbrev zeroW : EReal := Ideal.ofBits .f32 0x00000000#32
abbrev nodesW : EReal := Ideal.ofBits .f32 0x47435000#32
abbrev epsW : EReal := Ideal.ofBits .f32 0x3727C5AC#32
abbrev fillW : EReal := Ideal.ofBits .f32 0x7FC00000#32

/-- One entry of the encoder: row `n` of x against column `j` of W, plus the bias. -/
def enc (x : Fin 50000 → Fin 128 → EReal) (W : Fin 128 → Fin 128 → EReal) (b : Fin 128 → EReal) (n : Fin 50000) (j : Fin 128) : EReal :=
  (∑ q : Fin 128, x n q * W q j) + b j

/-- One entry of the two dense maps with a ReLU between them. -/
def mlp {K : ℕ} (z : Fin 50000 → Fin K → EReal) (W1 : Fin K → Fin 32 → EReal) (b1 : Fin 32 → EReal)
    (W2 : Fin 32 → Fin 32 → EReal) (b2 : Fin 32 → EReal) (n : Fin 50000) (c : Fin 32) : EReal :=
  (∑ j : Fin 32, max ((∑ q : Fin K, z n q * W1 q j) + b1 j) zeroW * W2 j c) + b2 c

/-- A column's mean over the nodes. -/
def mean (f : Fin 50000 → EReal) : EReal := Ideal.div (zeroW + ∑ n : Fin 50000, f n) nodesW

/-- The divisor of the variance: the node count less the correction. -/
def norm (ddof : BitVec 32) : EReal := nodesW - FloatOps.sitofp (F := Ideal) .f32 ddof

/-- A column's variance over the nodes. -/
def var (f : Fin 50000 → EReal) (ddof : BitVec 32) : EReal :=
  Scalar.select (FloatOps.cmpf (F := Ideal) (φ := .f32) .ogt (norm ddof) zeroW)
    (Ideal.div (zeroW + ∑ n : Fin 50000, (f n - mean f) * (f n - mean f)) (norm ddof)) fillW

/-- One entry of the normalised, scaled, shifted and rectified column. -/
def bn (f : Fin 50000 → EReal) (g be : EReal) (n : Fin 50000) : EReal :=
  max ((((f n - mean f) * Ideal.rsqrt (var f 0#32 + epsW)) * g) + be) zeroW

end Cert.Spec

end
-- ==== Proof.KI.Stats.lean ====
/-
  The batch statistics the kernel's program computes on the host between an MLP region and the batch-norm region
  after it, read at an index on the extended reals. From the MLP output (4 communities x 50176 padded rows x 32
  channels) the host keeps the first 50000 rows, takes each (community, channel) column's mean over the rows (the
  column sum from the zero word, over the word of 50000) and its variance by the jnp.var chain (deviations from the
  mean kept along the row axis, their squares summed, over 50000 less the converted correction 0, where that divisor
  is positive, the filler word elsewhere), reshapes both from [4, 32] to [4, 1, 32], and reshapes the scale and shift
  arguments from [32] to [1, 32]. The three stretches of operations occur once per layer. For any contents `U` on
  entry: the mean row reads `Spec.mean` of the column, the variance row `Spec.var` of it at correction 0, the scale and
  shift rows read the arguments, and the MLP output is not written.
-/
import proofs.«176190_j13365938225806_1_alg».proof.Proof.Gen.KernelIdeal.Launch
import proofs.«176190_j13365938225806_1_alg».proof.Proof.Br.Spec
import proofs.«176190_j13365938225806_1_alg».proof.Proof.KI.Writes
import Idealize.ShloMosaic.Lib.StableHlo.Run
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

open scoped BigOperators

namespace Cert.KernelIdeal.Hand

open Idealize.ShloMosaic Idealize.ShloMosaic.TcCoe Idealize.ShloMosaic.ValueIdx
open Idealize.SL Idealize.SL.Sem
open Cert.KernelIdeal Cert.KernelIdeal.Gen

namespace Stats

/-! ## The host's batch statistics as functions of the MLP output -/

/-- The first 50000 of the 50176 rows. -/
abbrev rows (X : FVec Ideal S4x50176x32 .f32) : FVec Ideal S4x50000x32 .f32 :=
  extractStridedSlice S4x50000x32 ![0, 0, 0] X slices_S4x50176x32_S4x50000x32_0_0_0

/-- The sum over the rows of each (community, channel) column, from the zero word. -/
abbrev colSum (Y : FVec Ideal S4x50000x32 .f32) : FVec Ideal S4x32 .f32 :=
  Host.reduceAdd (F := Ideal) Y (constant (F := Ideal) S_ .f32 0x00000000#32) reducesTo_S4x50000x32_S4x32_d1 h_S_

/-- The column means: the column sums over the node count. -/
def hostMean (X : FVec Ideal S4x50176x32 .f32) : FVec Ideal S4x32 .f32 :=
  Host.divf (F := Ideal) (colSum (rows X)) (broadcastInDim S4x32 ![] bcast_S_S4x32 (constant (F := Ideal) S_ .f32 0x47435000#32))

/-- The variance's divisor as the host computes it: the node count less the correction. -/
abbrev hostNorm (d : IVec S_ 32) : FVec Ideal S_ .f32 :=
  subf (constant (F := Ideal) S_ .f32 0x47435000#32) (sitofp (F := Ideal) .f32 d)

/-- The column means with the row axis kept, as jnp.var takes them. -/
abbrev keepMean (Y : FVec Ideal S4x50000x32 .f32) : FVec Ideal S4x1x32 .f32 :=
  Host.divf (F := Ideal) (broadcastInDim S4x1x32 ![0, 2] bcast_S4x32_S4x1x32_0_2 (colSum Y))
    (broadcastInDim S4x1x32 ![] bcast_S_S4x1x32 (constant (F := Ideal) S_ .f32 0x47435000#32))

/-- The deviations from the column means. -/
abbrev dev (Y : FVec Ideal S4x50000x32 .f32) : FVec Ideal S4x50000x32 .f32 :=
  subf Y (broadcastInDim S4x50000x32 ![0, 1, 2] bcast_S4x1x32_S4x50000x32_0_1_2 (keepMean Y))

/-- The column variances by the jnp.var chain, over the sliced rows: the sum of squared deviations over the divisor where
    the divisor is positive, the filler word elsewhere. -/
def hostVarY (Y : FVec Ideal S4x50000x32 .f32) (d : IVec S_ 32) : FVec Ideal S4x32 .f32 :=
  select (broadcastInDim S4x32 ![] bcast_S_S4x32 (cmpf .ogt (hostNorm d) (constant (F := Ideal) S_ .f32 0x00000000#32)))
    (Host.divf (F := Ideal) (colSum (mulf (dev Y) (dev Y))) (broadcastInDim S4x32 ![] bcast_S_S4x32 (hostNorm d)))
    (broadcastInDim S4x32 ![] bcast_S_S4x32 (constant (F := Ideal) S_ .f32 0x7FC00000#32))

/-! ## The statistics read at an index -/

/-- Row `n` of the first 50000 rows as a row of the 50176. -/
abbrev up (n : Fin 50000) : Fin 50176 := Fin.castLE (by decide) n

theorem rows_apply (X : FVec Ideal S4x50176x32 .f32) (k : Fin 4) (n : Fin 50000) (c : Fin 32) :
    rows X (ix3 k n c) = X (ix3 k (up n) c) :=
  slice3_axis1_apply 0 X slices_S4x50176x32_S4x50000x32_0_0_0 k n c (up n) (Nat.zero_add _).symm

theorem colSum_apply (Y : FVec Ideal S4x50000x32 .f32) (k : Fin 4) (c : Fin 32) :
    colSum Y (ix2 k c) = Cert.Spec.zeroW + ∑ n : Fin 50000, Y (ix3 k n c) := by
  have hR : Shape.Reduces S4x50000x32 [1] S4x32 := by decide
  have e : colSum Y (ix2 k c)
      = Ideal.hostReduceAdd reducesTo_S4x50000x32_S4x32_d1 Y (Ideal.ofBits .f32 0x00000000#32) (ix2 k c) := rfl
  rw [e, Ideal.hostReduceAdd_single reducesTo_S4x50000x32_S4x32_d1 hR Y _ (ix2 k c)]
  show _ + ∑ n : Fin 50000, Y (hR.lift (ix2 k c) n) = _
  refine congrArg _ (Finset.sum_congr rfl fun n _ => congrArg Y (funext fun a => Fin.ext ?_))
  match a with
  | ⟨0, _⟩ => rfl
  | ⟨1, _⟩ => rfl
  | ⟨2, _⟩ => rfl

theorem hostMean_apply (X : FVec Ideal S4x50176x32 .f32) (k : Fin 4) (c : Fin 32) :
    hostMean X (ix2 k c) = Cert.Spec.mean (fun n : Fin 50000 => X (ix3 k (up n) c)) := by
  unfold hostMean Cert.Spec.mean
  rw [hostDivf_apply, colSum_apply, broadcastInDim_scalar_apply]
  simp only [rows_apply]
  rfl

theorem keepMean_apply (Y : FVec Ideal S4x50000x32 .f32) (k : Fin 4) (u : Fin 1) (c : Fin 32) :
    keepMean Y (ix3 k u c) = Ideal.div (Cert.Spec.zeroW + ∑ n : Fin 50000, Y (ix3 k n c)) Cert.Spec.nodesW := by
  unfold keepMean
  rw [hostDivf_apply, broadcastInDim_scalar_apply,
    broadcastInDim_apply ![0, 2] bcast_S4x32_S4x1x32_0_2 (colSum Y) (ix3 k u c) (ix2 k c)
      (fun a => by match a with | ⟨0, _⟩ => rfl | ⟨1, _⟩ => rfl),
    colSum_apply]
  rfl

theorem dev_apply (Y : FVec Ideal S4x50000x32 .f32) (k : Fin 4) (n : Fin 50000) (c : Fin 32) :
    dev Y (ix3 k n c)
      = Y (ix3 k n c) - Ideal.div (Cert.Spec.zeroW + ∑ n : Fin 50000, Y (ix3 k n c)) Cert.Spec.nodesW := by
  unfold dev
  rw [subf_apply,
    broadcastInDim_apply ![0, 1, 2] bcast_S4x1x32_S4x50000x32_0_1_2 (keepMean Y) (ix3 k n c) (ix3 k (0 : Fin 1) c)
      (fun a => by match a with | ⟨0, _⟩ => rfl | ⟨1, _⟩ => rfl | ⟨2, _⟩ => rfl),
    keepMean_apply]

theorem hostNorm_apply (d : IVec S_ 32) : hostNorm d ix0 = Cert.Spec.norm (d ix0) := rfl

theorem hostVarY_apply (Y : FVec Ideal S4x50000x32 .f32) (d : IVec S_ 32) (k : Fin 4) (c : Fin 32) :
    hostVarY Y d (ix2 k c) = Cert.Spec.var (fun n : Fin 50000 => Y (ix3 k n c)) (d ix0) := by
  unfold hostVarY Cert.Spec.var Cert.Spec.mean
  rw [select_apply, hostDivf_apply, colSum_apply, broadcastInDim_scalar_apply, broadcastInDim_scalar_apply,
    broadcastInDim_scalar_apply, cmpf_apply, hostNorm_apply]
  simp only [mulf_apply, dev_apply]
  rfl

/-- A [4, 32] array reshaped to [4, 1, 32] reads, at `(k, u, c)`, the operand at `(k, c)`. -/
theorem reshape_keep_apply {α : Type} (x : S4x32.Idx → α) (k : Fin 4) (u : Fin 1) (c : Fin 32) :
    shapeCast S4x1x32 x shapeCasts_S4x32_S4x1x32 (ix3 k u c) = x (ix2 k c) :=
  shapeCast_apply x shapeCasts_S4x32_S4x1x32 _ _ (by
    have hu : u.val = 0 := by omega
    rw [Shape.rowMajor_val_two, Shape.rowMajor_val_three]
    show k.val * 32 + c.val = (k.val * 1 + u.val) * 32 + c.val
    rw [hu, Nat.mul_one, Nat.add_zero])

/-! ## The three stretches before the first batch-norm call, from any contents -/

section Layer1

variable (W : Valuation τ sig (Elt Ideal))

theorem s2a_mean : (StableHlo.after hostOps2 W (Proc.devRef .tc main_v82) : S4x32.Idx → EReal)
    = hostMean (W (Proc.devRef .tc main_v78)) := by
  dsimp only [hostOps2]; after_results; rfl

theorem s2a_rows : (StableHlo.after hostOps2 W (Proc.devRef .tc main_v83) : S4x50000x32.Idx → EReal)
    = rows (W (Proc.devRef .tc main_v78)) := by
  dsimp only [hostOps2]; after_results

theorem s2a_ddof : (StableHlo.after hostOps2 W (Proc.devRef .tc main_c_14) : S_.Idx → BitVec 32)
    = constantI S_ 32 0#32 := by
  dsimp only [hostOps2]; after_results

theorem s2b_var : (StableHlo.after hostOps2_1 W (Proc.devRef .tc main_v84) : S4x32.Idx → EReal)
    = hostVarY (W (Proc.devRef .tc main_v83)) (W (Proc.devRef .tc main_c_14)) := by
  dsimp only [hostOps2_1]; after_results_simp; rfl

theorem s2c_mean : (StableHlo.after hostOps2_2 W (Proc.devRef .tc main_v85) : S4x1x32.Idx → EReal)
    = shapeCast S4x1x32 (W (Proc.devRef .tc main_v82) : S4x32.Idx → EReal) shapeCasts_S4x32_S4x1x32 := by
  dsimp only [hostOps2_2]; after_results; rfl

theorem s2c_var : (StableHlo.after hostOps2_2 W (Proc.devRef .tc main_v86) : S4x1x32.Idx → EReal)
    = shapeCast S4x1x32 (W (Proc.devRef .tc main_v84) : S4x32.Idx → EReal) shapeCasts_S4x32_S4x1x32 := by
  dsimp only [hostOps2_2]; after_results; rfl

theorem s2c_gamma : (StableHlo.after hostOps2_2 W (Proc.devRef .tc main_v87) : S1x32.Idx → EReal)
    = shapeCast S1x32 (W (Proc.devRef .tc main_arg7) : S32.Idx → EReal) shapeCasts_S32_S1x32 := by
  dsimp only [hostOps2_2]; after_results; rfl

theorem s2c_beta : (StableHlo.after hostOps2_2 W (Proc.devRef .tc main_v88) : S1x32.Idx → EReal)
    = shapeCast S1x32 (W (Proc.devRef .tc main_arg8) : S32.Idx → EReal) shapeCasts_S32_S1x32 := by
  dsimp only [hostOps2_2]; after_results; rfl

end Layer1

/-! ## The same three stretches before the second batch-norm call -/

section Layer2

variable (W : Valuation τ sig (Elt Ideal))

theorem s4a_mean : (StableHlo.after hostOps4 W (Proc.devRef .tc main_v172) : S4x32.Idx → EReal)
    = hostMean (W (Proc.devRef .tc main_v168)) := by
  dsimp only [hostOps4]; after_results; rfl

theorem s4a_rows : (StableHlo.after hostOps4 W (Proc.devRef .tc main_v173) : S4x50000x32.Idx → EReal)
    = rows (W (Proc.devRef .tc main_v168)) := by
  dsimp only [hostOps4]; after_results

theorem s4a_ddof : (StableHlo.after hostOps4 W (Proc.devRef .tc main_c_31) : S_.Idx → BitVec 32)
    = constantI S_ 32 0#32 := by
  dsimp only [hostOps4]; after_results

theorem s4b_var : (StableHlo.after hostOps4_1 W (Proc.devRef .tc main_v174) : S4x32.Idx → EReal)
    = hostVarY (W (Proc.devRef .tc main_v173)) (W (Proc.devRef .tc main_c_31)) := by
  dsimp only [hostOps4_1]; after_results_simp; rfl

theorem s4c_mean : (StableHlo.after hostOps4_2 W (Proc.devRef .tc main_v175) : S4x1x32.Idx → EReal)
    = shapeCast S4x1x32 (W (Proc.devRef .tc main_v172) : S4x32.Idx → EReal) shapeCasts_S4x32_S4x1x32 := by
  dsimp only [hostOps4_2]; after_results; rfl

theorem s4c_var : (StableHlo.after hostOps4_2 W (Proc.devRef .tc main_v176) : S4x1x32.Idx → EReal)
    = shapeCast S4x1x32 (W (Proc.devRef .tc main_v174) : S4x32.Idx → EReal) shapeCasts_S4x32_S4x1x32 := by
  dsimp only [hostOps4_2]; after_results; rfl

theorem s4c_gamma : (StableHlo.after hostOps4_2 W (Proc.devRef .tc main_v177) : S1x32.Idx → EReal)
    = shapeCast S1x32 (W (Proc.devRef .tc main_arg13) : S32.Idx → EReal) shapeCasts_S32_S1x32 := by
  dsimp only [hostOps4_2]; after_results; rfl

theorem s4c_beta : (StableHlo.after hostOps4_2 W (Proc.devRef .tc main_v178) : S1x32.Idx → EReal)
    = shapeCast S1x32 (W (Proc.devRef .tc main_arg14) : S32.Idx → EReal) shapeCasts_S32_S1x32 := by
  dsimp only [hostOps4_2]; after_results; rfl

end Layer2

end Stats

open Stats

/-! ## The first layer's statistics -/

variable (U : Valuation τ sig (Elt Ideal))

/-- The contents after the three stretches, from contents `U`. -/
abbrev statsAfter2 : Valuation τ sig (Elt Ideal) :=
  StableHlo.after hostOps2_2 (StableHlo.after hostOps2_1 (StableHlo.after hostOps2 U))

/-- No operation of the three stretches writes the MLP output. -/
theorem stats2_keep : statsAfter2 U (Proc.devRef .tc main_v78) = U (Proc.devRef .tc main_v78) :=
  ((StableHlo.after_of_writes_sub hostOps2_2 _ hostOps2_2_writes (by decide)).trans
    (StableHlo.after_of_writes_sub hostOps2_1 _ hostOps2_1_writes (by decide))).trans
    (StableHlo.after_of_writes_sub hostOps2 _ hostOps2_writes (by decide))

/-- The scale row is the scale argument. -/
theorem stats2_gamma (c : Fin 32) :
    (statsAfter2 U (Proc.devRef .tc main_v87) : S1x32.Idx → EReal) (ix2 (0 : Fin 1) c)
      = (U (Proc.devRef .tc main_arg7) : S32.Idx → EReal) (ix1 c) := by
  have h : StableHlo.after hostOps2_1 (StableHlo.after hostOps2 U) (Proc.devRef .tc main_arg7) = U (Proc.devRef .tc main_arg7) :=
    (StableHlo.after_of_writes_sub hostOps2_1 _ hostOps2_1_writes (by decide)).trans
      (StableHlo.after_of_writes_sub hostOps2 _ hostOps2_writes (by decide))
  unfold statsAfter2
  rw [s2c_gamma, shapeCast_a_1a_apply, h]

/-- The shift row is the shift argument. -/
theorem stats2_beta (c : Fin 32) :
    (statsAfter2 U (Proc.devRef .tc main_v88) : S1x32.Idx → EReal) (ix2 (0 : Fin 1) c)
      = (U (Proc.devRef .tc main_arg8) : S32.Idx → EReal) (ix1 c) := by
  have h : StableHlo.after hostOps2_1 (StableHlo.after hostOps2 U) (Proc.devRef .tc main_arg8) = U (Proc.devRef .tc main_arg8) :=
    (StableHlo.after_of_writes_sub hostOps2_1 _ hostOps2_1_writes (by decide)).trans
      (StableHlo.after_of_writes_sub hostOps2 _ hostOps2_writes (by decide))
  unfold statsAfter2
  rw [s2c_beta, shapeCast_a_1a_apply, h]

/-- The mean row of community `k` holds, at channel `c`, the mean of the MLP output's column over the 50000 nodes. -/
theorem stats2_mean (k : Fin 4) (c : Fin 32) :
    (statsAfter2 U (Proc.devRef .tc main_v85) : S4x1x32.Idx → EReal) (ix3 k (0 : Fin 1) c)
      = Cert.Spec.mean (fun n : Fin 50000 => (U (Proc.devRef .tc main_v78) : S4x50176x32.Idx → EReal) (ix3 k (Fin.castLE (by decide : 50000 ≤ 50176) n) c)) := by
  have h : StableHlo.after hostOps2_1 (StableHlo.after hostOps2 U) (Proc.devRef .tc main_v82)
      = StableHlo.after hostOps2 U (Proc.devRef .tc main_v82) :=
    StableHlo.after_of_writes_sub hostOps2_1 _ hostOps2_1_writes (by decide)
  unfold statsAfter2
  rw [s2c_mean, reshape_keep_apply, h, s2a_mean, hostMean_apply]

/-- The variance row of community `k` holds, at channel `c`, the column's variance as jnp.var takes it (no correction). -/
theorem stats2_var (k : Fin 4) (c : Fin 32) :
    (statsAfter2 U (Proc.devRef .tc main_v86) : S4x1x32.Idx → EReal) (ix3 k (0 : Fin 1) c)
      = Cert.Spec.var (fun n : Fin 50000 => (U (Proc.devRef .tc main_v78) : S4x50176x32.Idx → EReal) (ix3 k (Fin.castLE (by decide : 50000 ≤ 50176) n) c)) 0#32 := by
  unfold statsAfter2
  rw [s2c_var, reshape_keep_apply, s2b_var, s2a_rows, s2a_ddof, hostVarY_apply]
  simp only [rows_apply]
  rfl

/-! ## The second layer's statistics -/

/-- The contents after the three stretches of the second layer, from contents `U`. -/
abbrev statsAfter4 : Valuation τ sig (Elt Ideal) :=
  StableHlo.after hostOps4_2 (StableHlo.after hostOps4_1 (StableHlo.after hostOps4 U))

/-- No operation of the three stretches writes the second MLP output. -/
theorem stats4_keep : statsAfter4 U (Proc.devRef .tc main_v168) = U (Proc.devRef .tc main_v168) :=
  ((StableHlo.after_of_writes_sub hostOps4_2 _ hostOps4_2_writes (by decide)).trans
    (StableHlo.after_of_writes_sub hostOps4_1 _ hostOps4_1_writes (by decide))).trans
    (StableHlo.after_of_writes_sub hostOps4 _ hostOps4_writes (by decide))

/-- The scale row is the scale argument. -/
theorem stats4_gamma (c : Fin 32) :
    (statsAfter4 U (Proc.devRef .tc main_v177) : S1x32.Idx → EReal) (ix2 (0 : Fin 1) c)
      = (U (Proc.devRef .tc main_arg13) : S32.Idx → EReal) (ix1 c) := by
  have h : StableHlo.after hostOps4_1 (StableHlo.after hostOps4 U) (Proc.devRef .tc main_arg13) = U (Proc.devRef .tc main_arg13) :=
    (StableHlo.after_of_writes_sub hostOps4_1 _ hostOps4_1_writes (by decide)).trans
      (StableHlo.after_of_writes_sub hostOps4 _ hostOps4_writes (by decide))
  unfold statsAfter4
  rw [s4c_gamma, shapeCast_a_1a_apply, h]

/-- The shift row is the shift argument. -/
theorem stats4_beta (c : Fin 32) :
    (statsAfter4 U (Proc.devRef .tc main_v178) : S1x32.Idx → EReal) (ix2 (0 : Fin 1) c)
      = (U (Proc.devRef .tc main_arg14) : S32.Idx → EReal) (ix1 c) := by
  have h : StableHlo.after hostOps4_1 (StableHlo.after hostOps4 U) (Proc.devRef .tc main_arg14) = U (Proc.devRef .tc main_arg14) :=
    (StableHlo.after_of_writes_sub hostOps4_1 _ hostOps4_1_writes (by decide)).trans
      (StableHlo.after_of_writes_sub hostOps4 _ hostOps4_writes (by decide))
  unfold statsAfter4
  rw [s4c_beta, shapeCast_a_1a_apply, h]

/-- The mean row of community `k` holds, at channel `c`, the mean of the second MLP output's column over the 50000 nodes. -/
theorem stats4_mean (k : Fin 4) (c : Fin 32) :
    (statsAfter4 U (Proc.devRef .tc main_v175) : S4x1x32.Idx → EReal) (ix3 k (0 : Fin 1) c)
      = Cert.Spec.mean (fun n : Fin 50000 => (U (Proc.devRef .tc main_v168) : S4x50176x32.Idx → EReal) (ix3 k (Fin.castLE (by decide : 50000 ≤ 50176) n) c)) := by
  have h : StableHlo.after hostOps4_1 (StableHlo.after hostOps4 U) (Proc.devRef .tc main_v172)
      = StableHlo.after hostOps4 U (Proc.devRef .tc main_v172) :=
    StableHlo.after_of_writes_sub hostOps4_1 _ hostOps4_1_writes (by decide)
  unfold statsAfter4
  rw [s4c_mean, reshape_keep_apply, h, s4a_mean, hostMean_apply]

/-- The variance row of community `k` holds, at channel `c`, the column's variance as jnp.var takes it (no correction). -/
theorem stats4_var (k : Fin 4) (c : Fin 32) :
    (statsAfter4 U (Proc.devRef .tc main_v176) : S4x1x32.Idx → EReal) (ix3 k (0 : Fin 1) c)
      = Cert.Spec.var (fun n : Fin 50000 => (U (Proc.devRef .tc main_v168) : S4x50176x32.Idx → EReal) (ix3 k (Fin.castLE (by decide : 50000 ≤ 50176) n) c)) 0#32 := by
  unfold statsAfter4
  rw [s4c_var, reshape_keep_apply, s4b_var, s4a_rows, s4a_ddof, hostVarY_apply]
  simp only [rows_apply]
  rfl

end Cert.KernelIdeal.Hand

end
-- ==== Proof.KI.Final1.lean ====
/-
  The first MLP region's output array, at the extended reals: after the 4 x 7 points (community, row tile) have run,
  the array holds, at every (community, row, feature),  max((H + G) · W1 + b1, 0) · W2 + b2  — each point writes the
  tile of that one function its index map names, and the tiles cover the array.
-/
import proofs.«176190_j13365938225806_1_alg».proof.Proof.KI.R1
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.SL.Sem
open Idealize.ShloMosaic.Pipeline (Dat Cfg Window)
open Idealize.ShloMosaic.ValueIdx
open Cert.KernelIdeal Cert.KernelIdeal.Gen

/-- A plain two-operand product (rows by the contracted axis, times the contracted axis by columns) accumulated into
    the zero splat, read at (r, c) on the extended reals: the sum over the contracted coordinate. -/
private theorem matmul_rc {m k n : Nat} {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![m, k]⟩ φ₁) (rhs : FVec Ideal ⟨2, ![k, n]⟩ φ₂) (r : Fin m) (c : Fin n) :
    matmul d prec lhs rhs (constant (F := Ideal) ⟨2, ![m, n]⟩ .f32 0x00000000#32) (ix2 r c)
      = ∑ q : Fin k, lhs (ix2 r q) * rhs (ix2 q c) := by
  have hr : d.contr.rank = 1 := by rw [d.rank_contr, hlc]; rfl
  have hs : d.contr.size ⟨0, by omega⟩ = k := by
    have := d.size_contr 0 (by rw [hlc]; exact Nat.one_pos)
    rw [this]; simp [hlc]
  show FloatOps.matmul d prec lhs rhs (constant (F := Ideal) ⟨2, ![m, n]⟩ .f32 0x00000000#32) (ix2 r c) = _
  rw [Ideal.matmul_constant_zero_apply, ← Equiv.sum_comp (contrEquiv1 d k hr hs).symm]
  refine Finset.sum_congr rfl fun q _ => ?_
  have key : ∀ (p : Nat) (hp : p < 2) (p' : Fin 2), p = p'.val →
      ((ix2 r c : (⟨2, ![m, n]⟩ : Shape).Idx) ⟨p, hp⟩).val = ((ix2 r c : (⟨2, ![m, n]⟩ : Shape).Idx) p').val := by
    intro p hp p' h; obtain ⟨p', hp'⟩ := p'; subst h; rfl
  have hl : d.lhsIdx (ix2 r c) ((contrEquiv1 d k hr hs).symm q) = ix2 r q := by
    funext a; apply Fin.ext
    match a with
    | ⟨0, _⟩ =>
      simp [DotDims.lhsIdx, hlc, hln, hlb]
      exact (key _ _ 0 (by simp [hlb, hln])).trans rfl
    | ⟨1, _⟩ => exact (d.lhsIdx_val_of_single hlc _ _).trans (contrEquiv1_symm_val d k hr hs q)
  have hrr : d.rhsIdx (ix2 r c) ((contrEquiv1 d k hr hs).symm q) = ix2 q c := by
    funext a; apply Fin.ext
    match a with
    | ⟨0, _⟩ => exact (d.rhsIdx_val_of_single hrc _ _).trans (contrEquiv1_symm_val d k hr hs q)
    | ⟨1, _⟩ =>
      simp [DotDims.rhsIdx, hrc, hrn, hrb, hlb, hln]
      exact (key _ _ 1 (by simp [hlb, hln, hrn])).trans rfl
  rw [hl, hrr]

variable (V : (c : Dev nD) → (b : Ref sig .tc) → Buf (Elt Ideal) ((c : Thread nD τ).loc b))

/-! ## The MLP region's result: two dense layers on the sum of the two inputs, the first clamped below at zero -/

/-- Entry (k, n, c) of  max((H + G) · W1 + b1, 0) · W2 + b2:  H and G of 4 communities x 50176 rows x 128 features,
    W1 128 x 32, W2 32 x 32, b1 and b2 one row of 32; the zero is the zero word read on the extended reals, left as it is. -/
def mlpOut1 (H G : S4x50176x128.Idx → Ideal .f32) (W1 : S128x32.Idx → Ideal .f32) (b1 : S1x32.Idx → Ideal .f32)
    (W2 : S32x32.Idx → Ideal .f32) (b2 : S1x32.Idx → Ideal .f32) : S4x50176x32.Idx → Ideal .f32 :=
  fun i => (∑ j : Fin 32,
      max ((∑ q : Fin 128, (H (ix3 (i 0 : Fin 4) (i 1 : Fin 50176) q) + G (ix3 (i 0 : Fin 4) (i 1 : Fin 50176) q)) * W1 (ix2 q j))
          + b1 (ix2 (0 : Fin 1) j)) (Ideal.ofBits .f32 0x00000000#32)
        * W2 (ix2 j (i 2 : Fin 32)))
    + b2 (ix2 (0 : Fin 1) (i 2 : Fin 32))

theorem mlpOut1_apply (H G : S4x50176x128.Idx → Ideal .f32) (W1 : S128x32.Idx → Ideal .f32) (b1 : S1x32.Idx → Ideal .f32)
    (W2 : S32x32.Idx → Ideal .f32) (b2 : S1x32.Idx → Ideal .f32) (k : Fin 4) (n : Fin 50176) (c : Fin 32) :
    mlpOut1 H G W1 b1 W2 b2 (ix3 k n c)
      = (∑ j : Fin 32,
          max ((∑ q : Fin 128, (H (ix3 k n q) + G (ix3 k n q)) * W1 (ix2 q j)) + b1 (ix2 (0 : Fin 1) j))
              (Ideal.ofBits .f32 0x00000000#32)
            * W2 (ix2 j c))
        + b2 (ix2 (0 : Fin 1) c) := rfl

/-- The body's stored value at (0, r, c) of a tile, from the two input tiles, the two weights and the two bias rows. -/
theorem pay1_apply (x0 x1 : Vec Ideal S1x7168x128 .f32) (x2 : Vec Ideal S128x32 .f32) (x3 : Vec Ideal S1x32 .f32)
    (x4 : Vec Ideal S32x32 .f32) (x5 : Vec Ideal S1x32 .f32) (z : Fin 1) (r : Fin 7168) (c : Fin 32) :
    k1_pay1 x0 x1 x2 x3 x4 x5 (ix3 z r c)
      = (∑ j : Fin 32,
          max ((∑ q : Fin 128, (x0 (ix3 (0 : Fin 1) r q) + x1 (ix3 (0 : Fin 1) r q)) * x2 (ix2 q j)) + x3 (ix2 (0 : Fin 1) j))
              (Ideal.ofBits .f32 0x00000000#32)
            * x4 (ix2 j c))
        + x5 (ix2 (0 : Fin 1) c) := by
  unfold k1_pay1
  simp only [shapeCast_self]
  rw [shapeCast_ab_1ab_apply, addf_apply, matmul_rc _ rfl rfl rfl rfl rfl rfl, broadcastTo_1b_ab_apply]
  refine congrArg (· + x5 (ix2 (0 : Fin 1) c)) (Finset.sum_congr rfl fun j _ => ?_)
  refine congrArg (· * x4 (ix2 j c)) ?_
  rw [maximumf_apply, addf_apply, matmul_rc _ rfl rfl rfl rfl rfl rfl, broadcastTo_1b_ab_apply, broadcast_apply]
  refine congrArg (fun s => max (s + x3 (ix2 (0 : Fin 1) j)) (Ideal.ofBits .f32 0x00000000#32)) (Finset.sum_congr rfl fun q _ => ?_)
  rw [addf_apply, shapeCast_1ab_ab_apply, shapeCast_1ab_ab_apply]

theorem hz1_3 : (![0, 0, 0] : Fin 3 → Nat) = fun _ => 0 := funext fun a => by fin_cases a <;> rfl
theorem hz1_2 : (![0, 0] : Fin 2 → Nat) = fun _ => 0 := funext fun a => by fin_cases a <;> rfl

/-- The printed index maps over the 4 x 7 points: the two input tiles move with the output tile, the weights and the
    bias rows stay. -/
theorem idx_facts1 : ∀ t : Fin cfg1.N,
    win1_0.index t (0 : Fin 3) = win1_6.index t (0 : Fin 3) ∧ win1_0.index t (1 : Fin 3) = win1_6.index t (1 : Fin 3)
    ∧ win1_0.index t (2 : Fin 3) = 0
    ∧ win1_1.index t (0 : Fin 3) = win1_6.index t (0 : Fin 3) ∧ win1_1.index t (1 : Fin 3) = win1_6.index t (1 : Fin 3)
    ∧ win1_1.index t (2 : Fin 3) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (2 : Fin 3) = 0 ∧ win1_6.index t (0 : Fin 3) ≤ 3 ∧ win1_6.index t (1 : Fin 3) ≤ 6 :=
  (by decide +kernel : ∀ t : Fin grid1.N, _)

/-- Every (community, row tile) is some point's. -/
theorem idx_onto1 : ∀ (q0 : Fin 4) (q1 : Fin 7), ∃ t : Fin cfg1.N, win1_6.index t = ![q0.val, q1.val, 0] :=
  (by decide +kernel : ∀ (q0 : Fin 4) (q1 : Fin 7), ∃ t : Fin grid1.N, win1_6.index t = ![q0.val, q1.val, 0])

/-- The first input's tile at point t, read at (0, r, q): the array at (community, tile index * 7168 + r, q). -/
theorem iblk1_0_apply (c : Dev nD) (t : Fin cfg1.N) (z : Fin 1) (r : Fin 7168) (q : Fin 128) (k : Fin 4) (R : Fin 50176)
    (hk : k.val = win1_6.index t (0 : Fin 3)) (hR : R.val = win1_6.index t (1 : Fin 3) * 7168 + r.val) :
    iblk1 V c 0 t (ix3 z r q) = V c main_v75 (ix3 k R q) := by
  obtain ⟨e0, e1, e2, e3, e4, e5, e6, e7, e8, e9, e10, e11, e12, e13, e14, e15, e16⟩ := idx_facts1 t
  have hz : z.val = 0 := by omega
  unfold iblk1
  rw [View.read_apply]
  show V c main_v75 _ = V c main_v75 _
  congr 1
  funext a; apply Fin.ext
  match a with
  | ⟨0, _⟩ => show win1_0.index t (0 : Fin 3) * 1 + 1 * z.val = k.val; omega
  | ⟨1, _⟩ => show win1_0.index t (1 : Fin 3) * 7168 + 1 * r.val = R.val; omega
  | ⟨2, _⟩ => show win1_0.index t (2 : Fin 3) * 128 + 1 * q.val = q.val; omega

/-- The second input's tile likewise. -/
theorem iblk1_1_apply (c : Dev nD) (t : Fin cfg1.N) (z : Fin 1) (r : Fin 7168) (q : Fin 128) (k : Fin 4) (R : Fin 50176)
    (hk : k.val = win1_6.index t (0 : Fin 3)) (hR : R.val = win1_6.index t (1 : Fin 3) * 7168 + r.val) :
    iblk1 V c 1 t (ix3 z r q) = V c main_v73 (ix3 k R q) := by
  obtain ⟨e0, e1, e2, e3, e4, e5, e6, e7, e8, e9, e10, e11, e12, e13, e14, e15, e16⟩ := idx_facts1 t
  have hz : z.val = 0 := by omega
  unfold iblk1
  rw [View.read_apply]
  show V c main_v73 _ = V c main_v73 _
  congr 1
  funext a; apply Fin.ext
  match a with
  | ⟨0, _⟩ => show win1_1.index t (0 : Fin 3) * 1 + 1 * z.val = k.val; omega
  | ⟨1, _⟩ => show win1_1.index t (1 : Fin 3) * 7168 + 1 * r.val = R.val; omega
  | ⟨2, _⟩ => show win1_1.index t (2 : Fin 3) * 128 + 1 * q.val = q.val; omega

/-- The first weight's block is the whole weight. -/
theorem iblk1_2_apply (c : Dev nD) (t : Fin cfg1.N) (q : Fin 128) (j : Fin 32) :
    iblk1 V c 2 t (ix2 q j) = V c main_arg3 (ix2 q j) := by
  obtain ⟨e0, e1, e2, e3, e4, e5, e6, e7, e8, e9, e10, e11, e12, e13, e14, e15, e16⟩ := idx_facts1 t
  unfold iblk1
  rw [View.read_apply]
  show V c main_arg3 _ = V c main_arg3 _
  congr 1
  funext a; apply Fin.ext
  match a with
  | ⟨0, _⟩ => show win1_2.index t (0 : Fin 2) * 128 + 1 * q.val = q.val; omega
  | ⟨1, _⟩ => show win1_2.index t (1 : Fin 2) * 32 + 1 * j.val = j.val; omega

/-- The first bias's block is the whole row. -/
theorem iblk1_3_apply (c : Dev nD) (t : Fin cfg1.N) (z : Fin 1) (j : Fin 32) :
    iblk1 V c 3 t (ix2 z j) = V c main_v76 (ix2 z j) := by
  obtain ⟨e0, e1, e2, e3, e4, e5, e6, e7, e8, e9, e10, e11, e12, e13, e14, e15, e16⟩ := idx_facts1 t
  unfold iblk1
  rw [View.read_apply]
  show V c main_v76 _ = V c main_v76 _
  congr 1
  funext a; apply Fin.ext
  match a with
  | ⟨0, _⟩ => show win1_3.index t (0 : Fin 2) * 1 + 1 * z.val = z.val; omega
  | ⟨1, _⟩ => show win1_3.index t (1 : Fin 2) * 32 + 1 * j.val = j.val; omega

/-- The second weight's block is the whole weight. -/
theorem iblk1_4_apply (c : Dev nD) (t : Fin cfg1.N) (j : Fin 32) (cc : Fin 32) :
    iblk1 V c 4 t (ix2 j cc) = V c main_arg5 (ix2 j cc) := by
  obtain ⟨e0, e1, e2, e3, e4, e5, e6, e7, e8, e9, e10, e11, e12, e13, e14, e15, e16⟩ := idx_facts1 t
  unfold iblk1
  rw [View.read_apply]
  show V c main_arg5 _ = V c main_arg5 _
  congr 1
  funext a; apply Fin.ext
  match a with
  | ⟨0, _⟩ => show win1_4.index t (0 : Fin 2) * 32 + 1 * j.val = j.val; omega
  | ⟨1, _⟩ => show win1_4.index t (1 : Fin 2) * 32 + 1 * cc.val = cc.val; omega

/-- The second bias's block is the whole row. -/
theorem iblk1_5_apply (c : Dev nD) (t : Fin cfg1.N) (z : Fin 1) (cc : Fin 32) :
    iblk1 V c 5 t (ix2 z cc) = V c main_v77 (ix2 z cc) := by
  obtain ⟨e0, e1, e2, e3, e4, e5, e6, e7, e8, e9, e10, e11, e12, e13, e14, e15, e16⟩ := idx_facts1 t
  unfold iblk1
  rw [View.read_apply]
  show V c main_v77 _ = V c main_v77 _
  congr 1
  funext a; apply Fin.ext
  match a with
  | ⟨0, _⟩ => show win1_5.index t (0 : Fin 2) * 1 + 1 * z.val = z.val; omega
  | ⟨1, _⟩ => show win1_5.index t (1 : Fin 2) * 32 + 1 * cc.val = cc.val; omega

/-- What point t writes back is tile t of the MLP result. -/
theorem flushed1_eq (c : Dev nD) (t : Fin cfg1.N) :
    (dat1 V c).flushed 6 t
      = ((cfg1.win 6).blk t).view.read (Elt Ideal)
          (mlpOut1 (V c main_v75) (V c main_v73) (V c main_arg3) (V c main_v76) (V c main_arg5) (V c main_v77)) := by
  show (cfg1.win 6).cut (grid1.coords t) ((dat1 V c).after 6 t) = _
  rw [after1_6]
  unfold out1_6
  rw [View.canon_unit_zero hz1_3]
  simp only [View.ld_unit_zero (S := S1x7168x128) hz1_3, View.ld_unit_zero (S := S128x32) hz1_2,
    View.ld_unit_zero (S := S32x32) hz1_2, View.ld_unit_zero (S := S1x32) hz1_2]
  obtain ⟨e0, e1, e2, e3, e4, e5, e6, e7, e8, e9, e10, e11, e12, e13, e14, e15, e16⟩ := idx_facts1 t
  funext j
  obtain ⟨z, r, cc, rfl⟩ : ∃ (z : Fin 1) (r : Fin 7168) (cc : Fin 32), j = ix3 z r cc := ⟨j 0, j 1, j 2, eq_ix3 j⟩
  have hr : r.val < 7168 := r.isLt
  have hz : z.val = 0 := by omega
  show k1_pay1 (iblk1 V c 0 t) (iblk1 V c 1 t) (iblk1 V c 2 t) (iblk1 V c 3 t) (iblk1 V c 4 t) (iblk1 V c 5 t) (ix3 z r cc)
    = mlpOut1 (V c main_v75) (V c main_v73) (V c main_arg3) (V c main_v76) (V c main_arg5) (V c main_v77) (((cfg1.win 6).blk t).view.emb (ix3 z r cc))
  have hemb : ((cfg1.win 6).blk t).view.emb (ix3 z r cc)
      = ix3 (⟨win1_6.index t (0 : Fin 3), by omega⟩ : Fin 4)
          (⟨win1_6.index t (1 : Fin 3) * 7168 + r.val, by omega⟩ : Fin 50176) cc := by
    funext a; apply Fin.ext
    match a with
    | ⟨0, _⟩ => show win1_6.index t (0 : Fin 3) * 1 + 1 * z.val = win1_6.index t (0 : Fin 3); omega
    | ⟨1, _⟩ => show win1_6.index t (1 : Fin 3) * 7168 + 1 * r.val = win1_6.index t (1 : Fin 3) * 7168 + r.val; omega
    | ⟨2, _⟩ => show win1_6.index t (2 : Fin 3) * 32 + 1 * cc.val = cc.val; omega
  rw [hemb, mlpOut1_apply, pay1_apply, iblk1_5_apply]
  refine congrArg (· + V c main_v77 (ix2 (0 : Fin 1) cc)) (Finset.sum_congr rfl fun j _ => ?_)
  rw [iblk1_4_apply, iblk1_3_apply]
  refine congrArg (fun s => max (s + V c main_v76 (ix2 (0 : Fin 1) j)) (Ideal.ofBits .f32 0x00000000#32) * V c main_arg5 (ix2 j cc))
    (Finset.sum_congr rfl fun q _ => ?_)
  rw [iblk1_2_apply,
    iblk1_0_apply V c t 0 r q ⟨win1_6.index t (0 : Fin 3), by omega⟩ ⟨win1_6.index t (1 : Fin 3) * 7168 + r.val, by omega⟩ rfl rfl,
    iblk1_1_apply V c t 0 r q ⟨win1_6.index t (0 : Fin 3), by omega⟩ ⟨win1_6.index t (1 : Fin 3) * 7168 + r.val, by omega⟩ rfl rfl]

/-- An index of the array is in point t's tile iff each coordinate is in the tile's range on its axis. -/
theorem mem_blk1 (t : Fin cfg1.N) (i : S4x50176x32.Idx) :
    i ∈ ((cfg1.win 6).blk t).view.set ↔ ∀ a : Fin 3, win1_6.index t a * S1x7168x32.size a ≤ (i a).val
      ∧ (i a).val < win1_6.index t a * S1x7168x32.size a + S1x7168x32.size a := by
  show i ∈ ((View.whole main_v78).slice (win1_6.rect t)).set ↔ _
  rw [View.set_slice_whole, Rect.mem_set_unit]
  exact Iff.rfl

/-- The 4 x 7 tiles of one community's 7168 rows cover the 4 x 50176 rows. -/
theorem cover1 (i : S4x50176x32.Idx) :
    ∃ t : Fin cfg1.N, (cfg1.win 6).flush t = true ∧ i ∈ ((cfg1.win 6).blk t).view.set := by
  have hi0 : (i 0).val < 4 := (i 0).isLt
  have hi1 : (i 1).val < 50176 := (i 1).isLt
  have hi2 : (i 2).val < 32 := (i 2).isLt
  obtain ⟨t, ht⟩ := idx_onto1 ⟨(i 0).val, by omega⟩ ⟨(i 1).val / 7168, by omega⟩
  have q0 : win1_6.index t (0 : Fin 3) = (i 0).val := congrFun ht 0
  have q1 : win1_6.index t (1 : Fin 3) = (i 1).val / 7168 := congrFun ht 1
  have q2 : win1_6.index t (2 : Fin 3) = 0 := congrFun ht 2
  refine ⟨t, flush1_6 t, ?_⟩
  rw [mem_blk1]
  intro a
  match a with
  | ⟨0, _⟩ =>
    show win1_6.index t (0 : Fin 3) * 1 ≤ (i 0).val ∧ (i 0).val < win1_6.index t (0 : Fin 3) * 1 + 1
    omega
  | ⟨1, _⟩ =>
    show win1_6.index t (1 : Fin 3) * 7168 ≤ (i 1).val ∧ (i 1).val < win1_6.index t (1 : Fin 3) * 7168 + 7168
    omega
  | ⟨2, _⟩ =>
    show win1_6.index t (2 : Fin 3) * 32 ≤ (i 2).val ∧ (i 2).val < win1_6.index t (2 : Fin 3) * 32 + 32
    omega

/-- The MLP region's output array after the region. -/
theorem final1 (c : Dev nD) :
    (dat1 V c).arrAt 6 cfg1.N
      = mlpOut1 (V c main_v75) (V c main_v73) (V c main_arg3) (V c main_v76) (V c main_arg5) (V c main_v77) :=
  (dat1 V c).arrAt_eq_of_cover 6 _ (fun t _ => flushed1_eq V c t) cover1

end Cert.KernelIdeal.Hand
end
-- ==== Proof.KI.Final2.lean ====
/-
  The first batch-norm region's output array, at the extended reals: after the 4 x 7 points (community, row tile) have
  run, the array holds, at every (community, row, feature),
  max(((X − mean) · rsqrt(variance + ε)) · scale + shift, 0)  with the community's statistics — each point writes the
  tile of that one function its index map names, and the tiles cover the array.
-/
import proofs.«176190_j13365938225806_1_alg».proof.Proof.KI.R2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.SL.Sem
open Idealize.ShloMosaic.Pipeline (Dat Cfg Window)
open Idealize.ShloMosaic.ValueIdx
open Cert.KernelIdeal Cert.KernelIdeal.Gen

variable (V : (c : Dev nD) → (b : Ref sig .tc) → Buf (Elt Ideal) ((c : Thread nD τ).loc b))

/-! ## The batch-norm region's result: normalise with the community's statistics, scale, shift, clamp below at zero -/

/-- Entry (k, n, c) of  max(((X − μ_k) · rsqrt(σ²_k + ε)) · γ + β, 0):  X of 4 communities x 50176 rows x 32 features,
    μ and σ² one row of 32 per community, γ and β one row of 32; ε the word 0x3727C5AC and the zero the zero word,
    both read on the extended reals and left as they are. -/
def bnOut2 (X : S4x50176x32.Idx → Ideal .f32) (mu var : S4x1x32.Idx → Ideal .f32) (g be : S1x32.Idx → Ideal .f32) :
    S4x50176x32.Idx → Ideal .f32 :=
  fun i => max ((((X (ix3 (i 0 : Fin 4) (i 1 : Fin 50176) (i 2 : Fin 32)) - mu (ix3 (i 0 : Fin 4) (0 : Fin 1) (i 2 : Fin 32)))
      * Ideal.rsqrt (var (ix3 (i 0 : Fin 4) (0 : Fin 1) (i 2 : Fin 32)) + Ideal.ofBits .f32 0x3727C5AC#32))
      * g (ix2 (0 : Fin 1) (i 2 : Fin 32))) + be (ix2 (0 : Fin 1) (i 2 : Fin 32))) (Ideal.ofBits .f32 0x00000000#32)

theorem bnOut2_apply (X : S4x50176x32.Idx → Ideal .f32) (mu var : S4x1x32.Idx → Ideal .f32) (g be : S1x32.Idx → Ideal .f32)
    (k : Fin 4) (n : Fin 50176) (c : Fin 32) :
    bnOut2 X mu var g be (ix3 k n c)
      = max ((((X (ix3 k n c) - mu (ix3 k (0 : Fin 1) c)) * Ideal.rsqrt (var (ix3 k (0 : Fin 1) c) + Ideal.ofBits .f32 0x3727C5AC#32))
          * g (ix2 (0 : Fin 1) c)) + be (ix2 (0 : Fin 1) c)) (Ideal.ofBits .f32 0x00000000#32) := rfl

/-- The body's stored value at (0, r, c) of a tile, from the tile, the community's two statistics rows and the scale
    and shift rows. -/
theorem pay2_apply (x0 : Vec Ideal S1x7168x32 .f32) (x1 x2 : Vec Ideal S1x1x32 .f32) (x3 x4 : Vec Ideal S1x32 .f32)
    (z : Fin 1) (r : Fin 7168) (c : Fin 32) :
    k2_pay1 x0 x1 x2 x3 x4 (ix3 z r c)
      = max ((((x0 (ix3 (0 : Fin 1) r c) - x1 (ix3 (0 : Fin 1) (0 : Fin 1) c))
          * Ideal.rsqrt (x2 (ix3 (0 : Fin 1) (0 : Fin 1) c) + Ideal.ofBits .f32 0x3727C5AC#32))
          * x3 (ix2 (0 : Fin 1) c)) + x4 (ix2 (0 : Fin 1) c)) (Ideal.ofBits .f32 0x00000000#32) := by
  unfold k2_pay1
  simp only [shapeCast_self]
  rw [shapeCast_ab_1ab_apply, maximumf_apply, addf_apply, mulf_apply, mulf_apply, subf_apply, shapeCast_1ab_ab_apply,
    broadcastTo_1b_ab_apply, broadcastTo_1b_ab_apply, broadcastTo_1b_ab_apply, broadcastTo_1b_ab_apply,
    shapeCast_1ab_ab_apply]
  show max ((((x0 (ix3 (0 : Fin 1) r c) - x1 (ix3 (0 : Fin 1) (0 : Fin 1) c))
      * Ideal.rsqrt (shapeCast S1x32 x2 shapeCasts_S1x1x32_S1x32 (ix2 (0 : Fin 1) c) + Ideal.ofBits .f32 0x3727C5AC#32))
      * x3 (ix2 (0 : Fin 1) c)) + x4 (ix2 (0 : Fin 1) c)) (Ideal.ofBits .f32 0x00000000#32) = _
  rw [shapeCast_1ab_ab_apply]

theorem hz2_3 : (![0, 0, 0] : Fin 3 → Nat) = fun _ => 0 := funext fun a => by fin_cases a <;> rfl
theorem hz2_2 : (![0, 0] : Fin 2 → Nat) = fun _ => 0 := funext fun a => by fin_cases a <;> rfl

/-- The printed index maps over the 4 x 7 points: the input tile moves with the output tile, the statistics rows
    follow the output's community, the scale and shift rows stay. -/
theorem idx_facts2 : ∀ t : Fin cfg2.N,
    win2_0.index t (0 : Fin 3) = win2_5.index t (0 : Fin 3) ∧ win2_0.index t (1 : Fin 3) = win2_5.index t (1 : Fin 3)
    ∧ win2_0.index t (2 : Fin 3) = 0
    ∧ win2_1.index t (0 : Fin 3) = win2_5.index t (0 : Fin 3) ∧ win2_1.index t (1 : Fin 3) = 0 ∧ win2_1.index t (2 : Fin 3) = 0
    ∧ win2_2.index t (0 : Fin 3) = win2_5.index t (0 : Fin 3) ∧ win2_2.index t (1 : Fin 3) = 0 ∧ win2_2.index t (2 : Fin 3) = 0
    ∧ win2_3.index t (0 : Fin 2) = 0 ∧ win2_3.index t (1 : Fin 2) = 0
    ∧ win2_4.index t (0 : Fin 2) = 0 ∧ win2_4.index t (1 : Fin 2) = 0
    ∧ win2_5.index t (2 : Fin 3) = 0 ∧ win2_5.index t (0 : Fin 3) ≤ 3 ∧ win2_5.index t (1 : Fin 3) ≤ 6 :=
  (by decide +kernel : ∀ t : Fin grid2.N, _)

/-- Every (community, row tile) is some point's. -/
theorem idx_onto2 : ∀ (q0 : Fin 4) (q1 : Fin 7), ∃ t : Fin cfg2.N, win2_5.index t = ![q0.val, q1.val, 0] :=
  (by decide +kernel : ∀ (q0 : Fin 4) (q1 : Fin 7), ∃ t : Fin grid2.N, win2_5.index t = ![q0.val, q1.val, 0])

/-- The input's tile at point t, read at (0, r, c): the array at (community, tile index * 7168 + r, c). -/
theorem iblk2_0_apply (c : Dev nD) (t : Fin cfg2.N) (z : Fin 1) (r : Fin 7168) (q : Fin 32) (k : Fin 4) (R : Fin 50176)
    (hk : k.val = win2_5.index t (0 : Fin 3)) (hR : R.val = win2_5.index t (1 : Fin 3) * 7168 + r.val) :
    iblk2 V c 0 t (ix3 z r q) = V c main_v78 (ix3 k R q) := by
  obtain ⟨e0, e1, e2, e3, e4, e5, e6, e7, e8, e9, e10, e11, e12, e13, e14, e15⟩ := idx_facts2 t
  have hz : z.val = 0 := by omega
  unfold iblk2
  rw [View.read_apply]
  show V c main_v78 _ = V c main_v78 _
  congr 1
  funext a; apply Fin.ext
  match a with
  | ⟨0, _⟩ => show win2_0.index t (0 : Fin 3) * 1 + 1 * z.val = k.val; omega
  | ⟨1, _⟩ => show win2_0.index t (1 : Fin 3) * 7168 + 1 * r.val = R.val; omega
  | ⟨2, _⟩ => show win2_0.index t (2 : Fin 3) * 32 + 1 * q.val = q.val; omega

/-- The mean's block at point t is the community's row. -/
theorem iblk2_1_apply (c : Dev nD) (t : Fin cfg2.N) (z z' : Fin 1) (q : Fin 32) (k : Fin 4)
    (hk : k.val = win2_5.index t (0 : Fin 3)) :
    iblk2 V c 1 t (ix3 z z' q) = V c main_v85 (ix3 k (0 : Fin 1) q) := by
  obtain ⟨e0, e1, e2, e3, e4, e5, e6, e7, e8, e9, e10, e11, e12, e13, e14, e15⟩ := idx_facts2 t
  have hz : z.val = 0 := by omega
  have hz' : z'.val = 0 := by omega
  unfold iblk2
  rw [View.read_apply]
  show V c main_v85 _ = V c main_v85 _
  congr 1
  funext a; apply Fin.ext
  match a with
  | ⟨0, _⟩ => show win2_1.index t (0 : Fin 3) * 1 + 1 * z.val = k.val; omega
  | ⟨1, _⟩ => show win2_1.index t (1 : Fin 3) * 1 + 1 * z'.val = 0; omega
  | ⟨2, _⟩ => show win2_1.index t (2 : Fin 3) * 32 + 1 * q.val = q.val; omega

/-- The variance's block at point t is the community's row. -/
theorem iblk2_2_apply (c : Dev nD) (t : Fin cfg2.N) (z z' : Fin 1) (q : Fin 32) (k : Fin 4)
    (hk : k.val = win2_5.index t (0 : Fin 3)) :
    iblk2 V c 2 t (ix3 z z' q) = V c main_v86 (ix3 k (0 : Fin 1) q) := by
  obtain ⟨e0, e1, e2, e3, e4, e5, e6, e7, e8, e9, e10, e11, e12, e13, e14, e15⟩ := idx_facts2 t
  have hz : z.val = 0 := by omega
  have hz' : z'.val = 0 := by omega
  unfold iblk2
  rw [View.read_apply]
  show V c main_v86 _ = V c main_v86 _
  congr 1
  funext a; apply Fin.ext
  match a with
  | ⟨0, _⟩ => show win2_2.index t (0 : Fin 3) * 1 + 1 * z.val = k.val; omega
  | ⟨1, _⟩ => show win2_2.index t (1 : Fin 3) * 1 + 1 * z'.val = 0; omega
  | ⟨2, _⟩ => show win2_2.index t (2 : Fin 3) * 32 + 1 * q.val = q.val; omega

/-- The scale's block is the whole row. -/
theorem iblk2_3_apply (c : Dev nD) (t : Fin cfg2.N) (z : Fin 1) (q : Fin 32) :
    iblk2 V c 3 t (ix2 z q) = V c main_v87 (ix2 z q) := by
  obtain ⟨e0, e1, e2, e3, e4, e5, e6, e7, e8, e9, e10, e11, e12, e13, e14, e15⟩ := idx_facts2 t
  unfold iblk2
  rw [View.read_apply]
  show V c main_v87 _ = V c main_v87 _
  congr 1
  funext a; apply Fin.ext
  match a with
  | ⟨0, _⟩ => show win2_3.index t (0 : Fin 2) * 1 + 1 * z.val = z.val; omega
  | ⟨1, _⟩ => show win2_3.index t (1 : Fin 2) * 32 + 1 * q.val = q.val; omega

/-- The shift's block is the whole row. -/
theorem iblk2_4_apply (c : Dev nD) (t : Fin cfg2.N) (z : Fin 1) (q : Fin 32) :
    iblk2 V c 4 t (ix2 z q) = V c main_v88 (ix2 z q) := by
  obtain ⟨e0, e1, e2, e3, e4, e5, e6, e7, e8, e9, e10, e11, e12, e13, e14, e15⟩ := idx_facts2 t
  unfold iblk2
  rw [View.read_apply]
  show V c main_v88 _ = V c main_v88 _
  congr 1
  funext a; apply Fin.ext
  match a with
  | ⟨0, _⟩ => show win2_4.index t (0 : Fin 2) * 1 + 1 * z.val = z.val; omega
  | ⟨1, _⟩ => show win2_4.index t (1 : Fin 2) * 32 + 1 * q.val = q.val; omega

/-- What point t writes back is tile t of the batch-norm result. -/
theorem flushed2_eq (c : Dev nD) (t : Fin cfg2.N) :
    (dat2 V c).flushed 5 t
      = ((cfg2.win 5).blk t).view.read (Elt Ideal)
          (bnOut2 (V c main_v78) (V c main_v85) (V c main_v86) (V c main_v87) (V c main_v88)) := by
  show (cfg2.win 5).cut (grid2.coords t) ((dat2 V c).after 5 t) = _
  rw [after2_5]
  unfold out2_5
  rw [View.canon_unit_zero hz2_3]
  simp only [View.ld_unit_zero (S := S1x7168x32) hz2_3, View.ld_unit_zero (S := S1x1x32) hz2_3, View.ld_unit_zero (S := S1x32) hz2_2]
  obtain ⟨e0, e1, e2, e3, e4, e5, e6, e7, e8, e9, e10, e11, e12, e13, e14, e15⟩ := idx_facts2 t
  funext j
  obtain ⟨z, r, cc, rfl⟩ : ∃ (z : Fin 1) (r : Fin 7168) (cc : Fin 32), j = ix3 z r cc := ⟨j 0, j 1, j 2, eq_ix3 j⟩
  have hr : r.val < 7168 := r.isLt
  have hz : z.val = 0 := by omega
  show k2_pay1 (iblk2 V c 0 t) (iblk2 V c 1 t) (iblk2 V c 2 t) (iblk2 V c 3 t) (iblk2 V c 4 t) (ix3 z r cc)
    = bnOut2 (V c main_v78) (V c main_v85) (V c main_v86) (V c main_v87) (V c main_v88) (((cfg2.win 5).blk t).view.emb (ix3 z r cc))
  have hemb : ((cfg2.win 5).blk t).view.emb (ix3 z r cc)
      = ix3 (⟨win2_5.index t (0 : Fin 3), by omega⟩ : Fin 4)
          (⟨win2_5.index t (1 : Fin 3) * 7168 + r.val, by omega⟩ : Fin 50176) cc := by
    funext a; apply Fin.ext
    match a with
    | ⟨0, _⟩ => show win2_5.index t (0 : Fin 3) * 1 + 1 * z.val = win2_5.index t (0 : Fin 3); omega
    | ⟨1, _⟩ => show win2_5.index t (1 : Fin 3) * 7168 + 1 * r.val = win2_5.index t (1 : Fin 3) * 7168 + r.val; omega
    | ⟨2, _⟩ => show win2_5.index t (2 : Fin 3) * 32 + 1 * cc.val = cc.val; omega
  rw [hemb, bnOut2_apply, pay2_apply, iblk2_3_apply, iblk2_4_apply,
    iblk2_0_apply V c t 0 r cc ⟨win2_5.index t (0 : Fin 3), by omega⟩ ⟨win2_5.index t (1 : Fin 3) * 7168 + r.val, by omega⟩ rfl rfl,
    iblk2_1_apply V c t 0 0 cc ⟨win2_5.index t (0 : Fin 3), by omega⟩ rfl,
    iblk2_2_apply V c t 0 0 cc ⟨win2_5.index t (0 : Fin 3), by omega⟩ rfl]

/-- An index of the array is in point t's tile iff each coordinate is in the tile's range on its axis. -/
theorem mem_blk2 (t : Fin cfg2.N) (i : S4x50176x32.Idx) :
    i ∈ ((cfg2.win 5).blk t).view.set ↔ ∀ a : Fin 3, win2_5.index t a * S1x7168x32.size a ≤ (i a).val
      ∧ (i a).val < win2_5.index t a * S1x7168x32.size a + S1x7168x32.size a := by
  show i ∈ ((View.whole main_v89).slice (win2_5.rect t)).set ↔ _
  rw [View.set_slice_whole, Rect.mem_set_unit]
  exact Iff.rfl

/-- The 4 x 7 tiles of one community's 7168 rows cover the 4 x 50176 rows. -/
theorem cover2 (i : S4x50176x32.Idx) :
    ∃ t : Fin cfg2.N, (cfg2.win 5).flush t = true ∧ i ∈ ((cfg2.win 5).blk t).view.set := by
  have hi0 : (i 0).val < 4 := (i 0).isLt
  have hi1 : (i 1).val < 50176 := (i 1).isLt
  have hi2 : (i 2).val < 32 := (i 2).isLt
  obtain ⟨t, ht⟩ := idx_onto2 ⟨(i 0).val, by omega⟩ ⟨(i 1).val / 7168, by omega⟩
  have q0 : win2_5.index t (0 : Fin 3) = (i 0).val := congrFun ht 0
  have q1 : win2_5.index t (1 : Fin 3) = (i 1).val / 7168 := congrFun ht 1
  have q2 : win2_5.index t (2 : Fin 3) = 0 := congrFun ht 2
  refine ⟨t, flush2_5 t, ?_⟩
  rw [mem_blk2]
  intro a
  match a with
  | ⟨0, _⟩ =>
    show win2_5.index t (0 : Fin 3) * 1 ≤ (i 0).val ∧ (i 0).val < win2_5.index t (0 : Fin 3) * 1 + 1
    omega
  | ⟨1, _⟩ =>
    show win2_5.index t (1 : Fin 3) * 7168 ≤ (i 1).val ∧ (i 1).val < win2_5.index t (1 : Fin 3) * 7168 + 7168
    omega
  | ⟨2, _⟩ =>
    show win2_5.index t (2 : Fin 3) * 32 ≤ (i 2).val ∧ (i 2).val < win2_5.index t (2 : Fin 3) * 32 + 32
    omega

/-- The batch-norm region's output array after the region. -/
theorem final2 (c : Dev nD) :
    (dat2 V c).arrAt 5 cfg2.N = bnOut2 (V c main_v78) (V c main_v85) (V c main_v86) (V c main_v87) (V c main_v88) :=
  (dat2 V c).arrAt_eq_of_cover 5 _ (fun t _ => flushed2_eq V c t) cover2

end Cert.KernelIdeal.Hand
end
-- ==== Proof.KI.ValueL0.lean ====
/-
  The first layer on the kernel's side, read at an entry, at the extended reals. For community k, node n and column c:
  the fused dense block's output is max((x + aggr_k) · W1 + b1, 0) · W2 + b2 at (n, c) — its inputs at a row below
  50000 are the unpadded features and the k-th neighbourhood sum; the host takes the mean and variance of that column
  over the 50000 nodes; and the batch-norm block's output is the normalised, scaled, shifted and rectified column.
-/
import proofs.«176190_j13365938225806_1_alg».proof.Proof.KI.Args
import proofs.«176190_j13365938225806_1_alg».proof.Proof.KI.Layout
import proofs.«176190_j13365938225806_1_alg».proof.Proof.KI.Stats
import proofs.«176190_j13365938225806_1_alg».proof.Proof.KI.Final1
import proofs.«176190_j13365938225806_1_alg».proof.Proof.KI.Final2
import proofs.«176190_j13365938225806_1_alg».proof.Proof.Br.Spec

set_option maxRecDepth 16384

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Ideal) ℓ) (ρ : Dev nD → PrngReg) (c : Dev nD)

/-- Entry (k, n, ·) of a stack of four arrays is entry (n, ·) of the k-th. -/
theorem stack128_apply (a0 a1 a2 a3 : FV (F := Ideal) S50000x128) (k : Fin 4) (n : Fin 50000) (q : Fin 128) :
    stack128 a0 a1 a2 a3 (ix3 k n q) = (![a0, a1, a2, a3] k) (ix2 n q) := by
  match k with
  | ⟨0, _⟩ => exact stack128_apply0 a0 a1 a2 a3 n q
  | ⟨1, _⟩ => exact stack128_apply1 a0 a1 a2 a3 n q
  | ⟨2, _⟩ => exact stack128_apply2 a0 a1 a2 a3 n q
  | ⟨3, _⟩ => exact stack128_apply3 a0 a1 a2 a3 n q

/-- An entry of a float array, as an extended real. -/
abbrev rd {S : Shape} (v : FV (F := Ideal) S) (i : S.Idx) : EReal := v i

/-- Community k's neighbourhood sum of the input features. -/
def aggr0 (k : Fin 4) : FV (F := Ideal) S50000x128 :=
  ![agg128 (arg m c main_arg0) (edgeRow0 (arg m c main_arg1)) (edgeRow1 (arg m c main_arg1)) (ewRow0 (arg m c main_arg2)),
    agg128 (arg m c main_arg0) (edgeRow0 (arg m c main_arg1)) (edgeRow1 (arg m c main_arg1)) (ewRow1 (arg m c main_arg2)),
    agg128 (arg m c main_arg0) (edgeRow0 (arg m c main_arg1)) (edgeRow1 (arg m c main_arg1)) (ewRow2 (arg m c main_arg2)),
    agg128 (arg m c main_arg0) (edgeRow0 (arg m c main_arg1)) (edgeRow1 (arg m c main_arg1)) (ewRow3 (arg m c main_arg2))] k

/-- The first dense block's output column, before normalisation. -/
def pre0 (k : Fin 4) (c' : Fin 32) (n : Fin 50000) : EReal :=
  Cert.Spec.mlp (K := 128) (fun n q => rd (S := S50000x128) (arg m c main_arg0) (ix2 n q) + rd (aggr0 m c k) (ix2 n q))
    (fun q j => rd (S := S128x32) (arg m c main_arg3) (ix2 q j)) (fun j => rd (S := S32) (arg m c main_arg4) (ix1 j))
    (fun j c' => rd (S := S32x32) (arg m c main_arg5) (ix2 j c')) (fun c' => rd (S := S32) (arg m c main_arg6) (ix1 c')) n c'

theorem mlp0_value (k : Fin 4) (n : Fin 50000) (c' : Fin 32) :
    W8 m ρ c (Proc.devRef .tc main_v78) (ix3 k (up n) c') = pre0 m c k c' n := by
  rw [show W8 m ρ c (Proc.devRef .tc main_v78) = (dat1 (V7 m ρ) c).arrAt 6 cfg1.N from W8_arr m ρ c 6, final1 (V7 m ρ) c, mlpOut1_apply]
  rw [show V7 m ρ c main_v75 = batch128 (W4 m ρ c (Proc.devRef .tc main_v4)) from B_v75 (W4 m ρ c),
    show V7 m ρ c main_v73 = _ from B_v73 (W4 m ρ c),
    show V7 m ρ c main_arg3 = arg m c main_arg3 from W7_arg3 m ρ c,
    show V7 m ρ c main_v76 = row32 (W4 m ρ c (Proc.devRef .tc main_arg4)) from B_v76 (W4 m ρ c),
    show V7 m ρ c main_arg5 = arg m c main_arg5 from W7_arg5 m ρ c,
    show V7 m ρ c main_v77 = row32 (W4 m ρ c (Proc.devRef .tc main_arg6)) from B_v77 (W4 m ρ c)]
  rw [W4_v4, W4_arg0, W4_v1, W4_v3, W4_arg2, W4_arg4, W4_arg6]
  simp only [batch128_apply, xpad_apply, pad4x128_apply, stack128_apply, row32_apply]
  rfl

/-- The layer-0 features of community k at node n, column c. -/
def feat0 (k : Fin 4) (c' : Fin 32) (n : Fin 50000) : EReal :=
  Cert.Spec.bn (pre0 m c k c') (rd (S := S32) (arg m c main_arg7) (ix1 c')) (rd (S := S32) (arg m c main_arg8) (ix1 c')) n

theorem bn0_value (k : Fin 4) (n : Fin 50000) (c' : Fin 32) :
    W12 m ρ c (Proc.devRef .tc main_v89) (ix3 k (up n) c') = feat0 m c k c' n := by
  rw [show W12 m ρ c (Proc.devRef .tc main_v89) = (dat2 (V11 m ρ) c).arrAt 5 cfg2.N from W12_arr m ρ c 5, final2 (V11 m ρ) c, bnOut2_apply]
  rw [show V11 m ρ c main_v78 = W8 m ρ c (Proc.devRef .tc main_v78) from stats2_keep (W8 m ρ c),
    show V11 m ρ c main_v85 (ix3 k (0 : Fin 1) c') = _ from stats2_mean (W8 m ρ c) k c',
    show V11 m ρ c main_v86 (ix3 k (0 : Fin 1) c') = _ from stats2_var (W8 m ρ c) k c',
    show V11 m ρ c main_v87 (ix2 (0 : Fin 1) c') = _ from stats2_gamma (W8 m ρ c) c',
    show V11 m ρ c main_v88 (ix2 (0 : Fin 1) c') = _ from stats2_beta (W8 m ρ c) c']
  rw [W8_arg7, W8_arg8]
  have hcol : (fun n : Fin 50000 => W8 m ρ c (Proc.devRef .tc main_v78) (ix3 k (Fin.castLE (by decide : 50000 ≤ 50176) n) c')) = pre0 m c k c' :=
    funext fun n => mlp0_value m ρ c k n c'
  rw [hcol, mlp0_value]
  rfl

end Cert.KernelIdeal.Hand

end
-- ==== Proof.KI.Final0.lean ====
/-
  The encoder region's output array, at the extended reals: after the 7 row tiles have run, the array holds, at every
  (row, column),  (padded input · weight)(row, column) + bias(column)  — each point writes the tile of that one
  function its index map names, and the tiles cover the array.
-/
import proofs.«176190_j13365938225806_1_alg».proof.Proof.KI.R0
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.SL.Sem
open Idealize.ShloMosaic.Pipeline (Dat Cfg Window)
open Idealize.ShloMosaic.ValueIdx
open Cert.KernelIdeal Cert.KernelIdeal.Gen

/-- A plain two-operand product (rows by the contracted axis, times the contracted axis by columns) accumulated into
    the zero splat, read at (r, c) on the extended reals: the sum over the contracted coordinate. -/
private theorem matmul_rc {m k n : Nat} {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![m, k]⟩ φ₁) (rhs : FVec Ideal ⟨2, ![k, n]⟩ φ₂) (r : Fin m) (c : Fin n) :
    matmul d prec lhs rhs (constant (F := Ideal) ⟨2, ![m, n]⟩ .f32 0x00000000#32) (ix2 r c)
      = ∑ q : Fin k, lhs (ix2 r q) * rhs (ix2 q c) := by
  have hr : d.contr.rank = 1 := by rw [d.rank_contr, hlc]; rfl
  have hs : d.contr.size ⟨0, by omega⟩ = k := by
    have := d.size_contr 0 (by rw [hlc]; exact Nat.one_pos)
    rw [this]; simp [hlc]
  show FloatOps.matmul d prec lhs rhs (constant (F := Ideal) ⟨2, ![m, n]⟩ .f32 0x00000000#32) (ix2 r c) = _
  rw [Ideal.matmul_constant_zero_apply, ← Equiv.sum_comp (contrEquiv1 d k hr hs).symm]
  refine Finset.sum_congr rfl fun q _ => ?_
  have key : ∀ (p : Nat) (hp : p < 2) (p' : Fin 2), p = p'.val →
      ((ix2 r c : (⟨2, ![m, n]⟩ : Shape).Idx) ⟨p, hp⟩).val = ((ix2 r c : (⟨2, ![m, n]⟩ : Shape).Idx) p').val := by
    intro p hp p' h; obtain ⟨p', hp'⟩ := p'; subst h; rfl
  have hl : d.lhsIdx (ix2 r c) ((contrEquiv1 d k hr hs).symm q) = ix2 r q := by
    funext a; apply Fin.ext
    match a with
    | ⟨0, _⟩ =>
      simp [DotDims.lhsIdx, hlc, hln, hlb]
      exact (key _ _ 0 (by simp [hlb, hln])).trans rfl
    | ⟨1, _⟩ => exact (d.lhsIdx_val_of_single hlc _ _).trans (contrEquiv1_symm_val d k hr hs q)
  have hrr : d.rhsIdx (ix2 r c) ((contrEquiv1 d k hr hs).symm q) = ix2 q c := by
    funext a; apply Fin.ext
    match a with
    | ⟨0, _⟩ => exact (d.rhsIdx_val_of_single hrc _ _).trans (contrEquiv1_symm_val d k hr hs q)
    | ⟨1, _⟩ =>
      simp [DotDims.rhsIdx, hrc, hrn, hrb, hlb, hln]
      exact (key _ _ 1 (by simp [hlb, hln, hrn])).trans rfl
  rw [hl, hrr]

variable (V : (c : Dev nD) → (b : Ref sig .tc) → Buf (Elt Ideal) ((c : Thread nD τ).loc b))

/-! ## The encoder's result: every row of the padded input times the weight, plus the bias -/

/-- Entry (r, c) of  A · W + b  for A of 50176 rows of 128 features, W 128 x 128 and b one row of 128. -/
def encOut (A : S50176x128.Idx → Ideal .f32) (W : S128x128.Idx → Ideal .f32) (b : S1x128.Idx → Ideal .f32) :
    S50176x128.Idx → Ideal .f32 :=
  fun i => (∑ q : Fin 128, A (ix2 (i 0 : Fin 50176) q) * W (ix2 q (i 1 : Fin 128))) + b (ix2 (0 : Fin 1) (i 1 : Fin 128))

theorem encOut_apply (A : S50176x128.Idx → Ideal .f32) (W : S128x128.Idx → Ideal .f32) (b : S1x128.Idx → Ideal .f32)
    (r : Fin 50176) (c : Fin 128) :
    encOut A W b (ix2 r c) = (∑ q : Fin 128, A (ix2 r q) * W (ix2 q c)) + b (ix2 (0 : Fin 1) c) := rfl

/-- The body's stored value at (r, c) of a tile: row r of the tile times column c of the weight, plus the bias at c. -/
theorem pay0_apply (x0 : Vec Ideal S7168x128 .f32) (x1 : Vec Ideal S128x128 .f32) (x2 : Vec Ideal S1x128 .f32)
    (r : Fin 7168) (c : Fin 128) :
    k0_pay1 x0 x1 x2 (ix2 r c) = (∑ q : Fin 128, x0 (ix2 r q) * x1 (ix2 q c)) + x2 (ix2 (0 : Fin 1) c) := by
  unfold k0_pay1
  simp only [shapeCast_self]
  rw [addf_apply, matmul_rc _ rfl rfl rfl rfl rfl rfl]
  congr 1
  exact broadcastTo_apply x2 _ (ix2 r c) (ix2 (0 : Fin 1) c) (by
    intro a
    match a with
    | ⟨0, _⟩ => rfl
    | ⟨1, _⟩ => rfl)

theorem hz0 : (![0, 0] : Fin 2 → Nat) = fun _ => 0 := funext fun a => by fin_cases a <;> rfl

/-- The printed index maps over the 7 tiles: the input tile moves with the output tile, the weight and the bias
    stay, and the output's tile index is the point's. -/
theorem idx_facts0 : ∀ t : Fin cfg0.N, win0_0.index t (0 : Fin 2) = win0_3.index t (0 : Fin 2)
    ∧ win0_0.index t (1 : Fin 2) = 0 ∧ win0_3.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) ≤ 6 :=
  (by decide +kernel : ∀ t : Fin grid0.N, _)

/-- Every tile is some point's. -/
theorem idx_onto0 : ∀ q0 : Fin 7, ∃ t : Fin cfg0.N, win0_3.index t = ![q0.val, 0] :=
  (by decide +kernel : ∀ q0 : Fin 7, ∃ t : Fin grid0.N, win0_3.index t = ![q0.val, 0])

/-- The input's tile at point t, read at (r, q): the array at row (tile index) * 7168 + r. -/
theorem iblk0_0_apply (c : Dev nD) (t : Fin cfg0.N) (r : Fin 7168) (q : Fin 128) (R : Fin 50176)
    (hR : R.val = win0_3.index t (0 : Fin 2) * 7168 + r.val) :
    iblk0 V c 0 t (ix2 r q) = V c main_v4 (ix2 R q) := by
  obtain ⟨e0, e1, e2, e3, e4, e5, e6, e7⟩ := idx_facts0 t
  unfold iblk0
  rw [View.read_apply]
  show V c main_v4 _ = V c main_v4 _
  congr 1
  funext a; apply Fin.ext
  match a with
  | ⟨0, _⟩ => show win0_0.index t (0 : Fin 2) * 7168 + 1 * r.val = R.val; omega
  | ⟨1, _⟩ => show win0_0.index t (1 : Fin 2) * 128 + 1 * q.val = q.val; omega

/-- The weight's block is the whole weight. -/
theorem iblk0_1_apply (c : Dev nD) (t : Fin cfg0.N) (q : Fin 128) (cc : Fin 128) :
    iblk0 V c 1 t (ix2 q cc) = V c main_arg15 (ix2 q cc) := by
  obtain ⟨e0, e1, e2, e3, e4, e5, e6, e7⟩ := idx_facts0 t
  unfold iblk0
  rw [View.read_apply]
  show V c main_arg15 _ = V c main_arg15 _
  congr 1
  funext a; apply Fin.ext
  match a with
  | ⟨0, _⟩ => show win0_1.index t (0 : Fin 2) * 128 + 1 * q.val = q.val; omega
  | ⟨1, _⟩ => show win0_1.index t (1 : Fin 2) * 128 + 1 * cc.val = cc.val; omega

/-- The bias's block is the whole bias. -/
theorem iblk0_2_apply (c : Dev nD) (t : Fin cfg0.N) (z : Fin 1) (cc : Fin 128) :
    iblk0 V c 2 t (ix2 z cc) = V c main_v5 (ix2 z cc) := by
  obtain ⟨e0, e1, e2, e3, e4, e5, e6, e7⟩ := idx_facts0 t
  unfold iblk0
  rw [View.read_apply]
  show V c main_v5 _ = V c main_v5 _
  congr 1
  funext a; apply Fin.ext
  match a with
  | ⟨0, _⟩ => show win0_2.index t (0 : Fin 2) * 1 + 1 * z.val = z.val; omega
  | ⟨1, _⟩ => show win0_2.index t (1 : Fin 2) * 128 + 1 * cc.val = cc.val; omega

/-- What point t writes back is tile t of the encoder's result. -/
theorem flushed0_eq (c : Dev nD) (t : Fin cfg0.N) :
    (dat0 V c).flushed 3 t
      = ((cfg0.win 3).blk t).view.read (Elt Ideal) (encOut (V c main_v4) (V c main_arg15) (V c main_v5)) := by
  show (cfg0.win 3).cut (grid0.coords t) ((dat0 V c).after 3 t) = _
  rw [after0_3]
  unfold out0_3
  rw [View.canon_unit_zero hz0]
  simp only [View.ld_unit_zero (S := S7168x128) hz0, View.ld_unit_zero (S := S128x128) hz0, View.ld_unit_zero (S := S1x128) hz0]
  obtain ⟨e0, e1, e2, e3, e4, e5, e6, e7⟩ := idx_facts0 t
  funext j
  obtain ⟨r, cc, rfl⟩ : ∃ (r : Fin 7168) (cc : Fin 128), j = ix2 r cc := ⟨j 0, j 1, eq_ix2 j⟩
  have hr : r.val < 7168 := r.isLt
  show k0_pay1 (iblk0 V c 0 t) (iblk0 V c 1 t) (iblk0 V c 2 t) (ix2 r cc)
    = encOut (V c main_v4) (V c main_arg15) (V c main_v5) (((cfg0.win 3).blk t).view.emb (ix2 r cc))
  have hemb : ((cfg0.win 3).blk t).view.emb (ix2 r cc)
      = ix2 (⟨win0_3.index t (0 : Fin 2) * 7168 + r.val, by omega⟩ : Fin 50176) cc := by
    funext a; apply Fin.ext
    match a with
    | ⟨0, _⟩ => show win0_3.index t (0 : Fin 2) * 7168 + 1 * r.val = win0_3.index t (0 : Fin 2) * 7168 + r.val; omega
    | ⟨1, _⟩ => show win0_3.index t (1 : Fin 2) * 128 + 1 * cc.val = cc.val; omega
  rw [hemb, encOut_apply, pay0_apply, iblk0_2_apply]
  congr 1
  refine Finset.sum_congr rfl fun q _ => ?_
  rw [iblk0_0_apply V c t r q ⟨win0_3.index t (0 : Fin 2) * 7168 + r.val, by omega⟩ rfl, iblk0_1_apply]

/-- An index of the array is in point t's tile iff each coordinate is in the tile's range on its axis. -/
theorem mem_blk0 (t : Fin cfg0.N) (i : S50176x128.Idx) :
    i ∈ ((cfg0.win 3).blk t).view.set ↔ ∀ a : Fin 2, win0_3.index t a * S7168x128.size a ≤ (i a).val
      ∧ (i a).val < win0_3.index t a * S7168x128.size a + S7168x128.size a := by
  show i ∈ ((View.whole main_v6).slice (win0_3.rect t)).set ↔ _
  rw [View.set_slice_whole, Rect.mem_set_unit]
  exact Iff.rfl

/-- The 7 tiles of 7168 rows cover the 50176 rows. -/
theorem cover0 (i : S50176x128.Idx) :
    ∃ t : Fin cfg0.N, (cfg0.win 3).flush t = true ∧ i ∈ ((cfg0.win 3).blk t).view.set := by
  have hi0 : (i 0).val < 50176 := (i 0).isLt
  have hi1 : (i 1).val < 128 := (i 1).isLt
  obtain ⟨t, ht⟩ := idx_onto0 ⟨(i 0).val / 7168, by omega⟩
  have q0 : win0_3.index t (0 : Fin 2) = (i 0).val / 7168 := congrFun ht 0
  have q1 : win0_3.index t (1 : Fin 2) = 0 := congrFun ht 1
  refine ⟨t, flush0_3 t, ?_⟩
  rw [mem_blk0]
  intro a
  match a with
  | ⟨0, _⟩ =>
    show win0_3.index t (0 : Fin 2) * 7168 ≤ (i 0).val ∧ (i 0).val < win0_3.index t (0 : Fin 2) * 7168 + 7168
    omega
  | ⟨1, _⟩ =>
    show win0_3.index t (1 : Fin 2) * 128 ≤ (i 1).val ∧ (i 1).val < win0_3.index t (1 : Fin 2) * 128 + 128
    omega

/-- The encoder's output array after the region:  A · W + b  of the padded input, the weight and the bias. -/
theorem final0 (c : Dev nD) :
    (dat0 V c).arrAt 3 cfg0.N = encOut (V c main_v4) (V c main_arg15) (V c main_v5) :=
  (dat0 V c).arrAt_eq_of_cover 3 _ (fun t _ => flushed0_eq V c t) cover0

end Cert.KernelIdeal.Hand
end
-- ==== Proof.KI.ValueEnc.lean ====
/-
  The encoder's result, read at an entry, at the extended reals: entry (n, j) of the first of the three stacked results
  is row n of the features against column j of the encoder weight, plus the bias — the padded rows play no part.
-/
import proofs.«176190_j13365938225806_1_alg».proof.Proof.KI.Keep
import proofs.«176190_j13365938225806_1_alg».proof.Proof.KI.Stages
import proofs.«176190_j13365938225806_1_alg».proof.Proof.KI.Layout
import proofs.«176190_j13365938225806_1_alg».proof.Proof.KI.Final0
import proofs.«176190_j13365938225806_1_alg».proof.Proof.Br.Spec

set_option maxRecDepth 16384

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Ideal) ℓ) (ρ : Dev nD → PrngReg) (c : Dev nD)

/-- The result buffer when @main returns: the stack of the encoder's rows, the interleaved layer-0 features and the
    interleaved layer-1 features. -/
theorem W23_v188 : W23 m ρ c (Proc.devRef .tc main_v188) = stack3 (W22 m ρ c (Proc.devRef .tc main_v7))
    (lay128 (W22 m ρ c (Proc.devRef .tc main_v90))) (lay128 (top32 (W22 m ρ c (Proc.devRef .tc main_v179)))) :=
  F_v188 (W22 m ρ c)

/-- The first 50000 rows of the encoder's output stay in place from the first MLP region's entry to the end. -/
theorem W22_v7 : W22 m ρ c (Proc.devRef .tc main_v7) = top128 (W4 m ρ c (Proc.devRef .tc main_v6)) :=
  (keep22 m ρ c main_v7).trans <| (keepE m ρ c main_v7).trans <| (keep18 m ρ c main_v7).trans <|
  (keepD m ρ c main_v7).trans <| (keep12 m ρ c main_v7).trans <| (keepC m ρ c main_v7).trans <|
  (keep8 m ρ c main_v7).trans (B_v7 (W4 m ρ c))

theorem enc_value (n : Fin 50000) (j : Fin 128) :
    W23 m ρ c (Proc.devRef .tc main_v188) (ix3 (0 : Fin 3) n j)
      = Cert.Spec.enc (fun n q => m ((c : Thread nD τ).loc main_arg0) (ix2 n q)) (fun q j => m ((c : Thread nD τ).loc main_arg15) (ix2 q j))
          (fun j => m ((c : Thread nD τ).loc main_arg16) (ix1 j)) n j := by
  rw [W23_v188, stack3_apply0, W22_v7, top128_apply]
  rw [show W4 m ρ c (Proc.devRef .tc main_v6) = (dat0 (V3 m ρ) c).arrAt 3 cfg0.N from W4_arr m ρ c 3, final0 (V3 m ρ) c, encOut_apply]
  rw [show V3 m ρ c main_v4 = xpad (m ((c : Thread nD τ).loc main_arg0)) from A_v4 (W0 m ρ c),
    show V3 m ρ c main_arg15 = m ((c : Thread nD τ).loc main_arg15) from keepA m ρ c main_arg15,
    show V3 m ρ c main_v5 = row128 (m ((c : Thread nD τ).loc main_arg16)) from A_v5 (W0 m ρ c)]
  simp only [xpad_apply, row128_apply]
  rfl

end Cert.KernelIdeal.Hand

end
-- ==== Proof.KI.Final3.lean ====
/-
  The second MLP region's output array, at the extended reals: after the 4 x 7 points (community, row tile) have run,
  the array holds, at every (community, row, feature),  max((H + G) · W1 + b1, 0) · W2 + b2  — each point writes the
  tile of that one function its index map names, and the tiles cover the array.
-/
import proofs.«176190_j13365938225806_1_alg».proof.Proof.KI.R3
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.SL.Sem
open Idealize.ShloMosaic.Pipeline (Dat Cfg Window)
open Idealize.ShloMosaic.ValueIdx
open Cert.KernelIdeal Cert.KernelIdeal.Gen

/-- A plain two-operand product (rows by the contracted axis, times the contracted axis by columns) accumulated into
    the zero splat, read at (r, c) on the extended reals: the sum over the contracted coordinate. -/
private theorem matmul_rc {m k n : Nat} {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![m, k]⟩ φ₁) (rhs : FVec Ideal ⟨2, ![k, n]⟩ φ₂) (r : Fin m) (c : Fin n) :
    matmul d prec lhs rhs (constant (F := Ideal) ⟨2, ![m, n]⟩ .f32 0x00000000#32) (ix2 r c)
      = ∑ q : Fin k, lhs (ix2 r q) * rhs (ix2 q c) := by
  have hr : d.contr.rank = 1 := by rw [d.rank_contr, hlc]; rfl
  have hs : d.contr.size ⟨0, by omega⟩ = k := by
    have := d.size_contr 0 (by rw [hlc]; exact Nat.one_pos)
    rw [this]; simp [hlc]
  show FloatOps.matmul d prec lhs rhs (constant (F := Ideal) ⟨2, ![m, n]⟩ .f32 0x00000000#32) (ix2 r c) = _
  rw [Ideal.matmul_constant_zero_apply, ← Equiv.sum_comp (contrEquiv1 d k hr hs).symm]
  refine Finset.sum_congr rfl fun q _ => ?_
  have key : ∀ (p : Nat) (hp : p < 2) (p' : Fin 2), p = p'.val →
      ((ix2 r c : (⟨2, ![m, n]⟩ : Shape).Idx) ⟨p, hp⟩).val = ((ix2 r c : (⟨2, ![m, n]⟩ : Shape).Idx) p').val := by
    intro p hp p' h; obtain ⟨p', hp'⟩ := p'; subst h; rfl
  have hl : d.lhsIdx (ix2 r c) ((contrEquiv1 d k hr hs).symm q) = ix2 r q := by
    funext a; apply Fin.ext
    match a with
    | ⟨0, _⟩ =>
      simp [DotDims.lhsIdx, hlc, hln, hlb]
      exact (key _ _ 0 (by simp [hlb, hln])).trans rfl
    | ⟨1, _⟩ => exact (d.lhsIdx_val_of_single hlc _ _).trans (contrEquiv1_symm_val d k hr hs q)
  have hrr : d.rhsIdx (ix2 r c) ((contrEquiv1 d k hr hs).symm q) = ix2 q c := by
    funext a; apply Fin.ext
    match a with
    | ⟨0, _⟩ => exact (d.rhsIdx_val_of_single hrc _ _).trans (contrEquiv1_symm_val d k hr hs q)
    | ⟨1, _⟩ =>
      simp [DotDims.rhsIdx, hrc, hrn, hrb, hlb, hln]
      exact (key _ _ 1 (by simp [hlb, hln, hrn])).trans rfl
  rw [hl, hrr]

variable (V : (c : Dev nD) → (b : Ref sig .tc) → Buf (Elt Ideal) ((c : Thread nD τ).loc b))

/-! ## The MLP region's result: two dense layers on the sum of the two inputs, the first clamped below at zero -/

/-- Entry (k, n, c) of  max((H + G) · W1 + b1, 0) · W2 + b2:  H and G of 4 communities x 50176 rows x 32 features,
    W1 32 x 32, W2 32 x 32, b1 and b2 one row of 32; the zero is the zero word read on the extended reals, left as it is. -/
def mlpOut3 (H G : S4x50176x32.Idx → Ideal .f32) (W1 : S32x32.Idx → Ideal .f32) (b1 : S1x32.Idx → Ideal .f32)
    (W2 : S32x32.Idx → Ideal .f32) (b2 : S1x32.Idx → Ideal .f32) : S4x50176x32.Idx → Ideal .f32 :=
  fun i => (∑ j : Fin 32,
      max ((∑ q : Fin 32, (H (ix3 (i 0 : Fin 4) (i 1 : Fin 50176) q) + G (ix3 (i 0 : Fin 4) (i 1 : Fin 50176) q)) * W1 (ix2 q j))
          + b1 (ix2 (0 : Fin 1) j)) (Ideal.ofBits .f32 0x00000000#32)
        * W2 (ix2 j (i 2 : Fin 32)))
    + b2 (ix2 (0 : Fin 1) (i 2 : Fin 32))

theorem mlpOut3_apply (H G : S4x50176x32.Idx → Ideal .f32) (W1 : S32x32.Idx → Ideal .f32) (b1 : S1x32.Idx → Ideal .f32)
    (W2 : S32x32.Idx → Ideal .f32) (b2 : S1x32.Idx → Ideal .f32) (k : Fin 4) (n : Fin 50176) (c : Fin 32) :
    mlpOut3 H G W1 b1 W2 b2 (ix3 k n c)
      = (∑ j : Fin 32,
          max ((∑ q : Fin 32, (H (ix3 k n q) + G (ix3 k n q)) * W1 (ix2 q j)) + b1 (ix2 (0 : Fin 1) j))
              (Ideal.ofBits .f32 0x00000000#32)
            * W2 (ix2 j c))
        + b2 (ix2 (0 : Fin 1) c) := rfl

/-- The body's stored value at (0, r, c) of a tile, from the two input tiles, the two weights and the two bias rows. -/
theorem pay3_apply (x0 x1 : Vec Ideal S1x7168x32 .f32) (x2 : Vec Ideal S32x32 .f32) (x3 : Vec Ideal S1x32 .f32)
    (x4 : Vec Ideal S32x32 .f32) (x5 : Vec Ideal S1x32 .f32) (z : Fin 1) (r : Fin 7168) (c : Fin 32) :
    k3_pay1 x0 x1 x2 x3 x4 x5 (ix3 z r c)
      = (∑ j : Fin 32,
          max ((∑ q : Fin 32, (x0 (ix3 (0 : Fin 1) r q) + x1 (ix3 (0 : Fin 1) r q)) * x2 (ix2 q j)) + x3 (ix2 (0 : Fin 1) j))
              (Ideal.ofBits .f32 0x00000000#32)
            * x4 (ix2 j c))
        + x5 (ix2 (0 : Fin 1) c) := by
  unfold k3_pay1
  simp only [shapeCast_self]
  rw [shapeCast_ab_1ab_apply, addf_apply, matmul_rc _ rfl rfl rfl rfl rfl rfl, broadcastTo_1b_ab_apply]
  refine congrArg (· + x5 (ix2 (0 : Fin 1) c)) (Finset.sum_congr rfl fun j _ => ?_)
  refine congrArg (· * x4 (ix2 j c)) ?_
  rw [maximumf_apply, addf_apply, matmul_rc _ rfl rfl rfl rfl rfl rfl, broadcastTo_1b_ab_apply, broadcast_apply]
  refine congrArg (fun s => max (s + x3 (ix2 (0 : Fin 1) j)) (Ideal.ofBits .f32 0x00000000#32)) (Finset.sum_congr rfl fun q _ => ?_)
  rw [addf_apply, shapeCast_1ab_ab_apply, shapeCast_1ab_ab_apply]

theorem hz3_3 : (![0, 0, 0] : Fin 3 → Nat) = fun _ => 0 := funext fun a => by fin_cases a <;> rfl
theorem hz3_2 : (![0, 0] : Fin 2 → Nat) = fun _ => 0 := funext fun a => by fin_cases a <;> rfl

/-- The printed index maps over the 4 x 7 points: the two input tiles move with the output tile, the weights and the
    bias rows stay. -/
theorem idx_facts3 : ∀ t : Fin cfg3.N,
    win3_0.index t (0 : Fin 3) = win3_6.index t (0 : Fin 3) ∧ win3_0.index t (1 : Fin 3) = win3_6.index t (1 : Fin 3)
    ∧ win3_0.index t (2 : Fin 3) = 0
    ∧ win3_1.index t (0 : Fin 3) = win3_6.index t (0 : Fin 3) ∧ win3_1.index t (1 : Fin 3) = win3_6.index t (1 : Fin 3)
    ∧ win3_1.index t (2 : Fin 3) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (2 : Fin 3) = 0 ∧ win3_6.index t (0 : Fin 3) ≤ 3 ∧ win3_6.index t (1 : Fin 3) ≤ 6 :=
  (by decide +kernel : ∀ t : Fin grid3.N, _)

/-- Every (community, row tile) is some point's. -/
theorem idx_onto3 : ∀ (q0 : Fin 4) (q1 : Fin 7), ∃ t : Fin cfg3.N, win3_6.index t = ![q0.val, q1.val, 0] :=
  (by decide +kernel : ∀ (q0 : Fin 4) (q1 : Fin 7), ∃ t : Fin grid3.N, win3_6.index t = ![q0.val, q1.val, 0])

/-- The first input's tile at point t, read at (0, r, q): the array at (community, tile index * 7168 + r, q). -/
theorem iblk3_0_apply (c : Dev nD) (t : Fin cfg3.N) (z : Fin 1) (r : Fin 7168) (q : Fin 32) (k : Fin 4) (R : Fin 50176)
    (hk : k.val = win3_6.index t (0 : Fin 3)) (hR : R.val = win3_6.index t (1 : Fin 3) * 7168 + r.val) :
    iblk3 V c 0 t (ix3 z r q) = V c main_v165 (ix3 k R q) := by
  obtain ⟨e0, e1, e2, e3, e4, e5, e6, e7, e8, e9, e10, e11, e12, e13, e14, e15, e16⟩ := idx_facts3 t
  have hz : z.val = 0 := by omega
  unfold iblk3
  rw [View.read_apply]
  show V c main_v165 _ = V c main_v165 _
  congr 1
  funext a; apply Fin.ext
  match a with
  | ⟨0, _⟩ => show win3_0.index t (0 : Fin 3) * 1 + 1 * z.val = k.val; omega
  | ⟨1, _⟩ => show win3_0.index t (1 : Fin 3) * 7168 + 1 * r.val = R.val; omega
  | ⟨2, _⟩ => show win3_0.index t (2 : Fin 3) * 32 + 1 * q.val = q.val; omega

/-- The second input's tile likewise. -/
theorem iblk3_1_apply (c : Dev nD) (t : Fin cfg3.N) (z : Fin 1) (r : Fin 7168) (q : Fin 32) (k : Fin 4) (R : Fin 50176)
    (hk : k.val = win3_6.index t (0 : Fin 3)) (hR : R.val = win3_6.index t (1 : Fin 3) * 7168 + r.val) :
    iblk3 V c 1 t (ix3 z r q) = V c main_v164 (ix3 k R q) := by
  obtain ⟨e0, e1, e2, e3, e4, e5, e6, e7, e8, e9, e10, e11, e12, e13, e14, e15, e16⟩ := idx_facts3 t
  have hz : z.val = 0 := by omega
  unfold iblk3
  rw [View.read_apply]
  show V c main_v164 _ = V c main_v164 _
  congr 1
  funext a; apply Fin.ext
  match a with
  | ⟨0, _⟩ => show win3_1.index t (0 : Fin 3) * 1 + 1 * z.val = k.val; omega
  | ⟨1, _⟩ => show win3_1.index t (1 : Fin 3) * 7168 + 1 * r.val = R.val; omega
  | ⟨2, _⟩ => show win3_1.index t (2 : Fin 3) * 32 + 1 * q.val = q.val; omega

/-- The first weight's block is the whole weight. -/
theorem iblk3_2_apply (c : Dev nD) (t : Fin cfg3.N) (q : Fin 32) (j : Fin 32) :
    iblk3 V c 2 t (ix2 q j) = V c main_arg9 (ix2 q j) := by
  obtain ⟨e0, e1, e2, e3, e4, e5, e6, e7, e8, e9, e10, e11, e12, e13, e14, e15, e16⟩ := idx_facts3 t
  unfold iblk3
  rw [View.read_apply]
  show V c main_arg9 _ = V c main_arg9 _
  congr 1
  funext a; apply Fin.ext
  match a with
  | ⟨0, _⟩ => show win3_2.index t (0 : Fin 2) * 32 + 1 * q.val = q.val; omega
  | ⟨1, _⟩ => show win3_2.index t (1 : Fin 2) * 32 + 1 * j.val = j.val; omega

/-- The first bias's block is the whole row. -/
theorem iblk3_3_apply (c : Dev nD) (t : Fin cfg3.N) (z : Fin 1) (j : Fin 32) :
    iblk3 V c 3 t (ix2 z j) = V c main_v166 (ix2 z j) := by
  obtain ⟨e0, e1, e2, e3, e4, e5, e6, e7, e8, e9, e10, e11, e12, e13, e14, e15, e16⟩ := idx_facts3 t
  unfold iblk3
  rw [View.read_apply]
  show V c main_v166 _ = V c main_v166 _
  congr 1
  funext a; apply Fin.ext
  match a with
  | ⟨0, _⟩ => show win3_3.index t (0 : Fin 2) * 1 + 1 * z.val = z.val; omega
  | ⟨1, _⟩ => show win3_3.index t (1 : Fin 2) * 32 + 1 * j.val = j.val; omega

/-- The second weight's block is the whole weight. -/
theorem iblk3_4_apply (c : Dev nD) (t : Fin cfg3.N) (j : Fin 32) (cc : Fin 32) :
    iblk3 V c 4 t (ix2 j cc) = V c main_arg11 (ix2 j cc) := by
  obtain ⟨e0, e1, e2, e3, e4, e5, e6, e7, e8, e9, e10, e11, e12, e13, e14, e15, e16⟩ := idx_facts3 t
  unfold iblk3
  rw [View.read_apply]
  show V c main_arg11 _ = V c main_arg11 _
  congr 1
  funext a; apply Fin.ext
  match a with
  | ⟨0, _⟩ => show win3_4.index t (0 : Fin 2) * 32 + 1 * j.val = j.val; omega
  | ⟨1, _⟩ => show win3_4.index t (1 : Fin 2) * 32 + 1 * cc.val = cc.val; omega

/-- The second bias's block is the whole row. -/
theorem iblk3_5_apply (c : Dev nD) (t : Fin cfg3.N) (z : Fin 1) (cc : Fin 32) :
    iblk3 V c 5 t (ix2 z cc) = V c main_v167 (ix2 z cc) := by
  obtain ⟨e0, e1, e2, e3, e4, e5, e6, e7, e8, e9, e10, e11, e12, e13, e14, e15, e16⟩ := idx_facts3 t
  unfold iblk3
  rw [View.read_apply]
  show V c main_v167 _ = V c main_v167 _
  congr 1
  funext a; apply Fin.ext
  match a with
  | ⟨0, _⟩ => show win3_5.index t (0 : Fin 2) * 1 + 1 * z.val = z.val; omega
  | ⟨1, _⟩ => show win3_5.index t (1 : Fin 2) * 32 + 1 * cc.val = cc.val; omega

/-- What point t writes back is tile t of the MLP result. -/
theorem flushed3_eq (c : Dev nD) (t : Fin cfg3.N) :
    (dat3 V c).flushed 6 t
      = ((cfg3.win 6).blk t).view.read (Elt Ideal)
          (mlpOut3 (V c main_v165) (V c main_v164) (V c main_arg9) (V c main_v166) (V c main_arg11) (V c main_v167)) := by
  show (cfg3.win 6).cut (grid3.coords t) ((dat3 V c).after 6 t) = _
  rw [after3_6]
  unfold out3_6
  rw [View.canon_unit_zero hz3_3]
  simp only [View.ld_unit_zero (S := S1x7168x32) hz3_3, View.ld_unit_zero (S := S32x32) hz3_2, View.ld_unit_zero (S := S1x32) hz3_2]
  obtain ⟨e0, e1, e2, e3, e4, e5, e6, e7, e8, e9, e10, e11, e12, e13, e14, e15, e16⟩ := idx_facts3 t
  funext j
  obtain ⟨z, r, cc, rfl⟩ : ∃ (z : Fin 1) (r : Fin 7168) (cc : Fin 32), j = ix3 z r cc := ⟨j 0, j 1, j 2, eq_ix3 j⟩
  have hr : r.val < 7168 := r.isLt
  have hz : z.val = 0 := by omega
  show k3_pay1 (iblk3 V c 0 t) (iblk3 V c 1 t) (iblk3 V c 2 t) (iblk3 V c 3 t) (iblk3 V c 4 t) (iblk3 V c 5 t) (ix3 z r cc)
    = mlpOut3 (V c main_v165) (V c main_v164) (V c main_arg9) (V c main_v166) (V c main_arg11) (V c main_v167) (((cfg3.win 6).blk t).view.emb (ix3 z r cc))
  have hemb : ((cfg3.win 6).blk t).view.emb (ix3 z r cc)
      = ix3 (⟨win3_6.index t (0 : Fin 3), by omega⟩ : Fin 4)
          (⟨win3_6.index t (1 : Fin 3) * 7168 + r.val, by omega⟩ : Fin 50176) cc := by
    funext a; apply Fin.ext
    match a with
    | ⟨0, _⟩ => show win3_6.index t (0 : Fin 3) * 1 + 1 * z.val = win3_6.index t (0 : Fin 3); omega
    | ⟨1, _⟩ => show win3_6.index t (1 : Fin 3) * 7168 + 1 * r.val = win3_6.index t (1 : Fin 3) * 7168 + r.val; omega
    | ⟨2, _⟩ => show win3_6.index t (2 : Fin 3) * 32 + 1 * cc.val = cc.val; omega
  rw [hemb, mlpOut3_apply, pay3_apply, iblk3_5_apply]
  refine congrArg (· + V c main_v167 (ix2 (0 : Fin 1) cc)) (Finset.sum_congr rfl fun j _ => ?_)
  rw [iblk3_4_apply, iblk3_3_apply]
  refine congrArg (fun s => max (s + V c main_v166 (ix2 (0 : Fin 1) j)) (Ideal.ofBits .f32 0x00000000#32) * V c main_arg11 (ix2 j cc))
    (Finset.sum_congr rfl fun q _ => ?_)
  rw [iblk3_2_apply,
    iblk3_0_apply V c t 0 r q ⟨win3_6.index t (0 : Fin 3), by omega⟩ ⟨win3_6.index t (1 : Fin 3) * 7168 + r.val, by omega⟩ rfl rfl,
    iblk3_1_apply V c t 0 r q ⟨win3_6.index t (0 : Fin 3), by omega⟩ ⟨win3_6.index t (1 : Fin 3) * 7168 + r.val, by omega⟩ rfl rfl]

/-- An index of the array is in point t's tile iff each coordinate is in the tile's range on its axis. -/
theorem mem_blk3 (t : Fin cfg3.N) (i : S4x50176x32.Idx) :
    i ∈ ((cfg3.win 6).blk t).view.set ↔ ∀ a : Fin 3, win3_6.index t a * S1x7168x32.size a ≤ (i a).val
      ∧ (i a).val < win3_6.index t a * S1x7168x32.size a + S1x7168x32.size a := by
  show i ∈ ((View.whole main_v168).slice (win3_6.rect t)).set ↔ _
  rw [View.set_slice_whole, Rect.mem_set_unit]
  exact Iff.rfl

/-- The 4 x 7 tiles of one community's 7168 rows cover the 4 x 50176 rows. -/
theorem cover3 (i : S4x50176x32.Idx) :
    ∃ t : Fin cfg3.N, (cfg3.win 6).flush t = true ∧ i ∈ ((cfg3.win 6).blk t).view.set := by
  have hi0 : (i 0).val < 4 := (i 0).isLt
  have hi1 : (i 1).val < 50176 := (i 1).isLt
  have hi2 : (i 2).val < 32 := (i 2).isLt
  obtain ⟨t, ht⟩ := idx_onto3 ⟨(i 0).val, by omega⟩ ⟨(i 1).val / 7168, by omega⟩
  have q0 : win3_6.index t (0 : Fin 3) = (i 0).val := congrFun ht 0
  have q1 : win3_6.index t (1 : Fin 3) = (i 1).val / 7168 := congrFun ht 1
  have q2 : win3_6.index t (2 : Fin 3) = 0 := congrFun ht 2
  refine ⟨t, flush3_6 t, ?_⟩
  rw [mem_blk3]
  intro a
  match a with
  | ⟨0, _⟩ =>
    show win3_6.index t (0 : Fin 3) * 1 ≤ (i 0).val ∧ (i 0).val < win3_6.index t (0 : Fin 3) * 1 + 1
    omega
  | ⟨1, _⟩ =>
    show win3_6.index t (1 : Fin 3) * 7168 ≤ (i 1).val ∧ (i 1).val < win3_6.index t (1 : Fin 3) * 7168 + 7168
    omega
  | ⟨2, _⟩ =>
    show win3_6.index t (2 : Fin 3) * 32 ≤ (i 2).val ∧ (i 2).val < win3_6.index t (2 : Fin 3) * 32 + 32
    omega

/-- The MLP region's output array after the region. -/
theorem final3 (c : Dev nD) :
    (dat3 V c).arrAt 6 cfg3.N
      = mlpOut3 (V c main_v165) (V c main_v164) (V c main_arg9) (V c main_v166) (V c main_arg11) (V c main_v167) :=
  (dat3 V c).arrAt_eq_of_cover 6 _ (fun t _ => flushed3_eq V c t) cover3

end Cert.KernelIdeal.Hand
end
-- ==== Proof.KI.Final4.lean ====
/-
  The second batch-norm region's output array, at the extended reals: after the 4 x 7 points (community, row tile) have
  run, the array holds, at every (community, row, feature),
  max(((X − mean) · rsqrt(variance + ε)) · scale + shift, 0)  with the community's statistics — each point writes the
  tile of that one function its index map names, and the tiles cover the array.
-/
import proofs.«176190_j13365938225806_1_alg».proof.Proof.KI.R4
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.SL.Sem
open Idealize.ShloMosaic.Pipeline (Dat Cfg Window)
open Idealize.ShloMosaic.ValueIdx
open Cert.KernelIdeal Cert.KernelIdeal.Gen

variable (V : (c : Dev nD) → (b : Ref sig .tc) → Buf (Elt Ideal) ((c : Thread nD τ).loc b))

/-! ## The batch-norm region's result: normalise with the community's statistics, scale, shift, clamp below at zero -/

/-- Entry (k, n, c) of  max(((X − μ_k) · rsqrt(σ²_k + ε)) · γ + β, 0):  X of 4 communities x 50176 rows x 32 features,
    μ and σ² one row of 32 per community, γ and β one row of 32; ε the word 0x3727C5AC and the zero the zero word,
    both read on the extended reals and left as they are. -/
def bnOut4 (X : S4x50176x32.Idx → Ideal .f32) (mu var : S4x1x32.Idx → Ideal .f32) (g be : S1x32.Idx → Ideal .f32) :
    S4x50176x32.Idx → Ideal .f32 :=
  fun i => max ((((X (ix3 (i 0 : Fin 4) (i 1 : Fin 50176) (i 2 : Fin 32)) - mu (ix3 (i 0 : Fin 4) (0 : Fin 1) (i 2 : Fin 32)))
      * Ideal.rsqrt (var (ix3 (i 0 : Fin 4) (0 : Fin 1) (i 2 : Fin 32)) + Ideal.ofBits .f32 0x3727C5AC#32))
      * g (ix2 (0 : Fin 1) (i 2 : Fin 32))) + be (ix2 (0 : Fin 1) (i 2 : Fin 32))) (Ideal.ofBits .f32 0x00000000#32)

theorem bnOut4_apply (X : S4x50176x32.Idx → Ideal .f32) (mu var : S4x1x32.Idx → Ideal .f32) (g be : S1x32.Idx → Ideal .f32)
    (k : Fin 4) (n : Fin 50176) (c : Fin 32) :
    bnOut4 X mu var g be (ix3 k n c)
      = max ((((X (ix3 k n c) - mu (ix3 k (0 : Fin 1) c)) * Ideal.rsqrt (var (ix3 k (0 : Fin 1) c) + Ideal.ofBits .f32 0x3727C5AC#32))
          * g (ix2 (0 : Fin 1) c)) + be (ix2 (0 : Fin 1) c)) (Ideal.ofBits .f32 0x00000000#32) := rfl

/-- The body's stored value at (0, r, c) of a tile, from the tile, the community's two statistics rows and the scale
    and shift rows. -/
theorem pay4_apply (x0 : Vec Ideal S1x7168x32 .f32) (x1 x2 : Vec Ideal S1x1x32 .f32) (x3 x4 : Vec Ideal S1x32 .f32)
    (z : Fin 1) (r : Fin 7168) (c : Fin 32) :
    k4_pay1 x0 x1 x2 x3 x4 (ix3 z r c)
      = max ((((x0 (ix3 (0 : Fin 1) r c) - x1 (ix3 (0 : Fin 1) (0 : Fin 1) c))
          * Ideal.rsqrt (x2 (ix3 (0 : Fin 1) (0 : Fin 1) c) + Ideal.ofBits .f32 0x3727C5AC#32))
          * x3 (ix2 (0 : Fin 1) c)) + x4 (ix2 (0 : Fin 1) c)) (Ideal.ofBits .f32 0x00000000#32) := by
  unfold k4_pay1
  simp only [shapeCast_self]
  rw [shapeCast_ab_1ab_apply, maximumf_apply, addf_apply, mulf_apply, mulf_apply, subf_apply, shapeCast_1ab_ab_apply,
    broadcastTo_1b_ab_apply, broadcastTo_1b_ab_apply, broadcastTo_1b_ab_apply, broadcastTo_1b_ab_apply,
    shapeCast_1ab_ab_apply]
  show max ((((x0 (ix3 (0 : Fin 1) r c) - x1 (ix3 (0 : Fin 1) (0 : Fin 1) c))
      * Ideal.rsqrt (shapeCast S1x32 x2 shapeCasts_S1x1x32_S1x32 (ix2 (0 : Fin 1) c) + Ideal.ofBits .f32 0x3727C5AC#32))
      * x3 (ix2 (0 : Fin 1) c)) + x4 (ix2 (0 : Fin 1) c)) (Ideal.ofBits .f32 0x00000000#32) = _
  rw [shapeCast_1ab_ab_apply]

theorem hz4_3 : (![0, 0, 0] : Fin 3 → Nat) = fun _ => 0 := funext fun a => by fin_cases a <;> rfl
theorem hz4_2 : (![0, 0] : Fin 2 → Nat) = fun _ => 0 := funext fun a => by fin_cases a <;> rfl

/-- The printed index maps over the 4 x 7 points: the input tile moves with the output tile, the statistics rows
    follow the output's community, the scale and shift rows stay. -/
theorem idx_facts4 : ∀ t : Fin cfg4.N,
    win4_0.index t (0 : Fin 3) = win4_5.index t (0 : Fin 3) ∧ win4_0.index t (1 : Fin 3) = win4_5.index t (1 : Fin 3)
    ∧ win4_0.index t (2 : Fin 3) = 0
    ∧ win4_1.index t (0 : Fin 3) = win4_5.index t (0 : Fin 3) ∧ win4_1.index t (1 : Fin 3) = 0 ∧ win4_1.index t (2 : Fin 3) = 0
    ∧ win4_2.index t (0 : Fin 3) = win4_5.index t (0 : Fin 3) ∧ win4_2.index t (1 : Fin 3) = 0 ∧ win4_2.index t (2 : Fin 3) = 0
    ∧ win4_3.index t (0 : Fin 2) = 0 ∧ win4_3.index t (1 : Fin 2) = 0
    ∧ win4_4.index t (0 : Fin 2) = 0 ∧ win4_4.index t (1 : Fin 2) = 0
    ∧ win4_5.index t (2 : Fin 3) = 0 ∧ win4_5.index t (0 : Fin 3) ≤ 3 ∧ win4_5.index t (1 : Fin 3) ≤ 6 :=
  (by decide +kernel : ∀ t : Fin grid4.N, _)

/-- Every (community, row tile) is some point's. -/
theorem idx_onto4 : ∀ (q0 : Fin 4) (q1 : Fin 7), ∃ t : Fin cfg4.N, win4_5.index t = ![q0.val, q1.val, 0] :=
  (by decide +kernel : ∀ (q0 : Fin 4) (q1 : Fin 7), ∃ t : Fin grid4.N, win4_5.index t = ![q0.val, q1.val, 0])

/-- The input's tile at point t, read at (0, r, c): the array at (community, tile index * 7168 + r, c). -/
theorem iblk4_0_apply (c : Dev nD) (t : Fin cfg4.N) (z : Fin 1) (r : Fin 7168) (q : Fin 32) (k : Fin 4) (R : Fin 50176)
    (hk : k.val = win4_5.index t (0 : Fin 3)) (hR : R.val = win4_5.index t (1 : Fin 3) * 7168 + r.val) :
    iblk4 V c 0 t (ix3 z r q) = V c main_v168 (ix3 k R q) := by
  obtain ⟨e0, e1, e2, e3, e4, e5, e6, e7, e8, e9, e10, e11, e12, e13, e14, e15⟩ := idx_facts4 t
  have hz : z.val = 0 := by omega
  unfold iblk4
  rw [View.read_apply]
  show V c main_v168 _ = V c main_v168 _
  congr 1
  funext a; apply Fin.ext
  match a with
  | ⟨0, _⟩ => show win4_0.index t (0 : Fin 3) * 1 + 1 * z.val = k.val; omega
  | ⟨1, _⟩ => show win4_0.index t (1 : Fin 3) * 7168 + 1 * r.val = R.val; omega
  | ⟨2, _⟩ => show win4_0.index t (2 : Fin 3) * 32 + 1 * q.val = q.val; omega

/-- The mean's block at point t is the community's row. -/
theorem iblk4_1_apply (c : Dev nD) (t : Fin cfg4.N) (z z' : Fin 1) (q : Fin 32) (k : Fin 4)
    (hk : k.val = win4_5.index t (0 : Fin 3)) :
    iblk4 V c 1 t (ix3 z z' q) = V c main_v175 (ix3 k (0 : Fin 1) q) := by
  obtain ⟨e0, e1, e2, e3, e4, e5, e6, e7, e8, e9, e10, e11, e12, e13, e14, e15⟩ := idx_facts4 t
  have hz : z.val = 0 := by omega
  have hz' : z'.val = 0 := by omega
  unfold iblk4
  rw [View.read_apply]
  show V c main_v175 _ = V c main_v175 _
  congr 1
  funext a; apply Fin.ext
  match a with
  | ⟨0, _⟩ => show win4_1.index t (0 : Fin 3) * 1 + 1 * z.val = k.val; omega
  | ⟨1, _⟩ => show win4_1.index t (1 : Fin 3) * 1 + 1 * z'.val = 0; omega
  | ⟨2, _⟩ => show win4_1.index t (2 : Fin 3) * 32 + 1 * q.val = q.val; omega

/-- The variance's block at point t is the community's row. -/
theorem iblk4_2_apply (c : Dev nD) (t : Fin cfg4.N) (z z' : Fin 1) (q : Fin 32) (k : Fin 4)
    (hk : k.val = win4_5.index t (0 : Fin 3)) :
    iblk4 V c 2 t (ix3 z z' q) = V c main_v176 (ix3 k (0 : Fin 1) q) := by
  obtain ⟨e0, e1, e2, e3, e4, e5, e6, e7, e8, e9, e10, e11, e12, e13, e14, e15⟩ := idx_facts4 t
  have hz : z.val = 0 := by omega
  have hz' : z'.val = 0 := by omega
  unfold iblk4
  rw [View.read_apply]
  show V c main_v176 _ = V c main_v176 _
  congr 1
  funext a; apply Fin.ext
  match a with
  | ⟨0, _⟩ => show win4_2.index t (0 : Fin 3) * 1 + 1 * z.val = k.val; omega
  | ⟨1, _⟩ => show win4_2.index t (1 : Fin 3) * 1 + 1 * z'.val = 0; omega
  | ⟨2, _⟩ => show win4_2.index t (2 : Fin 3) * 32 + 1 * q.val = q.val; omega

/-- The scale's block is the whole row. -/
theorem iblk4_3_apply (c : Dev nD) (t : Fin cfg4.N) (z : Fin 1) (q : Fin 32) :
    iblk4 V c 3 t (ix2 z q) = V c main_v177 (ix2 z q) := by
  obtain ⟨e0, e1, e2, e3, e4, e5, e6, e7, e8, e9, e10, e11, e12, e13, e14, e15⟩ := idx_facts4 t
  unfold iblk4
  rw [View.read_apply]
  show V c main_v177 _ = V c main_v177 _
  congr 1
  funext a; apply Fin.ext
  match a with
  | ⟨0, _⟩ => show win4_3.index t (0 : Fin 2) * 1 + 1 * z.val = z.val; omega
  | ⟨1, _⟩ => show win4_3.index t (1 : Fin 2) * 32 + 1 * q.val = q.val; omega

/-- The shift's block is the whole row. -/
theorem iblk4_4_apply (c : Dev nD) (t : Fin cfg4.N) (z : Fin 1) (q : Fin 32) :
    iblk4 V c 4 t (ix2 z q) = V c main_v178 (ix2 z q) := by
  obtain ⟨e0, e1, e2, e3, e4, e5, e6, e7, e8, e9, e10, e11, e12, e13, e14, e15⟩ := idx_facts4 t
  unfold iblk4
  rw [View.read_apply]
  show V c main_v178 _ = V c main_v178 _
  congr 1
  funext a; apply Fin.ext
  match a with
  | ⟨0, _⟩ => show win4_4.index t (0 : Fin 2) * 1 + 1 * z.val = z.val; omega
  | ⟨1, _⟩ => show win4_4.index t (1 : Fin 2) * 32 + 1 * q.val = q.val; omega

/-- What point t writes back is tile t of the batch-norm result. -/
theorem flushed4_eq (c : Dev nD) (t : Fin cfg4.N) :
    (dat4 V c).flushed 5 t
      = ((cfg4.win 5).blk t).view.read (Elt Ideal)
          (bnOut4 (V c main_v168) (V c main_v175) (V c main_v176) (V c main_v177) (V c main_v178)) := by
  show (cfg4.win 5).cut (grid4.coords t) ((dat4 V c).after 5 t) = _
  rw [after4_5]
  unfold out4_5
  rw [View.canon_unit_zero hz4_3]
  simp only [View.ld_unit_zero (S := S1x7168x32) hz4_3, View.ld_unit_zero (S := S1x1x32) hz4_3, View.ld_unit_zero (S := S1x32) hz4_2]
  obtain ⟨e0, e1, e2, e3, e4, e5, e6, e7, e8, e9, e10, e11, e12, e13, e14, e15⟩ := idx_facts4 t
  funext j
  obtain ⟨z, r, cc, rfl⟩ : ∃ (z : Fin 1) (r : Fin 7168) (cc : Fin 32), j = ix3 z r cc := ⟨j 0, j 1, j 2, eq_ix3 j⟩
  have hr : r.val < 7168 := r.isLt
  have hz : z.val = 0 := by omega
  show k4_pay1 (iblk4 V c 0 t) (iblk4 V c 1 t) (iblk4 V c 2 t) (iblk4 V c 3 t) (iblk4 V c 4 t) (ix3 z r cc)
    = bnOut4 (V c main_v168) (V c main_v175) (V c main_v176) (V c main_v177) (V c main_v178) (((cfg4.win 5).blk t).view.emb (ix3 z r cc))
  have hemb : ((cfg4.win 5).blk t).view.emb (ix3 z r cc)
      = ix3 (⟨win4_5.index t (0 : Fin 3), by omega⟩ : Fin 4)
          (⟨win4_5.index t (1 : Fin 3) * 7168 + r.val, by omega⟩ : Fin 50176) cc := by
    funext a; apply Fin.ext
    match a with
    | ⟨0, _⟩ => show win4_5.index t (0 : Fin 3) * 1 + 1 * z.val = win4_5.index t (0 : Fin 3); omega
    | ⟨1, _⟩ => show win4_5.index t (1 : Fin 3) * 7168 + 1 * r.val = win4_5.index t (1 : Fin 3) * 7168 + r.val; omega
    | ⟨2, _⟩ => show win4_5.index t (2 : Fin 3) * 32 + 1 * cc.val = cc.val; omega
  rw [hemb, bnOut4_apply, pay4_apply, iblk4_3_apply, iblk4_4_apply,
    iblk4_0_apply V c t 0 r cc ⟨win4_5.index t (0 : Fin 3), by omega⟩ ⟨win4_5.index t (1 : Fin 3) * 7168 + r.val, by omega⟩ rfl rfl,
    iblk4_1_apply V c t 0 0 cc ⟨win4_5.index t (0 : Fin 3), by omega⟩ rfl,
    iblk4_2_apply V c t 0 0 cc ⟨win4_5.index t (0 : Fin 3), by omega⟩ rfl]

/-- An index of the array is in point t's tile iff each coordinate is in the tile's range on its axis. -/
theorem mem_blk4 (t : Fin cfg4.N) (i : S4x50176x32.Idx) :
    i ∈ ((cfg4.win 5).blk t).view.set ↔ ∀ a : Fin 3, win4_5.index t a * S1x7168x32.size a ≤ (i a).val
      ∧ (i a).val < win4_5.index t a * S1x7168x32.size a + S1x7168x32.size a := by
  show i ∈ ((View.whole main_v179).slice (win4_5.rect t)).set ↔ _
  rw [View.set_slice_whole, Rect.mem_set_unit]
  exact Iff.rfl

/-- The 4 x 7 tiles of one community's 7168 rows cover the 4 x 50176 rows. -/
theorem cover4 (i : S4x50176x32.Idx) :
    ∃ t : Fin cfg4.N, (cfg4.win 5).flush t = true ∧ i ∈ ((cfg4.win 5).blk t).view.set := by
  have hi0 : (i 0).val < 4 := (i 0).isLt
  have hi1 : (i 1).val < 50176 := (i 1).isLt
  have hi2 : (i 2).val < 32 := (i 2).isLt
  obtain ⟨t, ht⟩ := idx_onto4 ⟨(i 0).val, by omega⟩ ⟨(i 1).val / 7168, by omega⟩
  have q0 : win4_5.index t (0 : Fin 3) = (i 0).val := congrFun ht 0
  have q1 : win4_5.index t (1 : Fin 3) = (i 1).val / 7168 := congrFun ht 1
  have q2 : win4_5.index t (2 : Fin 3) = 0 := congrFun ht 2
  refine ⟨t, flush4_5 t, ?_⟩
  rw [mem_blk4]
  intro a
  match a with
  | ⟨0, _⟩ =>
    show win4_5.index t (0 : Fin 3) * 1 ≤ (i 0).val ∧ (i 0).val < win4_5.index t (0 : Fin 3) * 1 + 1
    omega
  | ⟨1, _⟩ =>
    show win4_5.index t (1 : Fin 3) * 7168 ≤ (i 1).val ∧ (i 1).val < win4_5.index t (1 : Fin 3) * 7168 + 7168
    omega
  | ⟨2, _⟩ =>
    show win4_5.index t (2 : Fin 3) * 32 ≤ (i 2).val ∧ (i 2).val < win4_5.index t (2 : Fin 3) * 32 + 32
    omega

/-- The batch-norm region's output array after the region. -/
theorem final4 (c : Dev nD) :
    (dat4 V c).arrAt 5 cfg4.N = bnOut4 (V c main_v168) (V c main_v175) (V c main_v176) (V c main_v177) (V c main_v178) :=
  (dat4 V c).arrAt_eq_of_cover 5 _ (fun t _ => flushed4_eq V c t) cover4

end Cert.KernelIdeal.Hand
end
-- ==== Proof.KI.ValueL1.lean ====
/-
  The second layer on the kernel's side and the three results, read at an entry, at the extended reals. The second
  dense block reads, at a row below 50000, the layer-0 features and the neighbourhood sum of community k's own
  layer-0 features; the statistics and the batch-norm block are as in the first layer. In the stacked result, entry
  (1, n, 32 k + c) is the layer-0 feature (k, n, c) and entry (2, n, 32 k + c) the layer-1 feature.
-/
import proofs.«176190_j13365938225806_1_alg».proof.Proof.KI.ValueL0
import proofs.«176190_j13365938225806_1_alg».proof.Proof.KI.ValueEnc
import proofs.«176190_j13365938225806_1_alg».proof.Proof.KI.Final3
import proofs.«176190_j13365938225806_1_alg».proof.Proof.KI.Final4

set_option maxRecDepth 16384

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Ideal) ℓ) (ρ : Dev nD → PrngReg) (c : Dev nD)

theorem stack32_apply (a0 a1 a2 a3 : FV (F := Ideal) S50000x32) (k : Fin 4) (n : Fin 50000) (q : Fin 32) :
    stack32 a0 a1 a2 a3 (ix3 k n q) = (![a0, a1, a2, a3] k) (ix2 n q) := by
  match k with
  | ⟨0, _⟩ => exact stack32_apply0 a0 a1 a2 a3 n q
  | ⟨1, _⟩ => exact stack32_apply1 a0 a1 a2 a3 n q
  | ⟨2, _⟩ => exact stack32_apply2 a0 a1 a2 a3 n q
  | ⟨3, _⟩ => exact stack32_apply3 a0 a1 a2 a3 n q

/-- The layer-0 features as the kernel holds them: four communities, 50000 rows. -/
def H0 : FV (F := Ideal) S4x50000x32 := top32 (W12 m ρ c (Proc.devRef .tc main_v89))

theorem H0_apply (k : Fin 4) (n : Fin 50000) (c' : Fin 32) : H0 m ρ c (ix3 k n c') = feat0 m c k c' n := by
  unfold H0; rw [top32_apply]; exact bn0_value m ρ c k n c'

/-- Community k's neighbourhood sum of its own layer-0 features. -/
def aggr1 (k : Fin 4) : FV (F := Ideal) S50000x32 :=
  ![agg32 (com0 (H0 m ρ c)) (edgeRow0 (arg m c main_arg1)) (edgeRow1 (arg m c main_arg1)) (ewRow0 (arg m c main_arg2)),
    agg32 (com1 (H0 m ρ c)) (edgeRow0 (arg m c main_arg1)) (edgeRow1 (arg m c main_arg1)) (ewRow1 (arg m c main_arg2)),
    agg32 (com2 (H0 m ρ c)) (edgeRow0 (arg m c main_arg1)) (edgeRow1 (arg m c main_arg1)) (ewRow2 (arg m c main_arg2)),
    agg32 (com3 (H0 m ρ c)) (edgeRow0 (arg m c main_arg1)) (edgeRow1 (arg m c main_arg1)) (ewRow3 (arg m c main_arg2))] k

/-- The second dense block's output column, before normalisation. -/
def pre1 (k : Fin 4) (c' : Fin 32) (n : Fin 50000) : EReal :=
  Cert.Spec.mlp (K := 32) (fun n q => feat0 m c k q n + rd (aggr1 m ρ c k) (ix2 n q))
    (fun q j => rd (S := S32x32) (arg m c main_arg9) (ix2 q j)) (fun j => rd (S := S32) (arg m c main_arg10) (ix1 j))
    (fun j c' => rd (S := S32x32) (arg m c main_arg11) (ix2 j c')) (fun c' => rd (S := S32) (arg m c main_arg12) (ix1 c')) n c'

theorem mlp1_value (k : Fin 4) (n : Fin 50000) (c' : Fin 32) :
    W18 m ρ c (Proc.devRef .tc main_v168) (ix3 k (up n) c') = pre1 m ρ c k c' n := by
  rw [show W18 m ρ c (Proc.devRef .tc main_v168) = (dat3 (V17 m ρ) c).arrAt 6 cfg3.N from W18_arr m ρ c 6, final3 (V17 m ρ) c, mlpOut3_apply]
  rw [show V17 m ρ c main_v165 = pad4x32 (H0 m ρ c) from D_v165 (W12 m ρ c),
    show V17 m ρ c main_v164 = _ from D_v164 (W12 m ρ c),
    show V17 m ρ c main_arg9 = arg m c main_arg9 from W17_arg9 m ρ c,
    show V17 m ρ c main_v166 = row32 (W12 m ρ c (Proc.devRef .tc main_arg10)) from D_v166 (W12 m ρ c),
    show V17 m ρ c main_arg11 = arg m c main_arg11 from W17_arg11 m ρ c,
    show V17 m ρ c main_v167 = row32 (W12 m ρ c (Proc.devRef .tc main_arg12)) from D_v167 (W12 m ρ c)]
  rw [W12_v1, W12_v3, W12_arg2, W12_arg10, W12_arg12]
  simp only [pad4x32_apply, stack32_apply, row32_apply, H0_apply]
  rfl

/-- The layer-1 features of community k at node n, column c. -/
def feat1 (k : Fin 4) (c' : Fin 32) (n : Fin 50000) : EReal :=
  Cert.Spec.bn (pre1 m ρ c k c') (rd (S := S32) (arg m c main_arg13) (ix1 c')) (rd (S := S32) (arg m c main_arg14) (ix1 c')) n

theorem bn1_value (k : Fin 4) (n : Fin 50000) (c' : Fin 32) :
    W22 m ρ c (Proc.devRef .tc main_v179) (ix3 k (up n) c') = feat1 m ρ c k c' n := by
  rw [show W22 m ρ c (Proc.devRef .tc main_v179) = (dat4 (V21 m ρ) c).arrAt 5 cfg4.N from W22_arr m ρ c 5, final4 (V21 m ρ) c, bnOut4_apply]
  rw [show V21 m ρ c main_v168 = W18 m ρ c (Proc.devRef .tc main_v168) from stats4_keep (W18 m ρ c),
    show V21 m ρ c main_v175 (ix3 k (0 : Fin 1) c') = _ from stats4_mean (W18 m ρ c) k c',
    show V21 m ρ c main_v176 (ix3 k (0 : Fin 1) c') = _ from stats4_var (W18 m ρ c) k c',
    show V21 m ρ c main_v177 (ix2 (0 : Fin 1) c') = _ from stats4_gamma (W18 m ρ c) c',
    show V21 m ρ c main_v178 (ix2 (0 : Fin 1) c') = _ from stats4_beta (W18 m ρ c) c']
  rw [W18_arg13, W18_arg14]
  have hcol : (fun n : Fin 50000 => W18 m ρ c (Proc.devRef .tc main_v168) (ix3 k (Fin.castLE (by decide : 50000 ≤ 50176) n) c')) = pre1 m ρ c k c' :=
    funext fun n => mlp1_value m ρ c k n c'
  rw [hcol, mlp1_value]
  rfl

/-! ## The three results at an entry -/

theorem lay0_value (n : Fin 50000) (k : Fin 4) (c' : Fin 32) (j : Fin 128) (hj : j.val = 32 * k.val + c'.val) :
    W23 m ρ c (Proc.devRef .tc main_v188) (ix3 (1 : Fin 3) n j) = feat0 m c k c' n := by
  have hlt : 32 * k.val + c'.val < 128 := by have := k.isLt; have := c'.isLt; omega
  obtain rfl : j = ⟨32 * k.val + c'.val, hlt⟩ := Fin.ext hj
  rw [W23_v188, stack3_apply1, lay128_apply, W22_v90]
  exact H0_apply m ρ c k n c'

theorem lay1_value (n : Fin 50000) (k : Fin 4) (c' : Fin 32) (j : Fin 128) (hj : j.val = 32 * k.val + c'.val) :
    W23 m ρ c (Proc.devRef .tc main_v188) (ix3 (2 : Fin 3) n j) = feat1 m ρ c k c' n := by
  have hlt : 32 * k.val + c'.val < 128 := by have := k.isLt; have := c'.isLt; omega
  obtain rfl : j = ⟨32 * k.val + c'.val, hlt⟩ := Fin.ext hj
  rw [W23_v188, stack3_apply2, lay128_apply, top32_apply]
  exact bn1_value m ρ c k n c'

end Cert.KernelIdeal.Hand

end
-- ==== Proof.Ref.Defs.lean ====
/-
  The reference program's result as a composition of a few named pure functions, at any float instance: the weighted
  neighbourhood sum of a feature array over the edge list (a gather of the source rows, scaled by the community's
  edge weights, scatter-added at the destination rows), one GIN layer of one community (features plus neighbourhood
  sum, two dense maps with a ReLU between them, batch statistics over the nodes, normalisation, scale and shift, ReLU),
  the input encoder, and the stacked result. Each is literally the chain of operations the printed @main applies.
-/
import proofs.«176190_j13365938225806_1_alg».proof.Proof.Gen.ReferenceIdeal
import Idealize.ShloMosaic.PureOps

noncomputable section

namespace Cert.ReferenceIdeal.Hand

open Idealize.ShloMosaic Idealize.SL.Sem
open Cert.ReferenceIdeal Cert.ReferenceIdeal.Gen

variable {F : FTy → Type} [FloatOps F]

/-- Float and 32-bit integer arrays of a shape. -/
abbrev FV (S : Shape) : Type := (⟨S, .f32⟩ : BufTy).Contents (Elt F)
abbrev IV (S : Shape) : Type := (⟨S, .i32⟩ : BufTy).Contents (Elt F)

/-- Row `r` of the 2 x 800000 edge list, as a flat array. -/
def edgeRow0 (ei : IV (F := F) S2x800000) : IV (F := F) S800000 :=
  shapeCast S800000 (extractStridedSlice S1x800000 ![0, 0] ei slices_S2x800000_S1x800000_0_0) shapeCasts_S1x800000_S800000
def edgeRow1 (ei : IV (F := F) S2x800000) : IV (F := F) S800000 :=
  shapeCast S800000 (extractStridedSlice S1x800000 ![1, 0] ei slices_S2x800000_S1x800000_1_0) shapeCasts_S1x800000_S800000

/-- The start indices of the gather: a negative source index wraps by the number of nodes. -/
def startIdx (src : IV (F := F) S800000) : IV (F := F) S800000x1 :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- The weighted neighbourhood sum of 128-wide features. -/
def agg128 (h : FV (F := F) S50000x128) (src dst : IV (F := F) S800000) (w : FV (F := F) S800000) : FV (F := F) S50000x128 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 dst)
    (mulf (Host.gather gather_S50000x128_S800000x1_S800000x128_1_0_n_n_0_1_1128 h (startIdx src))
      (broadcastInDim S800000x128 ![0, 1] bcast_S800000x1_S800000x128_0_1 (broadcastInDim S800000x1 ![0] bcast_S800000_S800000x1_0 w)))

/-- The weighted neighbourhood sum of 32-wide features. -/
def agg32 (h : FV (F := F) S50000x32) (src dst : IV (F := F) S800000) (w : FV (F := F) S800000) : FV (F := F) S50000x32 :=
  Host.scatterAdd scatter_S50000x32_S800000x1_S800000x32_1_0_0_1
    (broadcastInDim S50000x32 ![] bcast_S_S50000x32 (constant S_ .f32 0x00000000#32))
    (broadcastInDim S800000x1 ![0] bcast_S800000_S800000x1_0 dst)
    (mulf (Host.gather gather_S50000x32_S800000x1_S800000x32_1_0_n_n_0_1_132 h (startIdx src))
      (broadcastInDim S800000x32 ![0, 1] bcast_S800000x1_S800000x32_0_1 (broadcastInDim S800000x1 ![0] bcast_S800000_S800000x1_0 w)))

/-- A 32-vector laid along the rows of a 50000 x 32 array. -/
def rows32 (v : FV (F := F) S32) : FV (F := F) S50000x32 :=
  broadcastInDim S50000x32 ![0, 1] bcast_S1x32_S50000x32_0_1 (broadcastInDim S1x32 ![1] bcast_S32_S1x32_1 v)

/-- ReLU of a 50000 x 32 array. -/
def relu32 (z : FV (F := F) S50000x32) : FV (F := F) S50000x32 :=
  maximumf z (broadcastInDim S50000x32 ![] bcast_S_S50000x32 (constant S_ .f32 0x00000000#32))

/-- The mean over the nodes of each of the 32 columns. -/
def mean32 (z : FV (F := F) S50000x32) : FV (F := F) S32 :=
  Host.divf (Host.reduceAdd z (constant S_ .f32 0x00000000#32) reducesTo_S50000x32_S32_d0 h_S_)
    (broadcastInDim S32 ![] bcast_S_S32 (constant S_ .f32 0x47435000#32))

/-- The (biased) variance over the nodes of each column, as jnp.var computes it: the mean of the squared deviations
    from the column mean, divided by the node count less the (zero) degrees-of-freedom correction, guarded by "that
    divisor is positive". -/
def var32 (z : FV (F := F) S50000x32) (ddof : IV (F := F) S_) : FV (F := F) S32 :=
  let mu1 : FV (F := F) S1x32 := Host.divf
    (broadcastInDim S1x32 ![1] bcast_S32_S1x32_1 (Host.reduceAdd z (constant S_ .f32 0x00000000#32) reducesTo_S50000x32_S32_d0 h_S_))
    (broadcastInDim S1x32 ![] bcast_S_S1x32 (constant S_ .f32 0x47435000#32))
  let d : FV (F := F) S50000x32 := subf z (broadcastInDim S50000x32 ![0, 1] bcast_S1x32_S50000x32_0_1 mu1)
  let nrm : FV (F := F) S_ := subf (constant S_ .f32 0x47435000#32) (sitofp .f32 ddof)
  select (broadcastInDim S32 ![] bcast_S_S32 (cmpf .ogt nrm (constant S_ .f32 0x00000000#32)))
    (Host.divf (Host.reduceAdd (mulf d d) (constant S_ .f32 0x00000000#32) reducesTo_S50000x32_S32_d0 h_S_) (broadcastInDim S32 ![] bcast_S_S32 nrm))
    (broadcastInDim S32 ![] bcast_S_S32 (id (constant S_ .f32 0x7FC00000#32)))

/-- Batch normalisation over the nodes, then scale, shift and ReLU. -/
def bnRelu (z : FV (F := F) S50000x32) (gamma beta : FV (F := F) S32) : FV (F := F) S50000x32 :=
  relu32 (addf (mulf (mulf (subf z (rows32 (mean32 z)))
      (rows32 (Host.rsqrt (addf (var32 z (constantI S_ 32 0#32)) (broadcastInDim S32 ![] bcast_S_S32 (constant S_ .f32 0x3727C5AC#32))))))
    (rows32 gamma)) (rows32 beta))

/-- The two dense maps of the first layer (128 → 32 → 32) with a ReLU between them. -/
def mlp128 (z : FV (F := F) S50000x128) (W1 : FV (F := F) S128x32) (b1 : FV (F := F) S32) (W2 : FV (F := F) S32x32) (b2 : FV (F := F) S32) : FV (F := F) S50000x32 :=
  addf (Host.dotGeneral dot_S50000x32_S32x32_S50000x32_1_0_0_1_n_n none
    (relu32 (addf (Host.dotGeneral dot_S50000x128_S128x32_S50000x32_1_0_0_1_n_n none z W1) (rows32 b1))) W2) (rows32 b2)
/-- The two dense maps of the second layer (32 → 32 → 32). -/
def mlp32 (z : FV (F := F) S50000x32) (W1 : FV (F := F) S32x32) (b1 : FV (F := F) S32) (W2 : FV (F := F) S32x32) (b2 : FV (F := F) S32) : FV (F := F) S50000x32 :=
  addf (Host.dotGeneral dot_S50000x32_S32x32_S50000x32_1_0_0_1_n_n none
    (relu32 (addf (Host.dotGeneral dot_S50000x32_S32x32_S50000x32_1_0_0_1_n_n none z W1) (rows32 b1))) W2) (rows32 b2)

/-- One community's first GIN layer. -/
def layer0 (x : FV (F := F) S50000x128) (src dst : IV (F := F) S800000) (w : FV (F := F) S800000)
    (W1 : FV (F := F) S128x32) (b1 : FV (F := F) S32) (W2 : FV (F := F) S32x32) (b2 gamma beta : FV (F := F) S32) : FV (F := F) S50000x32 :=
  bnRelu (mlp128 (addf x (agg128 x src dst w)) W1 b1 W2 b2) gamma beta
/-- One community's second GIN layer. -/
def layer1 (h : FV (F := F) S50000x32) (src dst : IV (F := F) S800000) (w : FV (F := F) S800000)
    (W1 : FV (F := F) S32x32) (b1 : FV (F := F) S32) (W2 : FV (F := F) S32x32) (b2 gamma beta : FV (F := F) S32) : FV (F := F) S50000x32 :=
  bnRelu (mlp32 (addf h (agg32 h src dst w)) W1 b1 W2 b2) gamma beta

/-- Community `k`'s row of the 4 x 800000 edge weights, as a flat array. -/
def ewRow0 (ew : FV (F := F) S4x800000) : FV (F := F) S800000 := shapeCast S800000 (extractStridedSlice S1x800000 ![0, 0] ew slices_S4x800000_S1x800000_0_0) shapeCasts_S1x800000_S800000
def ewRow1 (ew : FV (F := F) S4x800000) : FV (F := F) S800000 := shapeCast S800000 (extractStridedSlice S1x800000 ![1, 0] ew slices_S4x800000_S1x800000_1_0) shapeCasts_S1x800000_S800000
def ewRow2 (ew : FV (F := F) S4x800000) : FV (F := F) S800000 := shapeCast S800000 (extractStridedSlice S1x800000 ![2, 0] ew slices_S4x800000_S1x800000_2_0) shapeCasts_S1x800000_S800000
def ewRow3 (ew : FV (F := F) S4x800000) : FV (F := F) S800000 := shapeCast S800000 (extractStridedSlice S1x800000 ![3, 0] ew slices_S4x800000_S1x800000_3_0) shapeCasts_S1x800000_S800000

/-- The input encoder: x · W + b. -/
def enc (x : FV (F := F) S50000x128) (W : FV (F := F) S128x128) (b : FV (F := F) S128) : FV (F := F) S50000x128 :=
  addf (Host.dotGeneral dot_S50000x128_S128x128_S50000x128_1_0_0_1_n_n none x W)
    (broadcastInDim S50000x128 ![0, 1] bcast_S1x128_S50000x128_0_1 (broadcastInDim S1x128 ![1] bcast_S128_S1x128_1 b))

/-- Four 50000 x 32 arrays side by side. -/
def cat4 (a0 a1 a2 a3 : FV (F := F) S50000x32) : FV (F := F) S50000x128 :=
  concatenate S50000x128 1 [⟨S50000x32, a0⟩, ⟨S50000x32, a1⟩, ⟨S50000x32, a2⟩, ⟨S50000x32, a3⟩] concatenates_S50000x32_S50000x32_S50000x32_S50000x32_S50000x128_d1
/-- Three 50000 x 128 arrays stacked on a new leading axis. -/
def stack3 (a0 a1 a2 : FV (F := F) S50000x128) : FV (F := F) S3x50000x128 :=
  concatenate S3x50000x128 0 [⟨S1x50000x128, broadcastInDim S1x50000x128 ![1, 2] bcast_S50000x128_S1x50000x128_1_2 a0⟩,
    ⟨S1x50000x128, broadcastInDim S1x50000x128 ![1, 2] bcast_S50000x128_S1x50000x128_1_2 a1⟩,
    ⟨S1x50000x128, broadcastInDim S1x50000x128 ![1, 2] bcast_S50000x128_S1x50000x128_1_2 a2⟩] concatenates_S1x50000x128_S1x50000x128_S1x50000x128_S3x50000x128_d0

/-- The reference's result as a function of its seventeen arguments. -/
def result (x : FV (F := F) S50000x128) (ei : IV (F := F) S2x800000) (ew : FV (F := F) S4x800000)
    (W10 : FV (F := F) S128x32) (b10 : FV (F := F) S32) (W20 : FV (F := F) S32x32) (b20 g0 be0 : FV (F := F) S32)
    (W11 : FV (F := F) S32x32) (b11 : FV (F := F) S32) (W21 : FV (F := F) S32x32) (b21 g1 be1 : FV (F := F) S32)
    (We : FV (F := F) S128x128) (bE : FV (F := F) S128) : FV (F := F) S3x50000x128 :=
  let src := edgeRow0 ei
  let dst := edgeRow1 ei
  let l0 (w : FV (F := F) S800000) := layer0 x src dst w W10 b10 W20 b20 g0 be0
  let l1 (w : FV (F := F) S800000) := layer1 (l0 w) src dst w W11 b11 W21 b21 g1 be1
  stack3 (enc x We bE)
    (cat4 (l0 (ewRow0 ew)) (l0 (ewRow1 ew)) (l0 (ewRow2 ew)) (l0 (ewRow3 ew)))
    (cat4 (l1 (ewRow0 ew)) (l1 (ewRow1 ew)) (l1 (ewRow2 ew)) (l1 (ewRow3 ew)))

end Cert.ReferenceIdeal.Hand

end
-- ==== Proof.Ref.Value.lean ====
import proofs.«176190_j13365938225806_1_alg».proof.Proof.Ref.Run
import proofs.«176190_j13365938225806_1_alg».proof.Proof.Ref.Segs
import proofs.«176190_j13365938225806_1_alg».proof.Proof.Ref.Defs
import Idealize.ShloMosaic.Lib.Pipeline.Frame

noncomputable section
namespace Cert.ReferenceIdeal.Hand
open Idealize.ShloMosaic Idealize.ShloMosaic.TcCoe Idealize.SL.Sem Idealize.ShloMosaic.StableHlo
open Cert.ReferenceIdeal Cert.ReferenceIdeal.Gen
variable {F : FTy → Type} [FloatOps F]

set_option maxRecDepth 16384

/-!
  The value the reference's run leaves in its result buffer, as the named composition `result` of the seventeen
  arguments. The 630 operations are read in ten pieces (Segs.lean). For each piece: what it leaves in the one or two
  buffers later pieces read, as a named function of what it found in the buffers it reads (the fold over the piece
  computed once, on a piece of at most 77 operations); and that every buffer it does not write keeps its contents.
  Composing these from the last piece back to the first gives the result: the stack of the encoded input, of the four
  communities' first-layer outputs side by side, and of their second-layer outputs side by side, each second layer
  applied to its community's first-layer output.
-/

/-! ## The ten pieces in order are the eight windows in order -/

theorem ops_eq_segs : (ops : List (HloOp τ sig (Elt F)))
    = segPre ++ (segA0 ++ (segB0 ++ (segA1 ++ (segB1 ++ (segA2 ++ (segB2 ++ (segA3 ++ (segB3 ++ segTail)))))))) := by
  simp only [ops, ops0, ops1, ops2, ops3, ops4, ops5, ops6, ops7, segPre, segA0, segB0, segA1, segB1, segA2, segB2,
    segA3, segB3, segTail, List.cons_append, List.nil_append]

/-! ## Each piece writes only the buffers of its list, so any other buffer keeps its contents across it -/

theorem segPre_writes : (segPre : List (HloOp τ sig (Elt F))).Forall fun op =>
    op.writes ⊆ (segPre_W.map (Proc.devRef (τ := τ) .tc)).toFinset := by
  simp only [segPre, List.Forall]
  repeat' apply And.intro
  all_goals (simp only [nullary_writes, unary_writes, binary_writes, ternary_writes, reshape_writes, nary_writes,
    Finset.singleton_subset_iff, List.mem_toFinset]; exact List.mem_map_of_mem (by decide))
theorem segA0_writes : (segA0 : List (HloOp τ sig (Elt F))).Forall fun op =>
    op.writes ⊆ (segA0_W.map (Proc.devRef (τ := τ) .tc)).toFinset := by
  simp only [segA0, List.Forall]
  repeat' apply And.intro
  all_goals (simp only [nullary_writes, unary_writes, binary_writes, ternary_writes, reshape_writes, nary_writes,
    Finset.singleton_subset_iff, List.mem_toFinset]; exact List.mem_map_of_mem (by decide))
theorem segB0_writes : (segB0 : List (HloOp τ sig (Elt F))).Forall fun op =>
    op.writes ⊆ (segB0_W.map (Proc.devRef (τ := τ) .tc)).toFinset := by
  simp only [segB0, List.Forall]
  repeat' apply And.intro
  all_goals (simp only [nullary_writes, unary_writes, binary_writes, ternary_writes, reshape_writes, nary_writes,
    Finset.singleton_subset_iff, List.mem_toFinset]; exact List.mem_map_of_mem (by decide))
theorem segA1_writes : (segA1 : List (HloOp τ sig (Elt F))).Forall fun op =>
    op.writes ⊆ (segA1_W.map (Proc.devRef (τ := τ) .tc)).toFinset := by
  simp only [segA1, List.Forall]
  repeat' apply And.intro
  all_goals (simp only [nullary_writes, unary_writes, binary_writes, ternary_writes, reshape_writes, nary_writes,
    Finset.singleton_subset_iff, List.mem_toFinset]; exact List.mem_map_of_mem (by decide))
theorem segB1_writes : (segB1 : List (HloOp τ sig (Elt F))).Forall fun op =>
    op.writes ⊆ (segB1_W.map (Proc.devRef (τ := τ) .tc)).toFinset := by
  simp only [segB1, List.Forall]
  repeat' apply And.intro
  all_goals (simp only [nullary_writes, unary_writes, binary_writes, ternary_writes, reshape_writes, nary_writes,
    Finset.singleton_subset_iff, List.mem_toFinset]; exact List.mem_map_of_mem (by decide))
theorem segA2_writes : (segA2 : List (HloOp τ sig (Elt F))).Forall fun op =>
    op.writes ⊆ (segA2_W.map (Proc.devRef (τ := τ) .tc)).toFinset := by
  simp only [segA2, List.Forall]
  repeat' apply And.intro
  all_goals (simp only [nullary_writes, unary_writes, binary_writes, ternary_writes, reshape_writes, nary_writes,
    Finset.singleton_subset_iff, List.mem_toFinset]; exact List.mem_map_of_mem (by decide))
theorem segB2_writes : (segB2 : List (HloOp τ sig (Elt F))).Forall fun op =>
    op.writes ⊆ (segB2_W.map (Proc.devRef (τ := τ) .tc)).toFinset := by
  simp only [segB2, List.Forall]
  repeat' apply And.intro
  all_goals (simp only [nullary_writes, unary_writes, binary_writes, ternary_writes, reshape_writes, nary_writes,
    Finset.singleton_subset_iff, List.mem_toFinset]; exact List.mem_map_of_mem (by decide))
theorem segA3_writes : (segA3 : List (HloOp τ sig (Elt F))).Forall fun op =>
    op.writes ⊆ (segA3_W.map (Proc.devRef (τ := τ) .tc)).toFinset := by
  simp only [segA3, List.Forall]
  repeat' apply And.intro
  all_goals (simp only [nullary_writes, unary_writes, binary_writes, ternary_writes, reshape_writes, nary_writes,
    Finset.singleton_subset_iff, List.mem_toFinset]; exact List.mem_map_of_mem (by decide))
theorem segB3_writes : (segB3 : List (HloOp τ sig (Elt F))).Forall fun op =>
    op.writes ⊆ (segB3_W.map (Proc.devRef (τ := τ) .tc)).toFinset := by
  simp only [segB3, List.Forall]
  repeat' apply And.intro
  all_goals (simp only [nullary_writes, unary_writes, binary_writes, ternary_writes, reshape_writes, nary_writes,
    Finset.singleton_subset_iff, List.mem_toFinset]; exact List.mem_map_of_mem (by decide))
theorem segTail_writes : (segTail : List (HloOp τ sig (Elt F))).Forall fun op =>
    op.writes ⊆ (segTail_W.map (Proc.devRef (τ := τ) .tc)).toFinset := by
  simp only [segTail, List.Forall]
  repeat' apply And.intro
  all_goals (simp only [nullary_writes, unary_writes, binary_writes, ternary_writes, reshape_writes, nary_writes,
    Finset.singleton_subset_iff, List.mem_toFinset]; exact List.mem_map_of_mem (by decide))

theorem segPre_keep (W : Valuation τ sig (Elt F)) {r : Ref sig .tc} (h : r ∉ segPre_W) :
    after segPre W (no_index (Proc.devRef .tc r)) = W (Proc.devRef .tc r) := after_of_writes_sub segPre W segPre_writes h
theorem segA0_keep (W : Valuation τ sig (Elt F)) {r : Ref sig .tc} (h : r ∉ segA0_W) :
    after segA0 W (no_index (Proc.devRef .tc r)) = W (Proc.devRef .tc r) := after_of_writes_sub segA0 W segA0_writes h
theorem segB0_keep (W : Valuation τ sig (Elt F)) {r : Ref sig .tc} (h : r ∉ segB0_W) :
    after segB0 W (no_index (Proc.devRef .tc r)) = W (Proc.devRef .tc r) := after_of_writes_sub segB0 W segB0_writes h
theorem segA1_keep (W : Valuation τ sig (Elt F)) {r : Ref sig .tc} (h : r ∉ segA1_W) :
    after segA1 W (no_index (Proc.devRef .tc r)) = W (Proc.devRef .tc r) := after_of_writes_sub segA1 W segA1_writes h
theorem segB1_keep (W : Valuation τ sig (Elt F)) {r : Ref sig .tc} (h : r ∉ segB1_W) :
    after segB1 W (no_index (Proc.devRef .tc r)) = W (Proc.devRef .tc r) := after_of_writes_sub segB1 W segB1_writes h
theorem segA2_keep (W : Valuation τ sig (Elt F)) {r : Ref sig .tc} (h : r ∉ segA2_W) :
    after segA2 W (no_index (Proc.devRef .tc r)) = W (Proc.devRef .tc r) := after_of_writes_sub segA2 W segA2_writes h
theorem segB2_keep (W : Valuation τ sig (Elt F)) {r : Ref sig .tc} (h : r ∉ segB2_W) :
    after segB2 W (no_index (Proc.devRef .tc r)) = W (Proc.devRef .tc r) := after_of_writes_sub segB2 W segB2_writes h
theorem segA3_keep (W : Valuation τ sig (Elt F)) {r : Ref sig .tc} (h : r ∉ segA3_W) :
    after segA3 W (no_index (Proc.devRef .tc r)) = W (Proc.devRef .tc r) := after_of_writes_sub segA3 W segA3_writes h
theorem segB3_keep (W : Valuation τ sig (Elt F)) {r : Ref sig .tc} (h : r ∉ segB3_W) :
    after segB3 W (no_index (Proc.devRef .tc r)) = W (Proc.devRef .tc r) := after_of_writes_sub segB3 W segB3_writes h

/-! ## What each piece leaves for the later ones -/

/-- The first piece flattens row 0 of the edge list (the sources) … -/
theorem segPre_v1 (W : Valuation τ sig (Elt F)) :
    after segPre W (no_index (Proc.devRef .tc main_v1)) = edgeRow0 (W (Proc.devRef .tc main_arg1)) := by
  simp only [segPre]
  after_results_simp
  rfl
/-- … and row 1 (the destinations). -/
theorem segPre_v3 (W : Valuation τ sig (Elt F)) :
    after segPre W (no_index (Proc.devRef .tc main_v3)) = edgeRow1 (W (Proc.devRef .tc main_arg1)) := by
  simp only [segPre]
  after_results_simp
  rfl

/-- Community 0's first layer, of the input features and row 0 of the edge weights. -/
theorem segA0_val (W : Valuation τ sig (Elt F)) :
    after segA0 W (no_index (Proc.devRef .tc main_v48))
      = layer0 (W (Proc.devRef .tc main_arg0)) (W (Proc.devRef .tc main_v1)) (W (Proc.devRef .tc main_v3)) (ewRow0 (W (Proc.devRef .tc main_arg2)))
          (W (Proc.devRef .tc main_arg3)) (W (Proc.devRef .tc main_arg4)) (W (Proc.devRef .tc main_arg5)) (W (Proc.devRef .tc main_arg6)) (W (Proc.devRef .tc main_arg7)) (W (Proc.devRef .tc main_arg8)) := by
  simp only [segA0]
  after_results_simp
  rfl
/-- Community 1's first layer (row 1 of the edge weights). -/
theorem segA1_val (W : Valuation τ sig (Elt F)) :
    after segA1 W (no_index (Proc.devRef .tc main_v138))
      = layer0 (W (Proc.devRef .tc main_arg0)) (W (Proc.devRef .tc main_v1)) (W (Proc.devRef .tc main_v3)) (ewRow1 (W (Proc.devRef .tc main_arg2)))
          (W (Proc.devRef .tc main_arg3)) (W (Proc.devRef .tc main_arg4)) (W (Proc.devRef .tc main_arg5)) (W (Proc.devRef .tc main_arg6)) (W (Proc.devRef .tc main_arg7)) (W (Proc.devRef .tc main_arg8)) := by
  simp only [segA1]
  after_results_simp
  rfl
/-- Community 2's first layer (row 2 of the edge weights). -/
theorem segA2_val (W : Valuation τ sig (Elt F)) :
    after segA2 W (no_index (Proc.devRef .tc main_v228))
      = layer0 (W (Proc.devRef .tc main_arg0)) (W (Proc.devRef .tc main_v1)) (W (Proc.devRef .tc main_v3)) (ewRow2 (W (Proc.devRef .tc main_arg2)))
          (W (Proc.devRef .tc main_arg3)) (W (Proc.devRef .tc main_arg4)) (W (Proc.devRef .tc main_arg5)) (W (Proc.devRef .tc main_arg6)) (W (Proc.devRef .tc main_arg7)) (W (Proc.devRef .tc main_arg8)) := by
  simp only [segA2]
  after_results_simp
  rfl
/-- Community 3's first layer (row 3 of the edge weights). -/
theorem segA3_val (W : Valuation τ sig (Elt F)) :
    after segA3 W (no_index (Proc.devRef .tc main_v318))
      = layer0 (W (Proc.devRef .tc main_arg0)) (W (Proc.devRef .tc main_v1)) (W (Proc.devRef .tc main_v3)) (ewRow3 (W (Proc.devRef .tc main_arg2)))
          (W (Proc.devRef .tc main_arg3)) (W (Proc.devRef .tc main_arg4)) (W (Proc.devRef .tc main_arg5)) (W (Proc.devRef .tc main_arg6)) (W (Proc.devRef .tc main_arg7)) (W (Proc.devRef .tc main_arg8)) := by
  simp only [segA3]
  after_results_simp
  rfl

/-- Community 0's second layer, of its first layer's output and the same row of the edge weights. -/
theorem segB0_val (W : Valuation τ sig (Elt F)) :
    after segB0 W (no_index (Proc.devRef .tc main_v93))
      = layer1 (W (Proc.devRef .tc main_v48)) (W (Proc.devRef .tc main_v1)) (W (Proc.devRef .tc main_v3)) (ewRow0 (W (Proc.devRef .tc main_arg2)))
          (W (Proc.devRef .tc main_arg9)) (W (Proc.devRef .tc main_arg10)) (W (Proc.devRef .tc main_arg11)) (W (Proc.devRef .tc main_arg12)) (W (Proc.devRef .tc main_arg13)) (W (Proc.devRef .tc main_arg14)) := by
  simp only [segB0]
  after_results_simp
  rfl
/-- Community 1's second layer. -/
theorem segB1_val (W : Valuation τ sig (Elt F)) :
    after segB1 W (no_index (Proc.devRef .tc main_v183))
      = layer1 (W (Proc.devRef .tc main_v138)) (W (Proc.devRef .tc main_v1)) (W (Proc.devRef .tc main_v3)) (ewRow1 (W (Proc.devRef .tc main_arg2)))
          (W (Proc.devRef .tc main_arg9)) (W (Proc.devRef .tc main_arg10)) (W (Proc.devRef .tc main_arg11)) (W (Proc.devRef .tc main_arg12)) (W (Proc.devRef .tc main_arg13)) (W (Proc.devRef .tc main_arg14)) := by
  simp only [segB1]
  after_results_simp
  rfl
/-- Community 2's second layer. -/
theorem segB2_val (W : Valuation τ sig (Elt F)) :
    after segB2 W (no_index (Proc.devRef .tc main_v273))
      = layer1 (W (Proc.devRef .tc main_v228)) (W (Proc.devRef .tc main_v1)) (W (Proc.devRef .tc main_v3)) (ewRow2 (W (Proc.devRef .tc main_arg2)))
          (W (Proc.devRef .tc main_arg9)) (W (Proc.devRef .tc main_arg10)) (W (Proc.devRef .tc main_arg11)) (W (Proc.devRef .tc main_arg12)) (W (Proc.devRef .tc main_arg13)) (W (Proc.devRef .tc main_arg14)) := by
  simp only [segB2]
  after_results_simp
  rfl
/-- Community 3's second layer. -/
theorem segB3_val (W : Valuation τ sig (Elt F)) :
    after segB3 W (no_index (Proc.devRef .tc main_v363))
      = layer1 (W (Proc.devRef .tc main_v318)) (W (Proc.devRef .tc main_v1)) (W (Proc.devRef .tc main_v3)) (ewRow3 (W (Proc.devRef .tc main_arg2)))
          (W (Proc.devRef .tc main_arg9)) (W (Proc.devRef .tc main_arg10)) (W (Proc.devRef .tc main_arg11)) (W (Proc.devRef .tc main_arg12)) (W (Proc.devRef .tc main_arg13)) (W (Proc.devRef .tc main_arg14)) := by
  simp only [segB3]
  after_results_simp
  rfl

/-- The last piece: the encoded input, the first-layer outputs side by side, the second-layer outputs side by side,
    stacked. -/
theorem segTail_val (W : Valuation τ sig (Elt F)) :
    after segTail W (no_index (Proc.devRef .tc main_v373))
      = stack3 (enc (W (Proc.devRef .tc main_arg0)) (W (Proc.devRef .tc main_arg15)) (W (Proc.devRef .tc main_arg16)))
          (cat4 (W (Proc.devRef .tc main_v48)) (W (Proc.devRef .tc main_v138)) (W (Proc.devRef .tc main_v228)) (W (Proc.devRef .tc main_v318)))
          (cat4 (W (Proc.devRef .tc main_v93)) (W (Proc.devRef .tc main_v183)) (W (Proc.devRef .tc main_v273)) (W (Proc.devRef .tc main_v363))) := by
  simp only [segTail]
  after_results_simp
  rfl

/-! ## The composition -/

set_option maxHeartbeats 1600000 in
/-- From any buffer contents `V`, the 630 operations leave in the result buffer the named composition of what `V`
    holds in the seventeen argument buffers. Read from the last piece back: each buffer a piece reads is either the
    named output of the one earlier piece that writes it or, passed unchanged through every piece between, an
    argument. -/
theorem value (V : Valuation τ sig (Elt F)) :
    after ops V (Proc.devRef .tc main_v373)
      = result (V (Proc.devRef .tc main_arg0)) (V (Proc.devRef .tc main_arg1)) (V (Proc.devRef .tc main_arg2))
          (V (Proc.devRef .tc main_arg3)) (V (Proc.devRef .tc main_arg4)) (V (Proc.devRef .tc main_arg5))
          (V (Proc.devRef .tc main_arg6)) (V (Proc.devRef .tc main_arg7)) (V (Proc.devRef .tc main_arg8))
          (V (Proc.devRef .tc main_arg9)) (V (Proc.devRef .tc main_arg10)) (V (Proc.devRef .tc main_arg11))
          (V (Proc.devRef .tc main_arg12)) (V (Proc.devRef .tc main_arg13)) (V (Proc.devRef .tc main_arg14))
          (V (Proc.devRef .tc main_arg15)) (V (Proc.devRef .tc main_arg16)) := by
  rw [ops_eq_segs]
  simp only [after_append]
  simp (disch := decide) only [segTail_val, segB3_val, segA3_val, segB2_val, segA2_val, segB1_val, segA1_val, segB0_val,
    segA0_val, segPre_v1, segPre_v3, segB3_keep, segA3_keep, segB2_keep, segA2_keep, segB1_keep, segA1_keep, segB0_keep,
    segA0_keep, segPre_keep]
  rfl

/-! ## The run, with the result named -/

/-- On every device, for any float values, from any memory with zero counters: every weakly fair execution of @main
    terminates with the result buffer holding `result` of the seventeen arguments as launched, and the arguments
    unchanged. -/
theorem run_result (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v373)
          = result (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
              (m ((c.tc : Thread nD τ).loc main_arg6)) (m ((c.tc : Thread nD τ).loc main_arg7)) (m ((c.tc : Thread nD τ).loc main_arg8))
              (m ((c.tc : Thread nD τ).loc main_arg9)) (m ((c.tc : Thread nD τ).loc main_arg10)) (m ((c.tc : Thread nD τ).loc main_arg11))
              (m ((c.tc : Thread nD τ).loc main_arg12)) (m ((c.tc : Thread nD τ).loc main_arg13)) (m ((c.tc : Thread nD τ).loc main_arg14))
              (m ((c.tc : Thread nD τ).loc main_arg15)) (m ((c.tc : Thread nD τ).loc main_arg16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun _ h c => ⟨(h c).1.trans (value (launchContents m c)), (h c).2⟩) (run m ρ)

end Cert.ReferenceIdeal.Hand

end
-- ==== Proof.Ref.Apply.lean ====
/-
  The reference's named value functions read at one index, on the extended reals. The encoder's entry (n, j) is row n of
  x against column j of W plus the bias; the two dense maps with a ReLU between them; a column's mean and variance over
  the 50000 nodes; the normalised, scaled, shifted and rectified column; one GIN layer as the composition of these over
  "features plus neighbourhood sum" (the neighbourhood sum itself is never opened); four 50000 x 32 arrays side by side
  (column 32 k + c of the result is column c of the k-th); three 50000 x 128 arrays stacked (layer s of the result is the
  s-th). Each right-hand side is the program-free function of Br/Spec.lean over curried coordinate functions.

  The steps: a vector laid along the rows reads its entry at the column (two broadcasts, each read at an index); a scalar
  spread over a shape reads the scalar; a product x · W with one contracted axis is the sum over that axis's coordinate
  of the products of the entries; a sum down a column is the initial value plus the sum over the row coordinate; a
  concatenation read at an index is the piece whose span holds the coordinate on the joined axis.
-/
import proofs.«176190_j13365938225806_1_alg».proof.Proof.Ref.Defs
import proofs.«176190_j13365938225806_1_alg».proof.Proof.Br.Spec
import Idealize.ShloMosaic.Lib.ValueIdx
import Idealize.ShloMosaic.Lib.Pipeline.Value
import Idealize.ShloMosaic.Lib.ValueLayout
import Idealize.ShloMosaic.Lib.StackMember
import Idealize.ShloMosaic.PureOps.Ideal.Laws

noncomputable section

open scoped BigOperators

namespace Cert.ReferenceIdeal.Hand

open Idealize.ShloMosaic Idealize.SL.Sem Idealize.ShloMosaic.ValueIdx
open Cert.ReferenceIdeal Cert.ReferenceIdeal.Gen

/-! ## Broadcasts, selects, quotients and products read at an index -/

section Tools
variable {α : Type}

/-- A one-row matrix made of a vector: entry (0, c) is the vector's entry c. -/
theorem row1_apply {C : Nat} (hC : C ≠ 1) (h1 : (⟨1, ![C]⟩ : Shape).BroadcastsInDim ⟨2, ![1, C]⟩ ![1])
    (v : (⟨1, ![C]⟩ : Shape).Idx → α) (c : Fin C) :
    broadcastInDim ⟨2, ![1, C]⟩ ![1] h1 v (ix2 (⟨0, Nat.one_pos⟩ : Fin 1) c) = v (ix1 c) :=
  broadcastInDim_apply _ h1 v _ (ix1 c) fun a => match a with
    | ⟨0, _⟩ => (if_neg hC).symm

/-- A one-row matrix repeated down the rows: entry (n, c) is the row's entry c. -/
theorem rowsOf_apply {R C : Nat} (hC : C ≠ 1) (h2 : (⟨2, ![1, C]⟩ : Shape).BroadcastsInDim ⟨2, ![R, C]⟩ ![0, 1])
    (u : (⟨2, ![1, C]⟩ : Shape).Idx → α) (n : Fin R) (c : Fin C) :
    broadcastInDim ⟨2, ![R, C]⟩ ![0, 1] h2 u (ix2 n c) = u (ix2 (⟨0, Nat.one_pos⟩ : Fin 1) c) :=
  broadcastInDim_apply _ h2 u (ix2 n c) (ix2 (⟨0, Nat.one_pos⟩ : Fin 1) c) fun a => match a with
    | ⟨0, _⟩ => (if_pos rfl).symm
    | ⟨1, _⟩ => (if_neg hC).symm

/-- A vector laid along every row of a matrix (first as a one-row matrix, then the row repeated): entry (n, c) is the
    vector's entry c. -/
theorem rows_apply {R C : Nat} (hC : C ≠ 1)
    (h1 : (⟨1, ![C]⟩ : Shape).BroadcastsInDim ⟨2, ![1, C]⟩ ![1])
    (h2 : (⟨2, ![1, C]⟩ : Shape).BroadcastsInDim ⟨2, ![R, C]⟩ ![0, 1])
    (v : (⟨1, ![C]⟩ : Shape).Idx → α) (n : Fin R) (c : Fin C) :
    broadcastInDim ⟨2, ![R, C]⟩ ![0, 1] h2 (broadcastInDim ⟨2, ![1, C]⟩ ![1] h1 v) (ix2 n c) = v (ix1 c) :=
  (rowsOf_apply hC h2 _ n c).trans (row1_apply hC h1 v c)

/-- A scalar spread over a shape reads the scalar everywhere. -/
theorem splat_apply {t : Shape} (h : S_.BroadcastsInDim t (![] : Fin 0 → Fin t.rank)) (v : S_.Idx → α) (j : t.Idx) :
    broadcastInDim t ![] h v j = v ix0 :=
  broadcastInDim_apply _ h v j ix0 fun a => a.elim0

/-- A select between equal conditions and equal branches. -/
theorem select_congr {c c' : BitVec 1} {a a' b b' : α} (hc : c = c') (ha : a = a') (hb : b = b') :
    Scalar.select c a b = Scalar.select c' a' b' := by subst hc ha hb; rfl

end Tools

/-- The host's quotient at an index is the extended reals' guarded quotient of the entries. -/
theorem hostDivf_apply {s : Shape} (a b : FVec Ideal s .f32) (i : s.Idx) : Host.divf a b i = Ideal.div (a i) (b i) := rfl
/-- The host's reciprocal square root at an index is that of the entry. -/
theorem hostRsqrt_apply {s : Shape} (a : FVec Ideal s .f32) (i : s.Idx) : Host.rsqrt a i = Ideal.rsqrt (a i) := rfl

/-- The product of an m × k by a k × n matrix, contracting the left operand's columns with the right operand's rows,
    read at an entry: the sum over the contracted coordinate of the products of the entries. -/
theorem dot_apply {m k n : Nat} (D : DotDims ⟨2, ![m, k]⟩ ⟨2, ![k, n]⟩ ⟨2, ![m, n]⟩) (hD : D = DotDims.plain m k n)
    (A : FVec Ideal ⟨2, ![m, k]⟩ .f32) (B : FVec Ideal ⟨2, ![k, n]⟩ .f32) (a : Fin m) (b : Fin n) :
    Host.dotGeneral D none A B (ix2 a b) = ∑ c : Fin k, A (ix2 a c) * B (ix2 c b) := by
  subst hD
  exact StackMember.dotGeneral_plain_apply none A B a b

/-! ## The encoder and the dense maps -/

/-- Entry (n, j) of the encoder: row n of x against column j of W, plus the bias. -/
theorem enc_apply (x : FV (F := Ideal) S50000x128) (W : FV (F := Ideal) S128x128) (b : FV (F := Ideal) S128)
    (n : Fin 50000) (j : Fin 128) :
    enc (F := Ideal) x W b (ix2 n j)
      = Cert.Spec.enc (fun n q => x (ix2 n q)) (fun q j => W (ix2 q j)) (fun j => b (ix1 j)) n j := by
  unfold enc Cert.Spec.enc
  rw [addf_apply]
  exact congrArg₂ (· + ·) (dot_apply _ rfl x W n j) (rows_apply (by decide) _ _ b n j)

/-- A 32-vector laid along the rows, at (n, c). -/
theorem rows32_apply (v : FV (F := Ideal) S32) (n : Fin 50000) (c : Fin 32) : rows32 (F := Ideal) v (ix2 n c) = v (ix1 c) :=
  rows_apply (by decide) _ _ v n c

/-- ReLU at an index: the larger of the entry and zero. -/
theorem relu32_apply (z : FV (F := Ideal) S50000x32) (i : S50000x32.Idx) :
    relu32 (F := Ideal) z i = max (z i) Cert.Spec.zeroW := by
  unfold relu32
  rw [maximumf_apply]
  exact congrArg (max (z i)) (splat_apply _ _ i)

/-- Entry (n, c) of the first layer's two dense maps (128 → 32 → 32) with a ReLU between them. -/
theorem mlp128_apply (z : FV (F := Ideal) S50000x128) (W1 : FV (F := Ideal) S128x32) (b1 : FV (F := Ideal) S32)
    (W2 : FV (F := Ideal) S32x32) (b2 : FV (F := Ideal) S32) (n : Fin 50000) (c : Fin 32) :
    mlp128 (F := Ideal) z W1 b1 W2 b2 (ix2 n c)
      = Cert.Spec.mlp (K := 128) (fun n q => z (ix2 n q)) (fun q j => W1 (ix2 q j)) (fun j => b1 (ix1 j))
          (fun j c => W2 (ix2 j c)) (fun c => b2 (ix1 c)) n c := by
  unfold mlp128 Cert.Spec.mlp
  rw [addf_apply, rows32_apply, dot_apply dot_S50000x32_S32x32_S50000x32_1_0_0_1_n_n rfl]
  refine congrArg (· + b2 (ix1 c)) (Finset.sum_congr rfl fun j _ => ?_)
  rw [relu32_apply, addf_apply, rows32_apply, dot_apply dot_S50000x128_S128x32_S50000x32_1_0_0_1_n_n rfl]

/-- Entry (n, c) of the second layer's two dense maps (32 → 32 → 32). -/
theorem mlp32_apply (z : FV (F := Ideal) S50000x32) (W1 : FV (F := Ideal) S32x32) (b1 : FV (F := Ideal) S32)
    (W2 : FV (F := Ideal) S32x32) (b2 : FV (F := Ideal) S32) (n : Fin 50000) (c : Fin 32) :
    mlp32 (F := Ideal) z W1 b1 W2 b2 (ix2 n c)
      = Cert.Spec.mlp (K := 32) (fun n q => z (ix2 n q)) (fun q j => W1 (ix2 q j)) (fun j => b1 (ix1 j))
          (fun j c => W2 (ix2 j c)) (fun c => b2 (ix1 c)) n c := by
  unfold mlp32 Cert.Spec.mlp
  rw [addf_apply, rows32_apply, dot_apply dot_S50000x32_S32x32_S50000x32_1_0_0_1_n_n rfl]
  refine congrArg (· + b2 (ix1 c)) (Finset.sum_congr rfl fun j _ => ?_)
  rw [relu32_apply, addf_apply, rows32_apply, dot_apply dot_S50000x32_S32x32_S50000x32_1_0_0_1_n_n rfl]

/-! ## The batch statistics and the normalisation -/

/-- The sum down column c of a 50000 x 32 array, from the zero word: zero plus the sum over the nodes. -/
theorem colSum_apply (z : FV (F := Ideal) S50000x32) (c : Fin 32) :
    Host.reduceAdd (F := Ideal) z (constant (F := Ideal) S_ .f32 0x00000000#32) reducesTo_S50000x32_S32_d0 h_S_ (ix1 c)
      = Cert.Spec.zeroW + ∑ n : Fin 50000, z (ix2 n c) := by
  have h : S50000x32.Reduces [0] S32 := ⟨reducesTo_S50000x32_S32_d0.1, Nat.one_pos, reducesTo_S50000x32_S32_d0.2⟩
  show Ideal.hostReduceAdd reducesTo_S50000x32_S32_d0 z _ (ix1 c) = _
  rw [Ideal.hostReduceAdd_single _ h]
  refine congrArg₂ (· + ·) rfl (Finset.sum_congr rfl fun k _ => congrArg z (funext fun a => Fin.ext ?_))
  match a with
  | ⟨0, _⟩ => rfl
  | ⟨1, _⟩ => rfl

/-- Column c's mean over the nodes. -/
theorem mean32_apply (z : FV (F := Ideal) S50000x32) (c : Fin 32) :
    mean32 (F := Ideal) z (ix1 c) = Cert.Spec.mean (fun n => z (ix2 n c)) := by
  unfold mean32 Cert.Spec.mean
  exact (hostDivf_apply _ _ _).trans (congrArg₂ Ideal.div (colSum_apply z c) (splat_apply _ _ _))

/-- The column means as the variance's chain spells them (a one-row matrix of the sums, over the node count), at (0, c). -/
theorem mu1_apply (z : FV (F := Ideal) S50000x32) (c : Fin 32) :
    Host.divf (F := Ideal)
      (broadcastInDim S1x32 ![1] bcast_S32_S1x32_1
        (Host.reduceAdd (F := Ideal) z (constant (F := Ideal) S_ .f32 0x00000000#32) reducesTo_S50000x32_S32_d0 h_S_))
      (broadcastInDim S1x32 ![] bcast_S_S1x32 (constant (F := Ideal) S_ .f32 0x47435000#32))
      (ix2 (⟨0, Nat.one_pos⟩ : Fin 1) c)
      = Cert.Spec.mean (fun n => z (ix2 n c)) := by
  unfold Cert.Spec.mean
  exact (hostDivf_apply _ _ _).trans
    (congrArg₂ Ideal.div ((row1_apply (by decide) _ _ c).trans (colSum_apply z c)) (splat_apply _ _ _))

/-- Column c's variance over the nodes: where the divisor (the node count less the correction) is positive, the sum of
    the squared deviations from the column's mean over that divisor; elsewhere the filler. -/
theorem var32_apply (z : FV (F := Ideal) S50000x32) (ddof : IV (F := Ideal) S_) (c : Fin 32) :
    var32 (F := Ideal) z ddof (ix1 c) = Cert.Spec.var (fun n => z (ix2 n c)) (ddof ix0) := by
  unfold var32 Cert.Spec.var
  dsimp only
  rw [select_apply]
  refine select_congr ?_ ?_ ?_
  · exact splat_apply _ _ _
  · refine (hostDivf_apply _ _ _).trans (congrArg₂ Ideal.div ?_ (splat_apply _ _ _))
    refine (colSum_apply _ c).trans (congrArg₂ (· + ·) rfl (Finset.sum_congr rfl fun n _ => ?_))
    rw [mulf_apply, subf_apply, rowsOf_apply (C := 32) (by decide), mu1_apply]
  · exact splat_apply _ _ _

/-- Entry (n, c) of the normalised, scaled, shifted and rectified array: column c's deviation from its mean at node n,
    times the reciprocal root of the column's variance plus ε, times γ, plus β, then ReLU. -/
theorem bnRelu_apply (z : FV (F := Ideal) S50000x32) (g be : FV (F := Ideal) S32) (n : Fin 50000) (c : Fin 32) :
    bnRelu (F := Ideal) z g be (ix2 n c) = Cert.Spec.bn (fun n => z (ix2 n c)) (g (ix1 c)) (be (ix1 c)) n := by
  unfold bnRelu Cert.Spec.bn
  rw [relu32_apply, addf_apply, mulf_apply, mulf_apply, subf_apply, rows32_apply, rows32_apply, rows32_apply, rows32_apply,
    hostRsqrt_apply, addf_apply, mean32_apply, var32_apply, splat_apply]
  rfl

/-! ## One GIN layer: the statistics of the dense maps of "features plus neighbourhood sum" -/

/-- Entry (n, c) of one community's first layer. The neighbourhood sum stays a named array. -/
theorem layer0_apply (x : FV (F := Ideal) S50000x128) (src dst : IV (F := Ideal) S800000) (w : FV (F := Ideal) S800000)
    (W1 : FV (F := Ideal) S128x32) (b1 : FV (F := Ideal) S32) (W2 : FV (F := Ideal) S32x32) (b2 g be : FV (F := Ideal) S32)
    (n : Fin 50000) (c : Fin 32) :
    layer0 (F := Ideal) x src dst w W1 b1 W2 b2 g be (ix2 n c)
      = Cert.Spec.bn (fun n => Cert.Spec.mlp (K := 128) (fun n q => x (ix2 n q) + agg128 (F := Ideal) x src dst w (ix2 n q))
          (fun q j => W1 (ix2 q j)) (fun j => b1 (ix1 j)) (fun j c => W2 (ix2 j c)) (fun c => b2 (ix1 c)) n c)
          (g (ix1 c)) (be (ix1 c)) n := by
  unfold layer0
  rw [bnRelu_apply]
  refine congrArg (fun f => Cert.Spec.bn f (g (ix1 c)) (be (ix1 c)) n) (funext fun n' => ?_)
  exact mlp128_apply _ W1 b1 W2 b2 n' c

/-- Entry (n, c) of one community's second layer. -/
theorem layer1_apply (h : FV (F := Ideal) S50000x32) (src dst : IV (F := Ideal) S800000) (w : FV (F := Ideal) S800000)
    (W1 : FV (F := Ideal) S32x32) (b1 : FV (F := Ideal) S32) (W2 : FV (F := Ideal) S32x32) (b2 g be : FV (F := Ideal) S32)
    (n : Fin 50000) (c : Fin 32) :
    layer1 (F := Ideal) h src dst w W1 b1 W2 b2 g be (ix2 n c)
      = Cert.Spec.bn (fun n => Cert.Spec.mlp (K := 32) (fun n q => h (ix2 n q) + agg32 (F := Ideal) h src dst w (ix2 n q))
          (fun q j => W1 (ix2 q j)) (fun j => b1 (ix1 j)) (fun j c => W2 (ix2 j c)) (fun c => b2 (ix1 c)) n c)
          (g (ix1 c)) (be (ix1 c)) n := by
  unfold layer1
  rw [bnRelu_apply]
  refine congrArg (fun f => Cert.Spec.bn f (g (ix1 c)) (be (ix1 c)) n) (funext fun n' => ?_)
  exact mlp32_apply _ W1 b1 W2 b2 n' c

/-! ## Four arrays side by side, three arrays stacked -/

/-- Of four 50000 x 32 arrays side by side, columns 0 … 31 are the first array's. -/
theorem cat4_apply0 (a0 a1 a2 a3 : FV (F := Ideal) S50000x32) (n : Fin 50000) (c : Fin 32) (j : Fin 128)
    (hj : j.val = c.val) : cat4 (F := Ideal) a0 a1 a2 a3 (ix2 n j) = a0 (ix2 n c) := by
  unfold cat4
  refine concatenate_apply_piece (1 : Fin 2) _ _ (ix2 n j) 0 ?_ S50000x32 a0 ?_ rfl 0 ?_ (ix2 n c)
    (fun b hb => ?_) ?_
  · exact (by decide : (0 : ℕ) < 4)
  · rfl
  · rfl
  · match b with
    | ⟨0, _⟩ => rfl
    | ⟨1, _⟩ => exact absurd rfl hb
  · show 0 + c.val = j.val
    omega

/-- Columns 32 … 63 are the second array's. -/
theorem cat4_apply1 (a0 a1 a2 a3 : FV (F := Ideal) S50000x32) (n : Fin 50000) (c : Fin 32) (j : Fin 128)
    (hj : j.val = 32 + c.val) : cat4 (F := Ideal) a0 a1 a2 a3 (ix2 n j) = a1 (ix2 n c) := by
  unfold cat4
  refine concatenate_apply_piece (1 : Fin 2) _ _ (ix2 n j) 1 ?_ S50000x32 a1 ?_ rfl 32 ?_ (ix2 n c)
    (fun b hb => ?_) ?_
  · exact (by decide : (1 : ℕ) < 4)
  · rfl
  · rfl
  · match b with
    | ⟨0, _⟩ => rfl
    | ⟨1, _⟩ => exact absurd rfl hb
  · show 32 + c.val = j.val
    omega

/-- Columns 64 … 95 are the third array's. -/
theorem cat4_apply2 (a0 a1 a2 a3 : FV (F := Ideal) S50000x32) (n : Fin 50000) (c : Fin 32) (j : Fin 128)
    (hj : j.val = 64 + c.val) : cat4 (F := Ideal) a0 a1 a2 a3 (ix2 n j) = a2 (ix2 n c) := by
  unfold cat4
  refine concatenate_apply_piece (1 : Fin 2) _ _ (ix2 n j) 2 ?_ S50000x32 a2 ?_ rfl 64 ?_ (ix2 n c)
    (fun b hb => ?_) ?_
  · exact (by decide : (2 : ℕ) < 4)
  · rfl
  · rfl
  · match b with
    | ⟨0, _⟩ => rfl
    | ⟨1, _⟩ => exact absurd rfl hb
  · show 64 + c.val = j.val
    omega

/-- Columns 96 … 127 are the fourth array's. -/
theorem cat4_apply3 (a0 a1 a2 a3 : FV (F := Ideal) S50000x32) (n : Fin 50000) (c : Fin 32) (j : Fin 128)
    (hj : j.val = 96 + c.val) : cat4 (F := Ideal) a0 a1 a2 a3 (ix2 n j) = a3 (ix2 n c) := by
  unfold cat4
  refine concatenate_apply_piece (1 : Fin 2) _ _ (ix2 n j) 3 ?_ S50000x32 a3 ?_ rfl 96 ?_ (ix2 n c)
    (fun b hb => ?_) ?_
  · exact (by decide : (3 : ℕ) < 4)
  · rfl
  · rfl
  · match b with
    | ⟨0, _⟩ => rfl
    | ⟨1, _⟩ => exact absurd rfl hb
  · show 96 + c.val = j.val
    omega

/-- Column 32 k + c of the four arrays side by side is column c of the k-th. -/
theorem cat4_apply (a0 a1 a2 a3 : FV (F := Ideal) S50000x32) (n : Fin 50000) (k : Fin 4) (c : Fin 32) (j : Fin 128)
    (hj : j.val = 32 * k.val + c.val) :
    cat4 (F := Ideal) a0 a1 a2 a3 (ix2 n j) = (![a0, a1, a2, a3] k) (ix2 n c) := by
  match k, hj with
  | ⟨0, _⟩, hj => exact cat4_apply0 a0 a1 a2 a3 n c j (by have h : j.val = 32 * 0 + c.val := hj; omega)
  | ⟨1, _⟩, hj => exact cat4_apply1 a0 a1 a2 a3 n c j (by have h : j.val = 32 * 1 + c.val := hj; omega)
  | ⟨2, _⟩, hj => exact cat4_apply2 a0 a1 a2 a3 n c j (by have h : j.val = 32 * 2 + c.val := hj; omega)
  | ⟨3, _⟩, hj => exact cat4_apply3 a0 a1 a2 a3 n c j (by have h : j.val = 32 * 3 + c.val := hj; omega)

/-- An array given a leading axis of length one: entry (0, n, j) is the array's entry (n, j). -/
theorem lead1_apply (a : FV (F := Ideal) S50000x128) (n : Fin 50000) (j : Fin 128) :
    broadcastInDim S1x50000x128 ![1, 2] bcast_S50000x128_S1x50000x128_1_2 a (ix3 (⟨0, Nat.one_pos⟩ : Fin 1) n j) = a (ix2 n j) :=
  broadcastInDim_apply _ _ a _ (ix2 n j) fun b => match b with
    | ⟨0, _⟩ => (if_neg (by decide : (50000 : ℕ) ≠ 1)).symm
    | ⟨1, _⟩ => (if_neg (by decide : (128 : ℕ) ≠ 1)).symm

/-- Of three 50000 x 128 arrays stacked on a new leading axis, layer 0 is the first array. -/
theorem stack3_apply0 (a0 a1 a2 : FV (F := Ideal) S50000x128) (n : Fin 50000) (j : Fin 128) :
    stack3 (F := Ideal) a0 a1 a2 (ix3 (0 : Fin 3) n j) = a0 (ix2 n j) := by
  unfold stack3
  refine (concatenate_apply_piece (0 : Fin 3) _ _ (ix3 (0 : Fin 3) n j) 0 ?_ S1x50000x128 _ ?_ rfl 0 ?_
    (ix3 (⟨0, Nat.one_pos⟩ : Fin 1) n j) (fun b hb => ?_) ?_).trans (lead1_apply a0 n j)
  · exact (by decide : (0 : ℕ) < 3)
  · rfl
  · rfl
  · match b with
    | ⟨0, _⟩ => exact absurd rfl hb
    | ⟨1, _⟩ => rfl
    | ⟨2, _⟩ => rfl
  · rfl

/-- Layer 1 is the second array. -/
theorem stack3_apply1 (a0 a1 a2 : FV (F := Ideal) S50000x128) (n : Fin 50000) (j : Fin 128) :
    stack3 (F := Ideal) a0 a1 a2 (ix3 (1 : Fin 3) n j) = a1 (ix2 n j) := by
  unfold stack3
  refine (concatenate_apply_piece (0 : Fin 3) _ _ (ix3 (1 : Fin 3) n j) 1 ?_ S1x50000x128 _ ?_ rfl 1 ?_
    (ix3 (⟨0, Nat.one_pos⟩ : Fin 1) n j) (fun b hb => ?_) ?_).trans (lead1_apply a1 n j)
  · exact (by decide : (1 : ℕ) < 3)
  · rfl
  · rfl
  · match b with
    | ⟨0, _⟩ => exact absurd rfl hb
    | ⟨1, _⟩ => rfl
    | ⟨2, _⟩ => rfl
  · rfl

/-- Layer 2 is the third array. -/
theorem stack3_apply2 (a0 a1 a2 : FV (F := Ideal) S50000x128) (n : Fin 50000) (j : Fin 128) :
    stack3 (F := Ideal) a0 a1 a2 (ix3 (2 : Fin 3) n j) = a2 (ix2 n j) := by
  unfold stack3
  refine (concatenate_apply_piece (0 : Fin 3) _ _ (ix3 (2 : Fin 3) n j) 2 ?_ S1x50000x128 _ ?_ rfl 2 ?_
    (ix3 (⟨0, Nat.one_pos⟩ : Fin 1) n j) (fun b hb => ?_) ?_).trans (lead1_apply a2 n j)
  · exact (by decide : (2 : ℕ) < 3)
  · rfl
  · rfl
  · match b with
    | ⟨0, _⟩ => exact absurd rfl hb
    | ⟨1, _⟩ => rfl
    | ⟨2, _⟩ => rfl
  · rfl

/-- Layer s of the stack is the s-th array. -/
theorem stack3_apply (a0 a1 a2 : FV (F := Ideal) S50000x128) (s : Fin 3) (n : Fin 50000) (j : Fin 128) :
    stack3 (F := Ideal) a0 a1 a2 (ix3 s n j) = (![a0, a1, a2] s) (ix2 n j) := by
  match s with
  | ⟨0, _⟩ => exact stack3_apply0 a0 a1 a2 n j
  | ⟨1, _⟩ => exact stack3_apply1 a0 a1 a2 n j
  | ⟨2, _⟩ => exact stack3_apply2 a0 a1 a2 n j

end Cert.ReferenceIdeal.Hand

end
-- ==== Proof.Br.Algebraic.lean ====
/-
  The two idealized programs end with equal results. The kernel's result buffer and the reference's are both, entry
  by entry, the common meaning of Br/Spec.lean: slab 0 is the encoder's x · W + b; in slabs 1 and 2 the entry
  (n, 32 k + c) is community k's layer-0 and layer-1 feature (n, c), the batch-normalised dense block of the features
  plus their neighbourhood sum — the neighbourhood sums are the same gather-scale-scatter chain applied to equal
  arrays on both sides, and the layer-1 sums are taken of layer-0 features already shown equal.
-/
import proofs.«176190_j13365938225806_1_alg».proof.Defs
import proofs.«176190_j13365938225806_1_alg».proof.Proof.KI.ValueL1
import proofs.«176190_j13365938225806_1_alg».proof.Proof.Ref.Value
import proofs.«176190_j13365938225806_1_alg».proof.Proof.Ref.Apply
import proofs.«176190_j13365938225806_1_alg».proof.Proof.Gen.Pre_finite_inputs

set_option maxRecDepth 16384

noncomputable section

namespace Cert.Bridge

open Idealize.ShloMosaic Idealize.ShloMosaic.TcCoe Idealize.ShloMosaic.ValueIdx
open Idealize.SL Idealize.SL.Sem

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)

/-- The kernel's argument arrays, as the reference's definitions take them. -/
abbrev xA : Cert.ReferenceIdeal.Hand.FV (F := Ideal) Cert.ReferenceIdeal.S50000x128 := Cert.KernelIdeal.Hand.arg m c Cert.KernelIdeal.main_arg0
abbrev eiA : Cert.ReferenceIdeal.Hand.IV (F := Ideal) Cert.ReferenceIdeal.S2x800000 := Cert.KernelIdeal.Hand.arg m c Cert.KernelIdeal.main_arg1
abbrev ewA : Cert.ReferenceIdeal.Hand.FV (F := Ideal) Cert.ReferenceIdeal.S4x800000 := Cert.KernelIdeal.Hand.arg m c Cert.KernelIdeal.main_arg2

/-- Community k's edge-weight row. -/
def ewK (k : Fin 4) : Cert.ReferenceIdeal.Hand.FV (F := Ideal) Cert.ReferenceIdeal.S800000 :=
  ![Cert.ReferenceIdeal.Hand.ewRow0 (ewA m c), Cert.ReferenceIdeal.Hand.ewRow1 (ewA m c),
    Cert.ReferenceIdeal.Hand.ewRow2 (ewA m c), Cert.ReferenceIdeal.Hand.ewRow3 (ewA m c)] k

/-- The reference's first layer of community k, at the kernel's arguments. -/
def l0R (k : Fin 4) : Cert.ReferenceIdeal.Hand.FV (F := Ideal) Cert.ReferenceIdeal.S50000x32 :=
  Cert.ReferenceIdeal.Hand.layer0 (xA m c) (Cert.ReferenceIdeal.Hand.edgeRow0 (eiA m c)) (Cert.ReferenceIdeal.Hand.edgeRow1 (eiA m c)) (ewK m c k)
    (Cert.KernelIdeal.Hand.arg m c Cert.KernelIdeal.main_arg3) (Cert.KernelIdeal.Hand.arg m c Cert.KernelIdeal.main_arg4)
    (Cert.KernelIdeal.Hand.arg m c Cert.KernelIdeal.main_arg5) (Cert.KernelIdeal.Hand.arg m c Cert.KernelIdeal.main_arg6)
    (Cert.KernelIdeal.Hand.arg m c Cert.KernelIdeal.main_arg7) (Cert.KernelIdeal.Hand.arg m c Cert.KernelIdeal.main_arg8)

/-- and its second layer. -/
def l1R (k : Fin 4) : Cert.ReferenceIdeal.Hand.FV (F := Ideal) Cert.ReferenceIdeal.S50000x32 :=
  Cert.ReferenceIdeal.Hand.layer1 (l0R m c k) (Cert.ReferenceIdeal.Hand.edgeRow0 (eiA m c)) (Cert.ReferenceIdeal.Hand.edgeRow1 (eiA m c)) (ewK m c k)
    (Cert.KernelIdeal.Hand.arg m c Cert.KernelIdeal.main_arg9) (Cert.KernelIdeal.Hand.arg m c Cert.KernelIdeal.main_arg10)
    (Cert.KernelIdeal.Hand.arg m c Cert.KernelIdeal.main_arg11) (Cert.KernelIdeal.Hand.arg m c Cert.KernelIdeal.main_arg12)
    (Cert.KernelIdeal.Hand.arg m c Cert.KernelIdeal.main_arg13) (Cert.KernelIdeal.Hand.arg m c Cert.KernelIdeal.main_arg14)

/-- The kernel's neighbourhood sums of the input features are the reference's: one chain of operations on one set of
    arrays. -/
theorem aggr0_eq (k : Fin 4) : Cert.KernelIdeal.Hand.aggr0 m c k
    = Cert.ReferenceIdeal.Hand.agg128 (xA m c) (Cert.ReferenceIdeal.Hand.edgeRow0 (eiA m c)) (Cert.ReferenceIdeal.Hand.edgeRow1 (eiA m c)) (ewK m c k) := by
  match k with
  | ⟨0, _⟩ => rfl
  | ⟨1, _⟩ => rfl
  | ⟨2, _⟩ => rfl
  | ⟨3, _⟩ => rfl

/-- Layer 0: the reference's feature (n, c) of community k is the kernel's. -/
theorem l0_eq (k : Fin 4) (n : Fin 50000) (c' : Fin 32) : l0R m c k (ix2 n c') = Cert.KernelIdeal.Hand.feat0 m c k c' n := by
  unfold l0R
  rw [Cert.ReferenceIdeal.Hand.layer0_apply]
  unfold Cert.KernelIdeal.Hand.feat0 Cert.KernelIdeal.Hand.pre0
  rw [aggr0_eq]

/-- So community k's slab of the kernel's layer-0 features is the reference's layer-0 array. -/
theorem com_eq (k : Fin 4) :
    (![Cert.KernelIdeal.Hand.com0 (Cert.KernelIdeal.Hand.H0 m ρ c), Cert.KernelIdeal.Hand.com1 (Cert.KernelIdeal.Hand.H0 m ρ c),
       Cert.KernelIdeal.Hand.com2 (Cert.KernelIdeal.Hand.H0 m ρ c), Cert.KernelIdeal.Hand.com3 (Cert.KernelIdeal.Hand.H0 m ρ c)] k
      : Cert.ReferenceIdeal.Hand.FV (F := Ideal) Cert.ReferenceIdeal.S50000x32) = l0R m c k := by
  funext i
  obtain ⟨n, c', rfl⟩ : ∃ (n : Fin 50000) (c' : Fin 32), i = ix2 n c' := ⟨i 0, i 1, eq_ix2 i⟩
  rw [l0_eq]
  match k with
  | ⟨0, _⟩ => exact (Cert.KernelIdeal.Hand.com0_apply _ n c').trans (Cert.KernelIdeal.Hand.H0_apply m ρ c _ n c')
  | ⟨1, _⟩ => exact (Cert.KernelIdeal.Hand.com1_apply _ n c').trans (Cert.KernelIdeal.Hand.H0_apply m ρ c _ n c')
  | ⟨2, _⟩ => exact (Cert.KernelIdeal.Hand.com2_apply _ n c').trans (Cert.KernelIdeal.Hand.H0_apply m ρ c _ n c')
  | ⟨3, _⟩ => exact (Cert.KernelIdeal.Hand.com3_apply _ n c').trans (Cert.KernelIdeal.Hand.H0_apply m ρ c _ n c')

theorem aggr1_eq (k : Fin 4) : Cert.KernelIdeal.Hand.aggr1 m ρ c k
    = Cert.ReferenceIdeal.Hand.agg32 (l0R m c k) (Cert.ReferenceIdeal.Hand.edgeRow0 (eiA m c)) (Cert.ReferenceIdeal.Hand.edgeRow1 (eiA m c)) (ewK m c k) := by
  rw [← com_eq m ρ c k]
  match k with
  | ⟨0, _⟩ => rfl
  | ⟨1, _⟩ => rfl
  | ⟨2, _⟩ => rfl
  | ⟨3, _⟩ => rfl

/-- Layer 1 likewise. -/
theorem l1_eq (k : Fin 4) (n : Fin 50000) (c' : Fin 32) : l1R m c k (ix2 n c') = Cert.KernelIdeal.Hand.feat1 m ρ c k c' n := by
  unfold l1R
  rw [Cert.ReferenceIdeal.Hand.layer1_apply]
  unfold Cert.KernelIdeal.Hand.feat1 Cert.KernelIdeal.Hand.pre1
  rw [aggr1_eq]
  simp only [l0_eq]

/-- The reference's result at the kernel's arguments, with the communities' layers named. -/
theorem result_eq : Cert.ReferenceIdeal.Hand.result (F := Ideal)
      (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3))
      (m ((c : Thread Cert.KernelIdeal.nD Cert.KernelIdeal.τ).loc Cert.KernelIdeal.main_arg4))
      (m ((c : Thread Cert.KernelIdeal.nD Cert.KernelIdeal.τ).loc Cert.KernelIdeal.main_arg5))
      (m ((c : Thread Cert.KernelIdeal.nD Cert.KernelIdeal.τ).loc Cert.KernelIdeal.main_arg6))
      (m ((c : Thread Cert.KernelIdeal.nD Cert.KernelIdeal.τ).loc Cert.KernelIdeal.main_arg7))
      (m ((c : Thread Cert.KernelIdeal.nD Cert.KernelIdeal.τ).loc Cert.KernelIdeal.main_arg8))
      (m ((c : Thread Cert.KernelIdeal.nD Cert.KernelIdeal.τ).loc Cert.KernelIdeal.main_arg9))
      (m ((c : Thread Cert.KernelIdeal.nD Cert.KernelIdeal.τ).loc Cert.KernelIdeal.main_arg10))
      (m ((c : Thread Cert.KernelIdeal.nD Cert.KernelIdeal.τ).loc Cert.KernelIdeal.main_arg11))
      (m ((c : Thread Cert.KernelIdeal.nD Cert.KernelIdeal.τ).loc Cert.KernelIdeal.main_arg12))
      (m ((c : Thread Cert.KernelIdeal.nD Cert.KernelIdeal.τ).loc Cert.KernelIdeal.main_arg13))
      (m ((c : Thread Cert.KernelIdeal.nD Cert.KernelIdeal.τ).loc Cert.KernelIdeal.main_arg14))
      (m ((c : Thread Cert.KernelIdeal.nD Cert.KernelIdeal.τ).loc Cert.KernelIdeal.main_arg15))
      (m ((c : Thread Cert.KernelIdeal.nD Cert.KernelIdeal.τ).loc Cert.KernelIdeal.main_arg16))
    = Cert.ReferenceIdeal.Hand.stack3
        (Cert.ReferenceIdeal.Hand.enc (xA m c) (Cert.KernelIdeal.Hand.arg m c Cert.KernelIdeal.main_arg15) (Cert.KernelIdeal.Hand.arg m c Cert.KernelIdeal.main_arg16))
        (Cert.ReferenceIdeal.Hand.cat4 (l0R m c 0) (l0R m c 1) (l0R m c 2) (l0R m c 3))
        (Cert.ReferenceIdeal.Hand.cat4 (l1R m c 0) (l1R m c 1) (l1R m c 2) (l1R m c 3)) := rfl

/-- THE VALUES AGREE: the kernel's result buffer is the reference's result of the same arguments. -/
theorem value_eq : Cert.KernelIdeal.Hand.W23 m ρ c (Proc.devRef .tc Cert.KernelIdeal.main_v188)
    = Cert.ReferenceIdeal.Hand.result (F := Ideal)
      (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3))
      (m ((c : Thread Cert.KernelIdeal.nD Cert.KernelIdeal.τ).loc Cert.KernelIdeal.main_arg4))
      (m ((c : Thread Cert.KernelIdeal.nD Cert.KernelIdeal.τ).loc Cert.KernelIdeal.main_arg5))
      (m ((c : Thread Cert.KernelIdeal.nD Cert.KernelIdeal.τ).loc Cert.KernelIdeal.main_arg6))
      (m ((c : Thread Cert.KernelIdeal.nD Cert.KernelIdeal.τ).loc Cert.KernelIdeal.main_arg7))
      (m ((c : Thread Cert.KernelIdeal.nD Cert.KernelIdeal.τ).loc Cert.KernelIdeal.main_arg8))
      (m ((c : Thread Cert.KernelIdeal.nD Cert.KernelIdeal.τ).loc Cert.KernelIdeal.main_arg9))
      (m ((c : Thread Cert.KernelIdeal.nD Cert.KernelIdeal.τ).loc Cert.KernelIdeal.main_arg10))
      (m ((c : Thread Cert.KernelIdeal.nD Cert.KernelIdeal.τ).loc Cert.KernelIdeal.main_arg11))
      (m ((c : Thread Cert.KernelIdeal.nD Cert.KernelIdeal.τ).loc Cert.KernelIdeal.main_arg12))
      (m ((c : Thread Cert.KernelIdeal.nD Cert.KernelIdeal.τ).loc Cert.KernelIdeal.main_arg13))
      (m ((c : Thread Cert.KernelIdeal.nD Cert.KernelIdeal.τ).loc Cert.KernelIdeal.main_arg14))
      (m ((c : Thread Cert.KernelIdeal.nD Cert.KernelIdeal.τ).loc Cert.KernelIdeal.main_arg15))
      (m ((c : Thread Cert.KernelIdeal.nD Cert.KernelIdeal.τ).loc Cert.KernelIdeal.main_arg16)) := by
  rw [result_eq]
  funext i
  obtain ⟨s, n, j, rfl⟩ : ∃ (s : Fin 3) (n : Fin 50000) (j : Fin 128), i = ix3 s n j := ⟨i 0, i 1, i 2, eq_ix3 i⟩
  -- the column splits as 32 k + c
  have hk : j.val / 32 < 4 := by omega
  have hc : j.val % 32 < 32 := Nat.mod_lt _ (by decide)
  have hj : j.val = 32 * (⟨j.val / 32, hk⟩ : Fin 4).val + (⟨j.val % 32, hc⟩ : Fin 32).val := by
    show j.val = 32 * (j.val / 32) + j.val % 32; omega
  match s with
  | ⟨_ + 3, h⟩ => exact absurd h (by omega)
  | 0 =>
    rw [Cert.ReferenceIdeal.Hand.stack3_apply0, Cert.ReferenceIdeal.Hand.enc_apply]
    exact Cert.KernelIdeal.Hand.enc_value m ρ c n j
  | 1 =>
    rw [Cert.ReferenceIdeal.Hand.stack3_apply1, Cert.ReferenceIdeal.Hand.cat4_apply _ _ _ _ n ⟨j.val / 32, hk⟩ ⟨j.val % 32, hc⟩ j hj]
    refine (Cert.KernelIdeal.Hand.lay0_value m ρ c n ⟨j.val / 32, hk⟩ ⟨j.val % 32, hc⟩ j hj).trans ?_
    refine (l0_eq m c ⟨j.val / 32, hk⟩ n ⟨j.val % 32, hc⟩).symm.trans ?_
    generalize (⟨j.val / 32, hk⟩ : Fin 4) = k
    match k with
    | ⟨0, _⟩ => rfl
    | ⟨1, _⟩ => rfl
    | ⟨2, _⟩ => rfl
    | ⟨3, _⟩ => rfl
  | 2 =>
    rw [Cert.ReferenceIdeal.Hand.stack3_apply2, Cert.ReferenceIdeal.Hand.cat4_apply _ _ _ _ n ⟨j.val / 32, hk⟩ ⟨j.val % 32, hc⟩ j hj]
    refine (Cert.KernelIdeal.Hand.lay1_value m ρ c n ⟨j.val / 32, hk⟩ ⟨j.val % 32, hc⟩ j hj).trans ?_
    refine (l1_eq m ρ c ⟨j.val / 32, hk⟩ n ⟨j.val % 32, hc⟩).symm.trans ?_
    generalize (⟨j.val / 32, hk⟩ : Fin 4) = k
    match k with
    | ⟨0, _⟩ => rfl
    | ⟨1, _⟩ => rfl
    | ⟨2, _⟩ => rfl
    | ⟨3, _⟩ => rfl

/-- The algebraic claim: both programs run, and from memories that agree on the arguments they end with the same
    result on every device. -/
theorem algebraic : Cert.algebraic_KernelIdeal_ReferenceIdeal := by
  intro m ρ m' ρ' _ hagree
  refine ⟨fun c => Cert.KernelIdeal.Hand.W23 m ρ c (Proc.devRef .tc Cert.KernelIdeal.main_v188),
    Cert.KernelIdeal.Hand.run (F := Ideal) m ρ, ?_⟩
  refine (θ_run Cert.ReferenceIdeal.defs _ _).mono (fun r h c => ⟨(h c).1.trans ?_, (h c).2⟩)
    (Cert.ReferenceIdeal.Hand.run_result (F := Ideal) m' ρ')
  obtain ⟨h0, h1, h2, h3, h4, h5, h6, h7, h8, h9, h10, h11, h12, h13, h14, h15, h16⟩ := hagree c
  rw [h0, h1, h2, h3, h4, h5, h6, h7, h8, h9, h10, h11, h12, h13, h14, h15, h16]
  exact (value_eq m ρ c).symm

end Cert.Bridge

end
-- ==== Proof.lean ====
/-
  The certificate of the two-layer graph network with four communities: the kernel program (five pallas regions — the
  input encoder, and per layer a fused dense block and a batch-norm block — among stretches of host operations that
  gather, scale and scatter-add the neighbourhood sums, pad the node axis and take the batch statistics) against the
  plain reference. The three frames come from the three runs (every argument array ends as launched); the idealized
  kernel is the kernel's own text read on the extended reals (no rewrite to account for); and on the extended reals
  both programs compute, entry by entry, the same sums — the encoder's x · W + b, and per community and layer
  max(((h2 − mean) · rsqrt(var + ε)) · γ + β, 0) of h2 = max((h + aggr) · W1 + b1, 0) · W2 + b2 — so only the order of
  finite sums differs.
-/
import proofs.«176190_j13365938225806_1_alg».proof.Defs
import proofs.«176190_j13365938225806_1_alg».proof.Proof.K.Run
import proofs.«176190_j13365938225806_1_alg».proof.Proof.KI.Run
import proofs.«176190_j13365938225806_1_alg».proof.Proof.Ref.Run
import proofs.«176190_j13365938225806_1_alg».proof.Proof.Gen.Pre_finite_inputs
import proofs.«176190_j13365938225806_1_alg».proof.Proof.Br.Algebraic
import Idealize.ShloMosaic.Adequacy
import Idealize.ShloMosaic.Init

noncomputable section

namespace Cert.Proof

open Idealize.ShloMosaic Idealize.SL.Sem

theorem frame_k : Cert.frame_Kernel := fun m ρ _ =>
  (θ_run Cert.Kernel.defs _ _).mono (fun _ h c => (h c).2) (Cert.Kernel.Hand.run (F := Bits) m ρ)
theorem frame_ki : Cert.frame_KernelIdeal := fun m ρ _ =>
  (θ_run Cert.KernelIdeal.defs _ _).mono (fun _ h c => (h c).2) (Cert.KernelIdeal.Hand.run (F := Ideal) m ρ)
theorem frame_ri : Cert.frame_ReferenceIdeal := fun m ρ _ =>
  (θ_run Cert.ReferenceIdeal.defs _ _).mono (fun _ h c => (h c).2) (Cert.ReferenceIdeal.Hand.run (F := Ideal) m ρ)

theorem claim : Cert.Claim := ⟨Cert.Kernel.Gen.facts, Cert.KernelIdeal.Gen.facts, Cert.ReferenceIdeal.Gen.facts, Cert.Pre_finite_inputs.Gen.facts,
  frame_k, frame_ki, frame_ri, trivial, Cert.Bridge.algebraic⟩

end Cert.Proof

end
